-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v164)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v164) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v286) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x7 : Shape := ⟨2, ![50000, 7]⟩
abbrev S2x600000 : Shape := ⟨2, ![2, 600000]⟩
abbrev S256x7 : Shape := ⟨2, ![256, 7]⟩
abbrev S256 : Shape := ⟨1, ![256]⟩
abbrev S128x256 : Shape := ⟨2, ![128, 256]⟩
abbrev S128 : Shape := ⟨1, ![128]⟩
abbrev S5x128x128 : Shape := ⟨3, ![5, 128, 128]⟩
abbrev S5x128 : Shape := ⟨2, ![5, 128]⟩
abbrev S4x128 : Shape := ⟨2, ![4, 128]⟩
abbrev S256x128 : Shape := ⟨2, ![256, 128]⟩
abbrev S4x256 : Shape := ⟨2, ![4, 256]⟩
abbrev S4 : Shape := ⟨1, ![4]⟩
abbrev S_ : Shape := ⟨0, ![]⟩

class Facts : Prop where
  bcast_S_S50000x7 : S_.BroadcastsInDim S50000x7 (![] : Fin 0 → Fin S50000x7.rank)
  reducesTo_S50000x7_S_d0_1 : S50000x7.ReducesTo [0, 1] S_
  h_S_ : 0 < S_.numel
  bcast_S_S256x7 : S_.BroadcastsInDim S256x7 (![] : Fin 0 → Fin S256x7.rank)
  reducesTo_S256x7_S_d0_1 : S256x7.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S5x128x128 : S_.BroadcastsInDim S5x128x128 (![] : Fin 0 → Fin S5x128x128.rank)
  reducesTo_S5x128x128_S_d0_1_2 : S5x128x128.ReducesTo [0, 1, 2] S_
  bcast_S_S5x128 : S_.BroadcastsInDim S5x128 (![] : Fin 0 → Fin S5x128.rank)
  reducesTo_S5x128_S_d0_1 : S5x128.ReducesTo [0, 1] S_
  bcast_S_S4x128 : S_.BroadcastsInDim S4x128 (![] : Fin 0 → Fin S4x128.rank)
  reducesTo_S4x128_S_d0_1 : S4x128.ReducesTo [0, 1] S_
  bcast_S_S256x128 : S_.BroadcastsInDim S256x128 (![] : Fin 0 → Fin S256x128.rank)
  reducesTo_S256x128_S_d0_1 : S256x128.ReducesTo [0, 1] S_
  bcast_S_S4x256 : S_.BroadcastsInDim S4x256 (![] : Fin 0 → Fin S4x256.rank)
  reducesTo_S4x256_S_d0_1 : S4x256.ReducesTo [0, 1] S_
  bcast_S_S4 : S_.BroadcastsInDim S4 (![] : Fin 0 → Fin S4.rank)
  reducesTo_S4_S_d0 : S4.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S256 .f32) (main_arg13 : FVec F S4x256 .f32) (main_arg14 : FVec F S4 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S4x256 .f32 := Host.absf main_arg13
  let main_cst_22 : FVec F S_ .f32 := constant S_ .f32 0x7F800000#32
  let main_v60 : FVec F S4x256 .f32 := broadcastInDim S4x256 ![] bcast_S_S4x256 main_cst_22
  let main_v61 : IVec S4x256 1 := cmpf .olt main_v59 main_v60
  let main_c_23 : IVec S_ 1 := constantI S_ 1 1#1
  let main_v62 : IVec S_ 1 := (fun x v => Host.reduce IntOp.andi x v reducesTo_S4x256_S_d0_1 h_S_) main_v61 main_c_23
  let main_v63 : IVec S_ 1 := andi main_v58 main_v62
  let main_v64 : FVec F S4 .f32 := Host.absf main_arg14
  let main_cst_24 : FVec F S_ .f32 := constant S_ .f32 0x7F800000#32
  let main_v65 : FVec F S4 .f32 := broadcastInDim S4 ![] bcast_S_S4 main_cst_24
  let main_v66 : IVec S4 1 := cmpf .olt main_v64 main_v65
  let main_c_25 : IVec S_ 1 := constantI S_ 1 1#1
  let main_v67 : IVec S_ 1 := (fun x v => Host.reduce IntOp.andi x v reducesTo_S4_S_d0 h_S_) main_v66 main_c_25
  fn_part4 (F := F) main_v63 main_v67

def fn_part2 {F : FTy → Type} [FloatOps F] (main_arg8 : FVec F S5x128x128 .f32) (main_arg9 : FVec F S4x128 .f32) (main_arg10 : FVec F S4x128 .f32) (main_arg11 : FVec F S256x128 .f32) (main_arg12 : FVec F S256 .f32) (main_arg13 : FVec F S4x256 .f32) (main_arg14 : FVec F S4 .f32) (main_v33 : IVec S_ 1) : IVec S_ 1 :=
  let main_v34 : FVec F S5x128x128 .f32 := Host.absf main_arg8
  let main_cst_12 : FVec F S_ .f32 := constant S_ .f32 0x7F800000#32
  let main_v35 : FVec F S5x128x128 .f32 := broadcastInDim S5x128x128 ![] bcast_S_S5x128x128 main_cst_12
  let main_v36 : IVec S5x128x128 1 := cmpf .olt main_v34 main_v35
  let main_c_13 : IVec S_ 1 := constantI S_ 1 1#1
  let main_v37 : IVec S_ 1 := (fun x v => Host.reduce IntOp.andi x v reducesTo_S5x128x128_S_d0_1_2 h_S_) main_v36 main_c_13
  let main_v38 : IVec S_ 1 := andi main_v33 main_v37
  let main_v39 : FVec F S4x128 .f32 := Host.absf main_arg9
  let main_cst_14 : FVec F S_ .f32 := constant S_ .f32 0x7F800000#32
  let main_v40 : FVec F S4x128 .f32 := broadcastInDim S4x128 ![] bcast_S_S4x128 main_cst_14
  let main_v41 : IVec S4x128 1 := cmpf .olt main_v39 main_v40
  let main_c_15 : IVec S_ 1 := constantI S_ 1 1#1
  let main_v42 : IVec S_ 1 := (fun x v => Host.reduce IntOp.andi x v reducesTo_S4x128_S_d0_1 h_S_) main_v41 main_c_15
  let main_v43 : IVec S_ 1 := andi main_v38 main_v42
  let main_v44 : FVec F S4x128 .f32 := Host.absf main_arg10
  let main_cst_16 : FVec F S_ .f32 := constant S_ .f32 0x7F800000#32
  let main_v45 : FVec F S4x128 .f32 := broadcastInDim S4x128 ![] bcast_S_S4x128 main_cst_16
  let main_v46 : IVec S4x128 1 := cmpf .olt main_v44 main_v45
  let main_c_17 : IVec S_ 1 := constantI S_ 1 1#1
  let main_v47 : IVec S_ 1 := (fun x v => Host.reduce IntOp.andi x v reducesTo_S4x128_S_d0_1 h_S_) main_v46 main_c_17
  let main_v48 : IVec S_ 1 := andi main_v43 main_v47
  let main_v49 : FVec F S256x128 .f32 := Host.absf main_arg11
  let main_cst_18 : FVec F S_ .f32 := constant S_ .f32 0x7F800000#32
  let main_v50 : FVec F S256x128 .f32 := broadcastInDim S256x128 ![] bcast_S_S256x128 main_cst_18
  fn_part3 (F := F) main_arg12 main_arg13 main_arg14 main_v48 main_v49 main_v50

def fn_part1 {F : FTy → Type} [FloatOps F] (main_arg5 : FVec F S128 .f32) (main_arg6 : FVec F S5x128x128 .f32) (main_arg7 : FVec F S5x128 .f32) (main_arg8 : FVec F S5x128x128 .f32) (main_arg9 : FVec F S4x128 .f32) (main_arg10 : FVec F S4x128 .f32) (main_arg11 : FVec F S256x128 .f32) (main_arg12 : FVec F S256 .f32) (main_arg13 : FVec F S4x256 .f32) (main_arg14 : FVec F S4 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S5x128x128 .f32 := Host.absf main_arg6
  let main_cst_8 : FVec F S_ .f32 := constant S_ .f32 0x7F800000#32
  let main_v25 : FVec F S5x128x128 .f32 := broadcastInDim S5x128x128 ![] bcast_S_S5x128x128 main_cst_8
  let main_v26 : IVec S5x128x128 1 := cmpf .olt main_v24 main_v25
  let main_c_9 : IVec S_ 1 := constantI S_ 1 1#1
  let main_v27 : IVec S_ 1 := (fun x v => Host.reduce IntOp.andi x v reducesTo_S5x128x128_S_d0_1_2 h_S_) main_v26 main_c_9
  let main_v28 : IVec S_ 1 := andi main_v23 main_v27
  let main_v29 : FVec F S5x128 .f32 := Host.absf main_arg7
  let main_cst_10 : FVec F S_ .f32 := constant S_ .f32 0x7F800000#32
  let main_v30 : FVec F S5x128 .f32 := broadcastInDim S5x128 ![] bcast_S_S5x128 main_cst_10
  let main_v31 : IVec S5x128 1 := cmpf .olt main_v29 main_v30
  let main_c_11 : IVec S_ 1 := constantI S_ 1 1#1
  let main_v32 : IVec S_ 1 := (fun x v => Host.reduce IntOp.andi x v reducesTo_S5x128_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S50000x7 .f32) (main_arg1 : IVec S2x600000 32) (main_arg2 : FVec F S256x7 .f32) (main_arg3 : FVec F S256 .f32) (main_arg4 : FVec F S128x256 .f32) (main_arg5 : FVec F S128 .f32) (main_arg6 : FVec F S5x128x128 .f32) (main_arg7 : FVec F S5x128 .f32) (main_arg8 : FVec F S5x128x128 .f32) (main_arg9 : FVec F S4x128 .f32) (main_arg10 : FVec F S4x128 .f32) (main_arg11 : FVec F S256x128 .f32) (main_arg12 : FVec F S256 .f32) (main_arg13 : FVec F S4x256 .f32) (main_arg14 : FVec F S4 .f32) : IVec S_ 1 :=
  let main_v0 : FVec F S50000x7 .f32 := Host.absf main_arg0
  let main_cst : FVec F S_ .f32 := constant S_ .f32 0x7F800000#32
  let main_v1 : FVec F S50000x7 .f32 := broadcastInDim S50000x7 ![] bcast_S_S50000x7 main_cst
  let main_v2 : IVec S50000x7 1 := cmpf .olt main_v0 main_v1
  let main_c : IVec S_ 1 := constantI S_ 1 1#1
  let main_v3 : IVec S_ 1 := (fun x v => Host.reduce IntOp.andi x v reducesTo_S50000x7_S_d0_1 h_S_) main_v2 main_c
  let main_v4 : FVec F S256x7 .f32 := Host.absf main_arg2
  let main_cst_0 : FVec F S_ .f32 := constant S_ .f32 0x7F800000#32
  let main_v5 : FVec F S256x7 .f32 := broadcastInDim S256x7 ![] bcast_S_S256x7 main_cst_0
  let main_v6 : IVec S256x7 1 := cmpf .olt main_v4 main_v5
  let main_c_1 : IVec S_ 1 := constantI S_ 1 1#1
  let main_v7 : IVec S_ 1 := (fun x v => Host.reduce IntOp.andi x v reducesTo_S256x7_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg5 main_arg6 main_arg7 main_arg8 main_arg9 main_arg10 main_arg11 main_arg12 main_arg13 main_arg14 main_v13 main_v16
-- ==== Kernel.lean ====
abbrev S50000x7 : Shape := ⟨2, ![50000, 7]⟩
abbrev S2x600000 : Shape := ⟨2, ![2, 600000]⟩
abbrev S256x7 : Shape := ⟨2, ![256, 7]⟩
abbrev S256 : Shape := ⟨1, ![256]⟩
abbrev S128x256 : Shape := ⟨2, ![128, 256]⟩
abbrev S128 : Shape := ⟨1, ![128]⟩
abbrev S5x128x128 : Shape := ⟨3, ![5, 128, 128]⟩
abbrev S5x128 : Shape := ⟨2, ![5, 128]⟩
abbrev S4x128 : Shape := ⟨2, ![4, 128]⟩
abbrev S256x128 : Shape := ⟨2, ![256, 128]⟩
abbrev S4x256 : Shape := ⟨2, ![4, 256]⟩
abbrev S4 : Shape := ⟨1, ![4]⟩
abbrev S1x600000 : Shape := ⟨2, ![1, 600000]⟩
abbrev S600000 : Shape := ⟨1, ![600000]⟩
abbrev S1x256 : Shape := ⟨2, ![1, 256]⟩
abbrev S1x128 : Shape := ⟨2, ![1, 128]⟩
abbrev S50000x128 : Shape := ⟨2, ![50000, 128]⟩
abbrev S5000x7 : Shape := ⟨2, ![5000, 7]⟩
abbrev S5000x128 : Shape := ⟨2, ![5000, 128]⟩
abbrev S7x256 : Shape := ⟨2, ![7, 256]⟩
abbrev S5000x256 : Shape := ⟨2, ![5000, 256]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x128x128 : Shape := ⟨3, ![1, 128, 128]⟩
abbrev S128x128 : Shape := ⟨2, ![128, 128]⟩
abbrev S1x4 : Shape := ⟨2, ![1, 4]⟩
abbrev S50000x4 : Shape := ⟨2, ![50000, 4]⟩
abbrev S5000x4 : Shape := ⟨2, ![5000, 4]⟩
abbrev S256x4 : Shape := ⟨2, ![256, 4]⟩

abbrev nBuf : Space → Nat
  | .hbm => 298
  | .vmem => 93
  | .smem => 0
  | _ => 0

abbrev hbmTy0_0 (i : Nat) : BufTy := match i % 128 with
  | 0 => ⟨S50000x7, .f32⟩
  | 1 => ⟨S2x600000, .i32⟩
  | 2 => ⟨S256x7, .f32⟩
  | 3 => ⟨S256, .f32⟩
  | 4 => ⟨S128x256, .f32⟩
  | 5 => ⟨S128, .f32⟩
  | 6 => ⟨S5x128x128, .f32⟩
  | 7 => ⟨S5x128, .f32⟩
  | 8 => ⟨S5x128x128, .f32⟩
  | 9 => ⟨S4x128, .f32⟩
  | 10 => ⟨S4x128, .f32⟩
  | 11 => ⟨S256x128, .f32⟩
  | 12 => ⟨S256, .f32⟩
  | 13 => ⟨S4x256, .f32⟩
  | 14 => ⟨S4, .f32⟩
  | 15 => ⟨S1x600000, .i32⟩
  | 16 => ⟨S600000, .i32⟩
  | 17 => ⟨S1x600000, .i32⟩
  | 18 => ⟨S600000, .i32⟩
  | 19 => ⟨S1x256, .f32⟩
  | 20 => ⟨S1x128, .f32⟩
  | 21 => ⟨S50000x128, .f32⟩
  | 22 => ⟨S_, .f32⟩
  | 23 => ⟨S600000, .f32⟩
  | 24 => ⟨S_, .f32⟩
  | 25 => ⟨S50000, .f32⟩
  | 26 => ⟨S600000x1, .i32⟩
  | 27 => ⟨S50000, .f32⟩
  | 28 => ⟨S_, .f32⟩
  | 29 => ⟨S50000, .f32⟩
  | 30 => ⟨S50000, .f32⟩
  | 31 => ⟨S50000x1, .f32⟩
  | 32 => ⟨S_, .i32⟩
  | 33 => ⟨S600000, .i32⟩
  | 34 => ⟨S600000, .i1⟩
  | 35 => ⟨S_, .i32⟩
  | 36 => ⟨S600000, .i32⟩
  | 37 => ⟨S600000, .i32⟩
  | 38 => ⟨S600000, .i32⟩
  | 39 => ⟨S600000x1, .i32⟩
  | 40 => ⟨S600000x128, .f32⟩
  | 41 => ⟨S_, .f32⟩
  | 42 => ⟨S50000x128, .f32⟩
  | 43 => ⟨S600000x1, .i32⟩
  | 44 => ⟨S50000x128, .f32⟩
  | 45 => ⟨S50000x128, .f32⟩
  | 46 => ⟨S50000x128, .f32⟩
  | 47 => ⟨S1x128x128, .f32⟩
  | 48 => ⟨S128x128, .f32⟩
  | 49 => ⟨S1x128, .f32⟩
  | 50 => ⟨S128, .f32⟩
  | 51 => ⟨S1x128x128, .f32⟩
  | 52 => ⟨S128x128, .f32⟩
  | 53 => ⟨S1x128, .f32⟩
  | 54 => ⟨S50000x128, .f32⟩
  | 55 => ⟨S_, .f32⟩
  | 56 => ⟨S128, .f32⟩
  | 57 => ⟨S1x128, .f32⟩
  | 58 => ⟨S_, .f32⟩
  | 59 => ⟨S1x128, .f32⟩
  | 60 => ⟨S1x128, .f32⟩
  | 61 => ⟨S_, .i32⟩
  | 62 => ⟨S_, .f32⟩
  | 63 => ⟨S128, .f32⟩
  | 64 => ⟨S1x128, .f32⟩
  | 65 => ⟨S_, .f32⟩
  | 66 => ⟨S1x128, .f32⟩
  | 67 => ⟨S1x128, .f32⟩
  | 68 => ⟨S50000x128, .f32⟩
  | 69 => ⟨S50000x128, .f32⟩
  | 70 => ⟨S50000x128, .f32⟩
  | 71 => ⟨S_, .f32⟩
  | 72 => ⟨S_, .f32⟩
  | 73 => ⟨S_, .f32⟩
  | 74 => ⟨S_, .f32⟩
  | 75 => ⟨S128, .f32⟩
  | 76 => ⟨S1x128, .f32⟩
  | 77 => ⟨S1x128, .f32⟩
  | 78 => ⟨S1x128, .f32⟩
  | 79 => ⟨S_, .f32⟩
  | 80 => ⟨S_, .i1⟩
  | 81 => ⟨S_, .f32⟩
  | 82 => ⟨S_, .f32⟩
  | 83 => ⟨S1x128, .f32⟩
  | 84 => ⟨S1x128, .f32⟩
  | 85 => ⟨S1x128, .f32⟩
  | 86 => ⟨S128, .f32⟩
  | 87 => ⟨S1x128, .f32⟩
  | 88 => ⟨S1x128, .f32⟩
  | 89 => ⟨S128, .f32⟩
  | 90 => ⟨S1x128, .f32⟩
  | 91 => ⟨S50000x128, .f32⟩
  | 92 => ⟨S_, .i32⟩
  | 93 => ⟨S600000, .i32⟩
  | 94 => ⟨S600000, .i1⟩
  | 95 => ⟨S_, .i32⟩
  | 96 => ⟨S600000, .i32⟩
  | 97 => ⟨S600000, .i32⟩
  | 98 => ⟨S600000, .i32⟩
  | 99 => ⟨S600000x1, .i32⟩
  | 100 => ⟨S600000x128, .f32⟩
  | 101 => ⟨S_, .f32⟩
  | 102 => ⟨S50000x128, .f32⟩
  | 103 => ⟨S600000x1, .i32⟩
  | 104 => ⟨S50000x128, .f32⟩
  | 105 => ⟨S50000x128, .f32⟩
  | 106 => ⟨S50000x128, .f32⟩
  | 107 => ⟨S1x128x128, .f32⟩
  | 108 => ⟨S128x128, .f32⟩
  | 109 => ⟨S1x128, .f32⟩
  | 110 => ⟨S128, .f32⟩
  | 111 => ⟨S1x128x128, .f32⟩
  | 112 => ⟨S128x128, .f32⟩
  | 113 => ⟨S1x128, .f32⟩
  | 114 => ⟨S50000x128, .f32⟩
  | 115 => ⟨S_, .f32⟩
  | 116 => ⟨S128, .f32⟩
  | 117 => ⟨S1x128, .f32⟩
  | 118 => ⟨S_, .f32⟩
  | 119 => ⟨S1x128, .f32⟩
  | 120 => ⟨S1x128, .f32⟩
  | 121 => ⟨S_, .i32⟩
  | 122 => ⟨S_, .f32⟩
  | 123 => ⟨S128, .f32⟩
  | 124 => ⟨S1x128, .f32⟩
  | 125 => ⟨S_, .f32⟩
  | 126 => ⟨S1x128, .f32⟩
  | 127 => ⟨S1x128, .f32⟩
  | _ => ⟨S50000x7, .f32⟩

abbrev hbmTy0_1 (i : Nat) : BufTy := match i % 128 with
  | 0 => ⟨S50000x128, .f32⟩
  | 1 => ⟨S50000x128, .f32⟩
  | 2 => ⟨S50000x128, .f32⟩
  | 3 => ⟨S_, .f32⟩
  | 4 => ⟨S_, .f32⟩
  | 5 => ⟨S_, .f32⟩
  | 6 => ⟨S_, .f32⟩
  | 7 => ⟨S128, .f32⟩
  | 8 => ⟨S1x128, .f32⟩
  | 9 => ⟨S1x128, .f32⟩
  | 10 => ⟨S1x128, .f32⟩
  | 11 => ⟨S_, .f32⟩
  | 12 => ⟨S_, .i1⟩
  | 13 => ⟨S_, .f32⟩
  | 14 => ⟨S_, .f32⟩
  | 15 => ⟨S1x128, .f32⟩
  | 16 => ⟨S1x128, .f32⟩
  | 17 => ⟨S1x128, .f32⟩
  | 18 => ⟨S128, .f32⟩
  | 19 => ⟨S1x128, .f32⟩
  | 20 => ⟨S1x128, .f32⟩
  | 21 => ⟨S128, .f32⟩
  | 22 => ⟨S1x128, .f32⟩
  | 23 => ⟨S50000x128, .f32⟩
  | 24 => ⟨S_, .i32⟩
  | 25 => ⟨S600000, .i32⟩
  | 26 => ⟨S600000, .i1⟩
  | 27 => ⟨S_, .i32⟩
  | 28 => ⟨S600000, .i32⟩
  | 29 => ⟨S600000, .i32⟩
  | 30 => ⟨S600000, .i32⟩
  | 31 => ⟨S600000x1, .i32⟩
  | 32 => ⟨S600000x128, .f32⟩
  | 33 => ⟨S_, .f32⟩
  | 34 => ⟨S50000x128, .f32⟩
  | 35 => ⟨S600000x1, .i32⟩
  | 36 => ⟨S50000x128, .f32⟩
  | 37 => ⟨S50000x128, .f32⟩
  | 38 => ⟨S50000x128, .f32⟩
  | 39 => ⟨S1x128x128, .f32⟩
  | 40 => ⟨S128x128, .f32⟩
  | 41 => ⟨S1x128, .f32⟩
  | 42 => ⟨S128, .f32⟩
  | 43 => ⟨S1x128x128, .f32⟩
  | 44 => ⟨S128x128, .f32⟩
  | 45 => ⟨S1x128, .f32⟩
  | 46 => ⟨S50000x128, .f32⟩
  | 47 => ⟨S_, .f32⟩
  | 48 => ⟨S128, .f32⟩
  | 49 => ⟨S1x128, .f32⟩
  | 50 => ⟨S_, .f32⟩
  | 51 => ⟨S1x128, .f32⟩
  | 52 => ⟨S1x128, .f32⟩
  | 53 => ⟨S_, .i32⟩
  | 54 => ⟨S_, .f32⟩
  | 55 => ⟨S128, .f32⟩
  | 56 => ⟨S1x128, .f32⟩
  | 57 => ⟨S_, .f32⟩
  | 58 => ⟨S1x128, .f32⟩
  | 59 => ⟨S1x128, .f32⟩
  | 60 => ⟨S50000x128, .f32⟩
  | 61 => ⟨S50000x128, .f32⟩
  | 62 => ⟨S50000x128, .f32⟩
  | 63 => ⟨S_, .f32⟩
  | 64 => ⟨S_, .f32⟩
  | 65 => ⟨S_, .f32⟩
  | 66 => ⟨S_, .f32⟩
  | 67 => ⟨S128, .f32⟩
  | 68 => ⟨S1x128, .f32⟩
  | 69 => ⟨S1x128, .f32⟩
  | 70 => ⟨S1x128, .f32⟩
  | 71 => ⟨S_, .f32⟩
  | 72 => ⟨S_, .i1⟩
  | 73 => ⟨S_, .f32⟩
  | 74 => ⟨S_, .f32⟩
  | 75 => ⟨S1x128, .f32⟩
  | 76 => ⟨S1x128, .f32⟩
  | 77 => ⟨S1x128, .f32⟩
  | 78 => ⟨S128, .f32⟩
  | 79 => ⟨S1x128, .f32⟩
  | 80 => ⟨S1x128, .f32⟩
  | 81 => ⟨S128, .f32⟩
  | 82 => ⟨S1x128, .f32⟩
  | 83 => ⟨S50000x128, .f32⟩
  | 84 => ⟨S_, .i32⟩
  | 85 => ⟨S600000, .i32⟩
  | 86 => ⟨S600000, .i1⟩
  | 87 => ⟨S_, .i32⟩
  | 88 => ⟨S600000, .i32⟩
  | 89 => ⟨S600000, .i32⟩
  | 90 => ⟨S600000, .i32⟩
  | 91 => ⟨S600000x1, .i32⟩
  | 92 => ⟨S600000x128, .f32⟩
  | 93 => ⟨S_, .f32⟩
  | 94 => ⟨S50000x128, .f32⟩
  | 95 => ⟨S600000x1, .i32⟩
  | 96 => ⟨S50000x128, .f32⟩
  | 97 => ⟨S50000x128, .f32⟩
  | 98 => ⟨S50000x128, .f32⟩
  | 99 => ⟨S1x128x128, .f32⟩
  | 100 => ⟨S128x128, .f32⟩
  | 101 => ⟨S1x128, .f32⟩
  | 102 => ⟨S128, .f32⟩
  | 103 => ⟨S1x128x128, .f32⟩
  | 104 => ⟨S128x128, .f32⟩
  | 105 => ⟨S1x128, .f32⟩
  | 106 => ⟨S50000x128, .f32⟩
  | 107 => ⟨S_, .f32⟩
  | 108 => ⟨S128, .f32⟩
  | 109 => ⟨S1x128, .f32⟩
  | 110 => ⟨S_, .f32⟩
  | 111 => ⟨S1x128, .f32⟩
  | 112 => ⟨S1x128, .f32⟩
  | 113 => ⟨S_, .i32⟩
  | 114 => ⟨S_, .f32⟩
  | 115 => ⟨S128, .f32⟩
  | 116 => ⟨S1x128, .f32⟩
  | 117 => ⟨S_, .f32⟩
  | 118 => ⟨S1x128, .f32⟩
  | 119 => ⟨S1x128, .f32⟩
  | 120 => ⟨S50000x128, .f32⟩
  | 121 => ⟨S50000x128, .f32⟩
  | 122 => ⟨S50000x128, .f32⟩
  | 123 => ⟨S_, .f32⟩
  | 124 => ⟨S_, .f32⟩
  | 125 => ⟨S_, .f32⟩
  | 126 => ⟨S_, .f32⟩
  | 127 => ⟨S128, .f32⟩
  | _ => ⟨S50000x7, .f32⟩

abbrev hbmTy0_2 (i : Nat) : BufTy := match i % 128 with
  | 0 => ⟨S1x128, .f32⟩
  | 1 => ⟨S1x128, .f32⟩
  | 2 => ⟨S1x128, .f32⟩
  | 3 => ⟨S_, .f32⟩
  | 4 => ⟨S_, .i1⟩
  | 5 => ⟨S_, .f32⟩
  | 6 => ⟨S_, .f32⟩
  | 7 => ⟨S1x128, .f32⟩
  | 8 => ⟨S1x128, .f32⟩
  | 9 => ⟨S1x128, .f32⟩
  | 10 => ⟨S128, .f32⟩
  | 11 => ⟨S1x128, .f32⟩
  | 12 => ⟨S1x128, .f32⟩
  | 13 => ⟨S128, .f32⟩
  | 14 => ⟨S1x128, .f32⟩
  | 15 => ⟨S50000x128, .f32⟩
  | 16 => ⟨S_, .i32⟩
  | 17 => ⟨S600000, .i32⟩
  | 18 => ⟨S600000, .i1⟩
  | 19 => ⟨S_, .i32⟩
  | 20 => ⟨S600000, .i32⟩
  | 21 => ⟨S600000, .i32⟩
  | 22 => ⟨S600000, .i32⟩
  | 23 => ⟨S600000x1, .i32⟩
  | 24 => ⟨S600000x128, .f32⟩
  | 25 => ⟨S_, .f32⟩
  | 26 => ⟨S50000x128, .f32⟩
  | 27 => ⟨S600000x1, .i32⟩
  | 28 => ⟨S50000x128, .f32⟩
  | 29 => ⟨S50000x128, .f32⟩
  | 30 => ⟨S50000x128, .f32⟩
  | 31 => ⟨S1x128x128, .f32⟩
  | 32 => ⟨S128x128, .f32⟩
  | 33 => ⟨S1x128, .f32⟩
  | 34 => ⟨S128, .f32⟩
  | 35 => ⟨S1x128x128, .f32⟩
  | 36 => ⟨S128x128, .f32⟩
  | 37 => ⟨S1x128, .f32⟩
  | 38 => ⟨S50000x128, .f32⟩
  | 39 => ⟨S1x256, .f32⟩
  | 40 => ⟨S1x4, .f32⟩
  | 41 => ⟨S50000x4, .f32⟩
  | _ => ⟨S50000x7, .f32⟩

abbrev hbmTy (i : Nat) : BufTy := match i / 128 with
  | 0 => hbmTy0_0 i
  | 1 => hbmTy0_1 i
  | 2 => hbmTy0_2 i
  | _ => ⟨S50000x7, .f32⟩

abbrev bufTy : (tb : Table) → Fin (tcTables nBuf tb) → BufTy
  | .hbm, ⟨i, _⟩ => hbmTy i
  | .local _ .vmem, ⟨0, _⟩ => ⟨S5000x7, .f32⟩
  | .local _ .vmem, ⟨1, _⟩ => ⟨S5000x7, .f32⟩
  | .local _ .vmem, ⟨2, _⟩ => ⟨S256x7, .f32⟩
  | .local _ .vmem, ⟨3, _⟩ => ⟨S1x256, .f32⟩
  | .local _ .vmem, ⟨4, _⟩ => ⟨S128x256, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S1x128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S128x128, .f32⟩
  | .local _ .vmem, ⟨30, _⟩ => ⟨S1x128, .f32⟩
  | .local _ .vmem, ⟨31, _⟩ => ⟨S128x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S128x128, .f32⟩
  | .local _ .vmem, ⟨47, _⟩ => ⟨S1x128, .f32⟩
  | .local _ .vmem, ⟨48, _⟩ => ⟨S128x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S1x128, .f32⟩
  | .local _ .vmem, ⟨54, _⟩ => ⟨S1x128, .f32⟩
  | .local _ .vmem, ⟨55, _⟩ => ⟨S1x128, .f32⟩
  | .local _ .vmem, ⟨56, _⟩ => ⟨S1x128, .f32⟩
  | .local _ .vmem, ⟨57, _⟩ => ⟨S5000x128, .f32⟩
  | .local _ .vmem, ⟨58, _⟩ => ⟨S5000x128, .f32⟩
  | .local _ .vmem, ⟨59, _⟩ => ⟨S5000x128, .f32⟩
  | .local _ .vmem, ⟨60, _⟩ => ⟨S5000x128, .f32⟩
  | .local _ .vmem, ⟨61, _⟩ => ⟨S5000x128, .f32⟩
  | .local _ .vmem, ⟨62, _⟩ => ⟨S5000x128, .f32⟩
  | .local _ .vmem, ⟨63, _⟩ => ⟨S128x128, .f32⟩
  | .local _ .vmem, ⟨64, _⟩ => ⟨S1x128, .f32⟩
  | .local _ .vmem, ⟨65, _⟩ => ⟨S128x128, .f32⟩
  | .local _ .vmem, ⟨66, _⟩ => ⟨S5000x128, .f32⟩
  | .local _ .vmem, ⟨67, _⟩ => ⟨S5000x128, .f32⟩
  | .local _ .vmem, ⟨68, _⟩ => ⟨S5000x128, .f32⟩
  | .local _ .vmem, ⟨69, _⟩ => ⟨S5000x128, .f32⟩
  | .local _ .vmem, ⟨70, _⟩ => ⟨S1x128, .f32⟩
  | .local _ .vmem, ⟨71, _⟩ => ⟨S1x128, .f32⟩
  | .local _ .vmem, ⟨72, _⟩ => ⟨S1x128, .f32⟩
  | .local _ .vmem, ⟨73, _⟩ => ⟨S1x128, .f32⟩
  | .local _ .vmem, ⟨74, _⟩ => ⟨S5000x128, .f32⟩
  | .local _ .vmem, ⟨75, _⟩ => ⟨S5000x128, .f32⟩
  | .local _ .vmem, ⟨76, _⟩ => ⟨S5000x128, .f32⟩
  | .local _ .vmem, ⟨77, _⟩ => ⟨S5000x128, .f32⟩
  | .local _ .vmem, ⟨78, _⟩ => ⟨S5000x128, .f32⟩
  | .local _ .vmem, ⟨79, _⟩ => ⟨S5000x128, .f32⟩
  | .local _ .vmem, ⟨80, _⟩ => ⟨S128x128, .f32⟩
  | .local _ .vmem, ⟨81, _⟩ => ⟨S1x128, .f32⟩
  | .local _ .vmem, ⟨82, _⟩ => ⟨S128x128, .f32⟩
  | .local _ .vmem, ⟨83, _⟩ => ⟨S5000x128, .f32⟩
  | .local _ .vmem, ⟨84, _⟩ => ⟨S5000x128, .f32⟩
  | .local _ .vmem, ⟨85, _⟩ => ⟨S5000x128, .f32⟩
  | .local _ .vmem, ⟨86, _⟩ => ⟨S5000x128, .f32⟩
  | .local _ .vmem, ⟨87, _⟩ => ⟨S256x128, .f32⟩
  | .local _ .vmem, ⟨88, _⟩ => ⟨S1x256, .f32⟩
  | .local _ .vmem, ⟨89, _⟩ => ⟨S4x256, .f32⟩
  | .local _ .vmem, ⟨90, _⟩ => ⟨S1x4, .f32⟩
  | .local _ .vmem, ⟨91, _⟩ => ⟨S5000x4, .f32⟩
  | .local _ .vmem, ⟨92, _⟩ => ⟨S5000x4, .f32⟩
  | _, _ => ⟨S50000x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | _, _ => false

abbrev semScoped : Fin 0 → Bool
  | ⟨_, h⟩ => absurd h (Nat.not_lt_zero _)

abbrev dmaSemScoped : Fin 93 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | _ => false

abbrev sig : RefSig :=
  ofTc nBuf bufTy 0 93 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_2 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_3 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_4 : Ref sig .tc := ⟨.hbm, 55, rfl⟩
abbrev main_v34 : Ref sig .tc := ⟨.hbm, 56, rfl⟩
abbrev main_v35 : Ref sig .tc := ⟨.hbm, 57, rfl⟩
abbrev main_cst_5 : Ref sig .tc := ⟨.hbm, 58, rfl⟩
abbrev main_v36 : Ref sig .tc := ⟨.hbm, 59, rfl⟩
abbrev main_v37 : Ref sig .tc := ⟨.hbm, 60, rfl⟩
abbrev main_c_6 : Ref sig .tc := ⟨.hbm, 61, rfl⟩
abbrev main_call0_cst : Ref sig .tc := ⟨.hbm, 62, rfl⟩
abbrev main_call0_v0 : Ref sig .tc := ⟨.hbm, 63, rfl⟩
abbrev main_call0_v1 : Ref sig .tc := ⟨.hbm, 64, rfl⟩
abbrev main_call0_cst_0 : Ref sig .tc := ⟨.hbm, 65, rfl⟩
abbrev main_call0_v2 : Ref sig .tc := ⟨.hbm, 66, rfl⟩
abbrev main_call0_v3 : Ref sig .tc := ⟨.hbm, 67, rfl⟩
abbrev main_call0_v4 : Ref sig .tc := ⟨.hbm, 68, rfl⟩
abbrev main_call0_v5 : Ref sig .tc := ⟨.hbm, 69, rfl⟩
abbrev main_call0_v6 : Ref sig .tc := ⟨.hbm, 70, rfl⟩
abbrev main_call0_v7 : Ref sig .tc := ⟨.hbm, 71, rfl⟩
abbrev main_call0_cst_1 : Ref sig .tc := ⟨.hbm, 72, rfl⟩
abbrev main_call0_v8 : Ref sig .tc := ⟨.hbm, 73, rfl⟩
abbrev main_call0_cst_2 : Ref sig .tc := ⟨.hbm, 74, rfl⟩
abbrev main_call0_v9 : Ref sig .tc := ⟨.hbm, 75, rfl⟩
abbrev main_call0_v10 : Ref sig .tc := ⟨.hbm, 76, rfl⟩
abbrev main_call0_v11 : Ref sig .tc := ⟨.hbm, 77, rfl⟩
abbrev main_call0_v12 : Ref sig .tc := ⟨.hbm, 78, rfl⟩
abbrev main_call0_cst_3 : Ref sig .tc := ⟨.hbm, 79, rfl⟩
abbrev main_call0_v13 : Ref sig .tc := ⟨.hbm, 80, rfl⟩
abbrev main_call0_cst_4 : Ref sig .tc := ⟨.hbm, 81, rfl⟩
abbrev main_call0_call0_v0 : Ref sig .tc := ⟨.hbm, 82, rfl⟩
abbrev main_call0_call0_v1 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_c_7 : Ref sig .tc := ⟨.hbm, 92, rfl⟩
abbrev main_v46 : Ref sig .tc := ⟨.hbm, 93, rfl⟩
abbrev main_v47 : Ref sig .tc := ⟨.hbm, 94, rfl⟩
abbrev main_c_8 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_cst_9 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_cst_10 : Ref sig .tc := ⟨.hbm, 115, rfl⟩
abbrev main_v66 : Ref sig .tc := ⟨.hbm, 116, rfl⟩
abbrev main_v67 : Ref sig .tc := ⟨.hbm, 117, rfl⟩
abbrev main_cst_11 : Ref sig .tc := ⟨.hbm, 118, rfl⟩
abbrev main_v68 : Ref sig .tc := ⟨.hbm, 119, rfl⟩
abbrev main_v69 : Ref sig .tc := ⟨.hbm, 120, rfl⟩
abbrev main_c_12 : Ref sig .tc := ⟨.hbm, 121, rfl⟩
abbrev main_call1_cst : Ref sig .tc := ⟨.hbm, 122, rfl⟩
abbrev main_call1_v0 : Ref sig .tc := ⟨.hbm, 123, rfl⟩
abbrev main_call1_v1 : Ref sig .tc := ⟨.hbm, 124, rfl⟩
abbrev main_call1_cst_0 : Ref sig .tc := ⟨.hbm, 125, rfl⟩
abbrev main_call1_v2 : Ref sig .tc := ⟨.hbm, 126, rfl⟩
abbrev main_call1_v3 : Ref sig .tc := ⟨.hbm, 127, rfl⟩
abbrev main_call1_v4 : Ref sig .tc := ⟨.hbm, 128, rfl⟩
abbrev main_call1_v5 : Ref sig .tc := ⟨.hbm, 129, rfl⟩
abbrev main_call1_v6 : Ref sig .tc := ⟨.hbm, 130, rfl⟩
abbrev main_call1_v7 : Ref sig .tc := ⟨.hbm, 131, rfl⟩
abbrev main_call1_cst_1 : Ref sig .tc := ⟨.hbm, 132, rfl⟩
abbrev main_call1_v8 : Ref sig .tc := ⟨.hbm, 133, rfl⟩
abbrev main_call1_cst_2 : Ref sig .tc := ⟨.hbm, 134, rfl⟩
abbrev main_call1_v9 : Ref sig .tc := ⟨.hbm, 135, rfl⟩
abbrev main_call1_v10 : Ref sig .tc := ⟨.hbm, 136, rfl⟩
abbrev main_call1_v11 : Ref sig .tc := ⟨.hbm, 137, rfl⟩
abbrev main_call1_v12 : Ref sig .tc := ⟨.hbm, 138, rfl⟩
abbrev main_call1_cst_3 : Ref sig .tc := ⟨.hbm, 139, rfl⟩
abbrev main_call1_v13 : Ref sig .tc := ⟨.hbm, 140, rfl⟩
abbrev main_call1_cst_4 : Ref sig .tc := ⟨.hbm, 141, rfl⟩
abbrev main_call1_call0_v0 : Ref sig .tc := ⟨.hbm, 142, rfl⟩
abbrev main_call1_call0_v1 : Ref sig .tc := ⟨.hbm, 143, rfl⟩
abbrev main_v70 : Ref sig .tc := ⟨.hbm, 144, rfl⟩
abbrev main_v71 : Ref sig .tc := ⟨.hbm, 145, rfl⟩
abbrev main_v72 : Ref sig .tc := ⟨.hbm, 146, rfl⟩
abbrev main_v73 : Ref sig .tc := ⟨.hbm, 147, rfl⟩
abbrev main_v74 : Ref sig .tc := ⟨.hbm, 148, rfl⟩
abbrev main_v75 : Ref sig .tc := ⟨.hbm, 149, rfl⟩
abbrev main_v76 : Ref sig .tc := ⟨.hbm, 150, rfl⟩
abbrev main_v77 : Ref sig .tc := ⟨.hbm, 151, rfl⟩
abbrev main_c_13 : Ref sig .tc := ⟨.hbm, 152, rfl⟩
abbrev main_v78 : Ref sig .tc := ⟨.hbm, 153, rfl⟩
abbrev main_v79 : Ref sig .tc := ⟨.hbm, 154, rfl⟩
abbrev main_c_14 : Ref sig .tc := ⟨.hbm, 155, rfl⟩
abbrev main_v80 : Ref sig .tc := ⟨.hbm, 156, rfl⟩
abbrev main_v81 : Ref sig .tc := ⟨.hbm, 157, rfl⟩
abbrev main_v82 : Ref sig .tc := ⟨.hbm, 158, rfl⟩
abbrev main_v83 : Ref sig .tc := ⟨.hbm, 159, rfl⟩
abbrev main_v84 : Ref sig .tc := ⟨.hbm, 160, rfl⟩
abbrev main_cst_15 : Ref sig .tc := ⟨.hbm, 161, rfl⟩
abbrev main_v85 : Ref sig .tc := ⟨.hbm, 162, rfl⟩
abbrev main_v86 : Ref sig .tc := ⟨.hbm, 163, rfl⟩
abbrev main_v87 : Ref sig .tc := ⟨.hbm, 164, rfl⟩
abbrev main_v88 : Ref sig .tc := ⟨.hbm, 165, rfl⟩
abbrev main_v89 : Ref sig .tc := ⟨.hbm, 166, rfl⟩
abbrev main_v90 : Ref sig .tc := ⟨.hbm, 167, rfl⟩
abbrev main_v91 : Ref sig .tc := ⟨.hbm, 168, rfl⟩
abbrev main_v92 : Ref sig .tc := ⟨.hbm, 169, rfl⟩
abbrev main_v93 : Ref sig .tc := ⟨.hbm, 170, rfl⟩
abbrev main_v94 : Ref sig .tc := ⟨.hbm, 171, rfl⟩
abbrev main_v95 : Ref sig .tc := ⟨.hbm, 172, rfl⟩
abbrev main_v96 : Ref sig .tc := ⟨.hbm, 173, rfl⟩
abbrev main_v97 : Ref sig .tc := ⟨.hbm, 174, rfl⟩
abbrev main_cst_16 : Ref sig .tc := ⟨.hbm, 175, rfl⟩
abbrev main_v98 : Ref sig .tc := ⟨.hbm, 176, rfl⟩
abbrev main_v99 : Ref sig .tc := ⟨.hbm, 177, rfl⟩
abbrev main_cst_17 : Ref sig .tc := ⟨.hbm, 178, rfl⟩
abbrev main_v100 : Ref sig .tc := ⟨.hbm, 179, rfl⟩
abbrev main_v101 : Ref sig .tc := ⟨.hbm, 180, rfl⟩
abbrev main_c_18 : Ref sig .tc := ⟨.hbm, 181, rfl⟩
abbrev main_call2_cst : Ref sig .tc := ⟨.hbm, 182, rfl⟩
abbrev main_call2_v0 : Ref sig .tc := ⟨.hbm, 183, rfl⟩
abbrev main_call2_v1 : Ref sig .tc := ⟨.hbm, 184, rfl⟩
abbrev main_call2_cst_0 : Ref sig .tc := ⟨.hbm, 185, rfl⟩
abbrev main_call2_v2 : Ref sig .tc := ⟨.hbm, 186, rfl⟩
abbrev main_call2_v3 : Ref sig .tc := ⟨.hbm, 187, rfl⟩
abbrev main_call2_v4 : Ref sig .tc := ⟨.hbm, 188, rfl⟩
abbrev main_call2_v5 : Ref sig .tc := ⟨.hbm, 189, rfl⟩
abbrev main_call2_v6 : Ref sig .tc := ⟨.hbm, 190, rfl⟩
abbrev main_call2_v7 : Ref sig .tc := ⟨.hbm, 191, rfl⟩
abbrev main_call2_cst_1 : Ref sig .tc := ⟨.hbm, 192, rfl⟩
abbrev main_call2_v8 : Ref sig .tc := ⟨.hbm, 193, rfl⟩
abbrev main_call2_cst_2 : Ref sig .tc := ⟨.hbm, 194, rfl⟩
abbrev main_call2_v9 : Ref sig .tc := ⟨.hbm, 195, rfl⟩
abbrev main_call2_v10 : Ref sig .tc := ⟨.hbm, 196, rfl⟩
abbrev main_call2_v11 : Ref sig .tc := ⟨.hbm, 197, rfl⟩
abbrev main_call2_v12 : Ref sig .tc := ⟨.hbm, 198, rfl⟩
abbrev main_call2_cst_3 : Ref sig .tc := ⟨.hbm, 199, rfl⟩
abbrev main_call2_v13 : Ref sig .tc := ⟨.hbm, 200, rfl⟩
abbrev main_call2_cst_4 : Ref sig .tc := ⟨.hbm, 201, rfl⟩
abbrev main_call2_call0_v0 : Ref sig .tc := ⟨.hbm, 202, rfl⟩
abbrev main_call2_call0_v1 : Ref sig .tc := ⟨.hbm, 203, rfl⟩
abbrev main_v102 : Ref sig .tc := ⟨.hbm, 204, rfl⟩
abbrev main_v103 : Ref sig .tc := ⟨.hbm, 205, rfl⟩
abbrev main_v104 : Ref sig .tc := ⟨.hbm, 206, rfl⟩
abbrev main_v105 : Ref sig .tc := ⟨.hbm, 207, rfl⟩
abbrev main_v106 : Ref sig .tc := ⟨.hbm, 208, rfl⟩
abbrev main_v107 : Ref sig .tc := ⟨.hbm, 209, rfl⟩
abbrev main_v108 : Ref sig .tc := ⟨.hbm, 210, rfl⟩
abbrev main_v109 : Ref sig .tc := ⟨.hbm, 211, rfl⟩
abbrev main_c_19 : Ref sig .tc := ⟨.hbm, 212, rfl⟩
abbrev main_v110 : Ref sig .tc := ⟨.hbm, 213, rfl⟩
abbrev main_v111 : Ref sig .tc := ⟨.hbm, 214, rfl⟩
abbrev main_c_20 : Ref sig .tc := ⟨.hbm, 215, rfl⟩
abbrev main_v112 : Ref sig .tc := ⟨.hbm, 216, rfl⟩
abbrev main_v113 : Ref sig .tc := ⟨.hbm, 217, rfl⟩
abbrev main_v114 : Ref sig .tc := ⟨.hbm, 218, rfl⟩
abbrev main_v115 : Ref sig .tc := ⟨.hbm, 219, rfl⟩
abbrev main_v116 : Ref sig .tc := ⟨.hbm, 220, rfl⟩
abbrev main_cst_21 : Ref sig .tc := ⟨.hbm, 221, rfl⟩
abbrev main_v117 : Ref sig .tc := ⟨.hbm, 222, rfl⟩
abbrev main_v118 : Ref sig .tc := ⟨.hbm, 223, rfl⟩
abbrev main_v119 : Ref sig .tc := ⟨.hbm, 224, rfl⟩
abbrev main_v120 : Ref sig .tc := ⟨.hbm, 225, rfl⟩
abbrev main_v121 : Ref sig .tc := ⟨.hbm, 226, rfl⟩
abbrev main_v122 : Ref sig .tc := ⟨.hbm, 227, rfl⟩
abbrev main_v123 : Ref sig .tc := ⟨.hbm, 228, rfl⟩
abbrev main_v124 : Ref sig .tc := ⟨.hbm, 229, rfl⟩
abbrev main_v125 : Ref sig .tc := ⟨.hbm, 230, rfl⟩
abbrev main_v126 : Ref sig .tc := ⟨.hbm, 231, rfl⟩
abbrev main_v127 : Ref sig .tc := ⟨.hbm, 232, rfl⟩
abbrev main_v128 : Ref sig .tc := ⟨.hbm, 233, rfl⟩
abbrev main_v129 : Ref sig .tc := ⟨.hbm, 234, rfl⟩
abbrev main_cst_22 : Ref sig .tc := ⟨.hbm, 235, rfl⟩
abbrev main_v130 : Ref sig .tc := ⟨.hbm, 236, rfl⟩
abbrev main_v131 : Ref sig .tc := ⟨.hbm, 237, rfl⟩
abbrev main_cst_23 : Ref sig .tc := ⟨.hbm, 238, rfl⟩
abbrev main_v132 : Ref sig .tc := ⟨.hbm, 239, rfl⟩
abbrev main_v133 : Ref sig .tc := ⟨.hbm, 240, rfl⟩
abbrev main_c_24 : Ref sig .tc := ⟨.hbm, 241, rfl⟩
abbrev main_call3_cst : Ref sig .tc := ⟨.hbm, 242, rfl⟩
abbrev main_call3_v0 : Ref sig .tc := ⟨.hbm, 243, rfl⟩
abbrev main_call3_v1 : Ref sig .tc := ⟨.hbm, 244, rfl⟩
abbrev main_call3_cst_0 : Ref sig .tc := ⟨.hbm, 245, rfl⟩
abbrev main_call3_v2 : Ref sig .tc := ⟨.hbm, 246, rfl⟩
abbrev main_call3_v3 : Ref sig .tc := ⟨.hbm, 247, rfl⟩
abbrev main_call3_v4 : Ref sig .tc := ⟨.hbm, 248, rfl⟩
abbrev main_call3_v5 : Ref sig .tc := ⟨.hbm, 249, rfl⟩
abbrev main_call3_v6 : Ref sig .tc := ⟨.hbm, 250, rfl⟩
abbrev main_call3_v7 : Ref sig .tc := ⟨.hbm, 251, rfl⟩
abbrev main_call3_cst_1 : Ref sig .tc := ⟨.hbm, 252, rfl⟩
abbrev main_call3_v8 : Ref sig .tc := ⟨.hbm, 253, rfl⟩
abbrev main_call3_cst_2 : Ref sig .tc := ⟨.hbm, 254, rfl⟩
abbrev main_call3_v9 : Ref sig .tc := ⟨.hbm, 255, rfl⟩
abbrev main_call3_v10 : Ref sig .tc := ⟨.hbm, 256, rfl⟩
abbrev main_call3_v11 : Ref sig .tc := ⟨.hbm, 257, rfl⟩
abbrev main_call3_v12 : Ref sig .tc := ⟨.hbm, 258, rfl⟩
abbrev main_call3_cst_3 : Ref sig .tc := ⟨.hbm, 259, rfl⟩
abbrev main_call3_v13 : Ref sig .tc := ⟨.hbm, 260, rfl⟩
abbrev main_call3_cst_4 : Ref sig .tc := ⟨.hbm, 261, rfl⟩
abbrev main_call3_call0_v0 : Ref sig .tc := ⟨.hbm, 262, rfl⟩
abbrev main_call3_call0_v1 : Ref sig .tc := ⟨.hbm, 263, rfl⟩
abbrev main_v134 : Ref sig .tc := ⟨.hbm, 264, rfl⟩
abbrev main_v135 : Ref sig .tc := ⟨.hbm, 265, rfl⟩
abbrev main_v136 : Ref sig .tc := ⟨.hbm, 266, rfl⟩
abbrev main_v137 : Ref sig .tc := ⟨.hbm, 267, rfl⟩
abbrev main_v138 : Ref sig .tc := ⟨.hbm, 268, rfl⟩
abbrev main_v139 : Ref sig .tc := ⟨.hbm, 269, rfl⟩
abbrev main_v140 : Ref sig .tc := ⟨.hbm, 270, rfl⟩
abbrev main_v141 : Ref sig .tc := ⟨.hbm, 271, rfl⟩
abbrev main_c_25 : Ref sig .tc := ⟨.hbm, 272, rfl⟩
abbrev main_v142 : Ref sig .tc := ⟨.hbm, 273, rfl⟩
abbrev main_v143 : Ref sig .tc := ⟨.hbm, 274, rfl⟩
abbrev main_c_26 : Ref sig .tc := ⟨.hbm, 275, rfl⟩
abbrev main_v144 : Ref sig .tc := ⟨.hbm, 276, rfl⟩
abbrev main_v145 : Ref sig .tc := ⟨.hbm, 277, rfl⟩
abbrev main_v146 : Ref sig .tc := ⟨.hbm, 278, rfl⟩
abbrev main_v147 : Ref sig .tc := ⟨.hbm, 279, rfl⟩
abbrev main_v148 : Ref sig .tc := ⟨.hbm, 280, rfl⟩
abbrev main_cst_27 : Ref sig .tc := ⟨.hbm, 281, rfl⟩
abbrev main_v149 : Ref sig .tc := ⟨.hbm, 282, rfl⟩
abbrev main_v150 : Ref sig .tc := ⟨.hbm, 283, rfl⟩
abbrev main_v151 : Ref sig .tc := ⟨.hbm, 284, rfl⟩
abbrev main_v152 : Ref sig .tc := ⟨.hbm, 285, rfl⟩
abbrev main_v153 : Ref sig .tc := ⟨.hbm, 286, rfl⟩
abbrev main_v154 : Ref sig .tc := ⟨.hbm, 287, rfl⟩
abbrev main_v155 : Ref sig .tc := ⟨.hbm, 288, rfl⟩
abbrev main_v156 : Ref sig .tc := ⟨.hbm, 289, rfl⟩
abbrev main_v157 : Ref sig .tc := ⟨.hbm, 290, rfl⟩
abbrev main_v158 : Ref sig .tc := ⟨.hbm, 291, rfl⟩
abbrev main_v159 : Ref sig .tc := ⟨.hbm, 292, rfl⟩
abbrev main_v160 : Ref sig .tc := ⟨.hbm, 293, rfl⟩
abbrev main_v161 : Ref sig .tc := ⟨.hbm, 294, rfl⟩
abbrev main_v162 : Ref sig .tc := ⟨.hbm, 295, rfl⟩
abbrev main_v163 : Ref sig .tc := ⟨.hbm, 296, rfl⟩
abbrev main_v164 : Ref sig .tc := ⟨.hbm, 297, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg5_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg5_0 : Ref sig .tc := ⟨.vmem, 40, rfl⟩
abbrev cc4_stg5_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg1_1 : Ref sig .tc := ⟨.vmem, 45, rfl⟩
abbrev cc5_stg2_0 : Ref sig .tc := ⟨.vmem, 46, rfl⟩
abbrev cc5_stg3_0 : Ref sig .tc := ⟨.vmem, 47, rfl⟩
abbrev cc5_stg4_0 : Ref sig .tc := ⟨.vmem, 48, rfl⟩
abbrev cc5_stg5_0 : Ref sig .tc := ⟨.vmem, 49, rfl⟩
abbrev cc5_stg5_1 : Ref sig .tc := ⟨.vmem, 50, rfl⟩
abbrev cc6_stg0_0 : Ref sig .tc := ⟨.vmem, 51, rfl⟩
abbrev cc6_stg0_1 : Ref sig .tc := ⟨.vmem, 52, rfl⟩
abbrev cc6_stg1_0 : Ref sig .tc := ⟨.vmem, 53, rfl⟩
abbrev cc6_stg2_0 : Ref sig .tc := ⟨.vmem, 54, rfl⟩
abbrev cc6_stg3_0 : Ref sig .tc := ⟨.vmem, 55, rfl⟩
abbrev cc6_stg4_0 : Ref sig .tc := ⟨.vmem, 56, rfl⟩
abbrev cc6_stg5_0 : Ref sig .tc := ⟨.vmem, 57, rfl⟩
abbrev cc6_stg5_1 : Ref sig .tc := ⟨.vmem, 58, rfl⟩
abbrev cc7_stg0_0 : Ref sig .tc := ⟨.vmem, 59, rfl⟩
abbrev cc7_stg0_1 : Ref sig .tc := ⟨.vmem, 60, rfl⟩
abbrev cc7_stg1_0 : Ref sig .tc := ⟨.vmem, 61, rfl⟩
abbrev cc7_stg1_1 : Ref sig .tc := ⟨.vmem, 62, rfl⟩
abbrev cc7_stg2_0 : Ref sig .tc := ⟨.vmem, 63, rfl⟩
abbrev cc7_stg3_0 : Ref sig .tc := ⟨.vmem, 64, rfl⟩
abbrev cc7_stg4_0 : Ref sig .tc := ⟨.vmem, 65, rfl⟩
abbrev cc7_stg5_0 : Ref sig .tc := ⟨.vmem, 66, rfl⟩
abbrev cc7_stg5_1 : Ref sig .tc := ⟨.vmem, 67, rfl⟩
abbrev cc8_stg0_0 : Ref sig .tc := ⟨.vmem, 68, rfl⟩
abbrev cc8_stg0_1 : Ref sig .tc := ⟨.vmem, 69, rfl⟩
abbrev cc8_stg1_0 : Ref sig .tc := ⟨.vmem, 70, rfl⟩
abbrev cc8_stg2_0 : Ref sig .tc := ⟨.vmem, 71, rfl⟩
abbrev cc8_stg3_0 : Ref sig .tc := ⟨.vmem, 72, rfl⟩
abbrev cc8_stg4_0 : Ref sig .tc := ⟨.vmem, 73, rfl⟩
abbrev cc8_stg5_0 : Ref sig .tc := ⟨.vmem, 74, rfl⟩
abbrev cc8_stg5_1 : Ref sig .tc := ⟨.vmem, 75, rfl⟩
abbrev cc9_stg0_0 : Ref sig .tc := ⟨.vmem, 76, rfl⟩
abbrev cc9_stg0_1 : Ref sig .tc := ⟨.vmem, 77, rfl⟩
abbrev cc9_stg1_0 : Ref sig .tc := ⟨.vmem, 78, rfl⟩
abbrev cc9_stg1_1 : Ref sig .tc := ⟨.vmem, 79, rfl⟩
abbrev cc9_stg2_0 : Ref sig .tc := ⟨.vmem, 80, rfl⟩
abbrev cc9_stg3_0 : Ref sig .tc := ⟨.vmem, 81, rfl⟩
abbrev cc9_stg4_0 : Ref sig .tc := ⟨.vmem, 82, rfl⟩
abbrev cc9_stg5_0 : Ref sig .tc := ⟨.vmem, 83, rfl⟩
abbrev cc9_stg5_1 : Ref sig .tc := ⟨.vmem, 84, rfl⟩
abbrev cc10_stg0_0 : Ref sig .tc := ⟨.vmem, 85, rfl⟩
abbrev cc10_stg0_1 : Ref sig .tc := ⟨.vmem, 86, rfl⟩
abbrev cc10_stg1_0 : Ref sig .tc := ⟨.vmem, 87, rfl⟩
abbrev cc10_stg2_0 : Ref sig .tc := ⟨.vmem, 88, rfl⟩
abbrev cc10_stg3_0 : Ref sig .tc := ⟨.vmem, 89, rfl⟩
abbrev cc10_stg4_0 : Ref sig .tc := ⟨.vmem, 90, rfl⟩
abbrev cc10_stg5_0 : Ref sig .tc := ⟨.vmem, 91, rfl⟩
abbrev cc10_stg5_1 : Ref sig .tc := ⟨.vmem, 92, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem5_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem5_1 : DmaSem sig := 33
abbrev cc4_sem0_0 : DmaSem sig := 34
abbrev cc4_sem0_1 : DmaSem sig := 35
abbrev cc4_sem1_0 : DmaSem sig := 36
abbrev cc4_sem2_0 : DmaSem sig := 37
abbrev cc4_sem3_0 : DmaSem sig := 38
abbrev cc4_sem4_0 : DmaSem sig := 39
abbrev cc4_sem5_0 : DmaSem sig := 40
abbrev cc4_sem5_1 : DmaSem sig := 41
abbrev cc5_sem0_0 : DmaSem sig := 42
abbrev cc5_sem0_1 : DmaSem sig := 43
abbrev cc5_sem1_0 : DmaSem sig := 44
abbrev cc5_sem1_1 : DmaSem sig := 45
abbrev cc5_sem2_0 : DmaSem sig := 46
abbrev cc5_sem3_0 : DmaSem sig := 47
abbrev cc5_sem4_0 : DmaSem sig := 48
abbrev cc5_sem5_0 : DmaSem sig := 49
abbrev cc5_sem5_1 : DmaSem sig := 50
abbrev cc6_sem0_0 : DmaSem sig := 51
abbrev cc6_sem0_1 : DmaSem sig := 52
abbrev cc6_sem1_0 : DmaSem sig := 53
abbrev cc6_sem2_0 : DmaSem sig := 54
abbrev cc6_sem3_0 : DmaSem sig := 55
abbrev cc6_sem4_0 : DmaSem sig := 56
abbrev cc6_sem5_0 : DmaSem sig := 57
abbrev cc6_sem5_1 : DmaSem sig := 58
abbrev cc7_sem0_0 : DmaSem sig := 59
abbrev cc7_sem0_1 : DmaSem sig := 60
abbrev cc7_sem1_0 : DmaSem sig := 61
abbrev cc7_sem1_1 : DmaSem sig := 62
abbrev cc7_sem2_0 : DmaSem sig := 63
abbrev cc7_sem3_0 : DmaSem sig := 64
abbrev cc7_sem4_0 : DmaSem sig := 65
abbrev cc7_sem5_0 : DmaSem sig := 66
abbrev cc7_sem5_1 : DmaSem sig := 67
abbrev cc8_sem0_0 : DmaSem sig := 68
abbrev cc8_sem0_1 : DmaSem sig := 69
abbrev cc8_sem1_0 : DmaSem sig := 70
abbrev cc8_sem2_0 : DmaSem sig := 71
abbrev cc8_sem3_0 : DmaSem sig := 72
abbrev cc8_sem4_0 : DmaSem sig := 73
abbrev cc8_sem5_0 : DmaSem sig := 74
abbrev cc8_sem5_1 : DmaSem sig := 75
abbrev cc9_sem0_0 : DmaSem sig := 76
abbrev cc9_sem0_1 : DmaSem sig := 77
abbrev cc9_sem1_0 : DmaSem sig := 78
abbrev cc9_sem1_1 : DmaSem sig := 79
abbrev cc9_sem2_0 : DmaSem sig := 80
abbrev cc9_sem3_0 : DmaSem sig := 81
abbrev cc9_sem4_0 : DmaSem sig := 82
abbrev cc9_sem5_0 : DmaSem sig := 83
abbrev cc9_sem5_1 : DmaSem sig := 84
abbrev cc10_sem0_0 : DmaSem sig := 85
abbrev cc10_sem0_1 : DmaSem sig := 86
abbrev cc10_sem1_0 : DmaSem sig := 87
abbrev cc10_sem2_0 : DmaSem sig := 88
abbrev cc10_sem3_0 : DmaSem sig := 89
abbrev cc10_sem4_0 : DmaSem sig := 90
abbrev cc10_sem5_0 : DmaSem sig := 91
abbrev cc10_sem5_1 : DmaSem sig := 92

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x7 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S128x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S128x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S128x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S5000x128 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S256x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x256 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S4x256 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x4 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 2 → Memref sig .tc .vmem S5000x4 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  shapeCasts_S256_S1x256 : S256.ShapeCasts S1x256
  shapeCasts_S128_S1x128 : S128.ShapeCasts S1x128
  inb_S5000x7_S5000x7_0_0 : ∀ a, (![0, 0] : Fin 2 → Nat) a + S5000x7.size a ≤ S5000x7.size a
  h_S5000x7 : 0 < S5000x7.numel
  bitsLt_bf16_f32 : FTy.bits .bf16 < FTy.bits .f32
  inb_S256x7_S256x7_0_0 : ∀ a, (![0, 0] : Fin 2 → Nat) a + S256x7.size a ≤ S256x7.size a
  h_S256x7 : 0 < S256x7.numel
  transposes_S256x7_p1_0_S7x256 : S256x7.Transposes [1, 0] S7x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S128x256_S128x256_0_0 : ∀ a, (![0, 0] : Fin 2 → Nat) a + S128x256.size a ≤ S128x256.size a
  h_S128x256 : 0 < S128x256.numel
  transposes_S128x256_p1_0_S256x128 : S128x256.Transposes [1, 0] S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S5x128x128_S1x128x128_0_0_0 : S5x128x128.Slices ![0, 0, 0] S1x128x128
  shapeCasts_S1x128x128_S128x128 : S1x128x128.ShapeCasts S128x128
  slices_S5x128_S1x128_0_0 : S5x128.Slices ![0, 0] S1x128
  shapeCasts_S1x128_S128 : S1x128.ShapeCasts S128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  transposes_S128x128_p1_0_S128x128 : S128x128.Transposes [1, 0] S128x128
  reducesTo_S50000x128_S128_d0 : S50000x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  slices_S4x128_S1x128_0_0 : S4x128.Slices ![0, 0] S1x128
  slices_S5x128x128_S1x128x128_1_0_0 : S5x128x128.Slices ![1, 0, 0] S1x128x128
  slices_S5x128_S1x128_1_0 : S5x128.Slices ![1, 0] S1x128
  slices_S4x128_S1x128_1_0 : S4x128.Slices ![1, 0] S1x128
  slices_S5x128x128_S1x128x128_2_0_0 : S5x128x128.Slices ![2, 0, 0] S1x128x128
  slices_S5x128_S1x128_2_0 : S5x128.Slices ![2, 0] S1x128
  slices_S4x128_S1x128_2_0 : S4x128.Slices ![2, 0] S1x128
  slices_S5x128x128_S1x128x128_3_0_0 : S5x128x128.Slices ![3, 0, 0] S1x128x128
  slices_S5x128_S1x128_3_0 : S5x128.Slices ![3, 0] S1x128
  slices_S4x128_S1x128_3_0 : S4x128.Slices ![3, 0] S1x128
  slices_S5x128x128_S1x128x128_4_0_0 : S5x128x128.Slices ![4, 0, 0] S1x128x128
  slices_S5x128_S1x128_4_0 : S5x128.Slices ![4, 0] S1x128
  shapeCasts_S4_S1x4 : S4.ShapeCasts S1x4
  inb_S256x128_S256x128_0_0 : ∀ a, (![0, 0] : Fin 2 → Nat) a + S256x128.size a ≤ S256x128.size a
  h_S256x128 : 0 < S256x128.numel
  transposes_S256x128_p1_0_S128x256 : S256x128.Transposes [1, 0] S128x256
  inb_S4x256_S4x256_0_0 : ∀ a, (![0, 0] : Fin 2 → Nat) a + S4x256.size a ≤ S4x256.size a
  h_S4x256 : 0 < S4x256.numel
  transposes_S4x256_p1_0_S256x4 : S4x256.Transposes [1, 0] S256x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S5000x4 : S1x4.Broadcasts S5000x4
  inb_S5000x4_S5000x4_0_0 : ∀ a, (![0, 0] : Fin 2 → Nat) a + S5000x4.size a ≤ S5000x4.size a
  h_S5000x4 : 0 < S5000x4.numel
  dot_S5000x7_S7x256_S5000x256_1_0_0_1_n_n_wf : DotDims.WF S5000x7 S7x256 S5000x256 [1] [0] [0] [1] [] []
  dot_S5000x256_S256x128_S5000x128_1_0_0_1_n_n_wf : DotDims.WF S5000x256 S256x128 S5000x128 [1] [0] [0] [1] [] []
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  dot_S5000x128_S128x256_S5000x256_1_0_0_1_n_n_wf : DotDims.WF S5000x128 S128x256 S5000x256 [1] [0] [0] [1] [] []
  dot_S5000x256_S256x4_S5000x4_1_0_0_1_n_n_wf : DotDims.WF S5000x256 S256x4 S5000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x7.size a ≤ S50000x7.size a
  hwx0_0 : ∀ i : grid0.Coords, EltTy.bits .f32 = 32 ∨ (Rect.block (s := S50000x7) S5000x7.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x7.size a ≤ S256x7.size a
  hwx0_1 : ∀ i : grid0.Coords, EltTy.bits .f32 = 32 ∨ (Rect.block (s := S256x7) S256x7.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S50000x128.size a
  hwx4_5 : ∀ i : grid4.Coords, EltTy.bits .f32 = 32 ∨ (Rect.block (s := S50000x128) S5000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .f32 = 32 ∨ (Rect.block (s := S128x128) S128x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S50000x128.size a
  hwx5_5 : ∀ i : grid5.Coords, EltTy.bits .f32 = 32 ∨ (Rect.block (s := S50000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x128.size a ≤ S50000x128.size a
  hwx6_5 : ∀ i : grid6.Coords, EltTy.bits .f32 = 32 ∨ (Rect.block (s := S50000x128) S5000x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S50000x128.size a
  hwx7_1 : ∀ i : grid7.Coords, EltTy.bits .f32 = 32 ∨ (Rect.block (s := S50000x128) S5000x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x128.size a ≤ S128x128.size a
  hwx7_2 : ∀ i : grid7.Coords, EltTy.bits .f32 = 32 ∨ (Rect.block (s := S128x128) S128x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S128x128.size a ≤ S128x128.size a
  hwx7_4 : ∀ i : grid7.Coords, EltTy.bits .f32 = 32 ∨ (Rect.block (s := S128x128) S128x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x128.size a ≤ S50000x128.size a
  hwx7_5 : ∀ i : grid7.Coords, EltTy.bits .f32 = 32 ∨ (Rect.block (s := S50000x128) S5000x128.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x128.size a ≤ S50000x128.size a
  hwx8_5 : ∀ i : grid8.Coords, EltTy.bits .f32 = 32 ∨ (Rect.block (s := S50000x128) S5000x128.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x128.size a ≤ S50000x128.size a
  hwx9_1 : ∀ i : grid9.Coords, EltTy.bits .f32 = 32 ∨ (Rect.block (s := S50000x128) S5000x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S128x128.size a ≤ S128x128.size a
  hwx9_2 : ∀ i : grid9.Coords, EltTy.bits .f32 = 32 ∨ (Rect.block (s := S128x128) S128x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S128x128.size a ≤ S128x128.size a
  hwx9_4 : ∀ i : grid9.Coords, EltTy.bits .f32 = 32 ∨ (Rect.block (s := S128x128) S128x128.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S5000x128.size a ≤ S50000x128.size a
  hwx9_5 : ∀ i : grid9.Coords, EltTy.bits .f32 = 32 ∨ (Rect.block (s := S50000x128) S5000x128.size (cc9_transform_5 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S50000x128.size a
  hwx10_0 : ∀ i : grid10.Coords, EltTy.bits .f32 = 32 ∨ (Rect.block (s := S50000x128) S5000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S256x128.size a ≤ S256x128.size a
  hwx10_1 : ∀ i : grid10.Coords, EltTy.bits .f32 = 32 ∨ (Rect.block (s := S256x128) S256x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x256.size a ≤ S1x256.size a
  hwx10_2 : ∀ i : grid10.Coords, EltTy.bits .f32 = 32 ∨ (Rect.block (s := S1x256) S1x256.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S4x256.size a ≤ S4x256.size a
  hwx10_3 : ∀ i : grid10.Coords, EltTy.bits .f32 = 32 ∨ (Rect.block (s := S4x256) S4x256.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x4.size a ≤ S1x4.size a
  hwx10_4 : ∀ i : grid10.Coords, EltTy.bits .f32 = 32 ∨ (Rect.block (s := S1x4) S1x4.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S5000x4.size a ≤ S50000x4.size a
  hwx10_5 : ∀ i : grid10.Coords, EltTy.bits .f32 = 32 ∨ (Rect.block (s := S50000x4) S5000x4.size (cc10_transform_5 i) (hinb10_5 i)).WholeWords (EltTy.packing .f32)

variable [Facts₀]

def dot_S5000x7_S7x256_S5000x256_1_0_0_1_n_n : DotDims S5000x7 S7x256 S5000x256 where
  lhsContracting := [1]
  rhsContracting := [0]
  lhsNonContracting := [0]
  rhsNonContracting := [1]
  lhsBatch := []
  rhsBatch := []
  wf := dot_S5000x7_S7x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x4_S5000x4_1_0_0_1_n_n : DotDims S5000x256 S256x4 S5000x4 where
  lhsContracting := [1]
  rhsContracting := [0]
  lhsNonContracting := [0]
  rhsNonContracting := [1]
  lhsBatch := []
  rhsBatch := []
  wf := dot_S5000x256_S256x4_S5000x4_1_0_0_1_n_n_wf

abbrev win0_0 : Pipeline.Window sig grid0 :=
  Pipeline.Window.ofSpec (Memref.whole main_arg0) S5000x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x7.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v33) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v38) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v41) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v45) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v57) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v59) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v64) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v63) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v65) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v65) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v69) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v70) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v73) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v76) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v77) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v89) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v77) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v91) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v96) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v95) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v97) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v97) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v101) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v102) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v105) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v108) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v109) S5000x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v121) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v109) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v123) S128x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v128) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v127) S128x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v129) S5000x128.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v129) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v133) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v134) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v137) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v140) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v141) S5000x128.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v153) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v141) S5000x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v155) S128x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v160) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v159) S128x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v161) S5000x128.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v161) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg11) S256x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v162) S1x256.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_arg13) S4x256.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v163) S1x4.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v164) S5000x4.size cc10_transform_5 reads10_5 true false 2 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

class Facts : Prop extends Facts₀ where

variable [Facts]
-- ==== ReferenceIdeal.lean ====
abbrev S50000x7 : Shape := ⟨2, ![50000, 7]⟩
abbrev S2x600000 : Shape := ⟨2, ![2, 600000]⟩
abbrev S256x7 : Shape := ⟨2, ![256, 7]⟩
abbrev S256 : Shape := ⟨1, ![256]⟩
abbrev S128x256 : Shape := ⟨2, ![128, 256]⟩
abbrev S128 : Shape := ⟨1, ![128]⟩
abbrev S5x128x128 : Shape := ⟨3, ![5, 128, 128]⟩
abbrev S5x128 : Shape := ⟨2, ![5, 128]⟩
abbrev S4x128 : Shape := ⟨2, ![4, 128]⟩
abbrev S256x128 : Shape := ⟨2, ![256, 128]⟩
abbrev S4x256 : Shape := ⟨2, ![4, 256]⟩
abbrev S4 : Shape := ⟨1, ![4]⟩
abbrev S1x600000 : Shape := ⟨2, ![1, 600000]⟩
abbrev S600000 : Shape := ⟨1, ![600000]⟩
abbrev S7x256 : Shape := ⟨2, ![7, 256]⟩
abbrev S50000x256 : Shape := ⟨2, ![50000, 256]⟩
abbrev S1x256 : Shape := ⟨2, ![1, 256]⟩
abbrev S_ : Shape := ⟨0, ![]⟩
abbrev S50000x128 : Shape := ⟨2, ![50000, 128]⟩
abbrev S1x128 : Shape := ⟨2, ![1, 128]⟩
abbrev S1x128x128 : Shape := ⟨3, ![1, 128, 128]⟩
abbrev S128x128 : Shape := ⟨2, ![128, 128]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S256x4 : Shape := ⟨2, ![256, 4]⟩
abbrev S50000x4 : Shape := ⟨2, ![50000, 4]⟩
abbrev S1x4 : Shape := ⟨2, ![1, 4]⟩

abbrev nBuf : Space → Nat
  | .hbm => 444
  | .vmem => 0
  | .smem => 0
  | _ => 0

abbrev hbmTy0_0 (i : Nat) : BufTy := match i % 128 with
  | 0 => ⟨S50000x7, .f32⟩
  | 1 => ⟨S2x600000, .i32⟩
  | 2 => ⟨S256x7, .f32⟩
  | 3 => ⟨S256, .f32⟩
  | 4 => ⟨S128x256, .f32⟩
  | 5 => ⟨S128, .f32⟩
  | 6 => ⟨S5x128x128, .f32⟩
  | 7 => ⟨S5x128, .f32⟩
  | 8 => ⟨S5x128x128, .f32⟩
  | 9 => ⟨S4x128, .f32⟩
  | 10 => ⟨S4x128, .f32⟩
  | 11 => ⟨S256x128, .f32⟩
  | 12 => ⟨S256, .f32⟩
  | 13 => ⟨S4x256, .f32⟩
  | 14 => ⟨S4, .f32⟩
  | 15 => ⟨S1x600000, .i32⟩
  | 16 => ⟨S600000, .i32⟩
  | 17 => ⟨S1x600000, .i32⟩
  | 18 => ⟨S600000, .i32⟩
  | 19 => ⟨S7x256, .f32⟩
  | 20 => ⟨S50000x256, .f32⟩
  | 21 => ⟨S1x256, .f32⟩
  | 22 => ⟨S50000x256, .f32⟩
  | 23 => ⟨S50000x256, .f32⟩
  | 24 => ⟨S_, .f32⟩
  | 25 => ⟨S50000x256, .f32⟩
  | 26 => ⟨S50000x256, .f32⟩
  | 27 => ⟨S256x128, .f32⟩
  | 28 => ⟨S50000x128, .f32⟩
  | 29 => ⟨S1x128, .f32⟩
  | 30 => ⟨S50000x128, .f32⟩
  | 31 => ⟨S50000x128, .f32⟩
  | 32 => ⟨S1x128x128, .f32⟩
  | 33 => ⟨S128x128, .f32⟩
  | 34 => ⟨S1x128, .f32⟩
  | 35 => ⟨S128, .f32⟩
  | 36 => ⟨S1x128x128, .f32⟩
  | 37 => ⟨S128x128, .f32⟩
  | 38 => ⟨S_, .i32⟩
  | 39 => ⟨S600000, .i32⟩
  | 40 => ⟨S600000, .i1⟩
  | 41 => ⟨S_, .i32⟩
  | 42 => ⟨S600000, .i32⟩
  | 43 => ⟨S600000, .i32⟩
  | 44 => ⟨S600000, .i32⟩
  | 45 => ⟨S600000x1, .i32⟩
  | 46 => ⟨S600000x128, .f32⟩
  | 47 => ⟨S_, .f32⟩
  | 48 => ⟨S50000x128, .f32⟩
  | 49 => ⟨S600000x1, .i32⟩
  | 50 => ⟨S50000x128, .f32⟩
  | 51 => ⟨S_, .f32⟩
  | 52 => ⟨S600000, .f32⟩
  | 53 => ⟨S_, .f32⟩
  | 54 => ⟨S50000, .f32⟩
  | 55 => ⟨S600000x1, .i32⟩
  | 56 => ⟨S50000, .f32⟩
  | 57 => ⟨S_, .f32⟩
  | 58 => ⟨S50000, .f32⟩
  | 59 => ⟨S50000, .f32⟩
  | 60 => ⟨S50000x1, .f32⟩
  | 61 => ⟨S50000x128, .f32⟩
  | 62 => ⟨S50000x128, .f32⟩
  | 63 => ⟨S128x128, .f32⟩
  | 64 => ⟨S50000x128, .f32⟩
  | 65 => ⟨S1x128, .f32⟩
  | 66 => ⟨S50000x128, .f32⟩
  | 67 => ⟨S50000x128, .f32⟩
  | 68 => ⟨S128x128, .f32⟩
  | 69 => ⟨S50000x128, .f32⟩
  | 70 => ⟨S50000x128, .f32⟩
  | 71 => ⟨S1x128, .f32⟩
  | 72 => ⟨S128, .f32⟩
  | 73 => ⟨S1x128, .f32⟩
  | 74 => ⟨S128, .f32⟩
  | 75 => ⟨S_, .f32⟩
  | 76 => ⟨S128, .f32⟩
  | 77 => ⟨S_, .f32⟩
  | 78 => ⟨S128, .f32⟩
  | 79 => ⟨S128, .f32⟩
  | 80 => ⟨S_, .i32⟩
  | 81 => ⟨S_, .f32⟩
  | 82 => ⟨S128, .f32⟩
  | 83 => ⟨S1x128, .f32⟩
  | 84 => ⟨S_, .f32⟩
  | 85 => ⟨S1x128, .f32⟩
  | 86 => ⟨S1x128, .f32⟩
  | 87 => ⟨S50000x128, .f32⟩
  | 88 => ⟨S50000x128, .f32⟩
  | 89 => ⟨S50000x128, .f32⟩
  | 90 => ⟨S_, .f32⟩
  | 91 => ⟨S_, .f32⟩
  | 92 => ⟨S_, .f32⟩
  | 93 => ⟨S_, .f32⟩
  | 94 => ⟨S128, .f32⟩
  | 95 => ⟨S128, .f32⟩
  | 96 => ⟨S128, .f32⟩
  | 97 => ⟨S_, .f32⟩
  | 98 => ⟨S_, .i1⟩
  | 99 => ⟨S_, .f32⟩
  | 100 => ⟨S_, .f32⟩
  | 101 => ⟨S128, .f32⟩
  | 102 => ⟨S128, .f32⟩
  | 103 => ⟨S1x128, .f32⟩
  | 104 => ⟨S50000x128, .f32⟩
  | 105 => ⟨S50000x128, .f32⟩
  | 106 => ⟨S_, .f32⟩
  | 107 => ⟨S128, .f32⟩
  | 108 => ⟨S128, .f32⟩
  | 109 => ⟨S128, .f32⟩
  | 110 => ⟨S1x128, .f32⟩
  | 111 => ⟨S50000x128, .f32⟩
  | 112 => ⟨S50000x128, .f32⟩
  | 113 => ⟨S1x128, .f32⟩
  | 114 => ⟨S50000x128, .f32⟩
  | 115 => ⟨S50000x128, .f32⟩
  | 116 => ⟨S1x128, .f32⟩
  | 117 => ⟨S50000x128, .f32⟩
  | 118 => ⟨S50000x128, .f32⟩
  | 119 => ⟨S_, .f32⟩
  | 120 => ⟨S50000x128, .f32⟩
  | 121 => ⟨S50000x128, .f32⟩
  | 122 => ⟨S1x128x128, .f32⟩
  | 123 => ⟨S128x128, .f32⟩
  | 124 => ⟨S1x128, .f32⟩
  | 125 => ⟨S128, .f32⟩
  | 126 => ⟨S1x128x128, .f32⟩
  | 127 => ⟨S128x128, .f32⟩
  | _ => ⟨S50000x7, .f32⟩

abbrev hbmTy0_1 (i : Nat) : BufTy := match i % 128 with
  | 0 => ⟨S_, .i32⟩
  | 1 => ⟨S600000, .i32⟩
  | 2 => ⟨S600000, .i1⟩
  | 3 => ⟨S_, .i32⟩
  | 4 => ⟨S600000, .i32⟩
  | 5 => ⟨S600000, .i32⟩
  | 6 => ⟨S600000, .i32⟩
  | 7 => ⟨S600000x1, .i32⟩
  | 8 => ⟨S600000x128, .f32⟩
  | 9 => ⟨S_, .f32⟩
  | 10 => ⟨S50000x128, .f32⟩
  | 11 => ⟨S600000x1, .i32⟩
  | 12 => ⟨S50000x128, .f32⟩
  | 13 => ⟨S_, .f32⟩
  | 14 => ⟨S600000, .f32⟩
  | 15 => ⟨S_, .f32⟩
  | 16 => ⟨S50000, .f32⟩
  | 17 => ⟨S600000x1, .i32⟩
  | 18 => ⟨S50000, .f32⟩
  | 19 => ⟨S_, .f32⟩
  | 20 => ⟨S50000, .f32⟩
  | 21 => ⟨S50000, .f32⟩
  | 22 => ⟨S50000x1, .f32⟩
  | 23 => ⟨S50000x128, .f32⟩
  | 24 => ⟨S50000x128, .f32⟩
  | 25 => ⟨S128x128, .f32⟩
  | 26 => ⟨S50000x128, .f32⟩
  | 27 => ⟨S1x128, .f32⟩
  | 28 => ⟨S50000x128, .f32⟩
  | 29 => ⟨S50000x128, .f32⟩
  | 30 => ⟨S128x128, .f32⟩
  | 31 => ⟨S50000x128, .f32⟩
  | 32 => ⟨S50000x128, .f32⟩
  | 33 => ⟨S1x128, .f32⟩
  | 34 => ⟨S128, .f32⟩
  | 35 => ⟨S1x128, .f32⟩
  | 36 => ⟨S128, .f32⟩
  | 37 => ⟨S_, .f32⟩
  | 38 => ⟨S128, .f32⟩
  | 39 => ⟨S_, .f32⟩
  | 40 => ⟨S128, .f32⟩
  | 41 => ⟨S128, .f32⟩
  | 42 => ⟨S_, .i32⟩
  | 43 => ⟨S_, .f32⟩
  | 44 => ⟨S128, .f32⟩
  | 45 => ⟨S1x128, .f32⟩
  | 46 => ⟨S_, .f32⟩
  | 47 => ⟨S1x128, .f32⟩
  | 48 => ⟨S1x128, .f32⟩
  | 49 => ⟨S50000x128, .f32⟩
  | 50 => ⟨S50000x128, .f32⟩
  | 51 => ⟨S50000x128, .f32⟩
  | 52 => ⟨S_, .f32⟩
  | 53 => ⟨S_, .f32⟩
  | 54 => ⟨S_, .f32⟩
  | 55 => ⟨S_, .f32⟩
  | 56 => ⟨S128, .f32⟩
  | 57 => ⟨S128, .f32⟩
  | 58 => ⟨S128, .f32⟩
  | 59 => ⟨S_, .f32⟩
  | 60 => ⟨S_, .i1⟩
  | 61 => ⟨S_, .f32⟩
  | 62 => ⟨S_, .f32⟩
  | 63 => ⟨S128, .f32⟩
  | 64 => ⟨S128, .f32⟩
  | 65 => ⟨S1x128, .f32⟩
  | 66 => ⟨S50000x128, .f32⟩
  | 67 => ⟨S50000x128, .f32⟩
  | 68 => ⟨S_, .f32⟩
  | 69 => ⟨S128, .f32⟩
  | 70 => ⟨S128, .f32⟩
  | 71 => ⟨S128, .f32⟩
  | 72 => ⟨S1x128, .f32⟩
  | 73 => ⟨S50000x128, .f32⟩
  | 74 => ⟨S50000x128, .f32⟩
  | 75 => ⟨S1x128, .f32⟩
  | 76 => ⟨S50000x128, .f32⟩
  | 77 => ⟨S50000x128, .f32⟩
  | 78 => ⟨S1x128, .f32⟩
  | 79 => ⟨S50000x128, .f32⟩
  | 80 => ⟨S50000x128, .f32⟩
  | 81 => ⟨S_, .f32⟩
  | 82 => ⟨S50000x128, .f32⟩
  | 83 => ⟨S50000x128, .f32⟩
  | 84 => ⟨S1x128x128, .f32⟩
  | 85 => ⟨S128x128, .f32⟩
  | 86 => ⟨S1x128, .f32⟩
  | 87 => ⟨S128, .f32⟩
  | 88 => ⟨S1x128x128, .f32⟩
  | 89 => ⟨S128x128, .f32⟩
  | 90 => ⟨S_, .i32⟩
  | 91 => ⟨S600000, .i32⟩
  | 92 => ⟨S600000, .i1⟩
  | 93 => ⟨S_, .i32⟩
  | 94 => ⟨S600000, .i32⟩
  | 95 => ⟨S600000, .i32⟩
  | 96 => ⟨S600000, .i32⟩
  | 97 => ⟨S600000x1, .i32⟩
  | 98 => ⟨S600000x128, .f32⟩
  | 99 => ⟨S_, .f32⟩
  | 100 => ⟨S50000x128, .f32⟩
  | 101 => ⟨S600000x1, .i32⟩
  | 102 => ⟨S50000x128, .f32⟩
  | 103 => ⟨S_, .f32⟩
  | 104 => ⟨S600000, .f32⟩
  | 105 => ⟨S_, .f32⟩
  | 106 => ⟨S50000, .f32⟩
  | 107 => ⟨S600000x1, .i32⟩
  | 108 => ⟨S50000, .f32⟩
  | 109 => ⟨S_, .f32⟩
  | 110 => ⟨S50000, .f32⟩
  | 111 => ⟨S50000, .f32⟩
  | 112 => ⟨S50000x1, .f32⟩
  | 113 => ⟨S50000x128, .f32⟩
  | 114 => ⟨S50000x128, .f32⟩
  | 115 => ⟨S128x128, .f32⟩
  | 116 => ⟨S50000x128, .f32⟩
  | 117 => ⟨S1x128, .f32⟩
  | 118 => ⟨S50000x128, .f32⟩
  | 119 => ⟨S50000x128, .f32⟩
  | 120 => ⟨S128x128, .f32⟩
  | 121 => ⟨S50000x128, .f32⟩
  | 122 => ⟨S50000x128, .f32⟩
  | 123 => ⟨S1x128, .f32⟩
  | 124 => ⟨S128, .f32⟩
  | 125 => ⟨S1x128, .f32⟩
  | 126 => ⟨S128, .f32⟩
  | 127 => ⟨S_, .f32⟩
  | _ => ⟨S50000x7, .f32⟩

abbrev hbmTy0_2 (i : Nat) : BufTy := match i % 128 with
  | 0 => ⟨S128, .f32⟩
  | 1 => ⟨S_, .f32⟩
  | 2 => ⟨S128, .f32⟩
  | 3 => ⟨S128, .f32⟩
  | 4 => ⟨S_, .i32⟩
  | 5 => ⟨S_, .f32⟩
  | 6 => ⟨S128, .f32⟩
  | 7 => ⟨S1x128, .f32⟩
  | 8 => ⟨S_, .f32⟩
  | 9 => ⟨S1x128, .f32⟩
  | 10 => ⟨S1x128, .f32⟩
  | 11 => ⟨S50000x128, .f32⟩
  | 12 => ⟨S50000x128, .f32⟩
  | 13 => ⟨S50000x128, .f32⟩
  | 14 => ⟨S_, .f32⟩
  | 15 => ⟨S_, .f32⟩
  | 16 => ⟨S_, .f32⟩
  | 17 => ⟨S_, .f32⟩
  | 18 => ⟨S128, .f32⟩
  | 19 => ⟨S128, .f32⟩
  | 20 => ⟨S128, .f32⟩
  | 21 => ⟨S_, .f32⟩
  | 22 => ⟨S_, .i1⟩
  | 23 => ⟨S_, .f32⟩
  | 24 => ⟨S_, .f32⟩
  | 25 => ⟨S128, .f32⟩
  | 26 => ⟨S128, .f32⟩
  | 27 => ⟨S1x128, .f32⟩
  | 28 => ⟨S50000x128, .f32⟩
  | 29 => ⟨S50000x128, .f32⟩
  | 30 => ⟨S_, .f32⟩
  | 31 => ⟨S128, .f32⟩
  | 32 => ⟨S128, .f32⟩
  | 33 => ⟨S128, .f32⟩
  | 34 => ⟨S1x128, .f32⟩
  | 35 => ⟨S50000x128, .f32⟩
  | 36 => ⟨S50000x128, .f32⟩
  | 37 => ⟨S1x128, .f32⟩
  | 38 => ⟨S50000x128, .f32⟩
  | 39 => ⟨S50000x128, .f32⟩
  | 40 => ⟨S1x128, .f32⟩
  | 41 => ⟨S50000x128, .f32⟩
  | 42 => ⟨S50000x128, .f32⟩
  | 43 => ⟨S_, .f32⟩
  | 44 => ⟨S50000x128, .f32⟩
  | 45 => ⟨S50000x128, .f32⟩
  | 46 => ⟨S1x128x128, .f32⟩
  | 47 => ⟨S128x128, .f32⟩
  | 48 => ⟨S1x128, .f32⟩
  | 49 => ⟨S128, .f32⟩
  | 50 => ⟨S1x128x128, .f32⟩
  | 51 => ⟨S128x128, .f32⟩
  | 52 => ⟨S_, .i32⟩
  | 53 => ⟨S600000, .i32⟩
  | 54 => ⟨S600000, .i1⟩
  | 55 => ⟨S_, .i32⟩
  | 56 => ⟨S600000, .i32⟩
  | 57 => ⟨S600000, .i32⟩
  | 58 => ⟨S600000, .i32⟩
  | 59 => ⟨S600000x1, .i32⟩
  | 60 => ⟨S600000x128, .f32⟩
  | 61 => ⟨S_, .f32⟩
  | 62 => ⟨S50000x128, .f32⟩
  | 63 => ⟨S600000x1, .i32⟩
  | 64 => ⟨S50000x128, .f32⟩
  | 65 => ⟨S_, .f32⟩
  | 66 => ⟨S600000, .f32⟩
  | 67 => ⟨S_, .f32⟩
  | 68 => ⟨S50000, .f32⟩
  | 69 => ⟨S600000x1, .i32⟩
  | 70 => ⟨S50000, .f32⟩
  | 71 => ⟨S_, .f32⟩
  | 72 => ⟨S50000, .f32⟩
  | 73 => ⟨S50000, .f32⟩
  | 74 => ⟨S50000x1, .f32⟩
  | 75 => ⟨S50000x128, .f32⟩
  | 76 => ⟨S50000x128, .f32⟩
  | 77 => ⟨S128x128, .f32⟩
  | 78 => ⟨S50000x128, .f32⟩
  | 79 => ⟨S1x128, .f32⟩
  | 80 => ⟨S50000x128, .f32⟩
  | 81 => ⟨S50000x128, .f32⟩
  | 82 => ⟨S128x128, .f32⟩
  | 83 => ⟨S50000x128, .f32⟩
  | 84 => ⟨S50000x128, .f32⟩
  | 85 => ⟨S1x128, .f32⟩
  | 86 => ⟨S128, .f32⟩
  | 87 => ⟨S1x128, .f32⟩
  | 88 => ⟨S128, .f32⟩
  | 89 => ⟨S_, .f32⟩
  | 90 => ⟨S128, .f32⟩
  | 91 => ⟨S_, .f32⟩
  | 92 => ⟨S128, .f32⟩
  | 93 => ⟨S128, .f32⟩
  | 94 => ⟨S_, .i32⟩
  | 95 => ⟨S_, .f32⟩
  | 96 => ⟨S128, .f32⟩
  | 97 => ⟨S1x128, .f32⟩
  | 98 => ⟨S_, .f32⟩
  | 99 => ⟨S1x128, .f32⟩
  | 100 => ⟨S1x128, .f32⟩
  | 101 => ⟨S50000x128, .f32⟩
  | 102 => ⟨S50000x128, .f32⟩
  | 103 => ⟨S50000x128, .f32⟩
  | 104 => ⟨S_, .f32⟩
  | 105 => ⟨S_, .f32⟩
  | 106 => ⟨S_, .f32⟩
  | 107 => ⟨S_, .f32⟩
  | 108 => ⟨S128, .f32⟩
  | 109 => ⟨S128, .f32⟩
  | 110 => ⟨S128, .f32⟩
  | 111 => ⟨S_, .f32⟩
  | 112 => ⟨S_, .i1⟩
  | 113 => ⟨S_, .f32⟩
  | 114 => ⟨S_, .f32⟩
  | 115 => ⟨S128, .f32⟩
  | 116 => ⟨S128, .f32⟩
  | 117 => ⟨S1x128, .f32⟩
  | 118 => ⟨S50000x128, .f32⟩
  | 119 => ⟨S50000x128, .f32⟩
  | 120 => ⟨S_, .f32⟩
  | 121 => ⟨S128, .f32⟩
  | 122 => ⟨S128, .f32⟩
  | 123 => ⟨S128, .f32⟩
  | 124 => ⟨S1x128, .f32⟩
  | 125 => ⟨S50000x128, .f32⟩
  | 126 => ⟨S50000x128, .f32⟩
  | 127 => ⟨S1x128, .f32⟩
  | _ => ⟨S50000x7, .f32⟩

abbrev hbmTy0_3 (i : Nat) : BufTy := match i % 128 with
  | 0 => ⟨S50000x128, .f32⟩
  | 1 => ⟨S50000x128, .f32⟩
  | 2 => ⟨S1x128, .f32⟩
  | 3 => ⟨S50000x128, .f32⟩
  | 4 => ⟨S50000x128, .f32⟩
  | 5 => ⟨S_, .f32⟩
  | 6 => ⟨S50000x128, .f32⟩
  | 7 => ⟨S50000x128, .f32⟩
  | 8 => ⟨S1x128x128, .f32⟩
  | 9 => ⟨S128x128, .f32⟩
  | 10 => ⟨S1x128, .f32⟩
  | 11 => ⟨S128, .f32⟩
  | 12 => ⟨S1x128x128, .f32⟩
  | 13 => ⟨S128x128, .f32⟩
  | 14 => ⟨S_, .i32⟩
  | 15 => ⟨S600000, .i32⟩
  | 16 => ⟨S600000, .i1⟩
  | 17 => ⟨S_, .i32⟩
  | 18 => ⟨S600000, .i32⟩
  | 19 => ⟨S600000, .i32⟩
  | 20 => ⟨S600000, .i32⟩
  | 21 => ⟨S600000x1, .i32⟩
  | 22 => ⟨S600000x128, .f32⟩
  | 23 => ⟨S_, .f32⟩
  | 24 => ⟨S50000x128, .f32⟩
  | 25 => ⟨S600000x1, .i32⟩
  | 26 => ⟨S50000x128, .f32⟩
  | 27 => ⟨S_, .f32⟩
  | 28 => ⟨S600000, .f32⟩
  | 29 => ⟨S_, .f32⟩
  | 30 => ⟨S50000, .f32⟩
  | 31 => ⟨S600000x1, .i32⟩
  | 32 => ⟨S50000, .f32⟩
  | 33 => ⟨S_, .f32⟩
  | 34 => ⟨S50000, .f32⟩
  | 35 => ⟨S50000, .f32⟩
  | 36 => ⟨S50000x1, .f32⟩
  | 37 => ⟨S50000x128, .f32⟩
  | 38 => ⟨S50000x128, .f32⟩
  | 39 => ⟨S128x128, .f32⟩
  | 40 => ⟨S50000x128, .f32⟩
  | 41 => ⟨S1x128, .f32⟩
  | 42 => ⟨S50000x128, .f32⟩
  | 43 => ⟨S50000x128, .f32⟩
  | 44 => ⟨S128x128, .f32⟩
  | 45 => ⟨S50000x128, .f32⟩
  | 46 => ⟨S50000x128, .f32⟩
  | 47 => ⟨S128x256, .f32⟩
  | 48 => ⟨S50000x256, .f32⟩
  | 49 => ⟨S1x256, .f32⟩
  | 50 => ⟨S50000x256, .f32⟩
  | 51 => ⟨S50000x256, .f32⟩
  | 52 => ⟨S_, .f32⟩
  | 53 => ⟨S50000x256, .f32⟩
  | 54 => ⟨S50000x256, .f32⟩
  | 55 => ⟨S256x4, .f32⟩
  | 56 => ⟨S50000x4, .f32⟩
  | 57 => ⟨S1x4, .f32⟩
  | 58 => ⟨S50000x4, .f32⟩
  | 59 => ⟨S50000x4, .f32⟩
  | _ => ⟨S50000x7, .f32⟩

abbrev hbmTy (i : Nat) : BufTy := match i / 128 with
  | 0 => hbmTy0_0 i
  | 1 => hbmTy0_1 i
  | 2 => hbmTy0_2 i
  | 3 => hbmTy0_3 i
  | _ => ⟨S50000x7, .f32⟩

abbrev bufTy : (tb : Table) → Fin (tcTables nBuf tb) → BufTy
  | .hbm, ⟨i, _⟩ => hbmTy i
  | _, _ => ⟨S50000x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_call0_cst : Ref sig .tc := ⟨.hbm, 24, rfl⟩
abbrev main_call0_v0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c : Ref sig .tc := ⟨.hbm, 38, rfl⟩
abbrev main_v21 : Ref sig .tc := ⟨.hbm, 39, rfl⟩
abbrev main_v22 : Ref sig .tc := ⟨.hbm, 40, rfl⟩
abbrev main_c_0 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_1 : Ref sig .tc := ⟨.hbm, 51, rfl⟩
abbrev main_v31 : Ref sig .tc := ⟨.hbm, 52, rfl⟩
abbrev main_cst_2 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_3 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_4 : Ref sig .tc := ⟨.hbm, 75, rfl⟩
abbrev main_v52 : Ref sig .tc := ⟨.hbm, 76, rfl⟩
abbrev main_cst_5 : Ref sig .tc := ⟨.hbm, 77, rfl⟩
abbrev main_v53 : Ref sig .tc := ⟨.hbm, 78, rfl⟩
abbrev main_v54 : Ref sig .tc := ⟨.hbm, 79, rfl⟩
abbrev main_c_6 : Ref sig .tc := ⟨.hbm, 80, rfl⟩
abbrev main_call1_cst : Ref sig .tc := ⟨.hbm, 81, rfl⟩
abbrev main_call1_v0 : Ref sig .tc := ⟨.hbm, 82, rfl⟩
abbrev main_call1_v1 : Ref sig .tc := ⟨.hbm, 83, rfl⟩
abbrev main_call1_cst_0 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_call1_v5 : Ref sig .tc := ⟨.hbm, 88, rfl⟩
abbrev main_call1_v6 : Ref sig .tc := ⟨.hbm, 89, rfl⟩
abbrev main_call1_v7 : Ref sig .tc := ⟨.hbm, 90, rfl⟩
abbrev main_call1_cst_1 : Ref sig .tc := ⟨.hbm, 91, rfl⟩
abbrev main_call1_v8 : Ref sig .tc := ⟨.hbm, 92, rfl⟩
abbrev main_call1_cst_2 : Ref sig .tc := ⟨.hbm, 93, rfl⟩
abbrev main_call1_v9 : Ref sig .tc := ⟨.hbm, 94, rfl⟩
abbrev main_call1_v10 : Ref sig .tc := ⟨.hbm, 95, rfl⟩
abbrev main_call1_v11 : Ref sig .tc := ⟨.hbm, 96, rfl⟩
abbrev main_call1_cst_3 : Ref sig .tc := ⟨.hbm, 97, rfl⟩
abbrev main_call1_v12 : Ref sig .tc := ⟨.hbm, 98, rfl⟩
abbrev main_call1_cst_4 : Ref sig .tc := ⟨.hbm, 99, rfl⟩
abbrev main_call1_call0_v0 : Ref sig .tc := ⟨.hbm, 100, rfl⟩
abbrev main_call1_call0_v1 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_cst_7 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_call2_cst : Ref sig .tc := ⟨.hbm, 119, rfl⟩
abbrev main_call2_v0 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_c_8 : Ref sig .tc := ⟨.hbm, 128, rfl⟩
abbrev main_v78 : Ref sig .tc := ⟨.hbm, 129, rfl⟩
abbrev main_v79 : Ref sig .tc := ⟨.hbm, 130, rfl⟩
abbrev main_c_9 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_cst_10 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_cst_11 : Ref sig .tc := ⟨.hbm, 141, rfl⟩
abbrev main_v88 : Ref sig .tc := ⟨.hbm, 142, rfl⟩
abbrev main_cst_12 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_cst_13 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_cst_14 : Ref sig .tc := ⟨.hbm, 165, rfl⟩
abbrev main_v109 : Ref sig .tc := ⟨.hbm, 166, rfl⟩
abbrev main_cst_15 : Ref sig .tc := ⟨.hbm, 167, rfl⟩
abbrev main_v110 : Ref sig .tc := ⟨.hbm, 168, rfl⟩
abbrev main_v111 : Ref sig .tc := ⟨.hbm, 169, rfl⟩
abbrev main_c_16 : Ref sig .tc := ⟨.hbm, 170, rfl⟩
abbrev main_call3_cst : Ref sig .tc := ⟨.hbm, 171, rfl⟩
abbrev main_call3_v0 : Ref sig .tc := ⟨.hbm, 172, rfl⟩
abbrev main_call3_v1 : Ref sig .tc := ⟨.hbm, 173, rfl⟩
abbrev main_call3_cst_0 : Ref sig .tc := ⟨.hbm, 174, rfl⟩
abbrev main_call3_v2 : Ref sig .tc := ⟨.hbm, 175, rfl⟩
abbrev main_call3_v3 : Ref sig .tc := ⟨.hbm, 176, rfl⟩
abbrev main_call3_v4 : Ref sig .tc := ⟨.hbm, 177, rfl⟩
abbrev main_call3_v5 : Ref sig .tc := ⟨.hbm, 178, rfl⟩
abbrev main_call3_v6 : Ref sig .tc := ⟨.hbm, 179, rfl⟩
abbrev main_call3_v7 : Ref sig .tc := ⟨.hbm, 180, rfl⟩
abbrev main_call3_cst_1 : Ref sig .tc := ⟨.hbm, 181, rfl⟩
abbrev main_call3_v8 : Ref sig .tc := ⟨.hbm, 182, rfl⟩
abbrev main_call3_cst_2 : Ref sig .tc := ⟨.hbm, 183, rfl⟩
abbrev main_call3_v9 : Ref sig .tc := ⟨.hbm, 184, rfl⟩
abbrev main_call3_v10 : Ref sig .tc := ⟨.hbm, 185, rfl⟩
abbrev main_call3_v11 : Ref sig .tc := ⟨.hbm, 186, rfl⟩
abbrev main_call3_cst_3 : Ref sig .tc := ⟨.hbm, 187, rfl⟩
abbrev main_call3_v12 : Ref sig .tc := ⟨.hbm, 188, rfl⟩
abbrev main_call3_cst_4 : Ref sig .tc := ⟨.hbm, 189, rfl⟩
abbrev main_call3_call0_v0 : Ref sig .tc := ⟨.hbm, 190, rfl⟩
abbrev main_call3_call0_v1 : Ref sig .tc := ⟨.hbm, 191, rfl⟩
abbrev main_v112 : Ref sig .tc := ⟨.hbm, 192, rfl⟩
abbrev main_v113 : Ref sig .tc := ⟨.hbm, 193, rfl⟩
abbrev main_v114 : Ref sig .tc := ⟨.hbm, 194, rfl⟩
abbrev main_v115 : Ref sig .tc := ⟨.hbm, 195, rfl⟩
abbrev main_cst_17 : Ref sig .tc := ⟨.hbm, 196, rfl⟩
abbrev main_v116 : Ref sig .tc := ⟨.hbm, 197, rfl⟩
abbrev main_v117 : Ref sig .tc := ⟨.hbm, 198, rfl⟩
abbrev main_v118 : Ref sig .tc := ⟨.hbm, 199, rfl⟩
abbrev main_v119 : Ref sig .tc := ⟨.hbm, 200, rfl⟩
abbrev main_v120 : Ref sig .tc := ⟨.hbm, 201, rfl⟩
abbrev main_v121 : Ref sig .tc := ⟨.hbm, 202, rfl⟩
abbrev main_v122 : Ref sig .tc := ⟨.hbm, 203, rfl⟩
abbrev main_v123 : Ref sig .tc := ⟨.hbm, 204, rfl⟩
abbrev main_v124 : Ref sig .tc := ⟨.hbm, 205, rfl⟩
abbrev main_v125 : Ref sig .tc := ⟨.hbm, 206, rfl⟩
abbrev main_v126 : Ref sig .tc := ⟨.hbm, 207, rfl⟩
abbrev main_v127 : Ref sig .tc := ⟨.hbm, 208, rfl⟩
abbrev main_call4_cst : Ref sig .tc := ⟨.hbm, 209, rfl⟩
abbrev main_call4_v0 : Ref sig .tc := ⟨.hbm, 210, rfl⟩
abbrev main_v128 : Ref sig .tc := ⟨.hbm, 211, rfl⟩
abbrev main_v129 : Ref sig .tc := ⟨.hbm, 212, rfl⟩
abbrev main_v130 : Ref sig .tc := ⟨.hbm, 213, rfl⟩
abbrev main_v131 : Ref sig .tc := ⟨.hbm, 214, rfl⟩
abbrev main_v132 : Ref sig .tc := ⟨.hbm, 215, rfl⟩
abbrev main_v133 : Ref sig .tc := ⟨.hbm, 216, rfl⟩
abbrev main_v134 : Ref sig .tc := ⟨.hbm, 217, rfl⟩
abbrev main_c_18 : Ref sig .tc := ⟨.hbm, 218, rfl⟩
abbrev main_v135 : Ref sig .tc := ⟨.hbm, 219, rfl⟩
abbrev main_v136 : Ref sig .tc := ⟨.hbm, 220, rfl⟩
abbrev main_c_19 : Ref sig .tc := ⟨.hbm, 221, rfl⟩
abbrev main_v137 : Ref sig .tc := ⟨.hbm, 222, rfl⟩
abbrev main_v138 : Ref sig .tc := ⟨.hbm, 223, rfl⟩
abbrev main_v139 : Ref sig .tc := ⟨.hbm, 224, rfl⟩
abbrev main_v140 : Ref sig .tc := ⟨.hbm, 225, rfl⟩
abbrev main_v141 : Ref sig .tc := ⟨.hbm, 226, rfl⟩
abbrev main_cst_20 : Ref sig .tc := ⟨.hbm, 227, rfl⟩
abbrev main_v142 : Ref sig .tc := ⟨.hbm, 228, rfl⟩
abbrev main_v143 : Ref sig .tc := ⟨.hbm, 229, rfl⟩
abbrev main_v144 : Ref sig .tc := ⟨.hbm, 230, rfl⟩
abbrev main_cst_21 : Ref sig .tc := ⟨.hbm, 231, rfl⟩
abbrev main_v145 : Ref sig .tc := ⟨.hbm, 232, rfl⟩
abbrev main_cst_22 : Ref sig .tc := ⟨.hbm, 233, rfl⟩
abbrev main_v146 : Ref sig .tc := ⟨.hbm, 234, rfl⟩
abbrev main_v147 : Ref sig .tc := ⟨.hbm, 235, rfl⟩
abbrev main_v148 : Ref sig .tc := ⟨.hbm, 236, rfl⟩
abbrev main_cst_23 : Ref sig .tc := ⟨.hbm, 237, rfl⟩
abbrev main_v149 : Ref sig .tc := ⟨.hbm, 238, rfl⟩
abbrev main_v150 : Ref sig .tc := ⟨.hbm, 239, rfl⟩
abbrev main_v151 : Ref sig .tc := ⟨.hbm, 240, rfl⟩
abbrev main_v152 : Ref sig .tc := ⟨.hbm, 241, rfl⟩
abbrev main_v153 : Ref sig .tc := ⟨.hbm, 242, rfl⟩
abbrev main_v154 : Ref sig .tc := ⟨.hbm, 243, rfl⟩
abbrev main_v155 : Ref sig .tc := ⟨.hbm, 244, rfl⟩
abbrev main_v156 : Ref sig .tc := ⟨.hbm, 245, rfl⟩
abbrev main_v157 : Ref sig .tc := ⟨.hbm, 246, rfl⟩
abbrev main_v158 : Ref sig .tc := ⟨.hbm, 247, rfl⟩
abbrev main_v159 : Ref sig .tc := ⟨.hbm, 248, rfl⟩
abbrev main_v160 : Ref sig .tc := ⟨.hbm, 249, rfl⟩
abbrev main_v161 : Ref sig .tc := ⟨.hbm, 250, rfl⟩
abbrev main_v162 : Ref sig .tc := ⟨.hbm, 251, rfl⟩
abbrev main_v163 : Ref sig .tc := ⟨.hbm, 252, rfl⟩
abbrev main_v164 : Ref sig .tc := ⟨.hbm, 253, rfl⟩
abbrev main_v165 : Ref sig .tc := ⟨.hbm, 254, rfl⟩
abbrev main_cst_24 : Ref sig .tc := ⟨.hbm, 255, rfl⟩
abbrev main_v166 : Ref sig .tc := ⟨.hbm, 256, rfl⟩
abbrev main_cst_25 : Ref sig .tc := ⟨.hbm, 257, rfl⟩
abbrev main_v167 : Ref sig .tc := ⟨.hbm, 258, rfl⟩
abbrev main_v168 : Ref sig .tc := ⟨.hbm, 259, rfl⟩
abbrev main_c_26 : Ref sig .tc := ⟨.hbm, 260, rfl⟩
abbrev main_call5_cst : Ref sig .tc := ⟨.hbm, 261, rfl⟩
abbrev main_call5_v0 : Ref sig .tc := ⟨.hbm, 262, rfl⟩
abbrev main_call5_v1 : Ref sig .tc := ⟨.hbm, 263, rfl⟩
abbrev main_call5_cst_0 : Ref sig .tc := ⟨.hbm, 264, rfl⟩
abbrev main_call5_v2 : Ref sig .tc := ⟨.hbm, 265, rfl⟩
abbrev main_call5_v3 : Ref sig .tc := ⟨.hbm, 266, rfl⟩
abbrev main_call5_v4 : Ref sig .tc := ⟨.hbm, 267, rfl⟩
abbrev main_call5_v5 : Ref sig .tc := ⟨.hbm, 268, rfl⟩
abbrev main_call5_v6 : Ref sig .tc := ⟨.hbm, 269, rfl⟩
abbrev main_call5_v7 : Ref sig .tc := ⟨.hbm, 270, rfl⟩
abbrev main_call5_cst_1 : Ref sig .tc := ⟨.hbm, 271, rfl⟩
abbrev main_call5_v8 : Ref sig .tc := ⟨.hbm, 272, rfl⟩
abbrev main_call5_cst_2 : Ref sig .tc := ⟨.hbm, 273, rfl⟩
abbrev main_call5_v9 : Ref sig .tc := ⟨.hbm, 274, rfl⟩
abbrev main_call5_v10 : Ref sig .tc := ⟨.hbm, 275, rfl⟩
abbrev main_call5_v11 : Ref sig .tc := ⟨.hbm, 276, rfl⟩
abbrev main_call5_cst_3 : Ref sig .tc := ⟨.hbm, 277, rfl⟩
abbrev main_call5_v12 : Ref sig .tc := ⟨.hbm, 278, rfl⟩
abbrev main_call5_cst_4 : Ref sig .tc := ⟨.hbm, 279, rfl⟩
abbrev main_call5_call0_v0 : Ref sig .tc := ⟨.hbm, 280, rfl⟩
abbrev main_call5_call0_v1 : Ref sig .tc := ⟨.hbm, 281, rfl⟩
abbrev main_v169 : Ref sig .tc := ⟨.hbm, 282, rfl⟩
abbrev main_v170 : Ref sig .tc := ⟨.hbm, 283, rfl⟩
abbrev main_v171 : Ref sig .tc := ⟨.hbm, 284, rfl⟩
abbrev main_v172 : Ref sig .tc := ⟨.hbm, 285, rfl⟩
abbrev main_cst_27 : Ref sig .tc := ⟨.hbm, 286, rfl⟩
abbrev main_v173 : Ref sig .tc := ⟨.hbm, 287, rfl⟩
abbrev main_v174 : Ref sig .tc := ⟨.hbm, 288, rfl⟩
abbrev main_v175 : Ref sig .tc := ⟨.hbm, 289, rfl⟩
abbrev main_v176 : Ref sig .tc := ⟨.hbm, 290, rfl⟩
abbrev main_v177 : Ref sig .tc := ⟨.hbm, 291, rfl⟩
abbrev main_v178 : Ref sig .tc := ⟨.hbm, 292, rfl⟩
abbrev main_v179 : Ref sig .tc := ⟨.hbm, 293, rfl⟩
abbrev main_v180 : Ref sig .tc := ⟨.hbm, 294, rfl⟩
abbrev main_v181 : Ref sig .tc := ⟨.hbm, 295, rfl⟩
abbrev main_v182 : Ref sig .tc := ⟨.hbm, 296, rfl⟩
abbrev main_v183 : Ref sig .tc := ⟨.hbm, 297, rfl⟩
abbrev main_v184 : Ref sig .tc := ⟨.hbm, 298, rfl⟩
abbrev main_call6_cst : Ref sig .tc := ⟨.hbm, 299, rfl⟩
abbrev main_call6_v0 : Ref sig .tc := ⟨.hbm, 300, rfl⟩
abbrev main_v185 : Ref sig .tc := ⟨.hbm, 301, rfl⟩
abbrev main_v186 : Ref sig .tc := ⟨.hbm, 302, rfl⟩
abbrev main_v187 : Ref sig .tc := ⟨.hbm, 303, rfl⟩
abbrev main_v188 : Ref sig .tc := ⟨.hbm, 304, rfl⟩
abbrev main_v189 : Ref sig .tc := ⟨.hbm, 305, rfl⟩
abbrev main_v190 : Ref sig .tc := ⟨.hbm, 306, rfl⟩
abbrev main_v191 : Ref sig .tc := ⟨.hbm, 307, rfl⟩
abbrev main_c_28 : Ref sig .tc := ⟨.hbm, 308, rfl⟩
abbrev main_v192 : Ref sig .tc := ⟨.hbm, 309, rfl⟩
abbrev main_v193 : Ref sig .tc := ⟨.hbm, 310, rfl⟩
abbrev main_c_29 : Ref sig .tc := ⟨.hbm, 311, rfl⟩
abbrev main_v194 : Ref sig .tc := ⟨.hbm, 312, rfl⟩
abbrev main_v195 : Ref sig .tc := ⟨.hbm, 313, rfl⟩
abbrev main_v196 : Ref sig .tc := ⟨.hbm, 314, rfl⟩
abbrev main_v197 : Ref sig .tc := ⟨.hbm, 315, rfl⟩
abbrev main_v198 : Ref sig .tc := ⟨.hbm, 316, rfl⟩
abbrev main_cst_30 : Ref sig .tc := ⟨.hbm, 317, rfl⟩
abbrev main_v199 : Ref sig .tc := ⟨.hbm, 318, rfl⟩
abbrev main_v200 : Ref sig .tc := ⟨.hbm, 319, rfl⟩
abbrev main_v201 : Ref sig .tc := ⟨.hbm, 320, rfl⟩
abbrev main_cst_31 : Ref sig .tc := ⟨.hbm, 321, rfl⟩
abbrev main_v202 : Ref sig .tc := ⟨.hbm, 322, rfl⟩
abbrev main_cst_32 : Ref sig .tc := ⟨.hbm, 323, rfl⟩
abbrev main_v203 : Ref sig .tc := ⟨.hbm, 324, rfl⟩
abbrev main_v204 : Ref sig .tc := ⟨.hbm, 325, rfl⟩
abbrev main_v205 : Ref sig .tc := ⟨.hbm, 326, rfl⟩
abbrev main_cst_33 : Ref sig .tc := ⟨.hbm, 327, rfl⟩
abbrev main_v206 : Ref sig .tc := ⟨.hbm, 328, rfl⟩
abbrev main_v207 : Ref sig .tc := ⟨.hbm, 329, rfl⟩
abbrev main_v208 : Ref sig .tc := ⟨.hbm, 330, rfl⟩
abbrev main_v209 : Ref sig .tc := ⟨.hbm, 331, rfl⟩
abbrev main_v210 : Ref sig .tc := ⟨.hbm, 332, rfl⟩
abbrev main_v211 : Ref sig .tc := ⟨.hbm, 333, rfl⟩
abbrev main_v212 : Ref sig .tc := ⟨.hbm, 334, rfl⟩
abbrev main_v213 : Ref sig .tc := ⟨.hbm, 335, rfl⟩
abbrev main_v214 : Ref sig .tc := ⟨.hbm, 336, rfl⟩
abbrev main_v215 : Ref sig .tc := ⟨.hbm, 337, rfl⟩
abbrev main_v216 : Ref sig .tc := ⟨.hbm, 338, rfl⟩
abbrev main_v217 : Ref sig .tc := ⟨.hbm, 339, rfl⟩
abbrev main_v218 : Ref sig .tc := ⟨.hbm, 340, rfl⟩
abbrev main_v219 : Ref sig .tc := ⟨.hbm, 341, rfl⟩
abbrev main_v220 : Ref sig .tc := ⟨.hbm, 342, rfl⟩
abbrev main_v221 : Ref sig .tc := ⟨.hbm, 343, rfl⟩
abbrev main_v222 : Ref sig .tc := ⟨.hbm, 344, rfl⟩
abbrev main_cst_34 : Ref sig .tc := ⟨.hbm, 345, rfl⟩
abbrev main_v223 : Ref sig .tc := ⟨.hbm, 346, rfl⟩
abbrev main_cst_35 : Ref sig .tc := ⟨.hbm, 347, rfl⟩
abbrev main_v224 : Ref sig .tc := ⟨.hbm, 348, rfl⟩
abbrev main_v225 : Ref sig .tc := ⟨.hbm, 349, rfl⟩
abbrev main_c_36 : Ref sig .tc := ⟨.hbm, 350, rfl⟩
abbrev main_call7_cst : Ref sig .tc := ⟨.hbm, 351, rfl⟩
abbrev main_call7_v0 : Ref sig .tc := ⟨.hbm, 352, rfl⟩
abbrev main_call7_v1 : Ref sig .tc := ⟨.hbm, 353, rfl⟩
abbrev main_call7_cst_0 : Ref sig .tc := ⟨.hbm, 354, rfl⟩
abbrev main_call7_v2 : Ref sig .tc := ⟨.hbm, 355, rfl⟩
abbrev main_call7_v3 : Ref sig .tc := ⟨.hbm, 356, rfl⟩
abbrev main_call7_v4 : Ref sig .tc := ⟨.hbm, 357, rfl⟩
abbrev main_call7_v5 : Ref sig .tc := ⟨.hbm, 358, rfl⟩
abbrev main_call7_v6 : Ref sig .tc := ⟨.hbm, 359, rfl⟩
abbrev main_call7_v7 : Ref sig .tc := ⟨.hbm, 360, rfl⟩
abbrev main_call7_cst_1 : Ref sig .tc := ⟨.hbm, 361, rfl⟩
abbrev main_call7_v8 : Ref sig .tc := ⟨.hbm, 362, rfl⟩
abbrev main_call7_cst_2 : Ref sig .tc := ⟨.hbm, 363, rfl⟩
abbrev main_call7_v9 : Ref sig .tc := ⟨.hbm, 364, rfl⟩
abbrev main_call7_v10 : Ref sig .tc := ⟨.hbm, 365, rfl⟩
abbrev main_call7_v11 : Ref sig .tc := ⟨.hbm, 366, rfl⟩
abbrev main_call7_cst_3 : Ref sig .tc := ⟨.hbm, 367, rfl⟩
abbrev main_call7_v12 : Ref sig .tc := ⟨.hbm, 368, rfl⟩
abbrev main_call7_cst_4 : Ref sig .tc := ⟨.hbm, 369, rfl⟩
abbrev main_call7_call0_v0 : Ref sig .tc := ⟨.hbm, 370, rfl⟩
abbrev main_call7_call0_v1 : Ref sig .tc := ⟨.hbm, 371, rfl⟩
abbrev main_v226 : Ref sig .tc := ⟨.hbm, 372, rfl⟩
abbrev main_v227 : Ref sig .tc := ⟨.hbm, 373, rfl⟩
abbrev main_v228 : Ref sig .tc := ⟨.hbm, 374, rfl⟩
abbrev main_v229 : Ref sig .tc := ⟨.hbm, 375, rfl⟩
abbrev main_cst_37 : Ref sig .tc := ⟨.hbm, 376, rfl⟩
abbrev main_v230 : Ref sig .tc := ⟨.hbm, 377, rfl⟩
abbrev main_v231 : Ref sig .tc := ⟨.hbm, 378, rfl⟩
abbrev main_v232 : Ref sig .tc := ⟨.hbm, 379, rfl⟩
abbrev main_v233 : Ref sig .tc := ⟨.hbm, 380, rfl⟩
abbrev main_v234 : Ref sig .tc := ⟨.hbm, 381, rfl⟩
abbrev main_v235 : Ref sig .tc := ⟨.hbm, 382, rfl⟩
abbrev main_v236 : Ref sig .tc := ⟨.hbm, 383, rfl⟩
abbrev main_v237 : Ref sig .tc := ⟨.hbm, 384, rfl⟩
abbrev main_v238 : Ref sig .tc := ⟨.hbm, 385, rfl⟩
abbrev main_v239 : Ref sig .tc := ⟨.hbm, 386, rfl⟩
abbrev main_v240 : Ref sig .tc := ⟨.hbm, 387, rfl⟩
abbrev main_v241 : Ref sig .tc := ⟨.hbm, 388, rfl⟩
abbrev main_call8_cst : Ref sig .tc := ⟨.hbm, 389, rfl⟩
abbrev main_call8_v0 : Ref sig .tc := ⟨.hbm, 390, rfl⟩
abbrev main_v242 : Ref sig .tc := ⟨.hbm, 391, rfl⟩
abbrev main_v243 : Ref sig .tc := ⟨.hbm, 392, rfl⟩
abbrev main_v244 : Ref sig .tc := ⟨.hbm, 393, rfl⟩
abbrev main_v245 : Ref sig .tc := ⟨.hbm, 394, rfl⟩
abbrev main_v246 : Ref sig .tc := ⟨.hbm, 395, rfl⟩
abbrev main_v247 : Ref sig .tc := ⟨.hbm, 396, rfl⟩
abbrev main_v248 : Ref sig .tc := ⟨.hbm, 397, rfl⟩
abbrev main_c_38 : Ref sig .tc := ⟨.hbm, 398, rfl⟩
abbrev main_v249 : Ref sig .tc := ⟨.hbm, 399, rfl⟩
abbrev main_v250 : Ref sig .tc := ⟨.hbm, 400, rfl⟩
abbrev main_c_39 : Ref sig .tc := ⟨.hbm, 401, rfl⟩
abbrev main_v251 : Ref sig .tc := ⟨.hbm, 402, rfl⟩
abbrev main_v252 : Ref sig .tc := ⟨.hbm, 403, rfl⟩
abbrev main_v253 : Ref sig .tc := ⟨.hbm, 404, rfl⟩
abbrev main_v254 : Ref sig .tc := ⟨.hbm, 405, rfl⟩
abbrev main_v255 : Ref sig .tc := ⟨.hbm, 406, rfl⟩
abbrev main_cst_40 : Ref sig .tc := ⟨.hbm, 407, rfl⟩
abbrev main_v256 : Ref sig .tc := ⟨.hbm, 408, rfl⟩
abbrev main_v257 : Ref sig .tc := ⟨.hbm, 409, rfl⟩
abbrev main_v258 : Ref sig .tc := ⟨.hbm, 410, rfl⟩
abbrev main_cst_41 : Ref sig .tc := ⟨.hbm, 411, rfl⟩
abbrev main_v259 : Ref sig .tc := ⟨.hbm, 412, rfl⟩
abbrev main_cst_42 : Ref sig .tc := ⟨.hbm, 413, rfl⟩
abbrev main_v260 : Ref sig .tc := ⟨.hbm, 414, rfl⟩
abbrev main_v261 : Ref sig .tc := ⟨.hbm, 415, rfl⟩
abbrev main_v262 : Ref sig .tc := ⟨.hbm, 416, rfl⟩
abbrev main_cst_43 : Ref sig .tc := ⟨.hbm, 417, rfl⟩
abbrev main_v263 : Ref sig .tc := ⟨.hbm, 418, rfl⟩
abbrev main_v264 : Ref sig .tc := ⟨.hbm, 419, rfl⟩
abbrev main_v265 : Ref sig .tc := ⟨.hbm, 420, rfl⟩
abbrev main_v266 : Ref sig .tc := ⟨.hbm, 421, rfl⟩
abbrev main_v267 : Ref sig .tc := ⟨.hbm, 422, rfl⟩
abbrev main_v268 : Ref sig .tc := ⟨.hbm, 423, rfl⟩
abbrev main_v269 : Ref sig .tc := ⟨.hbm, 424, rfl⟩
abbrev main_v270 : Ref sig .tc := ⟨.hbm, 425, rfl⟩
abbrev main_v271 : Ref sig .tc := ⟨.hbm, 426, rfl⟩
abbrev main_v272 : Ref sig .tc := ⟨.hbm, 427, rfl⟩
abbrev main_v273 : Ref sig .tc := ⟨.hbm, 428, rfl⟩
abbrev main_v274 : Ref sig .tc := ⟨.hbm, 429, rfl⟩
abbrev main_v275 : Ref sig .tc := ⟨.hbm, 430, rfl⟩
abbrev main_v276 : Ref sig .tc := ⟨.hbm, 431, rfl⟩
abbrev main_v277 : Ref sig .tc := ⟨.hbm, 432, rfl⟩
abbrev main_v278 : Ref sig .tc := ⟨.hbm, 433, rfl⟩
abbrev main_v279 : Ref sig .tc := ⟨.hbm, 434, rfl⟩
abbrev main_v280 : Ref sig .tc := ⟨.hbm, 435, rfl⟩
abbrev main_call9_cst : Ref sig .tc := ⟨.hbm, 436, rfl⟩
abbrev main_call9_v0 : Ref sig .tc := ⟨.hbm, 437, rfl⟩
abbrev main_v281 : Ref sig .tc := ⟨.hbm, 438, rfl⟩
abbrev main_v282 : Ref sig .tc := ⟨.hbm, 439, rfl⟩
abbrev main_v283 : Ref sig .tc := ⟨.hbm, 440, rfl⟩
abbrev main_v284 : Ref sig .tc := ⟨.hbm, 441, rfl⟩
abbrev main_v285 : Ref sig .tc := ⟨.hbm, 442, rfl⟩
abbrev main_v286 : Ref sig .tc := ⟨.hbm, 443, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  transposes_S256x7_S7x256_1_0 : S256x7.Transposes [1, 0] S7x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S5x128x128_S1x128x128_0_0_0 : S5x128x128.Slices ![0, 0, 0] S1x128x128
  shapeCasts_S1x128x128_S128x128 : S1x128x128.ShapeCasts S128x128
  slices_S5x128_S1x128_0_0 : S5x128.Slices ![0, 0] S1x128
  shapeCasts_S1x128_S128 : S1x128.ShapeCasts S128
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  slices_S4x128_S1x128_0_0 : S4x128.Slices ![0, 0] S1x128
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S5x128x128_S1x128x128_1_0_0 : S5x128x128.Slices ![1, 0, 0] S1x128x128
  slices_S5x128_S1x128_1_0 : S5x128.Slices ![1, 0] S1x128
  slices_S4x128_S1x128_1_0 : S4x128.Slices ![1, 0] S1x128
  slices_S5x128x128_S1x128x128_2_0_0 : S5x128x128.Slices ![2, 0, 0] S1x128x128
  slices_S5x128_S1x128_2_0 : S5x128.Slices ![2, 0] S1x128
  slices_S4x128_S1x128_2_0 : S4x128.Slices ![2, 0] S1x128
  slices_S5x128x128_S1x128x128_3_0_0 : S5x128x128.Slices ![3, 0, 0] S1x128x128
  slices_S5x128_S1x128_3_0 : S5x128.Slices ![3, 0] S1x128
  slices_S4x128_S1x128_3_0 : S4x128.Slices ![3, 0] S1x128
  slices_S5x128x128_S1x128x128_4_0_0 : S5x128x128.Slices ![4, 0, 0] S1x128x128
  slices_S5x128_S1x128_4_0 : S5x128.Slices ![4, 0] S1x128
  transposes_S256x128_S128x256_1_0 : S256x128.Transposes [1, 0] S128x256
  transposes_S4x256_S256x4_1_0 : S4x256.Transposes [1, 0] S256x4
  bcast_S4_S1x4_1 : S4.BroadcastsInDim S1x4 (![1] : Fin 1 → Fin S1x4.rank)
  bcast_S1x4_S50000x4_0_1 : S1x4.BroadcastsInDim S50000x4 (![0, 1] : Fin 2 → Fin S50000x4.rank)
  dot_S50000x7_S7x256_S50000x256_1_0_0_1_n_n_wf : DotDims.WF S50000x7 S7x256 S50000x256 [1] [0] [0] [1] [] []
  dot_S50000x256_S256x128_S50000x128_1_0_0_1_n_n_wf : DotDims.WF S50000x256 S256x128 S50000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []
  dot_S50000x128_S128x256_S50000x256_1_0_0_1_n_n_wf : DotDims.WF S50000x128 S128x256 S50000x256 [1] [0] [0] [1] [] []
  dot_S50000x256_S256x4_S50000x4_1_0_0_1_n_n_wf : DotDims.WF S50000x256 S256x4 S50000x4 [1] [0] [0] [1] [] []

variable [Facts₀]

def dot_S50000x7_S7x256_S50000x256_1_0_0_1_n_n : DotDims S50000x7 S7x256 S50000x256 where
  lhsContracting := [1]
  rhsContracting := [0]
  lhsNonContracting := [0]
  rhsNonContracting := [1]
  lhsBatch := []
  rhsBatch := []
  wf := dot_S50000x7_S7x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x4_S50000x4_1_0_0_1_n_n : DotDims S50000x256 S256x4 S50000x4 where
  lhsContracting := [1]
  rhsContracting := [0]
  lhsNonContracting := [0]
  rhsNonContracting := [1]
  lhsBatch := []
  rhsBatch := []
  wf := dot_S50000x256_S256x4_S50000x4_1_0_0_1_n_n_wf

class Facts : Prop extends Facts₀ where

variable [Facts]
-- ==== Proof.NetSpec.lean ====
/-
  The network both programs compute, entry by entry over the extended reals.

  A graph network on 50000 nodes: a two-layer perceptron lifts the 7 input features to width 128; four rounds of
  neighbour-mean aggregation, each followed by a linear combine (aggregate · Wlᵀ + bl + self · Wrᵀ), batch
  normalisation over the node axis and a rectifier; one more aggregation and combine; and a two-layer perceptron down to
  4 outputs. Every stage other than the aggregation acts on each node's row separately, given the column statistics, so
  each stage is stated here as ONE function of a row index and a column index. The aggregation (a gather along the edge
  sources followed by a scatter-add along the edge targets, divided by the clamped in-degree) is the same chain of host
  operations in both programs and enters only as a parameter `A`.

  Literals stay the words both programs print — the rectifier's threshold `0x00000000`, the node count `0x47435000`
  (50000), the variance's epsilon `0x3727C5AC`, and the not-a-number word the variance's guard would select — so no
  literal is ever evaluated: the two sides meet in the same expression.
-/
import Idealize.ShloMosaic.PureOps.Ideal
import Idealize.ShloMosaic.Lib.ValueIdx

noncomputable section

namespace Cert.Net

open Idealize.ShloMosaic Idealize.ShloMosaic.ValueIdx

/-- A matrix of extended reals with literal extents, indexed as both programs index their two-axis arrays. -/
abbrev Mat (r c : Nat) : Type := (⟨2, ![r, c]⟩ : Shape).Idx → EReal

/-- The rectifier's threshold, as printed. -/
abbrev zeroW : EReal := Ideal.ofBits .f32 0x00000000#32
/-- The number of nodes as the host's float constant, as printed. -/
abbrev nodesW : EReal := Ideal.ofBits .f32 0x47435000#32
/-- The variance's epsilon, as printed. -/
abbrev epsW : EReal := Ideal.ofBits .f32 0x3727C5AC#32
/-- The word the variance's guard selects when its divisor is not positive, as printed. -/
abbrev nanW : EReal := Ideal.ofBits .f32 0x7FC00000#32

/-! ## The perceptron -/

/-- One entry of `relu(x·W₁ᵀ + b₁)·W₂ᵀ + b₂`: node `i`, output column `j`. The hidden unit `k` sees
    `∑ l, x i l · W₁ k l + b₁ k`; the biases are one-row matrices. -/
def mlpAt {n d h o : Nat} (x : Mat n d) (W₁ : Mat h d) (b₁ : Mat 1 h) (W₂ : Mat o h) (b₂ : Mat 1 o)
    (i : Fin n) (j : Fin o) : EReal :=
  (∑ k : Fin h, max ((∑ l : Fin d, x (ix2 i l) * W₁ (ix2 k l)) + b₁ (ix2 0 k)) zeroW * W₂ (ix2 j k)) + b₂ (ix2 0 j)

/-- The perceptron as a matrix. -/
def mlp {n d h o : Nat} (x : Mat n d) (W₁ : Mat h d) (b₁ : Mat 1 h) (W₂ : Mat o h) (b₂ : Mat 1 o) : Mat n o :=
  fun y => mlpAt x W₁ b₁ W₂ b₂ (y 0) (y 1)

theorem mlp_ix2 {n d h o : Nat} (x : Mat n d) (W₁ : Mat h d) (b₁ : Mat 1 h) (W₂ : Mat o h) (b₂ : Mat 1 o)
    (i : Fin n) (j : Fin o) : mlp x W₁ b₁ W₂ b₂ (ix2 i j) = mlpAt x W₁ b₁ W₂ b₂ i j := rfl

/-! ## The linear combine of an aggregation round -/

/-- One entry of `a·Wlᵀ + bl + z·Wrᵀ`: the neighbour mean `a` and the node's own row `z`, grouped as both programs group
    it — the bias joins the first product before the second product is added. -/
def sageAt {n w : Nat} (a z : Mat n w) (Wl : Mat w w) (bl : Mat 1 w) (Wr : Mat w w) (i : Fin n) (j : Fin w) : EReal :=
  ((∑ k : Fin w, a (ix2 i k) * Wl (ix2 j k)) + bl (ix2 0 j)) + ∑ k : Fin w, z (ix2 i k) * Wr (ix2 j k)

/-- The combine as a matrix. -/
def sage {n w : Nat} (a z : Mat n w) (Wl : Mat w w) (bl : Mat 1 w) (Wr : Mat w w) : Mat n w :=
  fun y => sageAt a z Wl bl Wr (y 0) (y 1)

theorem sage_ix2 {n w : Nat} (a z : Mat n w) (Wl : Mat w w) (bl : Mat 1 w) (Wr : Mat w w) (i : Fin n) (j : Fin w) :
    sage a z Wl bl Wr (ix2 i j) = sageAt a z Wl bl Wr i j := rfl

/-! ## Batch normalisation over the node axis, then the rectifier -/

/-- One entry of `relu((x − μ)·rsqrt(v + ε)·γ + β)` with the column statistics `μ`, `v` and the affine pair `γ`, `β` given
    as one-row matrices; the products are grouped left to right as both programs group them. -/
def bnReluAt {n w : Nat} (x : Mat n w) (μ v γ β : Mat 1 w) (i : Fin n) (j : Fin w) : EReal :=
  max ((x (ix2 i j) - μ (ix2 0 j)) * Ideal.rsqrt (v (ix2 0 j) + epsW) * γ (ix2 0 j) + β (ix2 0 j)) zeroW

/-- Normalise-and-rectify as a matrix. -/
def bnRelu {n w : Nat} (x : Mat n w) (μ v γ β : Mat 1 w) : Mat n w :=
  fun y => bnReluAt x μ v γ β (y 0) (y 1)

theorem bnRelu_ix2 {n w : Nat} (x : Mat n w) (μ v γ β : Mat 1 w) (i : Fin n) (j : Fin w) :
    bnRelu x μ v γ β (ix2 i j) = bnReluAt x μ v γ β i j := rfl

/-- Column `j`'s mean over the nodes as the host computes it: the sum from the zero word, divided by the node count. -/
def colMeanAt {n w : Nat} (x : Mat n w) (j : Fin w) : EReal :=
  Ideal.div (zeroW + ∑ i : Fin n, x (ix2 i j)) nodesW

/-- The column means as a one-row matrix. -/
def colMean {n w : Nat} (x : Mat n w) : Mat 1 w := fun y => colMeanAt x (y 1)

theorem colMean_ix2 {n w : Nat} (x : Mat n w) (r : Fin 1) (j : Fin w) : colMean x (ix2 r j) = colMeanAt x j := rfl

/-- The variance's divisor as the host computes it: the node count minus the float of the integer zero (no degrees of
    freedom are removed). It is kept as that difference, never evaluated. -/
def varDen : EReal := nodesW - FloatOps.sitofp (F := Ideal) .f32 (0#32 : BitVec 32)

/-- Column `j`'s variance over the nodes as the host computes it: the sum from the zero word of the squared deviations
    from the column mean, divided by the divisor above, under the host's guard that the divisor is positive. -/
def colVarAt {n w : Nat} (x : Mat n w) (j : Fin w) : EReal :=
  Scalar.select (FloatOps.cmpf (F := Ideal) (φ := .f32) .ogt varDen zeroW)
    (Ideal.div (zeroW + ∑ i : Fin n, (x (ix2 i j) - colMeanAt x j) * (x (ix2 i j) - colMeanAt x j)) varDen) nanW

/-- The column variances as a one-row matrix. -/
def colVar {n w : Nat} (x : Mat n w) : Mat 1 w := fun y => colVarAt x (y 1)

theorem colVar_ix2 {n w : Nat} (x : Mat n w) (r : Fin 1) (j : Fin w) : colVar x (ix2 r j) = colVarAt x j := rfl

/-! ## The network -/

/-- One aggregation round with normalisation: combine the neighbour mean `A z` with `z`, then normalise each column by
    its own statistics and rectify. -/
def round {n w : Nat} (A : Mat n w → Mat n w) (z : Mat n w) (Wl : Mat w w) (bl : Mat 1 w) (Wr : Mat w w) (γ β : Mat 1 w) :
    Mat n w :=
  bnRelu (sage (A z) z Wl bl Wr) (colMean (sage (A z) z Wl bl Wr)) (colVar (sage (A z) z Wl bl Wr)) γ β

/-- The whole network: encoder, four normalised rounds, a fifth combine, decoder. `Wl k`, `bl k`, `Wr k` are round `k`'s
    weights and `γ k`, `β k` its affine pair. -/
def net {n d h w o : Nat} (A : Mat n w → Mat n w) (x : Mat n d) (W₁ : Mat h d) (b₁ : Mat 1 h) (W₂ : Mat w h) (b₂ : Mat 1 w)
    (Wl : Fin 5 → Mat w w) (bl : Fin 5 → Mat 1 w) (Wr : Fin 5 → Mat w w) (γ β : Fin 4 → Mat 1 w)
    (V₁ : Mat h w) (c₁ : Mat 1 h) (V₂ : Mat o h) (c₂ : Mat 1 o) : Mat n o :=
  let z0 := mlp x W₁ b₁ W₂ b₂
  let z1 := round A z0 (Wl 0) (bl 0) (Wr 0) (γ 0) (β 0)
  let z2 := round A z1 (Wl 1) (bl 1) (Wr 1) (γ 1) (β 1)
  let z3 := round A z2 (Wl 2) (bl 2) (Wr 2) (γ 2) (β 2)
  let z4 := round A z3 (Wl 3) (bl 3) (Wr 3) (γ 3) (β 3)
  let z5 := sage (A z4) z4 (Wl 4) (bl 4) (Wr 4)
  mlp z5 V₁ c₁ V₂ c₂

end Cert.Net

end
-- ==== Proof.KStages.lean ====
/-
  The stages the kernel program computes with host operations between its regions, each the composition of the host
  operations the program prints for it, as a function of the stage's input arrays: the edge-index rows, the
  neighbour-mean aggregation (gather along the sources, scatter-add along the targets, divide by the clamped in-degree,
  which this program computes once and keeps as a column), the parameter slices, the one-row forms of the bias vectors,
  and the column mean and variance with the unit axis kept.
-/
import proofs.«158954_j13391708029610_1_alg».proof.KernelIdeal
import Idealize.ShloMosaic.PureOps.Ideal

noncomputable section

namespace Cert.KernelIdeal.Stage

open Idealize.ShloMosaic Idealize.SL.Sem
open Facts₀ Facts

variable [Facts]

/-! ## The edge array's two rows -/

/-- The edge sources: row 0 of the edge array, as a vector. -/
def srcIdx (ei : IVec S2x600000 32) : IVec S600000 32 :=
  shapeCast S600000 (extractStridedSlice S1x600000 ![0, 0] ei slices_S2x600000_S1x600000_0_0) shapeCasts_S1x600000_S600000

/-- The edge targets: row 1 of the edge array, as a vector. -/
def dstIdx (ei : IVec S2x600000 32) : IVec S600000 32 :=
  shapeCast S600000 (extractStridedSlice S1x600000 ![1, 0] ei slices_S2x600000_S1x600000_1_0) shapeCasts_S1x600000_S600000

/-! ## The neighbour-mean aggregation -/

/-- The gather's start indices: a negative source wraps by the node count, then a unit axis is added. -/
def gatherIdx (src : IVec S600000 32) : IVec S600000x1 32 :=
  broadcastInDim S600000x1 ![0] bcast_S600000_S600000x1_0
    (select (cmpi .slt src (broadcastInDim S600000 ![] bcast_S_S600000 (constantI S_ 32 0#32)))
      (addi src (broadcastInDim S600000 ![] bcast_S_S600000 (constantI S_ 32 50000#32)))
      src)

/-- The scatter's indices: the targets with a unit axis added. -/
def scatterIdx (dst : IVec S600000 32) : IVec S600000x1 32 :=
  broadcastInDim S600000x1 ![0] bcast_S600000_S600000x1_0 dst

/-- The sum over each node's incoming edges of the source rows: gather along the sources, scatter-add into zeros along
    the targets. -/
def edgeSum (z : FVec Ideal S50000x128 .f32) (src dst : IVec S600000 32) : FVec Ideal S50000x128 .f32 :=
  Host.scatterAdd scatter_S50000x128_S600000x1_S600000x128_1_0_0_1
    (broadcastInDim S50000x128 ![] bcast_S_S50000x128 (constant (F := Ideal) S_ .f32 0x00000000#32))
    (scatterIdx dst)
    (Host.gather gather_S50000x128_S600000x1_S600000x128_1_0_n_n_0_1_1128 z (gatherIdx src))

/-- The clamped in-degree: ones scatter-added into zeros along the targets, then the maximum with one. -/
def degree (dst : IVec S600000 32) : FVec Ideal S50000 .f32 :=
  maximumf
    (Host.scatterAdd scatter_S50000_S600000x1_S600000_n_0_0_1
      (broadcastInDim S50000 ![] bcast_S_S50000 (constant (F := Ideal) S_ .f32 0x00000000#32))
      (scatterIdx dst)
      (broadcastInDim S600000 ![] bcast_S_S600000 (constant (F := Ideal) S_ .f32 0x3F800000#32)))
    (broadcastInDim S50000 ![] bcast_S_S50000 (constant (F := Ideal) S_ .f32 0x3F800000#32))

/-- The clamped in-degree as a column, the form this program keeps between its rounds. -/
def degreeCol (dst : IVec S600000 32) : FVec Ideal S50000x1 .f32 :=
  broadcastInDim S50000x1 ![0] bcast_S50000_S50000x1_0 (degree dst)

/-- The neighbour mean given the in-degree column: the edge sum divided by the column broadcast along the feature axis. -/
def aggrBy (deg : FVec Ideal S50000x1 .f32) (z : FVec Ideal S50000x128 .f32) (src dst : IVec S600000 32) :
    FVec Ideal S50000x128 .f32 :=
  Host.divf (edgeSum z src dst) (broadcastInDim S50000x128 ![0, 1] bcast_S50000x1_S50000x128_0_1 deg)

/-- The neighbour mean: the edge sum divided by the clamped in-degree. -/
def aggr (z : FVec Ideal S50000x128 .f32) (src dst : IVec S600000 32) : FVec Ideal S50000x128 .f32 :=
  aggrBy (degreeCol dst) z src dst

/-! ## The parameter slices: block k of a stacked parameter, with its unit axis dropped -/

/-- Block 0 of a stack of five square weight matrices, as a matrix. -/
def wSlice0 (X : FVec Ideal S5x128x128 .f32) : FVec Ideal S128x128 .f32 :=
  shapeCast S128x128 (extractStridedSlice S1x128x128 ![0, 0, 0] X slices_S5x128x128_S1x128x128_0_0_0) shapeCasts_S1x128x128_S128x128

/-- Block 1 of a stack of five square weight matrices, as a matrix. -/
def wSlice1 (X : FVec Ideal S5x128x128 .f32) : FVec Ideal S128x128 .f32 :=
  shapeCast S128x128 (extractStridedSlice S1x128x128 ![1, 0, 0] X slices_S5x128x128_S1x128x128_1_0_0) shapeCasts_S1x128x128_S128x128

/-- Block 2 of a stack of five square weight matrices, as a matrix. -/
def wSlice2 (X : FVec Ideal S5x128x128 .f32) : FVec Ideal S128x128 .f32 :=
  shapeCast S128x128 (extractStridedSlice S1x128x128 ![2, 0, 0] X slices_S5x128x128_S1x128x128_2_0_0) shapeCasts_S1x128x128_S128x128

/-- Block 3 of a stack of five square weight matrices, as a matrix. -/
def wSlice3 (X : FVec Ideal S5x128x128 .f32) : FVec Ideal S128x128 .f32 :=
  shapeCast S128x128 (extractStridedSlice S1x128x128 ![3, 0, 0] X slices_S5x128x128_S1x128x128_3_0_0) shapeCasts_S1x128x128_S128x128

/-- Block 4 of a stack of five square weight matrices, as a matrix. -/
def wSlice4 (X : FVec Ideal S5x128x128 .f32) : FVec Ideal S128x128 .f32 :=
  shapeCast S128x128 (extractStridedSlice S1x128x128 ![4, 0, 0] X slices_S5x128x128_S1x128x128_4_0_0) shapeCasts_S1x128x128_S128x128

/-- Row 0 of a stack of five bias rows, as a vector. -/
def bSlice0 (X : FVec Ideal S5x128 .f32) : FVec Ideal S128 .f32 :=
  shapeCast S128 (extractStridedSlice S1x128 ![0, 0] X slices_S5x128_S1x128_0_0) shapeCasts_S1x128_S128

/-- Row 1 of a stack of five bias rows, as a vector. -/
def bSlice1 (X : FVec Ideal S5x128 .f32) : FVec Ideal S128 .f32 :=
  shapeCast S128 (extractStridedSlice S1x128 ![1, 0] X slices_S5x128_S1x128_1_0) shapeCasts_S1x128_S128

/-- Row 2 of a stack of five bias rows, as a vector. -/
def bSlice2 (X : FVec Ideal S5x128 .f32) : FVec Ideal S128 .f32 :=
  shapeCast S128 (extractStridedSlice S1x128 ![2, 0] X slices_S5x128_S1x128_2_0) shapeCasts_S1x128_S128

/-- Row 3 of a stack of five bias rows, as a vector. -/
def bSlice3 (X : FVec Ideal S5x128 .f32) : FVec Ideal S128 .f32 :=
  shapeCast S128 (extractStridedSlice S1x128 ![3, 0] X slices_S5x128_S1x128_3_0) shapeCasts_S1x128_S128

/-- Row 4 of a stack of five bias rows, as a vector. -/
def bSlice4 (X : FVec Ideal S5x128 .f32) : FVec Ideal S128 .f32 :=
  shapeCast S128 (extractStridedSlice S1x128 ![4, 0] X slices_S5x128_S1x128_4_0) shapeCasts_S1x128_S128

/-- Row 0 of a stack of four normalisation rows (scale or shift), as a vector. -/
def gSlice0 (X : FVec Ideal S4x128 .f32) : FVec Ideal S128 .f32 :=
  shapeCast S128 (extractStridedSlice S1x128 ![0, 0] X slices_S4x128_S1x128_0_0) shapeCasts_S1x128_S128

/-- Row 1 of a stack of four normalisation rows (scale or shift), as a vector. -/
def gSlice1 (X : FVec Ideal S4x128 .f32) : FVec Ideal S128 .f32 :=
  shapeCast S128 (extractStridedSlice S1x128 ![1, 0] X slices_S4x128_S1x128_1_0) shapeCasts_S1x128_S128

/-- Row 2 of a stack of four normalisation rows (scale or shift), as a vector. -/
def gSlice2 (X : FVec Ideal S4x128 .f32) : FVec Ideal S128 .f32 :=
  shapeCast S128 (extractStridedSlice S1x128 ![2, 0] X slices_S4x128_S1x128_2_0) shapeCasts_S1x128_S128

/-- Row 3 of a stack of four normalisation rows (scale or shift), as a vector. -/
def gSlice3 (X : FVec Ideal S4x128 .f32) : FVec Ideal S128 .f32 :=
  shapeCast S128 (extractStridedSlice S1x128 ![3, 0] X slices_S4x128_S1x128_3_0) shapeCasts_S1x128_S128

/-! ## A vector as a one-row matrix -/

/-- A 128-vector as a 1 × 128 matrix. -/
def row128 (b : FVec Ideal S128 .f32) : FVec Ideal S1x128 .f32 := shapeCast S1x128 b shapeCasts_S128_S1x128
/-- A 256-vector as a 1 × 256 matrix. -/
def row256 (b : FVec Ideal S256 .f32) : FVec Ideal S1x256 .f32 := shapeCast S1x256 b shapeCasts_S256_S1x256
/-- A 4-vector as a 1 × 4 matrix. -/
def row4 (b : FVec Ideal S4 .f32) : FVec Ideal S1x4 .f32 := shapeCast S1x4 b shapeCasts_S4_S1x4

/-! ## The column statistics, with the unit axis kept -/

/-- The column means as a one-row matrix: the sum over the node axis from the zero word, given a unit axis, divided by
    the broadcast node count. -/
def colMeanK (lin : FVec Ideal S50000x128 .f32) : FVec Ideal S1x128 .f32 :=
  Host.divf
    (broadcastInDim S1x128 ![1] bcast_S128_S1x128_1
      (Host.reduceAdd lin (constant (F := Ideal) S_ .f32 0x00000000#32) reducesTo_S50000x128_S128_d0 h_S_))
    (broadcastInDim S1x128 ![] bcast_S_S1x128 (constant (F := Ideal) S_ .f32 0x47435000#32))

/-- The variance's divisor as a scalar array: the node count minus the float of the integer scalar d (the degrees of
    freedom removed; the program passes the integer zero). -/
def varDenK (d : IVec S_ 32) : FVec Ideal S_ .f32 :=
  subf (constant (F := Ideal) S_ .f32 0x47435000#32) (sitofp (F := Ideal) .f32 d)

/-- The deviations from the column mean, the mean broadcast back over the node axis. -/
def devK (lin : FVec Ideal S50000x128 .f32) : FVec Ideal S50000x128 .f32 :=
  subf lin (broadcastInDim S50000x128 ![0, 1] bcast_S1x128_S50000x128_0_1 (colMeanK lin))

/-- The column variances as a one-row matrix: the sum of the squared deviations, given a unit axis, divided by the
    divisor, under the guard that the divisor is positive (the not-a-number word otherwise). -/
def colVarK (lin : FVec Ideal S50000x128 .f32) (d : IVec S_ 32) : FVec Ideal S1x128 .f32 :=
  select (broadcastInDim S1x128 ![] bcast_S_S1x128 (cmpf .ogt (varDenK d) (constant (F := Ideal) S_ .f32 0x00000000#32)))
    (Host.divf
      (broadcastInDim S1x128 ![1] bcast_S128_S1x128_1
        (Host.reduceAdd (mulf (devK lin) (devK lin)) (constant (F := Ideal) S_ .f32 0x00000000#32)
          reducesTo_S50000x128_S128_d0 h_S_))
      (broadcastInDim S1x128 ![] bcast_S_S1x128 (varDenK d)))
    (broadcastInDim S1x128 ![] bcast_S_S1x128 (id (constant (F := Ideal) S_ .f32 0x7FC00000#32)))

end Cert.KernelIdeal.Stage

end
-- ==== Proof.KKeeps.lean ====
/-
  The buffers that live across the whole program: the two rows of the edge array, the in-degree column and the
  parameter arrays the later rounds still slice. They are bundled, so that each segment states once that it leaves
  them alone.
-/
import proofs.«158954_j13391708029610_1_alg».proof.Proof.Gen.KernelIdeal.Launch
import Idealize.ShloMosaic.Lib.StableHlo.Run
import Idealize.ShloMosaic.PureOps.Ideal

noncomputable section

namespace Cert.KernelIdeal.Stretch

open Cert.KernelIdeal Cert.KernelIdeal.Gen Idealize.ShloMosaic Idealize.ShloMosaic.TcCoe Idealize.SL.Sem Idealize.ShloMosaic.StableHlo

/-- The long-lived buffers hold in the second valuation what they held in the first. -/
structure Keeps (W W' : Valuation τ sig (Elt Ideal)) : Prop where
  v1 : W' (Proc.devRef .tc main_v1) = W (Proc.devRef .tc main_v1)
  v3 : W' (Proc.devRef .tc main_v3) = W (Proc.devRef .tc main_v3)
  v13 : W' (Proc.devRef .tc main_v13) = W (Proc.devRef .tc main_v13)
  a6 : W' (Proc.devRef .tc main_arg6) = W (Proc.devRef .tc main_arg6)
  a7 : W' (Proc.devRef .tc main_arg7) = W (Proc.devRef .tc main_arg7)
  a8 : W' (Proc.devRef .tc main_arg8) = W (Proc.devRef .tc main_arg8)
  a9 : W' (Proc.devRef .tc main_arg9) = W (Proc.devRef .tc main_arg9)
  a10 : W' (Proc.devRef .tc main_arg10) = W (Proc.devRef .tc main_arg10)
  a11 : W' (Proc.devRef .tc main_arg11) = W (Proc.devRef .tc main_arg11)
  a12 : W' (Proc.devRef .tc main_arg12) = W (Proc.devRef .tc main_arg12)
  a13 : W' (Proc.devRef .tc main_arg13) = W (Proc.devRef .tc main_arg13)
  a14 : W' (Proc.devRef .tc main_arg14) = W (Proc.devRef .tc main_arg14)

/-- Leaving the long-lived buffers alone composes. -/
theorem Keeps.trans {W W' W'' : Valuation τ sig (Elt Ideal)} (h : Keeps W W') (k : Keeps W' W'') : Keeps W W'' :=
  ⟨k.v1.trans h.v1, k.v3.trans h.v3, k.v13.trans h.v13, k.a6.trans h.a6, k.a7.trans h.a7, k.a8.trans h.a8, k.a9.trans h.a9, k.a10.trans h.a10, k.a11.trans h.a11, k.a12.trans h.a12, k.a13.trans h.a13, k.a14.trans h.a14⟩

end Cert.KernelIdeal.Stretch

end
-- ==== Proof.KHost0.lean ====
/-
  The first stretch of host operations: the edge array's two rows as vectors and the encoder's two bias vectors as
  one-row matrices; every argument array is left alone.
-/
import proofs.«158954_j13391708029610_1_alg».proof.Proof.Gen.KernelIdeal.Launch
import proofs.«158954_j13391708029610_1_alg».proof.Proof.KStages
import proofs.«158954_j13391708029610_1_alg».proof.Proof.KKeeps
import Idealize.ShloMosaic.Lib.StableHlo.Run
import Idealize.ShloMosaic.PureOps.Ideal

noncomputable section

namespace Cert.KernelIdeal.Stretch

open Cert.KernelIdeal Cert.KernelIdeal.Gen Idealize.ShloMosaic Idealize.ShloMosaic.TcCoe Idealize.SL.Sem Idealize.ShloMosaic.StableHlo

/-- The edge sources. -/
theorem h0_src (W : Valuation τ sig (Elt Ideal)) :
    after (hostOps0 (F := Ideal)) W (Proc.devRef .tc main_v1) = Stage.srcIdx (W (Proc.devRef .tc main_arg1)) := by after_results_simp <;> rfl

/-- The edge targets. -/
theorem h0_dst (W : Valuation τ sig (Elt Ideal)) :
    after (hostOps0 (F := Ideal)) W (Proc.devRef .tc main_v3) = Stage.dstIdx (W (Proc.devRef .tc main_arg1)) := by after_results_simp <;> rfl

/-- The encoder's first bias as a row. -/
theorem h0_b1 (W : Valuation τ sig (Elt Ideal)) :
    after (hostOps0 (F := Ideal)) W (Proc.devRef .tc main_v4) = Stage.row256 (W (Proc.devRef .tc main_arg3)) := by after_results_simp <;> rfl

/-- The encoder's second bias as a row. -/
theorem h0_b2 (W : Valuation τ sig (Elt Ideal)) :
    after (hostOps0 (F := Ideal)) W (Proc.devRef .tc main_v5) = Stage.row128 (W (Proc.devRef .tc main_arg5)) := by after_results_simp <;> rfl

/-- Argument 0 is left alone. -/
theorem h0_keep_a0 (W : Valuation τ sig (Elt Ideal)) :
    after (hostOps0 (F := Ideal)) W (Proc.devRef .tc main_arg0) = W (Proc.devRef .tc main_arg0) := by after_results_simp <;> rfl

/-- Argument 2 is left alone. -/
theorem h0_keep_a2 (W : Valuation τ sig (Elt Ideal)) :
    after (hostOps0 (F := Ideal)) W (Proc.devRef .tc main_arg2) = W (Proc.devRef .tc main_arg2) := by after_results_simp <;> rfl

/-- Argument 4 is left alone. -/
theorem h0_keep_a4 (W : Valuation τ sig (Elt Ideal)) :
    after (hostOps0 (F := Ideal)) W (Proc.devRef .tc main_arg4) = W (Proc.devRef .tc main_arg4) := by after_results_simp <;> rfl

/-- Argument 6 is left alone. -/
theorem h0_keep_a6 (W : Valuation τ sig (Elt Ideal)) :
    after (hostOps0 (F := Ideal)) W (Proc.devRef .tc main_arg6) = W (Proc.devRef .tc main_arg6) := by after_results_simp <;> rfl

/-- Argument 7 is left alone. -/
theorem h0_keep_a7 (W : Valuation τ sig (Elt Ideal)) :
    after (hostOps0 (F := Ideal)) W (Proc.devRef .tc main_arg7) = W (Proc.devRef .tc main_arg7) := by after_results_simp <;> rfl

/-- Argument 8 is left alone. -/
theorem h0_keep_a8 (W : Valuation τ sig (Elt Ideal)) :
    after (hostOps0 (F := Ideal)) W (Proc.devRef .tc main_arg8) = W (Proc.devRef .tc main_arg8) := by after_results_simp <;> rfl

/-- Argument 9 is left alone. -/
theorem h0_keep_a9 (W : Valuation τ sig (Elt Ideal)) :
    after (hostOps0 (F := Ideal)) W (Proc.devRef .tc main_arg9) = W (Proc.devRef .tc main_arg9) := by after_results_simp <;> rfl

/-- Argument 10 is left alone. -/
theorem h0_keep_a10 (W : Valuation τ sig (Elt Ideal)) :
    after (hostOps0 (F := Ideal)) W (Proc.devRef .tc main_arg10) = W (Proc.devRef .tc main_arg10) := by after_results_simp <;> rfl

/-- Argument 11 is left alone. -/
theorem h0_keep_a11 (W : Valuation τ sig (Elt Ideal)) :
    after (hostOps0 (F := Ideal)) W (Proc.devRef .tc main_arg11) = W (Proc.devRef .tc main_arg11) := by after_results_simp <;> rfl

/-- Argument 12 is left alone. -/
theorem h0_keep_a12 (W : Valuation τ sig (Elt Ideal)) :
    after (hostOps0 (F := Ideal)) W (Proc.devRef .tc main_arg12) = W (Proc.devRef .tc main_arg12) := by after_results_simp <;> rfl

/-- Argument 13 is left alone. -/
theorem h0_keep_a13 (W : Valuation τ sig (Elt Ideal)) :
    after (hostOps0 (F := Ideal)) W (Proc.devRef .tc main_arg13) = W (Proc.devRef .tc main_arg13) := by after_results_simp <;> rfl

/-- Argument 14 is left alone. -/
theorem h0_keep_a14 (W : Valuation τ sig (Elt Ideal)) :
    after (hostOps0 (F := Ideal)) W (Proc.devRef .tc main_arg14) = W (Proc.devRef .tc main_arg14) := by after_results_simp <;> rfl

end Cert.KernelIdeal.Stretch

end
-- ==== Proof.KRound0.lean ====
/-
  Round 0's stretches of host operations, read at the buffers the regions take: the neighbour mean of the current
  node features, the round's weight slices and bias row, the column mean and variance of the combine's result, the round's scale and shift rows; each stretch leaves the long-lived buffers and the arrays a
  later segment of the round still reads alone.
-/
import proofs.«158954_j13391708029610_1_alg».proof.Proof.Gen.KernelIdeal.Launch
import proofs.«158954_j13391708029610_1_alg».proof.Proof.KStages
import proofs.«158954_j13391708029610_1_alg».proof.Proof.KKeeps
import Idealize.ShloMosaic.Lib.StableHlo.Run
import Idealize.ShloMosaic.PureOps.Ideal

noncomputable section

namespace Cert.KernelIdeal.Stretch

open Cert.KernelIdeal Cert.KernelIdeal.Gen Idealize.ShloMosaic Idealize.ShloMosaic.TcCoe Idealize.SL.Sem Idealize.ShloMosaic.StableHlo

/-- The clamped in-degree as a column, computed once here. -/
theorem r0_deg (W : Valuation τ sig (Elt Ideal)) :
    after (hostOps1 (F := Ideal)) W (Proc.devRef .tc main_v13) = Stage.degreeCol (W (Proc.devRef .tc main_v3)) := by after_results_simp <;> rfl

/-- The neighbour mean of the encoder's output. -/
theorem r0_am (W : Valuation τ sig (Elt Ideal)) :
    after (hostOps1 (F := Ideal)) W (Proc.devRef .tc main_v25) = Stage.aggr (W (Proc.devRef .tc main_v6)) (W (Proc.devRef .tc main_v1)) (W (Proc.devRef .tc main_v3)) := by after_results_simp <;> rfl

/-- Left alone by the stretch. -/
theorem r0_A_keep_v1 (W : Valuation τ sig (Elt Ideal)) :
    after (hostOps1 (F := Ideal)) W (Proc.devRef .tc main_v1) = W (Proc.devRef .tc main_v1) := by after_results_simp <;> rfl

/-- Left alone by the stretch. -/
theorem r0_A_keep_v3 (W : Valuation τ sig (Elt Ideal)) :
    after (hostOps1 (F := Ideal)) W (Proc.devRef .tc main_v3) = W (Proc.devRef .tc main_v3) := by after_results_simp <;> rfl

/-- Left alone by the stretch. -/
theorem r0_A_keep_a6 (W : Valuation τ sig (Elt Ideal)) :
    after (hostOps1 (F := Ideal)) W (Proc.devRef .tc main_arg6) = W (Proc.devRef .tc main_arg6) := by after_results_simp <;> rfl

/-- Left alone by the stretch. -/
theorem r0_A_keep_a7 (W : Valuation τ sig (Elt Ideal)) :
    after (hostOps1 (F := Ideal)) W (Proc.devRef .tc main_arg7) = W (Proc.devRef .tc main_arg7) := by after_results_simp <;> rfl

/-- Left alone by the stretch. -/
theorem r0_A_keep_a8 (W : Valuation τ sig (Elt Ideal)) :
    after (hostOps1 (F := Ideal)) W (Proc.devRef .tc main_arg8) = W (Proc.devRef .tc main_arg8) := by after_results_simp <;> rfl

/-- Left alone by the stretch. -/
theorem r0_A_keep_a9 (W : Valuation τ sig (Elt Ideal)) :
    after (hostOps1 (F := Ideal)) W (Proc.devRef .tc main_arg9) = W (Proc.devRef .tc main_arg9) := by after_results_simp <;> rfl

/-- Left alone by the stretch. -/
theorem r0_A_keep_a10 (W : Valuation τ sig (Elt Ideal)) :
    after (hostOps1 (F := Ideal)) W (Proc.devRef .tc main_arg10) = W (Proc.devRef .tc main_arg10) := by after_results_simp <;> rfl

/-- Left alone by the stretch. -/
theorem r0_A_keep_a11 (W : Valuation τ sig (Elt Ideal)) :
    after (hostOps1 (F := Ideal)) W (Proc.devRef .tc main_arg11) = W (Proc.devRef .tc main_arg11) := by after_results_simp <;> rfl

/-- Left alone by the stretch. -/
theorem r0_A_keep_a12 (W : Valuation τ sig (Elt Ideal)) :
    after (hostOps1 (F := Ideal)) W (Proc.devRef .tc main_arg12) = W (Proc.devRef .tc main_arg12) := by after_results_simp <;> rfl

/-- Left alone by the stretch. -/
theorem r0_A_keep_a13 (W : Valuation τ sig (Elt Ideal)) :
    after (hostOps1 (F := Ideal)) W (Proc.devRef .tc main_arg13) = W (Proc.devRef .tc main_arg13) := by after_results_simp <;> rfl

/-- Left alone by the stretch. -/
theorem r0_A_keep_a14 (W : Valuation τ sig (Elt Ideal)) :
    after (hostOps1 (F := Ideal)) W (Proc.devRef .tc main_arg14) = W (Proc.devRef .tc main_arg14) := by after_results_simp <;> rfl

/-- The round's neighbour weight. -/
theorem r0_wl (W : Valuation τ sig (Elt Ideal)) :
    after (hostOps1 (F := Ideal)) W (Proc.devRef .tc main_v27) = Stage.wSlice0 (W (Proc.devRef .tc main_arg6)) := by after_results_simp <;> rfl

/-- The round's bias as a row. -/
theorem r0_bl (W : Valuation τ sig (Elt Ideal)) :
    after (hostOps1 (F := Ideal)) W (Proc.devRef .tc main_v32) = Stage.row128 (Stage.bSlice0 (W (Proc.devRef .tc main_arg7))) := by after_results_simp <;> rfl

/-- The round's root weight. -/
theorem r0_wr (W : Valuation τ sig (Elt Ideal)) :
    after (hostOps1 (F := Ideal)) W (Proc.devRef .tc main_v31) = Stage.wSlice0 (W (Proc.devRef .tc main_arg8)) := by after_results_simp <;> rfl

/-- The round's input features are left alone. -/
theorem r0_A_keep_z (W : Valuation τ sig (Elt Ideal)) :
    after (hostOps1 (F := Ideal)) W (Proc.devRef .tc main_v6) = W (Proc.devRef .tc main_v6) := by after_results_simp <;> rfl

/-- The column means of the combine's result. -/
theorem r0_mu (W : Valuation τ sig (Elt Ideal)) :
    after (hostOps2 (F := Ideal)) W (Proc.devRef .tc main_v37) = Stage.colMeanK (W (Proc.devRef .tc main_v33)) := by after_results_simp <;> rfl

/-- The integer zero the variance takes as its degrees of freedom. -/
theorem r0_c6 (W : Valuation τ sig (Elt Ideal)) :
    after (hostOps2 (F := Ideal)) W (Proc.devRef .tc main_c_6) = constantI S_ 32 0#32 := by after_results_simp <;> rfl

/-- The combine's result is left alone. -/
theorem r0_M_keep_lin (W : Valuation τ sig (Elt Ideal)) :
    after (hostOps2 (F := Ideal)) W (Proc.devRef .tc main_v33) = W (Proc.devRef .tc main_v33) := by after_results_simp <;> rfl

/-- The stretch leaves the long-lived buffers alone. -/
theorem r0_M_keeps (W : Valuation τ sig (Elt Ideal)) : Keeps W (after (hostOps2 (F := Ideal)) W) :=
  ⟨by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl⟩

/-- The column variances of the combine's result. -/
theorem r0_var (W : Valuation τ sig (Elt Ideal)) :
    after (hostOps2_1 (F := Ideal)) W (Proc.devRef .tc main_v38) = Stage.colVarK (W (Proc.devRef .tc main_v33)) (W (Proc.devRef .tc main_c_6)) := by after_results_simp <;> rfl

/-- The combine's result is left alone. -/
theorem r0_V_keep_lin (W : Valuation τ sig (Elt Ideal)) :
    after (hostOps2_1 (F := Ideal)) W (Proc.devRef .tc main_v33) = W (Proc.devRef .tc main_v33) := by after_results_simp <;> rfl

/-- The column means are left alone. -/
theorem r0_V_keep_mu (W : Valuation τ sig (Elt Ideal)) :
    after (hostOps2_1 (F := Ideal)) W (Proc.devRef .tc main_v37) = W (Proc.devRef .tc main_v37) := by after_results_simp <;> rfl

/-- The stretch leaves the long-lived buffers alone. -/
theorem r0_V_keeps (W : Valuation τ sig (Elt Ideal)) : Keeps W (after (hostOps2_1 (F := Ideal)) W) :=
  ⟨by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl⟩

/-- The round's scale as a row. -/
theorem r0_g (W : Valuation τ sig (Elt Ideal)) :
    after (hostOps2_2 (F := Ideal)) W (Proc.devRef .tc main_v41) = Stage.row128 (Stage.gSlice0 (W (Proc.devRef .tc main_arg9))) := by after_results_simp <;> rfl

/-- The round's shift as a row. -/
theorem r0_b (W : Valuation τ sig (Elt Ideal)) :
    after (hostOps2_2 (F := Ideal)) W (Proc.devRef .tc main_v44) = Stage.row128 (Stage.gSlice0 (W (Proc.devRef .tc main_arg10))) := by after_results_simp <;> rfl

/-- The combine's result is left alone. -/
theorem r0_G_keep_lin (W : Valuation τ sig (Elt Ideal)) :
    after (hostOps2_2 (F := Ideal)) W (Proc.devRef .tc main_v33) = W (Proc.devRef .tc main_v33) := by after_results_simp <;> rfl

/-- The column means are left alone. -/
theorem r0_G_keep_mu (W : Valuation τ sig (Elt Ideal)) :
    after (hostOps2_2 (F := Ideal)) W (Proc.devRef .tc main_v37) = W (Proc.devRef .tc main_v37) := by after_results_simp <;> rfl

/-- The column variances are left alone. -/
theorem r0_G_keep_var (W : Valuation τ sig (Elt Ideal)) :
    after (hostOps2_2 (F := Ideal)) W (Proc.devRef .tc main_v38) = W (Proc.devRef .tc main_v38) := by after_results_simp <;> rfl

/-- The stretch leaves the long-lived buffers alone. -/
theorem r0_G_keeps (W : Valuation τ sig (Elt Ideal)) : Keeps W (after (hostOps2_2 (F := Ideal)) W) :=
  ⟨by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl⟩

end Cert.KernelIdeal.Stretch

end
-- ==== Proof.KRound1.lean ====
/-
  Round 1's stretches of host operations, read at the buffers the regions take: the neighbour mean of the current
  node features, the round's weight slices and bias row, the column mean and variance of the combine's result, the round's scale and shift rows; each stretch leaves the long-lived buffers and the arrays a
  later segment of the round still reads alone.
-/
import proofs.«158954_j13391708029610_1_alg».proof.Proof.Gen.KernelIdeal.Launch
import proofs.«158954_j13391708029610_1_alg».proof.Proof.KStages
import proofs.«158954_j13391708029610_1_alg».proof.Proof.KKeeps
import Idealize.ShloMosaic.Lib.StableHlo.Run
import Idealize.ShloMosaic.PureOps.Ideal

noncomputable section

namespace Cert.KernelIdeal.Stretch

open Cert.KernelIdeal Cert.KernelIdeal.Gen Idealize.ShloMosaic Idealize.ShloMosaic.TcCoe Idealize.SL.Sem Idealize.ShloMosaic.StableHlo

/-- The neighbour mean of the round's input features, by the kept in-degree column. -/
theorem r1_am (W : Valuation τ sig (Elt Ideal)) :
    after (hostOps3 (F := Ideal)) W (Proc.devRef .tc main_v57) = Stage.aggrBy (W (Proc.devRef .tc main_v13)) (W (Proc.devRef .tc main_v45)) (W (Proc.devRef .tc main_v1)) (W (Proc.devRef .tc main_v3)) := by after_results_simp <;> rfl

/-- The stretch leaves the long-lived buffers alone. -/
theorem r1_A_keeps (W : Valuation τ sig (Elt Ideal)) : Keeps W (after (hostOps3 (F := Ideal)) W) :=
  ⟨by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl⟩

/-- The round's neighbour weight. -/
theorem r1_wl (W : Valuation τ sig (Elt Ideal)) :
    after (hostOps3 (F := Ideal)) W (Proc.devRef .tc main_v59) = Stage.wSlice1 (W (Proc.devRef .tc main_arg6)) := by after_results_simp <;> rfl

/-- The round's bias as a row. -/
theorem r1_bl (W : Valuation τ sig (Elt Ideal)) :
    after (hostOps3 (F := Ideal)) W (Proc.devRef .tc main_v64) = Stage.row128 (Stage.bSlice1 (W (Proc.devRef .tc main_arg7))) := by after_results_simp <;> rfl

/-- The round's root weight. -/
theorem r1_wr (W : Valuation τ sig (Elt Ideal)) :
    after (hostOps3 (F := Ideal)) W (Proc.devRef .tc main_v63) = Stage.wSlice1 (W (Proc.devRef .tc main_arg8)) := by after_results_simp <;> rfl

/-- The round's input features are left alone. -/
theorem r1_A_keep_z (W : Valuation τ sig (Elt Ideal)) :
    after (hostOps3 (F := Ideal)) W (Proc.devRef .tc main_v45) = W (Proc.devRef .tc main_v45) := by after_results_simp <;> rfl

/-- The column means of the combine's result. -/
theorem r1_mu (W : Valuation τ sig (Elt Ideal)) :
    after (hostOps4 (F := Ideal)) W (Proc.devRef .tc main_v69) = Stage.colMeanK (W (Proc.devRef .tc main_v65)) := by after_results_simp <;> rfl

/-- The integer zero the variance takes as its degrees of freedom. -/
theorem r1_c6 (W : Valuation τ sig (Elt Ideal)) :
    after (hostOps4 (F := Ideal)) W (Proc.devRef .tc main_c_12) = constantI S_ 32 0#32 := by after_results_simp <;> rfl

/-- The combine's result is left alone. -/
theorem r1_M_keep_lin (W : Valuation τ sig (Elt Ideal)) :
    after (hostOps4 (F := Ideal)) W (Proc.devRef .tc main_v65) = W (Proc.devRef .tc main_v65) := by after_results_simp <;> rfl

/-- The stretch leaves the long-lived buffers alone. -/
theorem r1_M_keeps (W : Valuation τ sig (Elt Ideal)) : Keeps W (after (hostOps4 (F := Ideal)) W) :=
  ⟨by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl⟩

/-- The column variances of the combine's result. -/
theorem r1_var (W : Valuation τ sig (Elt Ideal)) :
    after (hostOps4_1 (F := Ideal)) W (Proc.devRef .tc main_v70) = Stage.colVarK (W (Proc.devRef .tc main_v65)) (W (Proc.devRef .tc main_c_12)) := by after_results_simp <;> rfl

/-- The combine's result is left alone. -/
theorem r1_V_keep_lin (W : Valuation τ sig (Elt Ideal)) :
    after (hostOps4_1 (F := Ideal)) W (Proc.devRef .tc main_v65) = W (Proc.devRef .tc main_v65) := by after_results_simp <;> rfl

/-- The column means are left alone. -/
theorem r1_V_keep_mu (W : Valuation τ sig (Elt Ideal)) :
    after (hostOps4_1 (F := Ideal)) W (Proc.devRef .tc main_v69) = W (Proc.devRef .tc main_v69) := by after_results_simp <;> rfl

/-- The stretch leaves the long-lived buffers alone. -/
theorem r1_V_keeps (W : Valuation τ sig (Elt Ideal)) : Keeps W (after (hostOps4_1 (F := Ideal)) W) :=
  ⟨by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl⟩

/-- The round's scale as a row. -/
theorem r1_g (W : Valuation τ sig (Elt Ideal)) :
    after (hostOps4_2 (F := Ideal)) W (Proc.devRef .tc main_v73) = Stage.row128 (Stage.gSlice1 (W (Proc.devRef .tc main_arg9))) := by after_results_simp <;> rfl

/-- The round's shift as a row. -/
theorem r1_b (W : Valuation τ sig (Elt Ideal)) :
    after (hostOps4_2 (F := Ideal)) W (Proc.devRef .tc main_v76) = Stage.row128 (Stage.gSlice1 (W (Proc.devRef .tc main_arg10))) := by after_results_simp <;> rfl

/-- The combine's result is left alone. -/
theorem r1_G_keep_lin (W : Valuation τ sig (Elt Ideal)) :
    after (hostOps4_2 (F := Ideal)) W (Proc.devRef .tc main_v65) = W (Proc.devRef .tc main_v65) := by after_results_simp <;> rfl

/-- The column means are left alone. -/
theorem r1_G_keep_mu (W : Valuation τ sig (Elt Ideal)) :
    after (hostOps4_2 (F := Ideal)) W (Proc.devRef .tc main_v69) = W (Proc.devRef .tc main_v69) := by after_results_simp <;> rfl

/-- The column variances are left alone. -/
theorem r1_G_keep_var (W : Valuation τ sig (Elt Ideal)) :
    after (hostOps4_2 (F := Ideal)) W (Proc.devRef .tc main_v70) = W (Proc.devRef .tc main_v70) := by after_results_simp <;> rfl

/-- The stretch leaves the long-lived buffers alone. -/
theorem r1_G_keeps (W : Valuation τ sig (Elt Ideal)) : Keeps W (after (hostOps4_2 (F := Ideal)) W) :=
  ⟨by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl⟩

end Cert.KernelIdeal.Stretch

end
-- ==== Proof.KRound2.lean ====
/-
  Round 2's stretches of host operations, read at the buffers the regions take: the neighbour mean of the current
  node features, the round's weight slices and bias row, the column mean and variance of the combine's result, the round's scale and shift rows; each stretch leaves the long-lived buffers and the arrays a
  later segment of the round still reads alone.
-/
import proofs.«158954_j13391708029610_1_alg».proof.Proof.Gen.KernelIdeal.Launch
import proofs.«158954_j13391708029610_1_alg».proof.Proof.KStages
import proofs.«158954_j13391708029610_1_alg».proof.Proof.KKeeps
import Idealize.ShloMosaic.Lib.StableHlo.Run
import Idealize.ShloMosaic.PureOps.Ideal

noncomputable section

namespace Cert.KernelIdeal.Stretch

open Cert.KernelIdeal Cert.KernelIdeal.Gen Idealize.ShloMosaic Idealize.ShloMosaic.TcCoe Idealize.SL.Sem Idealize.ShloMosaic.StableHlo

/-- The neighbour mean of the round's input features, by the kept in-degree column. -/
theorem r2_am (W : Valuation τ sig (Elt Ideal)) :
    after (hostOps5 (F := Ideal)) W (Proc.devRef .tc main_v89) = Stage.aggrBy (W (Proc.devRef .tc main_v13)) (W (Proc.devRef .tc main_v77)) (W (Proc.devRef .tc main_v1)) (W (Proc.devRef .tc main_v3)) := by after_results_simp <;> rfl

/-- The stretch leaves the long-lived buffers alone. -/
theorem r2_A_keeps (W : Valuation τ sig (Elt Ideal)) : Keeps W (after (hostOps5 (F := Ideal)) W) :=
  ⟨by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl⟩

/-- The round's neighbour weight. -/
theorem r2_wl (W : Valuation τ sig (Elt Ideal)) :
    after (hostOps5 (F := Ideal)) W (Proc.devRef .tc main_v91) = Stage.wSlice2 (W (Proc.devRef .tc main_arg6)) := by after_results_simp <;> rfl

/-- The round's bias as a row. -/
theorem r2_bl (W : Valuation τ sig (Elt Ideal)) :
    after (hostOps5 (F := Ideal)) W (Proc.devRef .tc main_v96) = Stage.row128 (Stage.bSlice2 (W (Proc.devRef .tc main_arg7))) := by after_results_simp <;> rfl

/-- The round's root weight. -/
theorem r2_wr (W : Valuation τ sig (Elt Ideal)) :
    after (hostOps5 (F := Ideal)) W (Proc.devRef .tc main_v95) = Stage.wSlice2 (W (Proc.devRef .tc main_arg8)) := by after_results_simp <;> rfl

/-- The round's input features are left alone. -/
theorem r2_A_keep_z (W : Valuation τ sig (Elt Ideal)) :
    after (hostOps5 (F := Ideal)) W (Proc.devRef .tc main_v77) = W (Proc.devRef .tc main_v77) := by after_results_simp <;> rfl

/-- The column means of the combine's result. -/
theorem r2_mu (W : Valuation τ sig (Elt Ideal)) :
    after (hostOps6 (F := Ideal)) W (Proc.devRef .tc main_v101) = Stage.colMeanK (W (Proc.devRef .tc main_v97)) := by after_results_simp <;> rfl

/-- The integer zero the variance takes as its degrees of freedom. -/
theorem r2_c6 (W : Valuation τ sig (Elt Ideal)) :
    after (hostOps6 (F := Ideal)) W (Proc.devRef .tc main_c_18) = constantI S_ 32 0#32 := by after_results_simp <;> rfl

/-- The combine's result is left alone. -/
theorem r2_M_keep_lin (W : Valuation τ sig (Elt Ideal)) :
    after (hostOps6 (F := Ideal)) W (Proc.devRef .tc main_v97) = W (Proc.devRef .tc main_v97) := by after_results_simp <;> rfl

/-- The stretch leaves the long-lived buffers alone. -/
theorem r2_M_keeps (W : Valuation τ sig (Elt Ideal)) : Keeps W (after (hostOps6 (F := Ideal)) W) :=
  ⟨by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl⟩

/-- The column variances of the combine's result. -/
theorem r2_var (W : Valuation τ sig (Elt Ideal)) :
    after (hostOps6_1 (F := Ideal)) W (Proc.devRef .tc main_v102) = Stage.colVarK (W (Proc.devRef .tc main_v97)) (W (Proc.devRef .tc main_c_18)) := by after_results_simp <;> rfl

/-- The combine's result is left alone. -/
theorem r2_V_keep_lin (W : Valuation τ sig (Elt Ideal)) :
    after (hostOps6_1 (F := Ideal)) W (Proc.devRef .tc main_v97) = W (Proc.devRef .tc main_v97) := by after_results_simp <;> rfl

/-- The column means are left alone. -/
theorem r2_V_keep_mu (W : Valuation τ sig (Elt Ideal)) :
    after (hostOps6_1 (F := Ideal)) W (Proc.devRef .tc main_v101) = W (Proc.devRef .tc main_v101) := by after_results_simp <;> rfl

/-- The stretch leaves the long-lived buffers alone. -/
theorem r2_V_keeps (W : Valuation τ sig (Elt Ideal)) : Keeps W (after (hostOps6_1 (F := Ideal)) W) :=
  ⟨by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl⟩

/-- The round's scale as a row. -/
theorem r2_g (W : Valuation τ sig (Elt Ideal)) :
    after (hostOps6_2 (F := Ideal)) W (Proc.devRef .tc main_v105) = Stage.row128 (Stage.gSlice2 (W (Proc.devRef .tc main_arg9))) := by after_results_simp <;> rfl

/-- The round's shift as a row. -/
theorem r2_b (W : Valuation τ sig (Elt Ideal)) :
    after (hostOps6_2 (F := Ideal)) W (Proc.devRef .tc main_v108) = Stage.row128 (Stage.gSlice2 (W (Proc.devRef .tc main_arg10))) := by after_results_simp <;> rfl

/-- The combine's result is left alone. -/
theorem r2_G_keep_lin (W : Valuation τ sig (Elt Ideal)) :
    after (hostOps6_2 (F := Ideal)) W (Proc.devRef .tc main_v97) = W (Proc.devRef .tc main_v97) := by after_results_simp <;> rfl

/-- The column means are left alone. -/
theorem r2_G_keep_mu (W : Valuation τ sig (Elt Ideal)) :
    after (hostOps6_2 (F := Ideal)) W (Proc.devRef .tc main_v101) = W (Proc.devRef .tc main_v101) := by after_results_simp <;> rfl

/-- The column variances are left alone. -/
theorem r2_G_keep_var (W : Valuation τ sig (Elt Ideal)) :
    after (hostOps6_2 (F := Ideal)) W (Proc.devRef .tc main_v102) = W (Proc.devRef .tc main_v102) := by after_results_simp <;> rfl

/-- The stretch leaves the long-lived buffers alone. -/
theorem r2_G_keeps (W : Valuation τ sig (Elt Ideal)) : Keeps W (after (hostOps6_2 (F := Ideal)) W) :=
  ⟨by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl⟩

end Cert.KernelIdeal.Stretch

end
-- ==== Proof.KRound3.lean ====
/-
  Round 3's stretches of host operations, read at the buffers the regions take: the neighbour mean of the current
  node features, the round's weight slices and bias row, the column mean and variance of the combine's result, the round's scale and shift rows; each stretch leaves the long-lived buffers and the arrays a
  later segment of the round still reads alone.
-/
import proofs.«158954_j13391708029610_1_alg».proof.Proof.Gen.KernelIdeal.Launch
import proofs.«158954_j13391708029610_1_alg».proof.Proof.KStages
import proofs.«158954_j13391708029610_1_alg».proof.Proof.KKeeps
import Idealize.ShloMosaic.Lib.StableHlo.Run
import Idealize.ShloMosaic.PureOps.Ideal

noncomputable section

namespace Cert.KernelIdeal.Stretch

open Cert.KernelIdeal Cert.KernelIdeal.Gen Idealize.ShloMosaic Idealize.ShloMosaic.TcCoe Idealize.SL.Sem Idealize.ShloMosaic.StableHlo

/-- The neighbour mean of the round's input features, by the kept in-degree column. -/
theorem r3_am (W : Valuation τ sig (Elt Ideal)) :
    after (hostOps7 (F := Ideal)) W (Proc.devRef .tc main_v121) = Stage.aggrBy (W (Proc.devRef .tc main_v13)) (W (Proc.devRef .tc main_v109)) (W (Proc.devRef .tc main_v1)) (W (Proc.devRef .tc main_v3)) := by after_results_simp <;> rfl

/-- The stretch leaves the long-lived buffers alone. -/
theorem r3_A_keeps (W : Valuation τ sig (Elt Ideal)) : Keeps W (after (hostOps7 (F := Ideal)) W) :=
  ⟨by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl⟩

/-- The round's neighbour weight. -/
theorem r3_wl (W : Valuation τ sig (Elt Ideal)) :
    after (hostOps7 (F := Ideal)) W (Proc.devRef .tc main_v123) = Stage.wSlice3 (W (Proc.devRef .tc main_arg6)) := by after_results_simp <;> rfl

/-- The round's bias as a row. -/
theorem r3_bl (W : Valuation τ sig (Elt Ideal)) :
    after (hostOps7 (F := Ideal)) W (Proc.devRef .tc main_v128) = Stage.row128 (Stage.bSlice3 (W (Proc.devRef .tc main_arg7))) := by after_results_simp <;> rfl

/-- The round's root weight. -/
theorem r3_wr (W : Valuation τ sig (Elt Ideal)) :
    after (hostOps7 (F := Ideal)) W (Proc.devRef .tc main_v127) = Stage.wSlice3 (W (Proc.devRef .tc main_arg8)) := by after_results_simp <;> rfl

/-- The round's input features are left alone. -/
theorem r3_A_keep_z (W : Valuation τ sig (Elt Ideal)) :
    after (hostOps7 (F := Ideal)) W (Proc.devRef .tc main_v109) = W (Proc.devRef .tc main_v109) := by after_results_simp <;> rfl

/-- The column means of the combine's result. -/
theorem r3_mu (W : Valuation τ sig (Elt Ideal)) :
    after (hostOps8 (F := Ideal)) W (Proc.devRef .tc main_v133) = Stage.colMeanK (W (Proc.devRef .tc main_v129)) := by after_results_simp <;> rfl

/-- The integer zero the variance takes as its degrees of freedom. -/
theorem r3_c6 (W : Valuation τ sig (Elt Ideal)) :
    after (hostOps8 (F := Ideal)) W (Proc.devRef .tc main_c_24) = constantI S_ 32 0#32 := by after_results_simp <;> rfl

/-- The combine's result is left alone. -/
theorem r3_M_keep_lin (W : Valuation τ sig (Elt Ideal)) :
    after (hostOps8 (F := Ideal)) W (Proc.devRef .tc main_v129) = W (Proc.devRef .tc main_v129) := by after_results_simp <;> rfl

/-- The stretch leaves the long-lived buffers alone. -/
theorem r3_M_keeps (W : Valuation τ sig (Elt Ideal)) : Keeps W (after (hostOps8 (F := Ideal)) W) :=
  ⟨by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl⟩

/-- The column variances of the combine's result. -/
theorem r3_var (W : Valuation τ sig (Elt Ideal)) :
    after (hostOps8_1 (F := Ideal)) W (Proc.devRef .tc main_v134) = Stage.colVarK (W (Proc.devRef .tc main_v129)) (W (Proc.devRef .tc main_c_24)) := by after_results_simp <;> rfl

/-- The combine's result is left alone. -/
theorem r3_V_keep_lin (W : Valuation τ sig (Elt Ideal)) :
    after (hostOps8_1 (F := Ideal)) W (Proc.devRef .tc main_v129) = W (Proc.devRef .tc main_v129) := by after_results_simp <;> rfl

/-- The column means are left alone. -/
theorem r3_V_keep_mu (W : Valuation τ sig (Elt Ideal)) :
    after (hostOps8_1 (F := Ideal)) W (Proc.devRef .tc main_v133) = W (Proc.devRef .tc main_v133) := by after_results_simp <;> rfl

/-- The stretch leaves the long-lived buffers alone. -/
theorem r3_V_keeps (W : Valuation τ sig (Elt Ideal)) : Keeps W (after (hostOps8_1 (F := Ideal)) W) :=
  ⟨by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl⟩

/-- The round's scale as a row. -/
theorem r3_g (W : Valuation τ sig (Elt Ideal)) :
    after (hostOps8_2 (F := Ideal)) W (Proc.devRef .tc main_v137) = Stage.row128 (Stage.gSlice3 (W (Proc.devRef .tc main_arg9))) := by after_results_simp <;> rfl

/-- The round's shift as a row. -/
theorem r3_b (W : Valuation τ sig (Elt Ideal)) :
    after (hostOps8_2 (F := Ideal)) W (Proc.devRef .tc main_v140) = Stage.row128 (Stage.gSlice3 (W (Proc.devRef .tc main_arg10))) := by after_results_simp <;> rfl

/-- The combine's result is left alone. -/
theorem r3_G_keep_lin (W : Valuation τ sig (Elt Ideal)) :
    after (hostOps8_2 (F := Ideal)) W (Proc.devRef .tc main_v129) = W (Proc.devRef .tc main_v129) := by after_results_simp <;> rfl

/-- The column means are left alone. -/
theorem r3_G_keep_mu (W : Valuation τ sig (Elt Ideal)) :
    after (hostOps8_2 (F := Ideal)) W (Proc.devRef .tc main_v133) = W (Proc.devRef .tc main_v133) := by after_results_simp <;> rfl

/-- The column variances are left alone. -/
theorem r3_G_keep_var (W : Valuation τ sig (Elt Ideal)) :
    after (hostOps8_2 (F := Ideal)) W (Proc.devRef .tc main_v134) = W (Proc.devRef .tc main_v134) := by after_results_simp <;> rfl

/-- The stretch leaves the long-lived buffers alone. -/
theorem r3_G_keeps (W : Valuation τ sig (Elt Ideal)) : Keeps W (after (hostOps8_2 (F := Ideal)) W) :=
  ⟨by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl⟩

end Cert.KernelIdeal.Stretch

end
-- ==== Proof.KRound4.lean ====
/-
  Round 4's stretches of host operations, read at the buffers the regions take: the neighbour mean of the current
  node features, the round's weight slices and bias row, and the decoder's bias rows; each stretch leaves the long-lived buffers and the arrays a
  later segment of the round still reads alone.
-/
import proofs.«158954_j13391708029610_1_alg».proof.Proof.Gen.KernelIdeal.Launch
import proofs.«158954_j13391708029610_1_alg».proof.Proof.KStages
import proofs.«158954_j13391708029610_1_alg».proof.Proof.KKeeps
import Idealize.ShloMosaic.Lib.StableHlo.Run
import Idealize.ShloMosaic.PureOps.Ideal

noncomputable section

namespace Cert.KernelIdeal.Stretch

open Cert.KernelIdeal Cert.KernelIdeal.Gen Idealize.ShloMosaic Idealize.ShloMosaic.TcCoe Idealize.SL.Sem Idealize.ShloMosaic.StableHlo

/-- The neighbour mean of the round's input features, by the kept in-degree column. -/
theorem r4_am (W : Valuation τ sig (Elt Ideal)) :
    after (hostOps9 (F := Ideal)) W (Proc.devRef .tc main_v153) = Stage.aggrBy (W (Proc.devRef .tc main_v13)) (W (Proc.devRef .tc main_v141)) (W (Proc.devRef .tc main_v1)) (W (Proc.devRef .tc main_v3)) := by after_results_simp <;> rfl

/-- The stretch leaves the long-lived buffers alone. -/
theorem r4_A_keeps (W : Valuation τ sig (Elt Ideal)) : Keeps W (after (hostOps9 (F := Ideal)) W) :=
  ⟨by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl⟩

/-- The round's neighbour weight. -/
theorem r4_wl (W : Valuation τ sig (Elt Ideal)) :
    after (hostOps9 (F := Ideal)) W (Proc.devRef .tc main_v155) = Stage.wSlice4 (W (Proc.devRef .tc main_arg6)) := by after_results_simp <;> rfl

/-- The round's bias as a row. -/
theorem r4_bl (W : Valuation τ sig (Elt Ideal)) :
    after (hostOps9 (F := Ideal)) W (Proc.devRef .tc main_v160) = Stage.row128 (Stage.bSlice4 (W (Proc.devRef .tc main_arg7))) := by after_results_simp <;> rfl

/-- The round's root weight. -/
theorem r4_wr (W : Valuation τ sig (Elt Ideal)) :
    after (hostOps9 (F := Ideal)) W (Proc.devRef .tc main_v159) = Stage.wSlice4 (W (Proc.devRef .tc main_arg8)) := by after_results_simp <;> rfl

/-- The round's input features are left alone. -/
theorem r4_A_keep_z (W : Valuation τ sig (Elt Ideal)) :
    after (hostOps9 (F := Ideal)) W (Proc.devRef .tc main_v141) = W (Proc.devRef .tc main_v141) := by after_results_simp <;> rfl

/-- The decoder's first bias as a row. -/
theorem h10_c1 (W : Valuation τ sig (Elt Ideal)) :
    after (hostOps10 (F := Ideal)) W (Proc.devRef .tc main_v162) = Stage.row256 (W (Proc.devRef .tc main_arg12)) := by after_results_simp <;> rfl

/-- The decoder's second bias as a row. -/
theorem h10_c2 (W : Valuation τ sig (Elt Ideal)) :
    after (hostOps10 (F := Ideal)) W (Proc.devRef .tc main_v163) = Stage.row4 (W (Proc.devRef .tc main_arg14)) := by after_results_simp <;> rfl

/-- Left alone by the last stretch. -/
theorem h10_keep_v161 (W : Valuation τ sig (Elt Ideal)) :
    after (hostOps10 (F := Ideal)) W (Proc.devRef .tc main_v161) = W (Proc.devRef .tc main_v161) := by after_results_simp <;> rfl

/-- Left alone by the last stretch. -/
theorem h10_keep_a11 (W : Valuation τ sig (Elt Ideal)) :
    after (hostOps10 (F := Ideal)) W (Proc.devRef .tc main_arg11) = W (Proc.devRef .tc main_arg11) := by after_results_simp <;> rfl

/-- Left alone by the last stretch. -/
theorem h10_keep_a13 (W : Valuation τ sig (Elt Ideal)) :
    after (hostOps10 (F := Ideal)) W (Proc.devRef .tc main_arg13) = W (Proc.devRef .tc main_arg13) := by after_results_simp <;> rfl

end Cert.KernelIdeal.Stretch

end
-- ==== Proof.MatmulEntry.lean ====
/-
  A matrix product read at one entry.

  The matrix unit's product of an m×k block by a k×n block into a zero accumulator, contracting the left operand's
  columns against the right operand's rows, is at entry (a, b) the sum over the contracted coordinate c of
  A(a, c)·B(c, b): over the extended reals nothing is rounded, the accumulator's zero word is the number 0, and the
  contraction index — a one-coordinate index — is re-indexed by its coordinate.
-/
import Idealize.ShloMosaic.Lib.ValueIdx
import Idealize.ShloMosaic.PureOps.Ideal.Laws

noncomputable section

namespace Cert.KernelIdeal.RegionValue

open Idealize.ShloMosaic Idealize.ShloMosaic.ValueIdx

/-- Entry (a, b) of the product of an m×k by a k×n matrix into the zero accumulator. `w` is the record's
    well-formedness, which a program states. -/
theorem matmul_zero_entry {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B
        (constant (F := Ideal) ⟨2, ![m, n]⟩ .f32 0x00000000#32) (ix2 a b)
      = ∑ c : Fin k, A (ix2 a c) * B (ix2 c b) := by
  show FloatOps.matmul _ prec A B (constant (F := Ideal) ⟨2, ![m, n]⟩ .f32 0x00000000#32) (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.KernelIdeal.RegionValue

end
-- ==== Proof.Region0.lean ====
/-
  Region 0 of the kernel program: the encoder perceptron 7 → 256 → 128, tiled over ten blocks of 5000 rows.

  Each grid point t loads rows 5000·t … 5000·t + 4999 of the input matrix together with the two weight matrices and
  the two one-row biases, and stores relu(x·W₁ᵀ + b₁)·W₂ᵀ + b₂ into the same rows of the result: entry (p, q) of the
  block is the sum over the hidden units k of max (∑ l, x(p, l)·W₁(k, l) + b₁(k)) 0 · W₂(q, k), plus b₂(q). Row p of
  block t is row 5000·t + p of the whole input and the weights and biases are whole at every point, so every block is a
  restriction of one function of the whole arrays: the specification's perceptron matrix. The ten blocks cover all
  50000 rows (row r lies in block r / 5000), hence the array the region leaves is that matrix.
-/
import proofs.«158954_j13391708029610_1_alg».proof.Proof.NetSpec
import proofs.«158954_j13391708029610_1_alg».proof.Proof.Gen.KernelIdeal.Frame
import proofs.«158954_j13391708029610_1_alg».proof.Proof.MatmulEntry
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.RegionValue

open Cert.KernelIdeal Cert.KernelIdeal.Gen Idealize.ShloMosaic Idealize.ShloMosaic.TcCoe Idealize.ShloMosaic.ValueIdx
open Idealize.SL.Sem
open Idealize.ShloMosaic.Pipeline (Dat)

/-- Entry (p, k) of the 5000×7 input block times the 7×256 transposed first weight into the zero accumulator. -/
theorem mlp0_matmul1 (A : FVec Ideal S5000x7 .bf16) (B : FVec Ideal S7x256 .bf16) (p : Fin 5000) (k : Fin 256) :
    matmul dot_S5000x7_S7x256_S5000x256_1_0_0_1_n_n none A B (constant (F := Ideal) S5000x256 .f32 0x00000000#32) (ix2 p k)
      = ∑ l : Fin 7, A (ix2 p l) * B (ix2 l k) :=
  matmul_zero_entry Facts₀.dot_S5000x7_S7x256_S5000x256_1_0_0_1_n_n_wf none A B p k

/-- Entry (p, q) of the 5000×256 hidden block times the 256×128 transposed second weight into the zero accumulator. -/
theorem mlp0_matmul2 (A : FVec Ideal S5000x256 .bf16) (B : FVec Ideal S256x128 .bf16) (p : Fin 5000) (q : Fin 128) :
    matmul dot_S5000x256_S256x128_S5000x128_1_0_0_1_n_n none A B (constant (F := Ideal) S5000x128 .f32 0x00000000#32) (ix2 p q)
      = ∑ k : Fin 256, A (ix2 p k) * B (ix2 k q) :=
  matmul_zero_entry Facts₀.dot_S5000x256_S256x128_S5000x128_1_0_0_1_n_n_wf none A B p q

/-- The transposed first weight read at (l, k) is the weight at (k, l). -/
theorem mlp0_transpose1 (W : FVec Ideal S256x7 .bf16) (l : Fin 7) (k : Fin 256) :
    transpose S7x256 [1, 0] W Facts₀.transposes_S256x7_p1_0_S7x256 (ix2 l k) = W (ix2 k l) :=
  transpose_ix2_apply W _ l k

/-- The transposed second weight read at (k, q) is the weight at (q, k). -/
theorem mlp0_transpose2 (W : FVec Ideal S128x256 .bf16) (k : Fin 256) (q : Fin 128) :
    transpose S256x128 [1, 0] W Facts₀.transposes_S128x256_p1_0_S256x128 (ix2 k q) = W (ix2 q k) :=
  transpose_ix2_apply W _ k q

/-- The stored value at entry (p, q) of a block: hidden unit k sees the input block's row p against row k of the first
    weight plus the first bias at k, rectified; the output is the hidden row against row q of the second weight plus
    the second bias at q. The shape casts and format changes are identities, each transposed weight is read with its
    coordinates swapped, and each bias broadcast reads its row at the column. -/
theorem mlp0_entry (x : Vec Ideal S5000x7 .f32) (W1 : Vec Ideal S256x7 .f32) (b1 : Vec Ideal S1x256 .f32)
    (W2 : Vec Ideal S128x256 .f32) (b2 : Vec Ideal S1x128 .f32) (p : Fin 5000) (q : Fin 128) :
    k0_pay1 (F := Ideal) x W1 b1 W2 b2 (ix2 p q)
      = (∑ k : Fin 256, max ((∑ l : Fin 7, x (ix2 p l) * W1 (ix2 k l)) + b1 (ix2 0 k)) (Ideal.ofBits .f32 0x00000000#32)
            * W2 (ix2 q k)) + b2 (ix2 0 q) := by
  unfold k0_pay1
  simp only [shapeCast_self]
  simp only [addf_apply, maximumf_apply, mlp0_matmul1, mlp0_matmul2, truncf_apply, broadcast_apply,
    broadcastTo_1b_ab_apply]
  refine congrArg (· + b2 (ix2 0 q)) (Finset.sum_congr rfl fun k _ => ?_)
  refine congrArg₂ (· * ·) (congrArg (max · (Ideal.ofBits .f32 0x00000000#32))
    (congrArg (· + b1 (ix2 0 k)) (Finset.sum_congr rfl fun l _ => ?_))) (mlp0_transpose2 _ k q)
  exact congrArg (x (ix2 p l) * ·) (mlp0_transpose1 _ l k)

theorem zero_offsets0 : (![0, 0] : Fin 2 → Nat) = fun _ => 0 := funext fun a => by fin_cases a <;> rfl

/-- What the body leaves in the result's staging buffer: its one store covers the buffer and its loads read the whole
    staging buffers, so the buffer holds the stored value of the loaded blocks. -/
theorem mlp0_out (x : Vec Ideal S5000x7 .f32) (W1 : Vec Ideal S256x7 .f32) (b1 : Vec Ideal S1x256 .f32)
    (W2 : Vec Ideal S128x256 .f32) (b2 : Vec Ideal S1x128 .f32) :
    out0_5 (F := Ideal) x W1 b1 W2 b2 = k0_pay1 (F := Ideal) x W1 b1 W2 b2 := by
  unfold out0_5
  rw [View.canon_unit_zero zero_offsets0]
  simp only [View.ld_unit_zero (S := S5000x7) zero_offsets0,
    View.ld_unit_zero (S := S256x7) zero_offsets0,
    View.ld_unit_zero (S := S1x256) zero_offsets0,
    View.ld_unit_zero (S := S128x256) zero_offsets0,
    View.ld_unit_zero (S := S1x128) zero_offsets0]

/-- A block entry against the whole arrays: if row (j 0) of the loaded input block is row (i 0) of the whole input,
    the loaded first weight and first bias are the whole ones, and row (j 1) of the loaded second weight and column
    (j 1) of the loaded second bias are row and column (i 1) of the whole ones, then what the body leaves at j is the
    specification's matrix at i. -/
theorem mlp0_block (X : Cert.Net.Mat 50000 7) (W1' : Cert.Net.Mat 256 7) (B1 : Cert.Net.Mat 1 256)
    (W2' : Cert.Net.Mat 128 256) (B2 : Cert.Net.Mat 1 128)
    (x : Vec Ideal S5000x7 .f32) (W1 : Vec Ideal S256x7 .f32) (b1 : Vec Ideal S1x256 .f32)
    (W2 : Vec Ideal S128x256 .f32) (b2 : Vec Ideal S1x128 .f32)
    (j : S5000x128.Idx) (i : S50000x128.Idx)
    (h0 : ∀ p : Fin 5000, p.val = (j 0).val → ∀ l : Fin 7, x (ix2 p l) = X (ix2 (i 0) l))
    (h1 : ∀ (k : Fin 256) (l : Fin 7), W1 (ix2 k l) = W1' (ix2 k l))
    (h2 : ∀ k : Fin 256, b1 (ix2 0 k) = B1 (ix2 0 k))
    (h3 : ∀ q : Fin 128, q.val = (j 1).val → ∀ k : Fin 256, W2 (ix2 q k) = W2' (ix2 (i 1) k))
    (h4 : ∀ q : Fin 128, q.val = (j 1).val → b2 (ix2 0 q) = B2 (ix2 0 (i 1))) :
    out0_5 (F := Ideal) x W1 b1 W2 b2 j = Cert.Net.mlp X W1' B1 W2' B2 i := by
  obtain ⟨p, q, rfl⟩ : ∃ (p : Fin 5000) (q : Fin 128), j = ix2 p q := ⟨j 0, j 1, eq_ix2 j⟩
  rw [mlp0_out, mlp0_entry, h4 q rfl]
  simp only [h0 p rfl, h1, h2, h3 q rfl]
  rfl

/-- The block indices over the grid: the input window and the result window sit at block (t, 0) at point t, the
    weight and bias windows at block (0, 0). -/
theorem blockIdx0 : ∀ t : Fin cfg0.N,
    win0_0.index t (0 : Fin 2) = win0_5.index t (0 : Fin 2) ∧ win0_0.index t (1 : Fin 2) = 0
    ∧ win0_5.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Every row block 0 … 9 is some point's. -/
theorem blockOnto0 : ∀ b : Fin 10, ∃ t : Fin cfg0.N, win0_5.index t = ![b.val, 0] :=
  (by decide +kernel : ∀ b : Fin 10, ∃ t : Fin grid0.N, win0_5.index t = ![b.val, 0])

section
variable (V : (c : Dev nD) → (b : Ref sig .tc) → Buf (Elt Ideal) ((c : Thread nD τ).loc b))

set_option maxHeartbeats 1000000 in
/-- What point t writes back is block t of the specification's matrix of the arrays the region finds. -/
theorem mlp0_flushed (c : Dev nD) (t : Fin cfg0.N) :
    (dat0 (F := Ideal) V c).flushed 5 t = ((cfg0.win 5).blk t).view.read (Elt Ideal)
      (Cert.Net.mlp (n := 50000) (d := 7) (h := 256) (o := 128) (V c (Pipeline.arrRef spec0 0))
        (V c (Pipeline.arrRef spec0 1)) (V c (Pipeline.arrRef spec0 2)) (V c (Pipeline.arrRef spec0 3))
        (V c (Pipeline.arrRef spec0 4))) := by
  obtain ⟨e0, e1, e2, e3, e4, e5, e6, e7, e8, e9, e10⟩ := blockIdx0 t
  refine (congrArg ((cfg0.win 5).cut (grid0.coords t)) (after0_5 (F := Ideal) V c t)).trans ?_
  funext j
  refine mlp0_block (V c (Pipeline.arrRef spec0 0)) (V c (Pipeline.arrRef spec0 1))
    (V c (Pipeline.arrRef spec0 2)) (V c (Pipeline.arrRef spec0 3)) (V c (Pipeline.arrRef spec0 4))
    (iblk0 V c 0 t) (iblk0 V c 1 t) (iblk0 V c 2 t) (iblk0 V c 3 t) (iblk0 V c 4 t) j
    (((cfg0.win 5).blk t).view.emb j) ?_ ?_ ?_ ?_ ?_
  · intro p hp l
    show V c (Pipeline.arrRef spec0 0) (((cfg0.win 0).blk t).view.emb (ix2 p l)) = _
    refine congrArg _ (funext fun a => Fin.ext ?_)
    match a with
    | ⟨0, _⟩ => show win0_0.index t (0 : Fin 2) * 5000 + 1 * p.val = win0_5.index t (0 : Fin 2) * 5000 + 1 * (j 0).val; omega
    | ⟨1, _⟩ => show win0_0.index t (1 : Fin 2) * 7 + 1 * l.val = l.val; omega
  · intro k l
    show V c (Pipeline.arrRef spec0 1) (((cfg0.win 1).blk t).view.emb (ix2 k l)) = _
    refine congrArg _ (funext fun a => Fin.ext ?_)
    match a with
    | ⟨0, _⟩ => show win0_1.index t (0 : Fin 2) * 256 + 1 * k.val = k.val; omega
    | ⟨1, _⟩ => show win0_1.index t (1 : Fin 2) * 7 + 1 * l.val = l.val; omega
  · intro k
    show V c (Pipeline.arrRef spec0 2) (((cfg0.win 2).blk t).view.emb (ix2 0 k)) = _
    refine congrArg _ (funext fun a => Fin.ext ?_)
    match a with
    | ⟨0, _⟩ => show win0_2.index t (0 : Fin 2) * 1 + 1 * 0 = 0; omega
    | ⟨1, _⟩ => show win0_2.index t (1 : Fin 2) * 256 + 1 * k.val = k.val; omega
  · intro q hq k
    show V c (Pipeline.arrRef spec0 3) (((cfg0.win 3).blk t).view.emb (ix2 q k)) = _
    refine congrArg _ (funext fun a => Fin.ext ?_)
    match a with
    | ⟨0, _⟩ => show win0_3.index t (0 : Fin 2) * 128 + 1 * q.val = win0_5.index t (1 : Fin 2) * 128 + 1 * (j 1).val; omega
    | ⟨1, _⟩ => show win0_3.index t (1 : Fin 2) * 256 + 1 * k.val = k.val; omega
  · intro q hq
    show V c (Pipeline.arrRef spec0 4) (((cfg0.win 4).blk t).view.emb (ix2 0 q)) = _
    refine congrArg _ (funext fun a => Fin.ext ?_)
    match a with
    | ⟨0, _⟩ => show win0_4.index t (0 : Fin 2) * 1 + 1 * 0 = 0; omega
    | ⟨1, _⟩ => show win0_4.index t (1 : Fin 2) * 128 + 1 * q.val = win0_5.index t (1 : Fin 2) * 128 + 1 * (j 1).val; omega

/-- An index of the result array lies in point t's block iff each coordinate lies in the block's range on its axis. -/
theorem mlp0_mem_blk (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v6).slice (win0_5.rect t)).set ↔ _
  rw [View.set_slice_whole, Rect.mem_set_unit]
  exact Iff.rfl

/-- Every index of the result array lies in some point's block: row r in the block of point r / 5000. -/
theorem mlp0_cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := blockOnto0 ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mlp0_mem_blk]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 128 ≤ (i 1).val ∧ (i 1).val < win0_5.index t (1 : Fin 2) * 128 + 128
    omega

/-- The array region 0 leaves: the specification's perceptron matrix of the five arrays it stages (input, first
    weight, first bias row, second weight, second bias row). -/
theorem region0_value (c : Dev nD) :
    (dat0 (F := Ideal) V c).arrAt 5 cfg0.N
      = Cert.Net.mlp (n := 50000) (d := 7) (h := 256) (o := 128) (V c (Pipeline.arrRef spec0 0))
        (V c (Pipeline.arrRef spec0 1)) (V c (Pipeline.arrRef spec0 2)) (V c (Pipeline.arrRef spec0 3))
        (V c (Pipeline.arrRef spec0 4)) :=
  (dat0 (F := Ideal) V c).arrAt_eq_of_cover 5 _ (fun t _ => mlp0_flushed V c t) mlp0_cover

end

end Cert.KernelIdeal.RegionValue

end
-- ==== Proof.Region1.lean ====
/-
  Region 1 of the kernel program: the linear combine of an aggregation round, tiled over ten blocks of 5000 rows.

  Each grid point t loads rows 5000·t … 5000·t + 4999 of the neighbour-mean matrix and of the node matrix, the two
  128×128 weight matrices and the one-row bias, and stores (a·Wlᵀ + bl) + z·Wrᵀ into the same rows of the result:
  entry (p, q) of the block is the sum over c of a(p, c)·Wl(q, c), plus bl(q), plus the sum over c of z(p, c)·Wr(q, c).
  Row p of block t is row 5000·t + p of the whole matrices and the weights and bias are whole at every point, so every
  block is a restriction of one function of the whole arrays: the specification's combine matrix. The ten blocks cover
  all 50000 rows (row r lies in block r / 5000), hence the array the region leaves is that matrix.
-/
import proofs.«158954_j13391708029610_1_alg».proof.Proof.NetSpec
import proofs.«158954_j13391708029610_1_alg».proof.Proof.Gen.KernelIdeal.Frame
import proofs.«158954_j13391708029610_1_alg».proof.Proof.MatmulEntry
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.RegionValue

open Cert.KernelIdeal Cert.KernelIdeal.Gen Idealize.ShloMosaic Idealize.ShloMosaic.TcCoe Idealize.ShloMosaic.ValueIdx
open Idealize.SL.Sem
open Idealize.ShloMosaic.Pipeline (Dat)

/-- Entry (p, q) of a 5000×128 block times a 128×128 block into the zero accumulator. -/
theorem sage1_matmul (A : FVec Ideal S5000x128 .bf16) (B : FVec Ideal S128x128 .bf16) (p : Fin 5000) (q : Fin 128) :
    matmul dot_S5000x128_S128x128_S5000x128_1_0_0_1_n_n none A B (constant (F := Ideal) S5000x128 .f32 0x00000000#32) (ix2 p q)
      = ∑ c : Fin 128, A (ix2 p c) * B (ix2 c q) :=
  matmul_zero_entry Facts₀.dot_S5000x128_S128x128_S5000x128_1_0_0_1_n_n_wf none A B p q

/-- A transposed 128×128 weight block read at (c, q) is the block at (q, c). -/
theorem sage1_transpose (W : FVec Ideal S128x128 .bf16) (c q : Fin 128) :
    transpose S128x128 [1, 0] W Facts₀.transposes_S128x128_p1_0_S128x128 (ix2 c q) = W (ix2 q c) :=
  transpose_ix2_apply W _ c q

/-- The stored value at entry (p, q) of a block: the neighbour-mean block's row p against row q of the first weight
    matrix, plus the bias row at q, plus the node block's row p against row q of the second weight matrix. The shape
    casts and format changes are identities, each transposed weight read at (c, q) is the weight at (q, c), and the
    bias broadcast reads its row at column q. -/
theorem sage1_entry (a z : Vec Ideal S5000x128 .f32) (Wl Wr : Vec Ideal S128x128 .f32) (bl : Vec Ideal S1x128 .f32)
    (p : Fin 5000) (q : Fin 128) :
    k1_pay1 (F := Ideal) a z Wl Wr bl (ix2 p q)
      = ((∑ c : Fin 128, a (ix2 p c) * Wl (ix2 q c)) + bl (ix2 0 q)) + ∑ c : Fin 128, z (ix2 p c) * Wr (ix2 q c) := by
  unfold k1_pay1
  simp only [shapeCast_self]
  simp only [addf_apply, sage1_matmul, truncf_apply, broadcastTo_1b_ab_apply]
  refine congrArg₂ (· + ·) (congrArg₂ (· + ·) (Finset.sum_congr rfl fun c _ => ?_) rfl) (Finset.sum_congr rfl fun c _ => ?_)
  · exact congrArg (a (ix2 p c) * ·) (sage1_transpose _ c q)
  · exact congrArg (z (ix2 p c) * ·) (sage1_transpose _ c q)

/-- A block entry against the whole arrays: if row (j 0) of the two loaded row blocks is row (i 0) of the whole
    matrices, and row (j 1) of each loaded weight and column (j 1) of the loaded bias are row and column (i 1) of the
    whole ones, then the stored value at j is the specification's matrix at i. -/
theorem sage1_block (A Z : Cert.Net.Mat 50000 128) (WL : Cert.Net.Mat 128 128) (BL : Cert.Net.Mat 1 128)
    (WR : Cert.Net.Mat 128 128)
    (a z : Vec Ideal S5000x128 .f32) (Wl Wr : Vec Ideal S128x128 .f32) (bl : Vec Ideal S1x128 .f32)
    (j : S5000x128.Idx) (i : S50000x128.Idx)
    (h0 : ∀ p : Fin 5000, p.val = (j 0).val → ∀ c : Fin 128, a (ix2 p c) = A (ix2 (i 0) c))
    (h1 : ∀ p : Fin 5000, p.val = (j 0).val → ∀ c : Fin 128, z (ix2 p c) = Z (ix2 (i 0) c))
    (h2 : ∀ q : Fin 128, q.val = (j 1).val → ∀ c : Fin 128, Wl (ix2 q c) = WL (ix2 (i 1) c))
    (h3 : ∀ q : Fin 128, q.val = (j 1).val → bl (ix2 0 q) = BL (ix2 0 (i 1)))
    (h4 : ∀ q : Fin 128, q.val = (j 1).val → ∀ c : Fin 128, Wr (ix2 q c) = WR (ix2 (i 1) c)) :
    k1_pay1 (F := Ideal) a z Wl Wr bl j = Cert.Net.sage A Z WL BL WR i := by
  obtain ⟨p, q, rfl⟩ : ∃ (p : Fin 5000) (q : Fin 128), j = ix2 p q := ⟨j 0, j 1, eq_ix2 j⟩
  rw [sage1_entry, h3 q rfl]
  simp only [h0 p rfl, h1 p rfl, h2 q rfl, h4 q rfl]
  rfl

theorem zero_offsets1 : (![0, 0] : Fin 2 → Nat) = fun _ => 0 := funext fun a => by fin_cases a <;> rfl

/-- What the body leaves in the result window's buffer is the stored value of the loaded blocks: the one store fills
    the whole buffer and every load reads a whole block. -/
theorem out1_5_eq (x0 x1 : Vec Ideal S5000x128 .f32) (x2 : Vec Ideal S128x128 .f32) (x3 : Vec Ideal S1x128 .f32)
    (x4 : Vec Ideal S128x128 .f32) : out1_5 (F := Ideal) x0 x1 x2 x3 x4 = k1_pay1 (F := Ideal) x0 x1 x2 x4 x3 := by
  unfold out1_5
  rw [View.canon_unit_zero zero_offsets1]
  simp only [View.ld_unit_zero (S := S5000x128) zero_offsets1, View.ld_unit_zero (S := S128x128) zero_offsets1,
    View.ld_unit_zero (S := S1x128) zero_offsets1]

/-- The block indices over the grid: the two row-blocked windows and the result window sit at block (t, 0) at point
    t, the weight and bias windows at block (0, 0). -/
theorem blockIdx1 : ∀ t : Fin cfg1.N,
    win1_0.index t (0 : Fin 2) = win1_5.index t (0 : Fin 2) ∧ win1_0.index t (1 : Fin 2) = 0
    ∧ win1_5.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- Every row block 0 … 9 is some point's. -/
theorem blockOnto1 : ∀ b : Fin 10, ∃ t : Fin cfg1.N, win1_5.index t = ![b.val, 0] :=
  (by decide +kernel : ∀ b : Fin 10, ∃ t : Fin grid1.N, win1_5.index t = ![b.val, 0])

section
variable (V : (c : Dev nD) → (b : Ref sig .tc) → Buf (Elt Ideal) ((c : Thread nD τ).loc b))

set_option maxHeartbeats 1000000 in
/-- What point t writes back is block t of the specification's matrix of the arrays the region finds. -/
theorem sage1_flushed (c : Dev nD) (t : Fin cfg1.N) :
    (dat1 (F := Ideal) V c).flushed 5 t = ((cfg1.win 5).blk t).view.read (Elt Ideal)
      (Cert.Net.sage (n := 50000) (w := 128) (V c (Pipeline.arrRef spec1 0)) (V c (Pipeline.arrRef spec1 1))
        (V c (Pipeline.arrRef spec1 2)) (V c (Pipeline.arrRef spec1 3)) (V c (Pipeline.arrRef spec1 4))) := by
  show (cfg1.win 5).cut (grid1.coords t) ((dat1 (F := Ideal) V c).after 5 t) = _
  refine (congrArg ((cfg1.win 5).cut (grid1.coords t)) ((after1_5 V c t).trans
    (out1_5_eq (iblk1 V c 0 t) (iblk1 V c 1 t) (iblk1 V c 2 t) (iblk1 V c 3 t) (iblk1 V c 4 t)))).trans ?_
  obtain ⟨e0, e1, e2, e3, e4, e5, e6, e7, e8, e9, e10⟩ := blockIdx1 t
  funext j
  show k1_pay1 (F := Ideal) (iblk1 V c 0 t) (iblk1 V c 1 t) (iblk1 V c 2 t) (iblk1 V c 4 t) (iblk1 V c 3 t) j
    = Cert.Net.sage (n := 50000) (w := 128) (V c (Pipeline.arrRef spec1 0)) (V c (Pipeline.arrRef spec1 1))
        (V c (Pipeline.arrRef spec1 2)) (V c (Pipeline.arrRef spec1 3)) (V c (Pipeline.arrRef spec1 4))
        (((cfg1.win 5).blk t).view.emb j)
  refine sage1_block (V c (Pipeline.arrRef spec1 0)) (V c (Pipeline.arrRef spec1 1))
    (V c (Pipeline.arrRef spec1 2)) (V c (Pipeline.arrRef spec1 3)) (V c (Pipeline.arrRef spec1 4))
    (iblk1 V c 0 t) (iblk1 V c 1 t) (iblk1 V c 2 t) (iblk1 V c 4 t) (iblk1 V c 3 t) j
    (((cfg1.win 5).blk t).view.emb j) ?_ ?_ ?_ ?_ ?_
  · intro p hp c'
    show V c (Pipeline.arrRef spec1 0) (((cfg1.win 0).blk t).view.emb (ix2 p c')) = _
    refine congrArg _ (funext fun a => Fin.ext ?_)
    match a with
    | ⟨0, _⟩ => show win1_0.index t (0 : Fin 2) * 5000 + 1 * p.val = win1_5.index t (0 : Fin 2) * 5000 + 1 * (j 0).val; omega
    | ⟨1, _⟩ => show win1_0.index t (1 : Fin 2) * 128 + 1 * c'.val = c'.val; omega
  · intro p hp c'
    show V c (Pipeline.arrRef spec1 1) (((cfg1.win 1).blk t).view.emb (ix2 p c')) = _
    refine congrArg _ (funext fun a => Fin.ext ?_)
    match a with
    | ⟨0, _⟩ => show win1_1.index t (0 : Fin 2) * 5000 + 1 * p.val = win1_5.index t (0 : Fin 2) * 5000 + 1 * (j 0).val; omega
    | ⟨1, _⟩ => show win1_1.index t (1 : Fin 2) * 128 + 1 * c'.val = c'.val; omega
  · intro q hq c'
    show V c (Pipeline.arrRef spec1 2) (((cfg1.win 2).blk t).view.emb (ix2 q c')) = _
    refine congrArg _ (funext fun a => Fin.ext ?_)
    match a with
    | ⟨0, _⟩ => show win1_2.index t (0 : Fin 2) * 128 + 1 * q.val = win1_5.index t (1 : Fin 2) * 128 + 1 * (j 1).val; omega
    | ⟨1, _⟩ => show win1_2.index t (1 : Fin 2) * 128 + 1 * c'.val = c'.val; omega
  · intro q hq
    show V c (Pipeline.arrRef spec1 3) (((cfg1.win 3).blk t).view.emb (ix2 0 q)) = _
    refine congrArg _ (funext fun a => Fin.ext ?_)
    match a with
    | ⟨0, _⟩ => show win1_3.index t (0 : Fin 2) * 1 + 1 * 0 = 0; omega
    | ⟨1, _⟩ => show win1_3.index t (1 : Fin 2) * 128 + 1 * q.val = win1_5.index t (1 : Fin 2) * 128 + 1 * (j 1).val; omega
  · intro q hq c'
    show V c (Pipeline.arrRef spec1 4) (((cfg1.win 4).blk t).view.emb (ix2 q c')) = _
    refine congrArg _ (funext fun a => Fin.ext ?_)
    match a with
    | ⟨0, _⟩ => show win1_4.index t (0 : Fin 2) * 128 + 1 * q.val = win1_5.index t (1 : Fin 2) * 128 + 1 * (j 1).val; omega
    | ⟨1, _⟩ => show win1_4.index t (1 : Fin 2) * 128 + 1 * c'.val = c'.val; omega

/-- An index of the result array lies in point t's block iff each coordinate lies in the block's range on its axis. -/
theorem sage1_mem_blk (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v33).slice (win1_5.rect t)).set ↔ _
  rw [View.set_slice_whole, Rect.mem_set_unit]
  exact Iff.rfl

/-- Every index of the result array lies in some point's block: row r in the block of point r / 5000. -/
theorem sage1_cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := blockOnto1 ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [sage1_mem_blk]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 128 ≤ (i 1).val ∧ (i 1).val < win1_5.index t (1 : Fin 2) * 128 + 128
    omega

/-- The array region 1 leaves: the specification's combine matrix of the five arrays it stages (neighbour mean,
    node matrix, first weight, bias row, second weight). -/
theorem region1_value (c : Dev nD) :
    (dat1 (F := Ideal) V c).arrAt 5 cfg1.N
      = Cert.Net.sage (n := 50000) (w := 128) (V c (Pipeline.arrRef spec1 0)) (V c (Pipeline.arrRef spec1 1))
        (V c (Pipeline.arrRef spec1 2)) (V c (Pipeline.arrRef spec1 3)) (V c (Pipeline.arrRef spec1 4)) :=
  (dat1 (F := Ideal) V c).arrAt_eq_of_cover 5 _ (fun t _ => sage1_flushed V c t) sage1_cover

end

end Cert.KernelIdeal.RegionValue

end
-- ==== Proof.Region2.lean ====
/-
  Region 2 of the kernel program: batch normalisation over the node axis followed by the rectifier, tiled over ten
  blocks of 5000 rows.

  Each grid point t loads rows 5000·t … 5000·t + 4999 of the activation matrix together with the four one-row
  matrices (column mean, column variance, scale, shift), and stores, entry by entry,
  max ((x − μ)·rsqrt(v + ε)·γ + β) 0 into the same rows of the result. An entry (p, q) of block t is entry
  (5000·t + p, q) of the whole matrix, and the one-row operands are read at column q whatever the block, so every block
  is a restriction of one function of the whole arrays: the specification's normalise-and-rectify matrix. The ten
  blocks cover all 50000 rows (row r lies in block r / 5000), hence the array the region leaves is that matrix.
-/
import proofs.«158954_j13391708029610_1_alg».proof.Proof.NetSpec
import proofs.«158954_j13391708029610_1_alg».proof.Proof.Gen.KernelIdeal.Frame
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.RegionValue

open Cert.KernelIdeal Cert.KernelIdeal.Gen Idealize.ShloMosaic Idealize.ShloMosaic.TcCoe Idealize.ShloMosaic.ValueIdx
open Idealize.SL.Sem
open Idealize.ShloMosaic.Pipeline (Dat)

/-- The stored value at entry (p, q) of a block: the specification's entry function of the loaded block and the four
    loaded rows. The shape casts are identities, each row broadcast reads its row at column q, and the remaining
    operations act entry by entry. -/
theorem bn2_entry (x0 : Vec Ideal S5000x128 .f32) (x1 x2 x3 x4 : Vec Ideal S1x128 .f32) (p : Fin 5000) (q : Fin 128) :
    k2_pay1 (F := Ideal) x0 x1 x2 x3 x4 (ix2 p q)
      = max ((x0 (ix2 p q) - x1 (ix2 0 q)) * Ideal.rsqrt (x2 (ix2 0 q) + Ideal.ofBits .f32 0x3727C5AC#32) * x3 (ix2 0 q)
          + x4 (ix2 0 q)) (Ideal.ofBits .f32 0x00000000#32) := by
  unfold k2_pay1
  simp only [shapeCast_self]
  simp only [maximumf_apply, addf_apply, mulf_apply, subf_apply, broadcast_apply, broadcastTo_1b_ab_apply]
  rfl

theorem zero_offsets2 : (![0, 0] : Fin 2 → Nat) = fun _ => 0 := funext fun a => by fin_cases a <;> rfl

/-- What the body leaves in the result's staging buffer: its one store covers the buffer and its loads read the whole
    staging buffers, so the buffer holds the stored value of the loaded blocks. -/
theorem bn2_out (x0 : Vec Ideal S5000x128 .f32) (x1 x2 x3 x4 : Vec Ideal S1x128 .f32) :
    out2_5 (F := Ideal) x0 x1 x2 x3 x4 = k2_pay1 (F := Ideal) x0 x1 x2 x3 x4 := by
  unfold out2_5
  rw [View.canon_unit_zero zero_offsets2]
  simp only [View.ld_unit_zero (S := S5000x128) zero_offsets2, View.ld_unit_zero (S := S1x128) zero_offsets2]

/-- A block entry against the whole arrays: if the loaded block's entry j is the activation matrix's entry at i, and
    each loaded row's entry in j's column is the corresponding one-row matrix's entry in i's column, then what the body
    leaves at j is the specification's matrix at i. -/
theorem bn2_block (A0 : Cert.Net.Mat 50000 128) (A1 A2 A3 A4 : Cert.Net.Mat 1 128)
    (x0 : Vec Ideal S5000x128 .f32) (x1 x2 x3 x4 : Vec Ideal S1x128 .f32)
    (j : S5000x128.Idx) (i : S50000x128.Idx)
    (h0 : x0 j = A0 (ix2 (i 0) (i 1)))
    (h1 : ∀ y : S1x128.Idx, (y 1).val = (j 1).val → x1 y = A1 (ix2 0 (i 1)))
    (h2 : ∀ y : S1x128.Idx, (y 1).val = (j 1).val → x2 y = A2 (ix2 0 (i 1)))
    (h3 : ∀ y : S1x128.Idx, (y 1).val = (j 1).val → x3 y = A3 (ix2 0 (i 1)))
    (h4 : ∀ y : S1x128.Idx, (y 1).val = (j 1).val → x4 y = A4 (ix2 0 (i 1))) :
    out2_5 (F := Ideal) x0 x1 x2 x3 x4 j = Cert.Net.bnRelu A0 A1 A2 A3 A4 i := by
  obtain ⟨p, q, rfl⟩ : ∃ (p : Fin 5000) (q : Fin 128), j = ix2 p q := ⟨j 0, j 1, eq_ix2 j⟩
  rw [bn2_out, bn2_entry, h0, h1 (ix2 0 q) rfl, h2 (ix2 0 q) rfl, h3 (ix2 0 q) rfl, h4 (ix2 0 q) rfl]
  rfl

/-- The block indices over the grid: the activation window and the result window sit at block (t, 0) at point t, the
    four one-row windows at block (0, 0). -/
theorem blockIdx2 : ∀ t : Fin cfg2.N,
    win2_0.index t (0 : Fin 2) = win2_5.index t (0 : Fin 2) ∧ win2_0.index t (1 : Fin 2) = 0
    ∧ win2_5.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- Every row block 0 … 9 is some point's. -/
theorem blockOnto2 : ∀ b : Fin 10, ∃ t : Fin cfg2.N, win2_5.index t = ![b.val, 0] :=
  (by decide +kernel : ∀ b : Fin 10, ∃ t : Fin grid2.N, win2_5.index t = ![b.val, 0])

section
variable (V : (c : Dev nD) → (b : Ref sig .tc) → Buf (Elt Ideal) ((c : Thread nD τ).loc b))

set_option maxHeartbeats 1000000 in
/-- What point t writes back is block t of the specification's matrix of the arrays the region finds. -/
theorem bn2_flushed (c : Dev nD) (t : Fin cfg2.N) :
    (dat2 (F := Ideal) V c).flushed 5 t = ((cfg2.win 5).blk t).view.read (Elt Ideal)
      (Cert.Net.bnRelu (n := 50000) (w := 128) (V c (Pipeline.arrRef spec2 0)) (V c (Pipeline.arrRef spec2 1))
        (V c (Pipeline.arrRef spec2 2)) (V c (Pipeline.arrRef spec2 3)) (V c (Pipeline.arrRef spec2 4))) := by
  obtain ⟨e0, e1, e2, e3, e4, e5, e6, e7, e8, e9, e10⟩ := blockIdx2 t
  refine (congrArg ((cfg2.win 5).cut (grid2.coords t)) (after2_5 (F := Ideal) V c t)).trans ?_
  funext j
  refine bn2_block (V c (Pipeline.arrRef spec2 0)) (V c (Pipeline.arrRef spec2 1))
    (V c (Pipeline.arrRef spec2 2)) (V c (Pipeline.arrRef spec2 3)) (V c (Pipeline.arrRef spec2 4))
    (iblk2 V c 0 t) (iblk2 V c 1 t) (iblk2 V c 2 t) (iblk2 V c 3 t) (iblk2 V c 4 t) j
    (((cfg2.win 5).blk t).view.emb j) ?_ ?_ ?_ ?_ ?_
  · show V c (Pipeline.arrRef spec2 0) (((cfg2.win 0).blk t).view.emb j) = _
    refine congrArg _ (funext fun a => Fin.ext ?_)
    match a with
    | ⟨0, _⟩ => show win2_0.index t (0 : Fin 2) * 5000 + 1 * (j 0).val = win2_5.index t (0 : Fin 2) * 5000 + 1 * (j 0).val; omega
    | ⟨1, _⟩ => show win2_0.index t (1 : Fin 2) * 128 + 1 * (j 1).val = win2_5.index t (1 : Fin 2) * 128 + 1 * (j 1).val; omega
  · intro y hy
    have hy0 : (y 0).val < 1 := (y 0).isLt
    show V c (Pipeline.arrRef spec2 1) (((cfg2.win 1).blk t).view.emb y) = _
    refine congrArg _ (funext fun a => Fin.ext ?_)
    match a with
    | ⟨0, _⟩ => show win2_1.index t (0 : Fin 2) * 1 + 1 * (y 0).val = 0; omega
    | ⟨1, _⟩ => show win2_1.index t (1 : Fin 2) * 128 + 1 * (y 1).val = win2_5.index t (1 : Fin 2) * 128 + 1 * (j 1).val; omega
  · intro y hy
    have hy0 : (y 0).val < 1 := (y 0).isLt
    show V c (Pipeline.arrRef spec2 2) (((cfg2.win 2).blk t).view.emb y) = _
    refine congrArg _ (funext fun a => Fin.ext ?_)
    match a with
    | ⟨0, _⟩ => show win2_2.index t (0 : Fin 2) * 1 + 1 * (y 0).val = 0; omega
    | ⟨1, _⟩ => show win2_2.index t (1 : Fin 2) * 128 + 1 * (y 1).val = win2_5.index t (1 : Fin 2) * 128 + 1 * (j 1).val; omega
  · intro y hy
    have hy0 : (y 0).val < 1 := (y 0).isLt
    show V c (Pipeline.arrRef spec2 3) (((cfg2.win 3).blk t).view.emb y) = _
    refine congrArg _ (funext fun a => Fin.ext ?_)
    match a with
    | ⟨0, _⟩ => show win2_3.index t (0 : Fin 2) * 1 + 1 * (y 0).val = 0; omega
    | ⟨1, _⟩ => show win2_3.index t (1 : Fin 2) * 128 + 1 * (y 1).val = win2_5.index t (1 : Fin 2) * 128 + 1 * (j 1).val; omega
  · intro y hy
    have hy0 : (y 0).val < 1 := (y 0).isLt
    show V c (Pipeline.arrRef spec2 4) (((cfg2.win 4).blk t).view.emb y) = _
    refine congrArg _ (funext fun a => Fin.ext ?_)
    match a with
    | ⟨0, _⟩ => show win2_4.index t (0 : Fin 2) * 1 + 1 * (y 0).val = 0; omega
    | ⟨1, _⟩ => show win2_4.index t (1 : Fin 2) * 128 + 1 * (y 1).val = win2_5.index t (1 : Fin 2) * 128 + 1 * (j 1).val; omega

/-- An index of the result array lies in point t's block iff each coordinate lies in the block's range on its axis. -/
theorem bn2_mem_blk (t : Fin cfg2.N) (i : S50000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v45).slice (win2_5.rect t)).set ↔ _
  rw [View.set_slice_whole, Rect.mem_set_unit]
  exact Iff.rfl

/-- Every index of the result array lies in some point's block: row r in the block of point r / 5000. -/
theorem bn2_cover (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  obtain ⟨t, ht⟩ := blockOnto2 ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [bn2_mem_blk]
  intro a
  match a with
  | ⟨0, _⟩ =>
    show win2_5.index t (0 : Fin 2) * 5000 ≤ (i 0).val ∧ (i 0).val < win2_5.index t (0 : Fin 2) * 5000 + 5000
    omega
  | ⟨1, _⟩ =>
    show win2_5.index t (1 : Fin 2) * 128 ≤ (i 1).val ∧ (i 1).val < win2_5.index t (1 : Fin 2) * 128 + 128
    omega

/-- The array region 2 leaves: the specification's normalise-and-rectify matrix of the five arrays it stages. -/
theorem region2_value (c : Dev nD) :
    (dat2 (F := Ideal) V c).arrAt 5 cfg2.N
      = Cert.Net.bnRelu (n := 50000) (w := 128) (V c (Pipeline.arrRef spec2 0)) (V c (Pipeline.arrRef spec2 1))
        (V c (Pipeline.arrRef spec2 2)) (V c (Pipeline.arrRef spec2 3)) (V c (Pipeline.arrRef spec2 4)) :=
  (dat2 (F := Ideal) V c).arrAt_eq_of_cover 5 _ (fun t _ => bn2_flushed V c t) bn2_cover

end

end Cert.KernelIdeal.RegionValue

end
-- ==== Proof.Region3.lean ====
/-
  Region 3 of the kernel program: the linear combine of an aggregation round, tiled over ten blocks of 5000 rows.

  Each grid point t loads rows 5000·t … 5000·t + 4999 of the neighbour-mean matrix and of the node matrix, the two
  128×128 weight matrices and the one-row bias, and stores (a·Wlᵀ + bl) + z·Wrᵀ into the same rows of the result:
  entry (p, q) of the block is the sum over c of a(p, c)·Wl(q, c), plus bl(q), plus the sum over c of z(p, c)·Wr(q, c).
  Row p of block t is row 5000·t + p of the whole matrices and the weights and bias are whole at every point, so every
  block is a restriction of one function of the whole arrays: the specification's combine matrix. The ten blocks cover
  all 50000 rows (row r lies in block r / 5000), hence the array the region leaves is that matrix.
-/
import proofs.«158954_j13391708029610_1_alg».proof.Proof.NetSpec
import proofs.«158954_j13391708029610_1_alg».proof.Proof.Gen.KernelIdeal.Frame
import proofs.«158954_j13391708029610_1_alg».proof.Proof.MatmulEntry
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.RegionValue

open Cert.KernelIdeal Cert.KernelIdeal.Gen Idealize.ShloMosaic Idealize.ShloMosaic.TcCoe Idealize.ShloMosaic.ValueIdx
open Idealize.SL.Sem
open Idealize.ShloMosaic.Pipeline (Dat)

/-- Entry (p, q) of a 5000×128 block times a 128×128 block into the zero accumulator. -/
theorem sage3_matmul (A : FVec Ideal S5000x128 .bf16) (B : FVec Ideal S128x128 .bf16) (p : Fin 5000) (q : Fin 128) :
    matmul dot_S5000x128_S128x128_S5000x128_1_0_0_1_n_n none A B (constant (F := Ideal) S5000x128 .f32 0x00000000#32) (ix2 p q)
      = ∑ c : Fin 128, A (ix2 p c) * B (ix2 c q) :=
  matmul_zero_entry Facts₀.dot_S5000x128_S128x128_S5000x128_1_0_0_1_n_n_wf none A B p q

/-- A transposed 128×128 weight block read at (c, q) is the block at (q, c). -/
theorem sage3_transpose (W : FVec Ideal S128x128 .bf16) (c q : Fin 128) :
    transpose S128x128 [1, 0] W Facts₀.transposes_S128x128_p1_0_S128x128 (ix2 c q) = W (ix2 q c) :=
  transpose_ix2_apply W _ c q

/-- The stored value at entry (p, q) of a block: the neighbour-mean block's row p against row q of the first weight
    matrix, plus the bias row at q, plus the node block's row p against row q of the second weight matrix. The shape
    casts and format changes are identities, each transposed weight read at (c, q) is the weight at (q, c), and the
    bias broadcast reads its row at column q. -/
theorem sage3_entry (a z : Vec Ideal S5000x128 .f32) (Wl Wr : Vec Ideal S128x128 .f32) (bl : Vec Ideal S1x128 .f32)
    (p : Fin 5000) (q : Fin 128) :
    k3_pay1 (F := Ideal) a z Wl Wr bl (ix2 p q)
      = ((∑ c : Fin 128, a (ix2 p c) * Wl (ix2 q c)) + bl (ix2 0 q)) + ∑ c : Fin 128, z (ix2 p c) * Wr (ix2 q c) := by
  unfold k3_pay1
  simp only [shapeCast_self]
  simp only [addf_apply, sage3_matmul, truncf_apply, broadcastTo_1b_ab_apply]
  refine congrArg₂ (· + ·) (congrArg₂ (· + ·) (Finset.sum_congr rfl fun c _ => ?_) rfl) (Finset.sum_congr rfl fun c _ => ?_)
  · exact congrArg (a (ix2 p c) * ·) (sage3_transpose _ c q)
  · exact congrArg (z (ix2 p c) * ·) (sage3_transpose _ c q)

/-- A block entry against the whole arrays: if row (j 0) of the two loaded row blocks is row (i 0) of the whole
    matrices, and row (j 1) of each loaded weight and column (j 1) of the loaded bias are row and column (i 1) of the
    whole ones, then the stored value at j is the specification's matrix at i. -/
theorem sage3_block (A Z : Cert.Net.Mat 50000 128) (WL : Cert.Net.Mat 128 128) (BL : Cert.Net.Mat 1 128)
    (WR : Cert.Net.Mat 128 128)
    (a z : Vec Ideal S5000x128 .f32) (Wl Wr : Vec Ideal S128x128 .f32) (bl : Vec Ideal S1x128 .f32)
    (j : S5000x128.Idx) (i : S50000x128.Idx)
    (h0 : ∀ p : Fin 5000, p.val = (j 0).val → ∀ c : Fin 128, a (ix2 p c) = A (ix2 (i 0) c))
    (h1 : ∀ p : Fin 5000, p.val = (j 0).val → ∀ c : Fin 128, z (ix2 p c) = Z (ix2 (i 0) c))
    (h2 : ∀ q : Fin 128, q.val = (j 1).val → ∀ c : Fin 128, Wl (ix2 q c) = WL (ix2 (i 1) c))
    (h3 : ∀ q : Fin 128, q.val = (j 1).val → bl (ix2 0 q) = BL (ix2 0 (i 1)))
    (h4 : ∀ q : Fin 128, q.val = (j 1).val → ∀ c : Fin 128, Wr (ix2 q c) = WR (ix2 (i 1) c)) :
    k3_pay1 (F := Ideal) a z Wl Wr bl j = Cert.Net.sage A Z WL BL WR i := by
  obtain ⟨p, q, rfl⟩ : ∃ (p : Fin 5000) (q : Fin 128), j = ix2 p q := ⟨j 0, j 1, eq_ix2 j⟩
  rw [sage3_entry, h3 q rfl]
  simp only [h0 p rfl, h1 p rfl, h2 q rfl, h4 q rfl]
  rfl

theorem zero_offsets3 : (![0, 0] : Fin 2 → Nat) = fun _ => 0 := funext fun a => by fin_cases a <;> rfl

/-- What the body leaves in the result window's buffer is the stored value of the loaded blocks: the one store fills
    the whole buffer and every load reads a whole block. -/
theorem out3_5_eq (x0 x1 : Vec Ideal S5000x128 .f32) (x2 : Vec Ideal S128x128 .f32) (x3 : Vec Ideal S1x128 .f32)
    (x4 : Vec Ideal S128x128 .f32) : out3_5 (F := Ideal) x0 x1 x2 x3 x4 = k3_pay1 (F := Ideal) x0 x1 x2 x4 x3 := by
  unfold out3_5
  rw [View.canon_unit_zero zero_offsets3]
  simp only [View.ld_unit_zero (S := S5000x128) zero_offsets3, View.ld_unit_zero (S := S128x128) zero_offsets3,
    View.ld_unit_zero (S := S1x128) zero_offsets3]

/-- The block indices over the grid: the two row-blocked windows and the result window sit at block (t, 0) at point
    t, the weight and bias windows at block (0, 0). -/
theorem blockIdx3 : ∀ t : Fin cfg3.N,
    win3_0.index t (0 : Fin 2) = win3_5.index t (0 : Fin 2) ∧ win3_0.index t (1 : Fin 2) = 0
    ∧ win3_5.index t (1 : Fin 2) = 0
    ∧ win3_1.index t (0 : Fin 2) = win3_5.index t (0 : Fin 2) ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- Every row block 0 … 9 is some point's. -/
theorem blockOnto3 : ∀ b : Fin 10, ∃ t : Fin cfg3.N, win3_5.index t = ![b.val, 0] :=
  (by decide +kernel : ∀ b : Fin 10, ∃ t : Fin grid3.N, win3_5.index t = ![b.val, 0])

section
variable (V : (c : Dev nD) → (b : Ref sig .tc) → Buf (Elt Ideal) ((c : Thread nD τ).loc b))

set_option maxHeartbeats 1000000 in
/-- What point t writes back is block t of the specification's matrix of the arrays the region finds. -/
theorem sage3_flushed (c : Dev nD) (t : Fin cfg3.N) :
    (dat3 (F := Ideal) V c).flushed 5 t = ((cfg3.win 5).blk t).view.read (Elt Ideal)
      (Cert.Net.sage (n := 50000) (w := 128) (V c (Pipeline.arrRef spec3 0)) (V c (Pipeline.arrRef spec3 1))
        (V c (Pipeline.arrRef spec3 2)) (V c (Pipeline.arrRef spec3 3)) (V c (Pipeline.arrRef spec3 4))) := by
  show (cfg3.win 5).cut (grid3.coords t) ((dat3 (F := Ideal) V c).after 5 t) = _
  refine (congrArg ((cfg3.win 5).cut (grid3.coords t)) ((after3_5 V c t).trans
    (out3_5_eq (iblk3 V c 0 t) (iblk3 V c 1 t) (iblk3 V c 2 t) (iblk3 V c 3 t) (iblk3 V c 4 t)))).trans ?_
  obtain ⟨e0, e1, e2, e3, e4, e5, e6, e7, e8, e9, e10⟩ := blockIdx3 t
  funext j
  show k3_pay1 (F := Ideal) (iblk3 V c 0 t) (iblk3 V c 1 t) (iblk3 V c 2 t) (iblk3 V c 4 t) (iblk3 V c 3 t) j
    = Cert.Net.sage (n := 50000) (w := 128) (V c (Pipeline.arrRef spec3 0)) (V c (Pipeline.arrRef spec3 1))
        (V c (Pipeline.arrRef spec3 2)) (V c (Pipeline.arrRef spec3 3)) (V c (Pipeline.arrRef spec3 4))
        (((cfg3.win 5).blk t).view.emb j)
  refine sage3_block (V c (Pipeline.arrRef spec3 0)) (V c (Pipeline.arrRef spec3 1))
    (V c (Pipeline.arrRef spec3 2)) (V c (Pipeline.arrRef spec3 3)) (V c (Pipeline.arrRef spec3 4))
    (iblk3 V c 0 t) (iblk3 V c 1 t) (iblk3 V c 2 t) (iblk3 V c 4 t) (iblk3 V c 3 t) j
    (((cfg3.win 5).blk t).view.emb j) ?_ ?_ ?_ ?_ ?_
  · intro p hp c'
    show V c (Pipeline.arrRef spec3 0) (((cfg3.win 0).blk t).view.emb (ix2 p c')) = _
    refine congrArg _ (funext fun a => Fin.ext ?_)
    match a with
    | ⟨0, _⟩ => show win3_0.index t (0 : Fin 2) * 5000 + 1 * p.val = win3_5.index t (0 : Fin 2) * 5000 + 1 * (j 0).val; omega
    | ⟨1, _⟩ => show win3_0.index t (1 : Fin 2) * 128 + 1 * c'.val = c'.val; omega
  · intro p hp c'
    show V c (Pipeline.arrRef spec3 1) (((cfg3.win 1).blk t).view.emb (ix2 p c')) = _
    refine congrArg _ (funext fun a => Fin.ext ?_)
    match a with
    | ⟨0, _⟩ => show win3_1.index t (0 : Fin 2) * 5000 + 1 * p.val = win3_5.index t (0 : Fin 2) * 5000 + 1 * (j 0).val; omega
    | ⟨1, _⟩ => show win3_1.index t (1 : Fin 2) * 128 + 1 * c'.val = c'.val; omega
  · intro q hq c'
    show V c (Pipeline.arrRef spec3 2) (((cfg3.win 2).blk t).view.emb (ix2 q c')) = _
    refine congrArg _ (funext fun a => Fin.ext ?_)
    match a with
    | ⟨0, _⟩ => show win3_2.index t (0 : Fin 2) * 128 + 1 * q.val = win3_5.index t (1 : Fin 2) * 128 + 1 * (j 1).val; omega
    | ⟨1, _⟩ => show win3_2.index t (1 : Fin 2) * 128 + 1 * c'.val = c'.val; omega
  · intro q hq
    show V c (Pipeline.arrRef spec3 3) (((cfg3.win 3).blk t).view.emb (ix2 0 q)) = _
    refine congrArg _ (funext fun a => Fin.ext ?_)
    match a with
    | ⟨0, _⟩ => show win3_3.index t (0 : Fin 2) * 1 + 1 * 0 = 0; omega
    | ⟨1, _⟩ => show win3_3.index t (1 : Fin 2) * 128 + 1 * q.val = win3_5.index t (1 : Fin 2) * 128 + 1 * (j 1).val; omega
  · intro q hq c'
    show V c (Pipeline.arrRef spec3 4) (((cfg3.win 4).blk t).view.emb (ix2 q c')) = _
    refine congrArg _ (funext fun a => Fin.ext ?_)
    match a with
    | ⟨0, _⟩ => show win3_4.index t (0 : Fin 2) * 128 + 1 * q.val = win3_5.index t (1 : Fin 2) * 128 + 1 * (j 1).val; omega
    | ⟨1, _⟩ => show win3_4.index t (1 : Fin 2) * 128 + 1 * c'.val = c'.val; omega

/-- An index of the result array lies in point t's block iff each coordinate lies in the block's range on its axis. -/
theorem sage3_mem_blk (t : Fin cfg3.N) (i : S50000x128.Idx) :
    i ∈ ((cfg3.win 5).blk t).view.set ↔ ∀ a : Fin 2, win3_5.index t a * S5000x128.size a ≤ (i a).val
      ∧ (i a).val < win3_5.index t a * S5000x128.size a + S5000x128.size a := by
  show i ∈ ((View.whole main_v65).slice (win3_5.rect t)).set ↔ _
  rw [View.set_slice_whole, Rect.mem_set_unit]
  exact Iff.rfl

/-- Every index of the result array lies in some point's block: row r in the block of point r / 5000. -/
theorem sage3_cover (i : S50000x128.Idx) :
    ∃ t : Fin cfg3.N, (cfg3.win 5).flush t = true ∧ i ∈ ((cfg3.win 5).blk t).view.set := by
  have hi0 : (i 0).val < 50000 := (i 0).isLt
  have hi1 : (i 1).val < 128 := (i 1).isLt
  obtain ⟨t, ht⟩ := blockOnto3 ⟨(i 0).val / 5000, by omega⟩
  have q0 : win3_5.index t (0 : Fin 2) = (i 0).val / 5000 := congrFun ht 0
  have q1 : win3_5.index t (1 : Fin 2) = 0 := congrFun ht 1
  refine ⟨t, flush3_5 t, ?_⟩
  rw [sage3_mem_blk]
  intro a
  match a with
  | ⟨0, _⟩ =>
    show win3_5.index t (0 : Fin 2) * 5000 ≤ (i 0).val ∧ (i 0).val < win3_5.index t (0 : Fin 2) * 5000 + 5000
    omega
  | ⟨1, _⟩ =>
    show win3_5.index t (1 : Fin 2) * 128 ≤ (i 1).val ∧ (i 1).val < win3_5.index t (1 : Fin 2) * 128 + 128
    omega

/-- The array region 3 leaves: the specification's combine matrix of the five arrays it stages (neighbour mean,
    node matrix, first weight, bias row, second weight). -/
theorem region3_value (c : Dev nD) :
    (dat3 (F := Ideal) V c).arrAt 5 cfg3.N
      = Cert.Net.sage (n := 50000) (w := 128) (V c (Pipeline.arrRef spec3 0)) (V c (Pipeline.arrRef spec3 1))
        (V c (Pipeline.arrRef spec3 2)) (V c (Pipeline.arrRef spec3 3)) (V c (Pipeline.arrRef spec3 4)) :=
  (dat3 (F := Ideal) V c).arrAt_eq_of_cover 5 _ (fun t _ => sage3_flushed V c t) sage3_cover

end

end Cert.KernelIdeal.RegionValue

end
-- ==== Proof.Region4.lean ====
/-
  Region 4 of the kernel program: batch normalisation over the node axis followed by the rectifier, tiled over ten
  blocks of 5000 rows.

  Each grid point t loads rows 5000·t … 5000·t + 4999 of the activation matrix together with the four one-row
  matrices (column mean, column variance, scale, shift), and stores, entry by entry,
  max ((x − μ)·rsqrt(v + ε)·γ + β) 0 into the same rows of the result. An entry (p, q) of block t is entry
  (5000·t + p, q) of the whole matrix, and the one-row operands are read at column q whatever the block, so every block
  is a restriction of one function of the whole arrays: the specification's normalise-and-rectify matrix. The ten
  blocks cover all 50000 rows (row r lies in block r / 5000), hence the array the region leaves is that matrix.
-/
import proofs.«158954_j13391708029610_1_alg».proof.Proof.NetSpec
import proofs.«158954_j13391708029610_1_alg».proof.Proof.Gen.KernelIdeal.Frame
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.RegionValue

open Cert.KernelIdeal Cert.KernelIdeal.Gen Idealize.ShloMosaic Idealize.ShloMosaic.TcCoe Idealize.ShloMosaic.ValueIdx
open Idealize.SL.Sem
open Idealize.ShloMosaic.Pipeline (Dat)

/-- The stored value at entry (p, q) of a block: the specification's entry function of the loaded block and the four
    loaded rows. The shape casts are identities, each row broadcast reads its row at column q, and the remaining
    operations act entry by entry. -/
theorem bn4_entry (x0 : Vec Ideal S5000x128 .f32) (x1 x2 x3 x4 : Vec Ideal S1x128 .f32) (p : Fin 5000) (q : Fin 128) :
    k4_pay1 (F := Ideal) x0 x1 x2 x3 x4 (ix2 p q)
      = max ((x0 (ix2 p q) - x1 (ix2 0 q)) * Ideal.rsqrt (x2 (ix2 0 q) + Ideal.ofBits .f32 0x3727C5AC#32) * x3 (ix2 0 q)
          + x4 (ix2 0 q)) (Ideal.ofBits .f32 0x00000000#32) := by
  unfold k4_pay1
  simp only [shapeCast_self]
  simp only [maximumf_apply, addf_apply, mulf_apply, subf_apply, broadcast_apply, broadcastTo_1b_ab_apply]
  rfl

theorem zero_offsets4 : (![0, 0] : Fin 2 → Nat) = fun _ => 0 := funext fun a => by fin_cases a <;> rfl

/-- What the body leaves in the result's staging buffer: its one store covers the buffer and its loads read the whole
    staging buffers, so the buffer holds the stored value of the loaded blocks. -/
theorem bn4_out (x0 : Vec Ideal S5000x128 .f32) (x1 x2 x3 x4 : Vec Ideal S1x128 .f32) :
    out4_5 (F := Ideal) x0 x1 x2 x3 x4 = k4_pay1 (F := Ideal) x0 x1 x2 x3 x4 := by
  unfold out4_5
  rw [View.canon_unit_zero zero_offsets4]
  simp only [View.ld_unit_zero (S := S5000x128) zero_offsets4, View.ld_unit_zero (S := S1x128) zero_offsets4]

/-- A block entry against the whole arrays: if the loaded block's entry j is the activation matrix's entry at i, and
    each loaded row's entry in j's column is the corresponding one-row matrix's entry in i's column, then what the body
    leaves at j is the specification's matrix at i. -/
theorem bn4_block (A0 : Cert.Net.Mat 50000 128) (A1 A2 A3 A4 : Cert.Net.Mat 1 128)
    (x0 : Vec Ideal S5000x128 .f32) (x1 x2 x3 x4 : Vec Ideal S1x128 .f32)
    (j : S5000x128.Idx) (i : S50000x128.Idx)
    (h0 : x0 j = A0 (ix2 (i 0) (i 1)))
    (h1 : ∀ y : S1x128.Idx, (y 1).val = (j 1).val → x1 y = A1 (ix2 0 (i 1)))
    (h2 : ∀ y : S1x128.Idx, (y 1).val = (j 1).val → x2 y = A2 (ix2 0 (i 1)))
    (h3 : ∀ y : S1x128.Idx, (y 1).val = (j 1).val → x3 y = A3 (ix2 0 (i 1)))
    (h4 : ∀ y : S1x128.Idx, (y 1).val = (j 1).val → x4 y = A4 (ix2 0 (i 1))) :
    out4_5 (F := Ideal) x0 x1 x2 x3 x4 j = Cert.Net.bnRelu A0 A1 A2 A3 A4 i := by
  obtain ⟨p, q, rfl⟩ : ∃ (p : Fin 5000) (q : Fin 128), j = ix2 p q := ⟨j 0, j 1, eq_ix2 j⟩
  rw [bn4_out, bn4_entry, h0, h1 (ix2 0 q) rfl, h2 (ix2 0 q) rfl, h3 (ix2 0 q) rfl, h4 (ix2 0 q) rfl]
  rfl

/-- The block indices over the grid: the activation window and the result window sit at block (t, 0) at point t, the
    four one-row windows at block (0, 0). -/
theorem blockIdx4 : ∀ t : Fin cfg4.N,
    win4_0.index t (0 : Fin 2) = win4_5.index t (0 : Fin 2) ∧ win4_0.index t (1 : Fin 2) = 0
    ∧ win4_5.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0 :=
  (by decide +kernel : ∀ t : Fin grid4.N, _)

/-- Every row block 0 … 9 is some point's. -/
theorem blockOnto4 : ∀ b : Fin 10, ∃ t : Fin cfg4.N, win4_5.index t = ![b.val, 0] :=
  (by decide +kernel : ∀ b : Fin 10, ∃ t : Fin grid4.N, win4_5.index t = ![b.val, 0])

section
variable (V : (c : Dev nD) → (b : Ref sig .tc) → Buf (Elt Ideal) ((c : Thread nD τ).loc b))

set_option maxHeartbeats 1000000 in
/-- What point t writes back is block t of the specification's matrix of the arrays the region finds. -/
theorem bn4_flushed (c : Dev nD) (t : Fin cfg4.N) :
    (dat4 (F := Ideal) V c).flushed 5 t = ((cfg4.win 5).blk t).view.read (Elt Ideal)
      (Cert.Net.bnRelu (n := 50000) (w := 128) (V c (Pipeline.arrRef spec4 0)) (V c (Pipeline.arrRef spec4 1))
        (V c (Pipeline.arrRef spec4 2)) (V c (Pipeline.arrRef spec4 3)) (V c (Pipeline.arrRef spec4 4))) := by
  obtain ⟨e0, e1, e2, e3, e4, e5, e6, e7, e8, e9, e10⟩ := blockIdx4 t
  refine (congrArg ((cfg4.win 5).cut (grid4.coords t)) (after4_5 (F := Ideal) V c t)).trans ?_
  funext j
  refine bn4_block (V c (Pipeline.arrRef spec4 0)) (V c (Pipeline.arrRef spec4 1))
    (V c (Pipeline.arrRef spec4 2)) (V c (Pipeline.arrRef spec4 3)) (V c (Pipeline.arrRef spec4 4))
    (iblk4 V c 0 t) (iblk4 V c 1 t) (iblk4 V c 2 t) (iblk4 V c 3 t) (iblk4 V c 4 t) j
    (((cfg4.win 5).blk t).view.emb j) ?_ ?_ ?_ ?_ ?_
  · show V c (Pipeline.arrRef spec4 0) (((cfg4.win 0).blk t).view.emb j) = _
    refine congrArg _ (funext fun a => Fin.ext ?_)
    match a with
    | ⟨0, _⟩ => show win4_0.index t (0 : Fin 2) * 5000 + 1 * (j 0).val = win4_5.index t (0 : Fin 2) * 5000 + 1 * (j 0).val; omega
    | ⟨1, _⟩ => show win4_0.index t (1 : Fin 2) * 128 + 1 * (j 1).val = win4_5.index t (1 : Fin 2) * 128 + 1 * (j 1).val; omega
  · intro y hy
    have hy0 : (y 0).val < 1 := (y 0).isLt
    show V c (Pipeline.arrRef spec4 1) (((cfg4.win 1).blk t).view.emb y) = _
    refine congrArg _ (funext fun a => Fin.ext ?_)
    match a with
    | ⟨0, _⟩ => show win4_1.index t (0 : Fin 2) * 1 + 1 * (y 0).val = 0; omega
    | ⟨1, _⟩ => show win4_1.index t (1 : Fin 2) * 128 + 1 * (y 1).val = win4_5.index t (1 : Fin 2) * 128 + 1 * (j 1).val; omega
  · intro y hy
    have hy0 : (y 0).val < 1 := (y 0).isLt
    show V c (Pipeline.arrRef spec4 2) (((cfg4.win 2).blk t).view.emb y) = _
    refine congrArg _ (funext fun a => Fin.ext ?_)
    match a with
    | ⟨0, _⟩ => show win4_2.index t (0 : Fin 2) * 1 + 1 * (y 0).val = 0; omega
    | ⟨1, _⟩ => show win4_2.index t (1 : Fin 2) * 128 + 1 * (y 1).val = win4_5.index t (1 : Fin 2) * 128 + 1 * (j 1).val; omega
  · intro y hy
    have hy0 : (y 0).val < 1 := (y 0).isLt
    show V c (Pipeline.arrRef spec4 3) (((cfg4.win 3).blk t).view.emb y) = _
    refine congrArg _ (funext fun a => Fin.ext ?_)
    match a with
    | ⟨0, _⟩ => show win4_3.index t (0 : Fin 2) * 1 + 1 * (y 0).val = 0; omega
    | ⟨1, _⟩ => show win4_3.index t (1 : Fin 2) * 128 + 1 * (y 1).val = win4_5.index t (1 : Fin 2) * 128 + 1 * (j 1).val; omega
  · intro y hy
    have hy0 : (y 0).val < 1 := (y 0).isLt
    show V c (Pipeline.arrRef spec4 4) (((cfg4.win 4).blk t).view.emb y) = _
    refine congrArg _ (funext fun a => Fin.ext ?_)
    match a with
    | ⟨0, _⟩ => show win4_4.index t (0 : Fin 2) * 1 + 1 * (y 0).val = 0; omega
    | ⟨1, _⟩ => show win4_4.index t (1 : Fin 2) * 128 + 1 * (y 1).val = win4_5.index t (1 : Fin 2) * 128 + 1 * (j 1).val; omega

/-- An index of the result array lies in point t's block iff each coordinate lies in the block's range on its axis. -/
theorem bn4_mem_blk (t : Fin cfg4.N) (i : S50000x128.Idx) :
    i ∈ ((cfg4.win 5).blk t).view.set ↔ ∀ a : Fin 2, win4_5.index t a * S5000x128.size a ≤ (i a).val
      ∧ (i a).val < win4_5.index t a * S5000x128.size a + S5000x128.size a := by
  show i ∈ ((View.whole main_v77).slice (win4_5.rect t)).set ↔ _
  rw [View.set_slice_whole, Rect.mem_set_unit]
  exact Iff.rfl

/-- Every index of the result array lies in some point's block: row r in the block of point r / 5000. -/
theorem bn4_cover (i : S50000x128.Idx) :
    ∃ t : Fin cfg4.N, (cfg4.win 5).flush t = true ∧ i ∈ ((cfg4.win 5).blk t).view.set := by
  have hi0 : (i 0).val < 50000 := (i 0).isLt
  have hi1 : (i 1).val < 128 := (i 1).isLt
  obtain ⟨t, ht⟩ := blockOnto4 ⟨(i 0).val / 5000, by omega⟩
  have q0 : win4_5.index t (0 : Fin 2) = (i 0).val / 5000 := congrFun ht 0
  have q1 : win4_5.index t (1 : Fin 2) = 0 := congrFun ht 1
  refine ⟨t, flush4_5 t, ?_⟩
  rw [bn4_mem_blk]
  intro a
  match a with
  | ⟨0, _⟩ =>
    show win4_5.index t (0 : Fin 2) * 5000 ≤ (i 0).val ∧ (i 0).val < win4_5.index t (0 : Fin 2) * 5000 + 5000
    omega
  | ⟨1, _⟩ =>
    show win4_5.index t (1 : Fin 2) * 128 ≤ (i 1).val ∧ (i 1).val < win4_5.index t (1 : Fin 2) * 128 + 128
    omega

/-- The array region 4 leaves: the specification's normalise-and-rectify matrix of the five arrays it stages. -/
theorem region4_value (c : Dev nD) :
    (dat4 (F := Ideal) V c).arrAt 5 cfg4.N
      = Cert.Net.bnRelu (n := 50000) (w := 128) (V c (Pipeline.arrRef spec4 0)) (V c (Pipeline.arrRef spec4 1))
        (V c (Pipeline.arrRef spec4 2)) (V c (Pipeline.arrRef spec4 3)) (V c (Pipeline.arrRef spec4 4)) :=
  (dat4 (F := Ideal) V c).arrAt_eq_of_cover 5 _ (fun t _ => bn4_flushed V c t) bn4_cover

end

end Cert.KernelIdeal.RegionValue

end
-- ==== Proof.Region5.lean ====
/-
  Region 5 of the kernel program: the linear combine of an aggregation round, tiled over ten blocks of 5000 rows.

  Each grid point t loads rows 5000·t … 5000·t + 4999 of the neighbour-mean matrix and of the node matrix, the two
  128×128 weight matrices and the one-row bias, and stores (a·Wlᵀ + bl) + z·Wrᵀ into the same rows of the result:
  entry (p, q) of the block is the sum over c of a(p, c)·Wl(q, c), plus bl(q), plus the sum over c of z(p, c)·Wr(q, c).
  Row p of block t is row 5000·t + p of the whole matrices and the weights and bias are whole at every point, so every
  block is a restriction of one function of the whole arrays: the specification's combine matrix. The ten blocks cover
  all 50000 rows (row r lies in block r / 5000), hence the array the region leaves is that matrix.
-/
import proofs.«158954_j13391708029610_1_alg».proof.Proof.NetSpec
import proofs.«158954_j13391708029610_1_alg».proof.Proof.Gen.KernelIdeal.Frame
import proofs.«158954_j13391708029610_1_alg».proof.Proof.MatmulEntry
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.RegionValue

open Cert.KernelIdeal Cert.KernelIdeal.Gen Idealize.ShloMosaic Idealize.ShloMosaic.TcCoe Idealize.ShloMosaic.ValueIdx
open Idealize.SL.Sem
open Idealize.ShloMosaic.Pipeline (Dat)

/-- Entry (p, q) of a 5000×128 block times a 128×128 block into the zero accumulator. -/
theorem sage5_matmul (A : FVec Ideal S5000x128 .bf16) (B : FVec Ideal S128x128 .bf16) (p : Fin 5000) (q : Fin 128) :
    matmul dot_S5000x128_S128x128_S5000x128_1_0_0_1_n_n none A B (constant (F := Ideal) S5000x128 .f32 0x00000000#32) (ix2 p q)
      = ∑ c : Fin 128, A (ix2 p c) * B (ix2 c q) :=
  matmul_zero_entry Facts₀.dot_S5000x128_S128x128_S5000x128_1_0_0_1_n_n_wf none A B p q

/-- A transposed 128×128 weight block read at (c, q) is the block at (q, c). -/
theorem sage5_transpose (W : FVec Ideal S128x128 .bf16) (c q : Fin 128) :
    transpose S128x128 [1, 0] W Facts₀.transposes_S128x128_p1_0_S128x128 (ix2 c q) = W (ix2 q c) :=
  transpose_ix2_apply W _ c q

/-- The stored value at entry (p, q) of a block: the neighbour-mean block's row p against row q of the first weight
    matrix, plus the bias row at q, plus the node block's row p against row q of the second weight matrix. The shape
    casts and format changes are identities, each transposed weight read at (c, q) is the weight at (q, c), and the
    bias broadcast reads its row at column q. -/
theorem sage5_entry (a z : Vec Ideal S5000x128 .f32) (Wl Wr : Vec Ideal S128x128 .f32) (bl : Vec Ideal S1x128 .f32)
    (p : Fin 5000) (q : Fin 128) :
    k5_pay1 (F := Ideal) a z Wl Wr bl (ix2 p q)
      = ((∑ c : Fin 128, a (ix2 p c) * Wl (ix2 q c)) + bl (ix2 0 q)) + ∑ c : Fin 128, z (ix2 p c) * Wr (ix2 q c) := by
  unfold k5_pay1
  simp only [shapeCast_self]
  simp only [addf_apply, sage5_matmul, truncf_apply, broadcastTo_1b_ab_apply]
  refine congrArg₂ (· + ·) (congrArg₂ (· + ·) (Finset.sum_congr rfl fun c _ => ?_) rfl) (Finset.sum_congr rfl fun c _ => ?_)
  · exact congrArg (a (ix2 p c) * ·) (sage5_transpose _ c q)
  · exact congrArg (z (ix2 p c) * ·) (sage5_transpose _ c q)

/-- A block entry against the whole arrays: if row (j 0) of the two loaded row blocks is row (i 0) of the whole
    matrices, and row (j 1) of each loaded weight and column (j 1) of the loaded bias are row and column (i 1) of the
    whole ones, then the stored value at j is the specification's matrix at i. -/
theorem sage5_block (A Z : Cert.Net.Mat 50000 128) (WL : Cert.Net.Mat 128 128) (BL : Cert.Net.Mat 1 128)
    (WR : Cert.Net.Mat 128 128)
    (a z : Vec Ideal S5000x128 .f32) (Wl Wr : Vec Ideal S128x128 .f32) (bl : Vec Ideal S1x128 .f32)
    (j : S5000x128.Idx) (i : S50000x128.Idx)
    (h0 : ∀ p : Fin 5000, p.val = (j 0).val → ∀ c : Fin 128, a (ix2 p c) = A (ix2 (i 0) c))
    (h1 : ∀ p : Fin 5000, p.val = (j 0).val → ∀ c : Fin 128, z (ix2 p c) = Z (ix2 (i 0) c))
    (h2 : ∀ q : Fin 128, q.val = (j 1).val → ∀ c : Fin 128, Wl (ix2 q c) = WL (ix2 (i 1) c))
    (h3 : ∀ q : Fin 128, q.val = (j 1).val → bl (ix2 0 q) = BL (ix2 0 (i 1)))
    (h4 : ∀ q : Fin 128, q.val = (j 1).val → ∀ c : Fin 128, Wr (ix2 q c) = WR (ix2 (i 1) c)) :
    k5_pay1 (F := Ideal) a z Wl Wr bl j = Cert.Net.sage A Z WL BL WR i := by
  obtain ⟨p, q, rfl⟩ : ∃ (p : Fin 5000) (q : Fin 128), j = ix2 p q := ⟨j 0, j 1, eq_ix2 j⟩
  rw [sage5_entry, h3 q rfl]
  simp only [h0 p rfl, h1 p rfl, h2 q rfl, h4 q rfl]
  rfl

theorem zero_offsets5 : (![0, 0] : Fin 2 → Nat) = fun _ => 0 := funext fun a => by fin_cases a <;> rfl

/-- What the body leaves in the result window's buffer is the stored value of the loaded blocks: the one store fills
    the whole buffer and every load reads a whole block. -/
theorem out5_5_eq (x0 x1 : Vec Ideal S5000x128 .f32) (x2 : Vec Ideal S128x128 .f32) (x3 : Vec Ideal S1x128 .f32)
    (x4 : Vec Ideal S128x128 .f32) : out5_5 (F := Ideal) x0 x1 x2 x3 x4 = k5_pay1 (F := Ideal) x0 x1 x2 x4 x3 := by
  unfold out5_5
  rw [View.canon_unit_zero zero_offsets5]
  simp only [View.ld_unit_zero (S := S5000x128) zero_offsets5, View.ld_unit_zero (S := S128x128) zero_offsets5,
    View.ld_unit_zero (S := S1x128) zero_offsets5]

/-- The block indices over the grid: the two row-blocked windows and the result window sit at block (t, 0) at point
    t, the weight and bias windows at block (0, 0). -/
theorem blockIdx5 : ∀ t : Fin cfg5.N,
    win5_0.index t (0 : Fin 2) = win5_5.index t (0 : Fin 2) ∧ win5_0.index t (1 : Fin 2) = 0
    ∧ win5_5.index t (1 : Fin 2) = 0
    ∧ win5_1.index t (0 : Fin 2) = win5_5.index t (0 : Fin 2) ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

/-- Every row block 0 … 9 is some point's. -/
theorem blockOnto5 : ∀ b : Fin 10, ∃ t : Fin cfg5.N, win5_5.index t = ![b.val, 0] :=
  (by decide +kernel : ∀ b : Fin 10, ∃ t : Fin grid5.N, win5_5.index t = ![b.val, 0])

section
variable (V : (c : Dev nD) → (b : Ref sig .tc) → Buf (Elt Ideal) ((c : Thread nD τ).loc b))

set_option maxHeartbeats 1000000 in
/-- What point t writes back is block t of the specification's matrix of the arrays the region finds. -/
theorem sage5_flushed (c : Dev nD) (t : Fin cfg5.N) :
    (dat5 (F := Ideal) V c).flushed 5 t = ((cfg5.win 5).blk t).view.read (Elt Ideal)
      (Cert.Net.sage (n := 50000) (w := 128) (V c (Pipeline.arrRef spec5 0)) (V c (Pipeline.arrRef spec5 1))
        (V c (Pipeline.arrRef spec5 2)) (V c (Pipeline.arrRef spec5 3)) (V c (Pipeline.arrRef spec5 4))) := by
  show (cfg5.win 5).cut (grid5.coords t) ((dat5 (F := Ideal) V c).after 5 t) = _
  refine (congrArg ((cfg5.win 5).cut (grid5.coords t)) ((after5_5 V c t).trans
    (out5_5_eq (iblk5 V c 0 t) (iblk5 V c 1 t) (iblk5 V c 2 t) (iblk5 V c 3 t) (iblk5 V c 4 t)))).trans ?_
  obtain ⟨e0, e1, e2, e3, e4, e5, e6, e7, e8, e9, e10⟩ := blockIdx5 t
  funext j
  show k5_pay1 (F := Ideal) (iblk5 V c 0 t) (iblk5 V c 1 t) (iblk5 V c 2 t) (iblk5 V c 4 t) (iblk5 V c 3 t) j
    = Cert.Net.sage (n := 50000) (w := 128) (V c (Pipeline.arrRef spec5 0)) (V c (Pipeline.arrRef spec5 1))
        (V c (Pipeline.arrRef spec5 2)) (V c (Pipeline.arrRef spec5 3)) (V c (Pipeline.arrRef spec5 4))
        (((cfg5.win 5).blk t).view.emb j)
  refine sage5_block (V c (Pipeline.arrRef spec5 0)) (V c (Pipeline.arrRef spec5 1))
    (V c (Pipeline.arrRef spec5 2)) (V c (Pipeline.arrRef spec5 3)) (V c (Pipeline.arrRef spec5 4))
    (iblk5 V c 0 t) (iblk5 V c 1 t) (iblk5 V c 2 t) (iblk5 V c 4 t) (iblk5 V c 3 t) j
    (((cfg5.win 5).blk t).view.emb j) ?_ ?_ ?_ ?_ ?_
  · intro p hp c'
    show V c (Pipeline.arrRef spec5 0) (((cfg5.win 0).blk t).view.emb (ix2 p c')) = _
    refine congrArg _ (funext fun a => Fin.ext ?_)
    match a with
    | ⟨0, _⟩ => show win5_0.index t (0 : Fin 2) * 5000 + 1 * p.val = win5_5.index t (0 : Fin 2) * 5000 + 1 * (j 0).val; omega
    | ⟨1, _⟩ => show win5_0.index t (1 : Fin 2) * 128 + 1 * c'.val = c'.val; omega
  · intro p hp c'
    show V c (Pipeline.arrRef spec5 1) (((cfg5.win 1).blk t).view.emb (ix2 p c')) = _
    refine congrArg _ (funext fun a => Fin.ext ?_)
    match a with
    | ⟨0, _⟩ => show win5_1.index t (0 : Fin 2) * 5000 + 1 * p.val = win5_5.index t (0 : Fin 2) * 5000 + 1 * (j 0).val; omega
    | ⟨1, _⟩ => show win5_1.index t (1 : Fin 2) * 128 + 1 * c'.val = c'.val; omega
  · intro q hq c'
    show V c (Pipeline.arrRef spec5 2) (((cfg5.win 2).blk t).view.emb (ix2 q c')) = _
    refine congrArg _ (funext fun a => Fin.ext ?_)
    match a with
    | ⟨0, _⟩ => show win5_2.index t (0 : Fin 2) * 128 + 1 * q.val = win5_5.index t (1 : Fin 2) * 128 + 1 * (j 1).val; omega
    | ⟨1, _⟩ => show win5_2.index t (1 : Fin 2) * 128 + 1 * c'.val = c'.val; omega
  · intro q hq
    show V c (Pipeline.arrRef spec5 3) (((cfg5.win 3).blk t).view.emb (ix2 0 q)) = _
    refine congrArg _ (funext fun a => Fin.ext ?_)
    match a with
    | ⟨0, _⟩ => show win5_3.index t (0 : Fin 2) * 1 + 1 * 0 = 0; omega
    | ⟨1, _⟩ => show win5_3.index t (1 : Fin 2) * 128 + 1 * q.val = win5_5.index t (1 : Fin 2) * 128 + 1 * (j 1).val; omega
  · intro q hq c'
    show V c (Pipeline.arrRef spec5 4) (((cfg5.win 4).blk t).view.emb (ix2 q c')) = _
    refine congrArg _ (funext fun a => Fin.ext ?_)
    match a with
    | ⟨0, _⟩ => show win5_4.index t (0 : Fin 2) * 128 + 1 * q.val = win5_5.index t (1 : Fin 2) * 128 + 1 * (j 1).val; omega
    | ⟨1, _⟩ => show win5_4.index t (1 : Fin 2) * 128 + 1 * c'.val = c'.val; omega

/-- An index of the result array lies in point t's block iff each coordinate lies in the block's range on its axis. -/
theorem sage5_mem_blk (t : Fin cfg5.N) (i : S50000x128.Idx) :
    i ∈ ((cfg5.win 5).blk t).view.set ↔ ∀ a : Fin 2, win5_5.index t a * S5000x128.size a ≤ (i a).val
      ∧ (i a).val < win5_5.index t a * S5000x128.size a + S5000x128.size a := by
  show i ∈ ((View.whole main_v97).slice (win5_5.rect t)).set ↔ _
  rw [View.set_slice_whole, Rect.mem_set_unit]
  exact Iff.rfl

/-- Every index of the result array lies in some point's block: row r in the block of point r / 5000. -/
theorem sage5_cover (i : S50000x128.Idx) :
    ∃ t : Fin cfg5.N, (cfg5.win 5).flush t = true ∧ i ∈ ((cfg5.win 5).blk t).view.set := by
  have hi0 : (i 0).val < 50000 := (i 0).isLt
  have hi1 : (i 1).val < 128 := (i 1).isLt
  obtain ⟨t, ht⟩ := blockOnto5 ⟨(i 0).val / 5000, by omega⟩
  have q0 : win5_5.index t (0 : Fin 2) = (i 0).val / 5000 := congrFun ht 0
  have q1 : win5_5.index t (1 : Fin 2) = 0 := congrFun ht 1
  refine ⟨t, flush5_5 t, ?_⟩
  rw [sage5_mem_blk]
  intro a
  match a with
  | ⟨0, _⟩ =>
    show win5_5.index t (0 : Fin 2) * 5000 ≤ (i 0).val ∧ (i 0).val < win5_5.index t (0 : Fin 2) * 5000 + 5000
    omega
  | ⟨1, _⟩ =>
    show win5_5.index t (1 : Fin 2) * 128 ≤ (i 1).val ∧ (i 1).val < win5_5.index t (1 : Fin 2) * 128 + 128
    omega

/-- The array region 5 leaves: the specification's combine matrix of the five arrays it stages (neighbour mean,
    node matrix, first weight, bias row, second weight). -/
theorem region5_value (c : Dev nD) :
    (dat5 (F := Ideal) V c).arrAt 5 cfg5.N
      = Cert.Net.sage (n := 50000) (w := 128) (V c (Pipeline.arrRef spec5 0)) (V c (Pipeline.arrRef spec5 1))
        (V c (Pipeline.arrRef spec5 2)) (V c (Pipeline.arrRef spec5 3)) (V c (Pipeline.arrRef spec5 4)) :=
  (dat5 (F := Ideal) V c).arrAt_eq_of_cover 5 _ (fun t _ => sage5_flushed V c t) sage5_cover

end

end Cert.KernelIdeal.RegionValue

end
-- ==== Proof.Region6.lean ====
/-
  Region 6 of the kernel program: batch normalisation over the node axis followed by the rectifier, tiled over ten
  blocks of 5000 rows.

  Each grid point t loads rows 5000·t … 5000·t + 4999 of the activation matrix together with the four one-row
  matrices (column mean, column variance, scale, shift), and stores, entry by entry,
  max ((x − μ)·rsqrt(v + ε)·γ + β) 0 into the same rows of the result. An entry (p, q) of block t is entry
  (5000·t + p, q) of the whole matrix, and the one-row operands are read at column q whatever the block, so every block
  is a restriction of one function of the whole arrays: the specification's normalise-and-rectify matrix. The ten
  blocks cover all 50000 rows (row r lies in block r / 5000), hence the array the region leaves is that matrix.
-/
import proofs.«158954_j13391708029610_1_alg».proof.Proof.NetSpec
import proofs.«158954_j13391708029610_1_alg».proof.Proof.Gen.KernelIdeal.Frame
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.RegionValue

open Cert.KernelIdeal Cert.KernelIdeal.Gen Idealize.ShloMosaic Idealize.ShloMosaic.TcCoe Idealize.ShloMosaic.ValueIdx
open Idealize.SL.Sem
open Idealize.ShloMosaic.Pipeline (Dat)

/-- The stored value at entry (p, q) of a block: the specification's entry function of the loaded block and the four
    loaded rows. The shape casts are identities, each row broadcast reads its row at column q, and the remaining
    operations act entry by entry. -/
theorem bn6_entry (x0 : Vec Ideal S5000x128 .f32) (x1 x2 x3 x4 : Vec Ideal S1x128 .f32) (p : Fin 5000) (q : Fin 128) :
    k6_pay1 (F := Ideal) x0 x1 x2 x3 x4 (ix2 p q)
      = max ((x0 (ix2 p q) - x1 (ix2 0 q)) * Ideal.rsqrt (x2 (ix2 0 q) + Ideal.ofBits .f32 0x3727C5AC#32) * x3 (ix2 0 q)
          + x4 (ix2 0 q)) (Ideal.ofBits .f32 0x00000000#32) := by
  unfold k6_pay1
  simp only [shapeCast_self]
  simp only [maximumf_apply, addf_apply, mulf_apply, subf_apply, broadcast_apply, broadcastTo_1b_ab_apply]
  rfl

theorem zero_offsets6 : (![0, 0] : Fin 2 → Nat) = fun _ => 0 := funext fun a => by fin_cases a <;> rfl

/-- What the body leaves in the result's staging buffer: its one store covers the buffer and its loads read the whole
    staging buffers, so the buffer holds the stored value of the loaded blocks. -/
theorem bn6_out (x0 : Vec Ideal S5000x128 .f32) (x1 x2 x3 x4 : Vec Ideal S1x128 .f32) :
    out6_5 (F := Ideal) x0 x1 x2 x3 x4 = k6_pay1 (F := Ideal) x0 x1 x2 x3 x4 := by
  unfold out6_5
  rw [View.canon_unit_zero zero_offsets6]
  simp only [View.ld_unit_zero (S := S5000x128) zero_offsets6, View.ld_unit_zero (S := S1x128) zero_offsets6]

/-- A block entry against the whole arrays: if the loaded block's entry j is the activation matrix's entry at i, and
    each loaded row's entry in j's column is the corresponding one-row matrix's entry in i's column, then what the body
    leaves at j is the specification's matrix at i. -/
theorem bn6_block (A0 : Cert.Net.Mat 50000 128) (A1 A2 A3 A4 : Cert.Net.Mat 1 128)
    (x0 : Vec Ideal S5000x128 .f32) (x1 x2 x3 x4 : Vec Ideal S1x128 .f32)
    (j : S5000x128.Idx) (i : S50000x128.Idx)
    (h0 : x0 j = A0 (ix2 (i 0) (i 1)))
    (h1 : ∀ y : S1x128.Idx, (y 1).val = (j 1).val → x1 y = A1 (ix2 0 (i 1)))
    (h2 : ∀ y : S1x128.Idx, (y 1).val = (j 1).val → x2 y = A2 (ix2 0 (i 1)))
    (h3 : ∀ y : S1x128.Idx, (y 1).val = (j 1).val → x3 y = A3 (ix2 0 (i 1)))
    (h4 : ∀ y : S1x128.Idx, (y 1).val = (j 1).val → x4 y = A4 (ix2 0 (i 1))) :
    out6_5 (F := Ideal) x0 x1 x2 x3 x4 j = Cert.Net.bnRelu A0 A1 A2 A3 A4 i := by
  obtain ⟨p, q, rfl⟩ : ∃ (p : Fin 5000) (q : Fin 128), j = ix2 p q := ⟨j 0, j 1, eq_ix2 j⟩
  rw [bn6_out, bn6_entry, h0, h1 (ix2 0 q) rfl, h2 (ix2 0 q) rfl, h3 (ix2 0 q) rfl, h4 (ix2 0 q) rfl]
  rfl

/-- The block indices over the grid: the activation window and the result window sit at block (t, 0) at point t, the
    four one-row windows at block (0, 0). -/
theorem blockIdx6 : ∀ t : Fin cfg6.N,
    win6_0.index t (0 : Fin 2) = win6_5.index t (0 : Fin 2) ∧ win6_0.index t (1 : Fin 2) = 0
    ∧ win6_5.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0 :=
  (by decide +kernel : ∀ t : Fin grid6.N, _)

/-- Every row block 0 … 9 is some point's. -/
theorem blockOnto6 : ∀ b : Fin 10, ∃ t : Fin cfg6.N, win6_5.index t = ![b.val, 0] :=
  (by decide +kernel : ∀ b : Fin 10, ∃ t : Fin grid6.N, win6_5.index t = ![b.val, 0])

section
variable (V : (c : Dev nD) → (b : Ref sig .tc) → Buf (Elt Ideal) ((c : Thread nD τ).loc b))

set_option maxHeartbeats 1000000 in
/-- What point t writes back is block t of the specification's matrix of the arrays the region finds. -/
theorem bn6_flushed (c : Dev nD) (t : Fin cfg6.N) :
    (dat6 (F := Ideal) V c).flushed 5 t = ((cfg6.win 5).blk t).view.read (Elt Ideal)
      (Cert.Net.bnRelu (n := 50000) (w := 128) (V c (Pipeline.arrRef spec6 0)) (V c (Pipeline.arrRef spec6 1))
        (V c (Pipeline.arrRef spec6 2)) (V c (Pipeline.arrRef spec6 3)) (V c (Pipeline.arrRef spec6 4))) := by
  obtain ⟨e0, e1, e2, e3, e4, e5, e6, e7, e8, e9, e10⟩ := blockIdx6 t
  refine (congrArg ((cfg6.win 5).cut (grid6.coords t)) (after6_5 (F := Ideal) V c t)).trans ?_
  funext j
  refine bn6_block (V c (Pipeline.arrRef spec6 0)) (V c (Pipeline.arrRef spec6 1))
    (V c (Pipeline.arrRef spec6 2)) (V c (Pipeline.arrRef spec6 3)) (V c (Pipeline.arrRef spec6 4))
    (iblk6 V c 0 t) (iblk6 V c 1 t) (iblk6 V c 2 t) (iblk6 V c 3 t) (iblk6 V c 4 t) j
    (((cfg6.win 5).blk t).view.emb j) ?_ ?_ ?_ ?_ ?_
  · show V c (Pipeline.arrRef spec6 0) (((cfg6.win 0).blk t).view.emb j) = _
    refine congrArg _ (funext fun a => Fin.ext ?_)
    match a with
    | ⟨0, _⟩ => show win6_0.index t (0 : Fin 2) * 5000 + 1 * (j 0).val = win6_5.index t (0 : Fin 2) * 5000 + 1 * (j 0).val; omega
    | ⟨1, _⟩ => show win6_0.index t (1 : Fin 2) * 128 + 1 * (j 1).val = win6_5.index t (1 : Fin 2) * 128 + 1 * (j 1).val; omega
  · intro y hy
    have hy0 : (y 0).val < 1 := (y 0).isLt
    show V c (Pipeline.arrRef spec6 1) (((cfg6.win 1).blk t).view.emb y) = _
    refine congrArg _ (funext fun a => Fin.ext ?_)
    match a with
    | ⟨0, _⟩ => show win6_1.index t (0 : Fin 2) * 1 + 1 * (y 0).val = 0; omega
    | ⟨1, _⟩ => show win6_1.index t (1 : Fin 2) * 128 + 1 * (y 1).val = win6_5.index t (1 : Fin 2) * 128 + 1 * (j 1).val; omega
  · intro y hy
    have hy0 : (y 0).val < 1 := (y 0).isLt
    show V c (Pipeline.arrRef spec6 2) (((cfg6.win 2).blk t).view.emb y) = _
    refine congrArg _ (funext fun a => Fin.ext ?_)
    match a with
    | ⟨0, _⟩ => show win6_2.index t (0 : Fin 2) * 1 + 1 * (y 0).val = 0; omega
    | ⟨1, _⟩ => show win6_2.index t (1 : Fin 2) * 128 + 1 * (y 1).val = win6_5.index t (1 : Fin 2) * 128 + 1 * (j 1).val; omega
  · intro y hy
    have hy0 : (y 0).val < 1 := (y 0).isLt
    show V c (Pipeline.arrRef spec6 3) (((cfg6.win 3).blk t).view.emb y) = _
    refine congrArg _ (funext fun a => Fin.ext ?_)
    match a with
    | ⟨0, _⟩ => show win6_3.index t (0 : Fin 2) * 1 + 1 * (y 0).val = 0; omega
    | ⟨1, _⟩ => show win6_3.index t (1 : Fin 2) * 128 + 1 * (y 1).val = win6_5.index t (1 : Fin 2) * 128 + 1 * (j 1).val; omega
  · intro y hy
    have hy0 : (y 0).val < 1 := (y 0).isLt
    show V c (Pipeline.arrRef spec6 4) (((cfg6.win 4).blk t).view.emb y) = _
    refine congrArg _ (funext fun a => Fin.ext ?_)
    match a with
    | ⟨0, _⟩ => show win6_4.index t (0 : Fin 2) * 1 + 1 * (y 0).val = 0; omega
    | ⟨1, _⟩ => show win6_4.index t (1 : Fin 2) * 128 + 1 * (y 1).val = win6_5.index t (1 : Fin 2) * 128 + 1 * (j 1).val; omega

/-- An index of the result array lies in point t's block iff each coordinate lies in the block's range on its axis. -/
theorem bn6_mem_blk (t : Fin cfg6.N) (i : S50000x128.Idx) :
    i ∈ ((cfg6.win 5).blk t).view.set ↔ ∀ a : Fin 2, win6_5.index t a * S5000x128.size a ≤ (i a).val
      ∧ (i a).val < win6_5.index t a * S5000x128.size a + S5000x128.size a := by
  show i ∈ ((View.whole main_v109).slice (win6_5.rect t)).set ↔ _
  rw [View.set_slice_whole, Rect.mem_set_unit]
  exact Iff.rfl

/-- Every index of the result array lies in some point's block: row r in the block of point r / 5000. -/
theorem bn6_cover (i : S50000x128.Idx) :
    ∃ t : Fin cfg6.N, (cfg6.win 5).flush t = true ∧ i ∈ ((cfg6.win 5).blk t).view.set := by
  have hi0 : (i 0).val < 50000 := (i 0).isLt
  have hi1 : (i 1).val < 128 := (i 1).isLt
  obtain ⟨t, ht⟩ := blockOnto6 ⟨(i 0).val / 5000, by omega⟩
  have q0 : win6_5.index t (0 : Fin 2) = (i 0).val / 5000 := congrFun ht 0
  have q1 : win6_5.index t (1 : Fin 2) = 0 := congrFun ht 1
  refine ⟨t, flush6_5 t, ?_⟩
  rw [bn6_mem_blk]
  intro a
  match a with
  | ⟨0, _⟩ =>
    show win6_5.index t (0 : Fin 2) * 5000 ≤ (i 0).val ∧ (i 0).val < win6_5.index t (0 : Fin 2) * 5000 + 5000
    omega
  | ⟨1, _⟩ =>
    show win6_5.index t (1 : Fin 2) * 128 ≤ (i 1).val ∧ (i 1).val < win6_5.index t (1 : Fin 2) * 128 + 128
    omega

/-- The array region 6 leaves: the specification's normalise-and-rectify matrix of the five arrays it stages. -/
theorem region6_value (c : Dev nD) :
    (dat6 (F := Ideal) V c).arrAt 5 cfg6.N
      = Cert.Net.bnRelu (n := 50000) (w := 128) (V c (Pipeline.arrRef spec6 0)) (V c (Pipeline.arrRef spec6 1))
        (V c (Pipeline.arrRef spec6 2)) (V c (Pipeline.arrRef spec6 3)) (V c (Pipeline.arrRef spec6 4)) :=
  (dat6 (F := Ideal) V c).arrAt_eq_of_cover 5 _ (fun t _ => bn6_flushed V c t) bn6_cover

end

end Cert.KernelIdeal.RegionValue

end
-- ==== Proof.Region7.lean ====
/-
  Region 7 of the kernel program: the linear combine of an aggregation round, tiled over ten blocks of 5000 rows.

  Each grid point t loads rows 5000·t … 5000·t + 4999 of the neighbour-mean matrix and of the node matrix, the two
  128×128 weight matrices and the one-row bias, and stores (a·Wlᵀ + bl) + z·Wrᵀ into the same rows of the result:
  entry (p, q) of the block is the sum over c of a(p, c)·Wl(q, c), plus bl(q), plus the sum over c of z(p, c)·Wr(q, c).
  Row p of block t is row 5000·t + p of the whole matrices and the weights and bias are whole at every point, so every
  block is a restriction of one function of the whole arrays: the specification's combine matrix. The ten blocks cover
  all 50000 rows (row r lies in block r / 5000), hence the array the region leaves is that matrix.
-/
import proofs.«158954_j13391708029610_1_alg».proof.Proof.NetSpec
import proofs.«158954_j13391708029610_1_alg».proof.Proof.Gen.KernelIdeal.Frame
import proofs.«158954_j13391708029610_1_alg».proof.Proof.MatmulEntry
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.RegionValue

open Cert.KernelIdeal Cert.KernelIdeal.Gen Idealize.ShloMosaic Idealize.ShloMosaic.TcCoe Idealize.ShloMosaic.ValueIdx
open Idealize.SL.Sem
open Idealize.ShloMosaic.Pipeline (Dat)

/-- Entry (p, q) of a 5000×128 block times a 128×128 block into the zero accumulator. -/
theorem sage7_matmul (A : FVec Ideal S5000x128 .bf16) (B : FVec Ideal S128x128 .bf16) (p : Fin 5000) (q : Fin 128) :
    matmul dot_S5000x128_S128x128_S5000x128_1_0_0_1_n_n none A B (constant (F := Ideal) S5000x128 .f32 0x00000000#32) (ix2 p q)
      = ∑ c : Fin 128, A (ix2 p c) * B (ix2 c q) :=
  matmul_zero_entry Facts₀.dot_S5000x128_S128x128_S5000x128_1_0_0_1_n_n_wf none A B p q

/-- A transposed 128×128 weight block read at (c, q) is the block at (q, c). -/
theorem sage7_transpose (W : FVec Ideal S128x128 .bf16) (c q : Fin 128) :
    transpose S128x128 [1, 0] W Facts₀.transposes_S128x128_p1_0_S128x128 (ix2 c q) = W (ix2 q c) :=
  transpose_ix2_apply W _ c q

/-- The stored value at entry (p, q) of a block: the neighbour-mean block's row p against row q of the first weight
    matrix, plus the bias row at q, plus the node block's row p against row q of the second weight matrix. The shape
    casts and format changes are identities, each transposed weight read at (c, q) is the weight at (q, c), and the
    bias broadcast reads its row at column q. -/
theorem sage7_entry (a z : Vec Ideal S5000x128 .f32) (Wl Wr : Vec Ideal S128x128 .f32) (bl : Vec Ideal S1x128 .f32)
    (p : Fin 5000) (q : Fin 128) :
    k7_pay1 (F := Ideal) a z Wl Wr bl (ix2 p q)
      = ((∑ c : Fin 128, a (ix2 p c) * Wl (ix2 q c)) + bl (ix2 0 q)) + ∑ c : Fin 128, z (ix2 p c) * Wr (ix2 q c) := by
  unfold k7_pay1
  simp only [shapeCast_self]
  simp only [addf_apply, sage7_matmul, truncf_apply, broadcastTo_1b_ab_apply]
  refine congrArg₂ (· + ·) (congrArg₂ (· + ·) (Finset.sum_congr rfl fun c _ => ?_) rfl) (Finset.sum_congr rfl fun c _ => ?_)
  · exact congrArg (a (ix2 p c) * ·) (sage7_transpose _ c q)
  · exact congrArg (z (ix2 p c) * ·) (sage7_transpose _ c q)

/-- A block entry against the whole arrays: if row (j 0) of the two loaded row blocks is row (i 0) of the whole
    matrices, and row (j 1) of each loaded weight and column (j 1) of the loaded bias are row and column (i 1) of the
    whole ones, then the stored value at j is the specification's matrix at i. -/
theorem sage7_block (A Z : Cert.Net.Mat 50000 128) (WL : Cert.Net.Mat 128 128) (BL : Cert.Net.Mat 1 128)
    (WR : Cert.Net.Mat 128 128)
    (a z : Vec Ideal S5000x128 .f32) (Wl Wr : Vec Ideal S128x128 .f32) (bl : Vec Ideal S1x128 .f32)
    (j : S5000x128.Idx) (i : S50000x128.Idx)
    (h0 : ∀ p : Fin 5000, p.val = (j 0).val → ∀ c : Fin 128, a (ix2 p c) = A (ix2 (i 0) c))
    (h1 : ∀ p : Fin 5000, p.val = (j 0).val → ∀ c : Fin 128, z (ix2 p c) = Z (ix2 (i 0) c))
    (h2 : ∀ q : Fin 128, q.val = (j 1).val → ∀ c : Fin 128, Wl (ix2 q c) = WL (ix2 (i 1) c))
    (h3 : ∀ q : Fin 128, q.val = (j 1).val → bl (ix2 0 q) = BL (ix2 0 (i 1)))
    (h4 : ∀ q : Fin 128, q.val = (j 1).val → ∀ c : Fin 128, Wr (ix2 q c) = WR (ix2 (i 1) c)) :
    k7_pay1 (F := Ideal) a z Wl Wr bl j = Cert.Net.sage A Z WL BL WR i := by
  obtain ⟨p, q, rfl⟩ : ∃ (p : Fin 5000) (q : Fin 128), j = ix2 p q := ⟨j 0, j 1, eq_ix2 j⟩
  rw [sage7_entry, h3 q rfl]
  simp only [h0 p rfl, h1 p rfl, h2 q rfl, h4 q rfl]
  rfl

theorem zero_offsets7 : (![0, 0] : Fin 2 → Nat) = fun _ => 0 := funext fun a => by fin_cases a <;> rfl

/-- What the body leaves in the result window's buffer is the stored value of the loaded blocks: the one store fills
    the whole buffer and every load reads a whole block. -/
theorem out7_5_eq (x0 x1 : Vec Ideal S5000x128 .f32) (x2 : Vec Ideal S128x128 .f32) (x3 : Vec Ideal S1x128 .f32)
    (x4 : Vec Ideal S128x128 .f32) : out7_5 (F := Ideal) x0 x1 x2 x3 x4 = k7_pay1 (F := Ideal) x0 x1 x2 x4 x3 := by
  unfold out7_5
  rw [View.canon_unit_zero zero_offsets7]
  simp only [View.ld_unit_zero (S := S5000x128) zero_offsets7, View.ld_unit_zero (S := S128x128) zero_offsets7,
    View.ld_unit_zero (S := S1x128) zero_offsets7]

/-- The block indices over the grid: the two row-blocked windows and the result window sit at block (t, 0) at point
    t, the weight and bias windows at block (0, 0). -/
theorem blockIdx7 : ∀ t : Fin cfg7.N,
    win7_0.index t (0 : Fin 2) = win7_5.index t (0 : Fin 2) ∧ win7_0.index t (1 : Fin 2) = 0
    ∧ win7_5.index t (1 : Fin 2) = 0
    ∧ win7_1.index t (0 : Fin 2) = win7_5.index t (0 : Fin 2) ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0 :=
  (by decide +kernel : ∀ t : Fin grid7.N, _)

/-- Every row block 0 … 9 is some point's. -/
theorem blockOnto7 : ∀ b : Fin 10, ∃ t : Fin cfg7.N, win7_5.index t = ![b.val, 0] :=
  (by decide +kernel : ∀ b : Fin 10, ∃ t : Fin grid7.N, win7_5.index t = ![b.val, 0])

section
variable (V : (c : Dev nD) → (b : Ref sig .tc) → Buf (Elt Ideal) ((c : Thread nD τ).loc b))

set_option maxHeartbeats 1000000 in
/-- What point t writes back is block t of the specification's matrix of the arrays the region finds. -/
theorem sage7_flushed (c : Dev nD) (t : Fin cfg7.N) :
    (dat7 (F := Ideal) V c).flushed 5 t = ((cfg7.win 5).blk t).view.read (Elt Ideal)
      (Cert.Net.sage (n := 50000) (w := 128) (V c (Pipeline.arrRef spec7 0)) (V c (Pipeline.arrRef spec7 1))
        (V c (Pipeline.arrRef spec7 2)) (V c (Pipeline.arrRef spec7 3)) (V c (Pipeline.arrRef spec7 4))) := by
  show (cfg7.win 5).cut (grid7.coords t) ((dat7 (F := Ideal) V c).after 5 t) = _
  refine (congrArg ((cfg7.win 5).cut (grid7.coords t)) ((after7_5 V c t).trans
    (out7_5_eq (iblk7 V c 0 t) (iblk7 V c 1 t) (iblk7 V c 2 t) (iblk7 V c 3 t) (iblk7 V c 4 t)))).trans ?_
  obtain ⟨e0, e1, e2, e3, e4, e5, e6, e7, e8, e9, e10⟩ := blockIdx7 t
  funext j
  show k7_pay1 (F := Ideal) (iblk7 V c 0 t) (iblk7 V c 1 t) (iblk7 V c 2 t) (iblk7 V c 4 t) (iblk7 V c 3 t) j
    = Cert.Net.sage (n := 50000) (w := 128) (V c (Pipeline.arrRef spec7 0)) (V c (Pipeline.arrRef spec7 1))
        (V c (Pipeline.arrRef spec7 2)) (V c (Pipeline.arrRef spec7 3)) (V c (Pipeline.arrRef spec7 4))
        (((cfg7.win 5).blk t).view.emb j)
  refine sage7_block (V c (Pipeline.arrRef spec7 0)) (V c (Pipeline.arrRef spec7 1))
    (V c (Pipeline.arrRef spec7 2)) (V c (Pipeline.arrRef spec7 3)) (V c (Pipeline.arrRef spec7 4))
    (iblk7 V c 0 t) (iblk7 V c 1 t) (iblk7 V c 2 t) (iblk7 V c 4 t) (iblk7 V c 3 t) j
    (((cfg7.win 5).blk t).view.emb j) ?_ ?_ ?_ ?_ ?_
  · intro p hp c'
    show V c (Pipeline.arrRef spec7 0) (((cfg7.win 0).blk t).view.emb (ix2 p c')) = _
    refine congrArg _ (funext fun a => Fin.ext ?_)
    match a with
    | ⟨0, _⟩ => show win7_0.index t (0 : Fin 2) * 5000 + 1 * p.val = win7_5.index t (0 : Fin 2) * 5000 + 1 * (j 0).val; omega
    | ⟨1, _⟩ => show win7_0.index t (1 : Fin 2) * 128 + 1 * c'.val = c'.val; omega
  · intro p hp c'
    show V c (Pipeline.arrRef spec7 1) (((cfg7.win 1).blk t).view.emb (ix2 p c')) = _
    refine congrArg _ (funext fun a => Fin.ext ?_)
    match a with
    | ⟨0, _⟩ => show win7_1.index t (0 : Fin 2) * 5000 + 1 * p.val = win7_5.index t (0 : Fin 2) * 5000 + 1 * (j 0).val; omega
    | ⟨1, _⟩ => show win7_1.index t (1 : Fin 2) * 128 + 1 * c'.val = c'.val; omega
  · intro q hq c'
    show V c (Pipeline.arrRef spec7 2) (((cfg7.win 2).blk t).view.emb (ix2 q c')) = _
    refine congrArg _ (funext fun a => Fin.ext ?_)
    match a with
    | ⟨0, _⟩ => show win7_2.index t (0 : Fin 2) * 128 + 1 * q.val = win7_5.index t (1 : Fin 2) * 128 + 1 * (j 1).val; omega
    | ⟨1, _⟩ => show win7_2.index t (1 : Fin 2) * 128 + 1 * c'.val = c'.val; omega
  · intro q hq
    show V c (Pipeline.arrRef spec7 3) (((cfg7.win 3).blk t).view.emb (ix2 0 q)) = _
    refine congrArg _ (funext fun a => Fin.ext ?_)
    match a with
    | ⟨0, _⟩ => show win7_3.index t (0 : Fin 2) * 1 + 1 * 0 = 0; omega
    | ⟨1, _⟩ => show win7_3.index t (1 : Fin 2) * 128 + 1 * q.val = win7_5.index t (1 : Fin 2) * 128 + 1 * (j 1).val; omega
  · intro q hq c'
    show V c (Pipeline.arrRef spec7 4) (((cfg7.win 4).blk t).view.emb (ix2 q c')) = _
    refine congrArg _ (funext fun a => Fin.ext ?_)
    match a with
    | ⟨0, _⟩ => show win7_4.index t (0 : Fin 2) * 128 + 1 * q.val = win7_5.index t (1 : Fin 2) * 128 + 1 * (j 1).val; omega
    | ⟨1, _⟩ => show win7_4.index t (1 : Fin 2) * 128 + 1 * c'.val = c'.val; omega

/-- An index of the result array lies in point t's block iff each coordinate lies in the block's range on its axis. -/
theorem sage7_mem_blk (t : Fin cfg7.N) (i : S50000x128.Idx) :
    i ∈ ((cfg7.win 5).blk t).view.set ↔ ∀ a : Fin 2, win7_5.index t a * S5000x128.size a ≤ (i a).val
      ∧ (i a).val < win7_5.index t a * S5000x128.size a + S5000x128.size a := by
  show i ∈ ((View.whole main_v129).slice (win7_5.rect t)).set ↔ _
  rw [View.set_slice_whole, Rect.mem_set_unit]
  exact Iff.rfl

/-- Every index of the result array lies in some point's block: row r in the block of point r / 5000. -/
theorem sage7_cover (i : S50000x128.Idx) :
    ∃ t : Fin cfg7.N, (cfg7.win 5).flush t = true ∧ i ∈ ((cfg7.win 5).blk t).view.set := by
  have hi0 : (i 0).val < 50000 := (i 0).isLt
  have hi1 : (i 1).val < 128 := (i 1).isLt
  obtain ⟨t, ht⟩ := blockOnto7 ⟨(i 0).val / 5000, by omega⟩
  have q0 : win7_5.index t (0 : Fin 2) = (i 0).val / 5000 := congrFun ht 0
  have q1 : win7_5.index t (1 : Fin 2) = 0 := congrFun ht 1
  refine ⟨t, flush7_5 t, ?_⟩
  rw [sage7_mem_blk]
  intro a
  match a with
  | ⟨0, _⟩ =>
    show win7_5.index t (0 : Fin 2) * 5000 ≤ (i 0).val ∧ (i 0).val < win7_5.index t (0 : Fin 2) * 5000 + 5000
    omega
  | ⟨1, _⟩ =>
    show win7_5.index t (1 : Fin 2) * 128 ≤ (i 1).val ∧ (i 1).val < win7_5.index t (1 : Fin 2) * 128 + 128
    omega

/-- The array region 7 leaves: the specification's combine matrix of the five arrays it stages (neighbour mean,
    node matrix, first weight, bias row, second weight). -/
theorem region7_value (c : Dev nD) :
    (dat7 (F := Ideal) V c).arrAt 5 cfg7.N
      = Cert.Net.sage (n := 50000) (w := 128) (V c (Pipeline.arrRef spec7 0)) (V c (Pipeline.arrRef spec7 1))
        (V c (Pipeline.arrRef spec7 2)) (V c (Pipeline.arrRef spec7 3)) (V c (Pipeline.arrRef spec7 4)) :=
  (dat7 (F := Ideal) V c).arrAt_eq_of_cover 5 _ (fun t _ => sage7_flushed V c t) sage7_cover

end

end Cert.KernelIdeal.RegionValue

end
-- ==== Proof.Region8.lean ====
/-
  Region 8 of the kernel program: batch normalisation over the node axis followed by the rectifier, tiled over ten
  blocks of 5000 rows.

  Each grid point t loads rows 5000·t … 5000·t + 4999 of the activation matrix together with the four one-row
  matrices (column mean, column variance, scale, shift), and stores, entry by entry,
  max ((x − μ)·rsqrt(v + ε)·γ + β) 0 into the same rows of the result. An entry (p, q) of block t is entry
  (5000·t + p, q) of the whole matrix, and the one-row operands are read at column q whatever the block, so every block
  is a restriction of one function of the whole arrays: the specification's normalise-and-rectify matrix. The ten
  blocks cover all 50000 rows (row r lies in block r / 5000), hence the array the region leaves is that matrix.
-/
import proofs.«158954_j13391708029610_1_alg».proof.Proof.NetSpec
import proofs.«158954_j13391708029610_1_alg».proof.Proof.Gen.KernelIdeal.Frame
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.RegionValue

open Cert.KernelIdeal Cert.KernelIdeal.Gen Idealize.ShloMosaic Idealize.ShloMosaic.TcCoe Idealize.ShloMosaic.ValueIdx
open Idealize.SL.Sem
open Idealize.ShloMosaic.Pipeline (Dat)

/-- The stored value at entry (p, q) of a block: the specification's entry function of the loaded block and the four
    loaded rows. The shape casts are identities, each row broadcast reads its row at column q, and the remaining
    operations act entry by entry. -/
theorem bn8_entry (x0 : Vec Ideal S5000x128 .f32) (x1 x2 x3 x4 : Vec Ideal S1x128 .f32) (p : Fin 5000) (q : Fin 128) :
    k8_pay1 (F := Ideal) x0 x1 x2 x3 x4 (ix2 p q)
      = max ((x0 (ix2 p q) - x1 (ix2 0 q)) * Ideal.rsqrt (x2 (ix2 0 q) + Ideal.ofBits .f32 0x3727C5AC#32) * x3 (ix2 0 q)
          + x4 (ix2 0 q)) (Ideal.ofBits .f32 0x00000000#32) := by
  unfold k8_pay1
  simp only [shapeCast_self]
  simp only [maximumf_apply, addf_apply, mulf_apply, subf_apply, broadcast_apply, broadcastTo_1b_ab_apply]
  rfl

theorem zero_offsets8 : (![0, 0] : Fin 2 → Nat) = fun _ => 0 := funext fun a => by fin_cases a <;> rfl

/-- What the body leaves in the result's staging buffer: its one store covers the buffer and its loads read the whole
    staging buffers, so the buffer holds the stored value of the loaded blocks. -/
theorem bn8_out (x0 : Vec Ideal S5000x128 .f32) (x1 x2 x3 x4 : Vec Ideal S1x128 .f32) :
    out8_5 (F := Ideal) x0 x1 x2 x3 x4 = k8_pay1 (F := Ideal) x0 x1 x2 x3 x4 := by
  unfold out8_5
  rw [View.canon_unit_zero zero_offsets8]
  simp only [View.ld_unit_zero (S := S5000x128) zero_offsets8, View.ld_unit_zero (S := S1x128) zero_offsets8]

/-- A block entry against the whole arrays: if the loaded block's entry j is the activation matrix's entry at i, and
    each loaded row's entry in j's column is the corresponding one-row matrix's entry in i's column, then what the body
    leaves at j is the specification's matrix at i. -/
theorem bn8_block (A0 : Cert.Net.Mat 50000 128) (A1 A2 A3 A4 : Cert.Net.Mat 1 128)
    (x0 : Vec Ideal S5000x128 .f32) (x1 x2 x3 x4 : Vec Ideal S1x128 .f32)
    (j : S5000x128.Idx) (i : S50000x128.Idx)
    (h0 : x0 j = A0 (ix2 (i 0) (i 1)))
    (h1 : ∀ y : S1x128.Idx, (y 1).val = (j 1).val → x1 y = A1 (ix2 0 (i 1)))
    (h2 : ∀ y : S1x128.Idx, (y 1).val = (j 1).val → x2 y = A2 (ix2 0 (i 1)))
    (h3 : ∀ y : S1x128.Idx, (y 1).val = (j 1).val → x3 y = A3 (ix2 0 (i 1)))
    (h4 : ∀ y : S1x128.Idx, (y 1).val = (j 1).val → x4 y = A4 (ix2 0 (i 1))) :
    out8_5 (F := Ideal) x0 x1 x2 x3 x4 j = Cert.Net.bnRelu A0 A1 A2 A3 A4 i := by
  obtain ⟨p, q, rfl⟩ : ∃ (p : Fin 5000) (q : Fin 128), j = ix2 p q := ⟨j 0, j 1, eq_ix2 j⟩
  rw [bn8_out, bn8_entry, h0, h1 (ix2 0 q) rfl, h2 (ix2 0 q) rfl, h3 (ix2 0 q) rfl, h4 (ix2 0 q) rfl]
  rfl

/-- The block indices over the grid: the activation window and the result window sit at block (t, 0) at point t, the
    four one-row windows at block (0, 0). -/
theorem blockIdx8 : ∀ t : Fin cfg8.N,
    win8_0.index t (0 : Fin 2) = win8_5.index t (0 : Fin 2) ∧ win8_0.index t (1 : Fin 2) = 0
    ∧ win8_5.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0 :=
  (by decide +kernel : ∀ t : Fin grid8.N, _)

/-- Every row block 0 … 9 is some point's. -/
theorem blockOnto8 : ∀ b : Fin 10, ∃ t : Fin cfg8.N, win8_5.index t = ![b.val, 0] :=
  (by decide +kernel : ∀ b : Fin 10, ∃ t : Fin grid8.N, win8_5.index t = ![b.val, 0])

section
variable (V : (c : Dev nD) → (b : Ref sig .tc) → Buf (Elt Ideal) ((c : Thread nD τ).loc b))

set_option maxHeartbeats 1000000 in
/-- What point t writes back is block t of the specification's matrix of the arrays the region finds. -/
theorem bn8_flushed (c : Dev nD) (t : Fin cfg8.N) :
    (dat8 (F := Ideal) V c).flushed 5 t = ((cfg8.win 5).blk t).view.read (Elt Ideal)
      (Cert.Net.bnRelu (n := 50000) (w := 128) (V c (Pipeline.arrRef spec8 0)) (V c (Pipeline.arrRef spec8 1))
        (V c (Pipeline.arrRef spec8 2)) (V c (Pipeline.arrRef spec8 3)) (V c (Pipeline.arrRef spec8 4))) := by
  obtain ⟨e0, e1, e2, e3, e4, e5, e6, e7, e8, e9, e10⟩ := blockIdx8 t
  refine (congrArg ((cfg8.win 5).cut (grid8.coords t)) (after8_5 (F := Ideal) V c t)).trans ?_
  funext j
  refine bn8_block (V c (Pipeline.arrRef spec8 0)) (V c (Pipeline.arrRef spec8 1))
    (V c (Pipeline.arrRef spec8 2)) (V c (Pipeline.arrRef spec8 3)) (V c (Pipeline.arrRef spec8 4))
    (iblk8 V c 0 t) (iblk8 V c 1 t) (iblk8 V c 2 t) (iblk8 V c 3 t) (iblk8 V c 4 t) j
    (((cfg8.win 5).blk t).view.emb j) ?_ ?_ ?_ ?_ ?_
  · show V c (Pipeline.arrRef spec8 0) (((cfg8.win 0).blk t).view.emb j) = _
    refine congrArg _ (funext fun a => Fin.ext ?_)
    match a with
    | ⟨0, _⟩ => show win8_0.index t (0 : Fin 2) * 5000 + 1 * (j 0).val = win8_5.index t (0 : Fin 2) * 5000 + 1 * (j 0).val; omega
    | ⟨1, _⟩ => show win8_0.index t (1 : Fin 2) * 128 + 1 * (j 1).val = win8_5.index t (1 : Fin 2) * 128 + 1 * (j 1).val; omega
  · intro y hy
    have hy0 : (y 0).val < 1 := (y 0).isLt
    show V c (Pipeline.arrRef spec8 1) (((cfg8.win 1).blk t).view.emb y) = _
    refine congrArg _ (funext fun a => Fin.ext ?_)
    match a with
    | ⟨0, _⟩ => show win8_1.index t (0 : Fin 2) * 1 + 1 * (y 0).val = 0; omega
    | ⟨1, _⟩ => show win8_1.index t (1 : Fin 2) * 128 + 1 * (y 1).val = win8_5.index t (1 : Fin 2) * 128 + 1 * (j 1).val; omega
  · intro y hy
    have hy0 : (y 0).val < 1 := (y 0).isLt
    show V c (Pipeline.arrRef spec8 2) (((cfg8.win 2).blk t).view.emb y) = _
    refine congrArg _ (funext fun a => Fin.ext ?_)
    match a with
    | ⟨0, _⟩ => show win8_2.index t (0 : Fin 2) * 1 + 1 * (y 0).val = 0; omega
    | ⟨1, _⟩ => show win8_2.index t (1 : Fin 2) * 128 + 1 * (y 1).val = win8_5.index t (1 : Fin 2) * 128 + 1 * (j 1).val; omega
  · intro y hy
    have hy0 : (y 0).val < 1 := (y 0).isLt
    show V c (Pipeline.arrRef spec8 3) (((cfg8.win 3).blk t).view.emb y) = _
    refine congrArg _ (funext fun a => Fin.ext ?_)
    match a with
    | ⟨0, _⟩ => show win8_3.index t (0 : Fin 2) * 1 + 1 * (y 0).val = 0; omega
    | ⟨1, _⟩ => show win8_3.index t (1 : Fin 2) * 128 + 1 * (y 1).val = win8_5.index t (1 : Fin 2) * 128 + 1 * (j 1).val; omega
  · intro y hy
    have hy0 : (y 0).val < 1 := (y 0).isLt
    show V c (Pipeline.arrRef spec8 4) (((cfg8.win 4).blk t).view.emb y) = _
    refine congrArg _ (funext fun a => Fin.ext ?_)
    match a with
    | ⟨0, _⟩ => show win8_4.index t (0 : Fin 2) * 1 + 1 * (y 0).val = 0; omega
    | ⟨1, _⟩ => show win8_4.index t (1 : Fin 2) * 128 + 1 * (y 1).val = win8_5.index t (1 : Fin 2) * 128 + 1 * (j 1).val; omega

/-- An index of the result array lies in point t's block iff each coordinate lies in the block's range on its axis. -/
theorem bn8_mem_blk (t : Fin cfg8.N) (i : S50000x128.Idx) :
    i ∈ ((cfg8.win 5).blk t).view.set ↔ ∀ a : Fin 2, win8_5.index t a * S5000x128.size a ≤ (i a).val
      ∧ (i a).val < win8_5.index t a * S5000x128.size a + S5000x128.size a := by
  show i ∈ ((View.whole main_v141).slice (win8_5.rect t)).set ↔ _
  rw [View.set_slice_whole, Rect.mem_set_unit]
  exact Iff.rfl

/-- Every index of the result array lies in some point's block: row r in the block of point r / 5000. -/
theorem bn8_cover (i : S50000x128.Idx) :
    ∃ t : Fin cfg8.N, (cfg8.win 5).flush t = true ∧ i ∈ ((cfg8.win 5).blk t).view.set := by
  have hi0 : (i 0).val < 50000 := (i 0).isLt
  have hi1 : (i 1).val < 128 := (i 1).isLt
  obtain ⟨t, ht⟩ := blockOnto8 ⟨(i 0).val / 5000, by omega⟩
  have q0 : win8_5.index t (0 : Fin 2) = (i 0).val / 5000 := congrFun ht 0
  have q1 : win8_5.index t (1 : Fin 2) = 0 := congrFun ht 1
  refine ⟨t, flush8_5 t, ?_⟩
  rw [bn8_mem_blk]
  intro a
  match a with
  | ⟨0, _⟩ =>
    show win8_5.index t (0 : Fin 2) * 5000 ≤ (i 0).val ∧ (i 0).val < win8_5.index t (0 : Fin 2) * 5000 + 5000
    omega
  | ⟨1, _⟩ =>
    show win8_5.index t (1 : Fin 2) * 128 ≤ (i 1).val ∧ (i 1).val < win8_5.index t (1 : Fin 2) * 128 + 128
    omega

/-- The array region 8 leaves: the specification's normalise-and-rectify matrix of the five arrays it stages. -/
theorem region8_value (c : Dev nD) :
    (dat8 (F := Ideal) V c).arrAt 5 cfg8.N
      = Cert.Net.bnRelu (n := 50000) (w := 128) (V c (Pipeline.arrRef spec8 0)) (V c (Pipeline.arrRef spec8 1))
        (V c (Pipeline.arrRef spec8 2)) (V c (Pipeline.arrRef spec8 3)) (V c (Pipeline.arrRef spec8 4)) :=
  (dat8 (F := Ideal) V c).arrAt_eq_of_cover 5 _ (fun t _ => bn8_flushed V c t) bn8_cover

end

end Cert.KernelIdeal.RegionValue

end
-- ==== Proof.Region9.lean ====
/-
  Region 9 of the kernel program: the linear combine of an aggregation round, tiled over ten blocks of 5000 rows.

  Each grid point t loads rows 5000·t … 5000·t + 4999 of the neighbour-mean matrix and of the node matrix, the two
  128×128 weight matrices and the one-row bias, and stores (a·Wlᵀ + bl) + z·Wrᵀ into the same rows of the result:
  entry (p, q) of the block is the sum over c of a(p, c)·Wl(q, c), plus bl(q), plus the sum over c of z(p, c)·Wr(q, c).
  Row p of block t is row 5000·t + p of the whole matrices and the weights and bias are whole at every point, so every
  block is a restriction of one function of the whole arrays: the specification's combine matrix. The ten blocks cover
  all 50000 rows (row r lies in block r / 5000), hence the array the region leaves is that matrix.
-/
import proofs.«158954_j13391708029610_1_alg».proof.Proof.NetSpec
import proofs.«158954_j13391708029610_1_alg».proof.Proof.Gen.KernelIdeal.Frame
import proofs.«158954_j13391708029610_1_alg».proof.Proof.MatmulEntry
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.RegionValue

open Cert.KernelIdeal Cert.KernelIdeal.Gen Idealize.ShloMosaic Idealize.ShloMosaic.TcCoe Idealize.ShloMosaic.ValueIdx
open Idealize.SL.Sem
open Idealize.ShloMosaic.Pipeline (Dat)

/-- Entry (p, q) of a 5000×128 block times a 128×128 block into the zero accumulator. -/
theorem sage9_matmul (A : FVec Ideal S5000x128 .bf16) (B : FVec Ideal S128x128 .bf16) (p : Fin 5000) (q : Fin 128) :
    matmul dot_S5000x128_S128x128_S5000x128_1_0_0_1_n_n none A B (constant (F := Ideal) S5000x128 .f32 0x00000000#32) (ix2 p q)
      = ∑ c : Fin 128, A (ix2 p c) * B (ix2 c q) :=
  matmul_zero_entry Facts₀.dot_S5000x128_S128x128_S5000x128_1_0_0_1_n_n_wf none A B p q

/-- A transposed 128×128 weight block read at (c, q) is the block at (q, c). -/
theorem sage9_transpose (W : FVec Ideal S128x128 .bf16) (c q : Fin 128) :
    transpose S128x128 [1, 0] W Facts₀.transposes_S128x128_p1_0_S128x128 (ix2 c q) = W (ix2 q c) :=
  transpose_ix2_apply W _ c q

/-- The stored value at entry (p, q) of a block: the neighbour-mean block's row p against row q of the first weight
    matrix, plus the bias row at q, plus the node block's row p against row q of the second weight matrix. The shape
    casts and format changes are identities, each transposed weight read at (c, q) is the weight at (q, c), and the
    bias broadcast reads its row at column q. -/
theorem sage9_entry (a z : Vec Ideal S5000x128 .f32) (Wl Wr : Vec Ideal S128x128 .f32) (bl : Vec Ideal S1x128 .f32)
    (p : Fin 5000) (q : Fin 128) :
    k9_pay1 (F := Ideal) a z Wl Wr bl (ix2 p q)
      = ((∑ c : Fin 128, a (ix2 p c) * Wl (ix2 q c)) + bl (ix2 0 q)) + ∑ c : Fin 128, z (ix2 p c) * Wr (ix2 q c) := by
  unfold k9_pay1
  simp only [shapeCast_self]
  simp only [addf_apply, sage9_matmul, truncf_apply, broadcastTo_1b_ab_apply]
  refine congrArg₂ (· + ·) (congrArg₂ (· + ·) (Finset.sum_congr rfl fun c _ => ?_) rfl) (Finset.sum_congr rfl fun c _ => ?_)
  · exact congrArg (a (ix2 p c) * ·) (sage9_transpose _ c q)
  · exact congrArg (z (ix2 p c) * ·) (sage9_transpose _ c q)

/-- A block entry against the whole arrays: if row (j 0) of the two loaded row blocks is row (i 0) of the whole
    matrices, and row (j 1) of each loaded weight and column (j 1) of the loaded bias are row and column (i 1) of the
    whole ones, then the stored value at j is the specification's matrix at i. -/
theorem sage9_block (A Z : Cert.Net.Mat 50000 128) (WL : Cert.Net.Mat 128 128) (BL : Cert.Net.Mat 1 128)
    (WR : Cert.Net.Mat 128 128)
    (a z : Vec Ideal S5000x128 .f32) (Wl Wr : Vec Ideal S128x128 .f32) (bl : Vec Ideal S1x128 .f32)
    (j : S5000x128.Idx) (i : S50000x128.Idx)
    (h0 : ∀ p : Fin 5000, p.val = (j 0).val → ∀ c : Fin 128, a (ix2 p c) = A (ix2 (i 0) c))
    (h1 : ∀ p : Fin 5000, p.val = (j 0).val → ∀ c : Fin 128, z (ix2 p c) = Z (ix2 (i 0) c))
    (h2 : ∀ q : Fin 128, q.val = (j 1).val → ∀ c : Fin 128, Wl (ix2 q c) = WL (ix2 (i 1) c))
    (h3 : ∀ q : Fin 128, q.val = (j 1).val → bl (ix2 0 q) = BL (ix2 0 (i 1)))
    (h4 : ∀ q : Fin 128, q.val = (j 1).val → ∀ c : Fin 128, Wr (ix2 q c) = WR (ix2 (i 1) c)) :
    k9_pay1 (F := Ideal) a z Wl Wr bl j = Cert.Net.sage A Z WL BL WR i := by
  obtain ⟨p, q, rfl⟩ : ∃ (p : Fin 5000) (q : Fin 128), j = ix2 p q := ⟨j 0, j 1, eq_ix2 j⟩
  rw [sage9_entry, h3 q rfl]
  simp only [h0 p rfl, h1 p rfl, h2 q rfl, h4 q rfl]
  rfl

theorem zero_offsets9 : (![0, 0] : Fin 2 → Nat) = fun _ => 0 := funext fun a => by fin_cases a <;> rfl

/-- What the body leaves in the result window's buffer is the stored value of the loaded blocks: the one store fills
    the whole buffer and every load reads a whole block. -/
theorem out9_5_eq (x0 x1 : Vec Ideal S5000x128 .f32) (x2 : Vec Ideal S128x128 .f32) (x3 : Vec Ideal S1x128 .f32)
    (x4 : Vec Ideal S128x128 .f32) : out9_5 (F := Ideal) x0 x1 x2 x3 x4 = k9_pay1 (F := Ideal) x0 x1 x2 x4 x3 := by
  unfold out9_5
  rw [View.canon_unit_zero zero_offsets9]
  simp only [View.ld_unit_zero (S := S5000x128) zero_offsets9, View.ld_unit_zero (S := S128x128) zero_offsets9,
    View.ld_unit_zero (S := S1x128) zero_offsets9]

/-- The block indices over the grid: the two row-blocked windows and the result window sit at block (t, 0) at point
    t, the weight and bias windows at block (0, 0). -/
theorem blockIdx9 : ∀ t : Fin cfg9.N,
    win9_0.index t (0 : Fin 2) = win9_5.index t (0 : Fin 2) ∧ win9_0.index t (1 : Fin 2) = 0
    ∧ win9_5.index t (1 : Fin 2) = 0
    ∧ win9_1.index t (0 : Fin 2) = win9_5.index t (0 : Fin 2) ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0 :=
  (by decide +kernel : ∀ t : Fin grid9.N, _)

/-- Every row block 0 … 9 is some point's. -/
theorem blockOnto9 : ∀ b : Fin 10, ∃ t : Fin cfg9.N, win9_5.index t = ![b.val, 0] :=
  (by decide +kernel : ∀ b : Fin 10, ∃ t : Fin grid9.N, win9_5.index t = ![b.val, 0])

section
variable (V : (c : Dev nD) → (b : Ref sig .tc) → Buf (Elt Ideal) ((c : Thread nD τ).loc b))

set_option maxHeartbeats 1000000 in
/-- What point t writes back is block t of the specification's matrix of the arrays the region finds. -/
theorem sage9_flushed (c : Dev nD) (t : Fin cfg9.N) :
    (dat9 (F := Ideal) V c).flushed 5 t = ((cfg9.win 5).blk t).view.read (Elt Ideal)
      (Cert.Net.sage (n := 50000) (w := 128) (V c (Pipeline.arrRef spec9 0)) (V c (Pipeline.arrRef spec9 1))
        (V c (Pipeline.arrRef spec9 2)) (V c (Pipeline.arrRef spec9 3)) (V c (Pipeline.arrRef spec9 4))) := by
  show (cfg9.win 5).cut (grid9.coords t) ((dat9 (F := Ideal) V c).after 5 t) = _
  refine (congrArg ((cfg9.win 5).cut (grid9.coords t)) ((after9_5 V c t).trans
    (out9_5_eq (iblk9 V c 0 t) (iblk9 V c 1 t) (iblk9 V c 2 t) (iblk9 V c 3 t) (iblk9 V c 4 t)))).trans ?_
  obtain ⟨e0, e1, e2, e3, e4, e5, e6, e7, e8, e9, e10⟩ := blockIdx9 t
  funext j
  show k9_pay1 (F := Ideal) (iblk9 V c 0 t) (iblk9 V c 1 t) (iblk9 V c 2 t) (iblk9 V c 4 t) (iblk9 V c 3 t) j
    = Cert.Net.sage (n := 50000) (w := 128) (V c (Pipeline.arrRef spec9 0)) (V c (Pipeline.arrRef spec9 1))
        (V c (Pipeline.arrRef spec9 2)) (V c (Pipeline.arrRef spec9 3)) (V c (Pipeline.arrRef spec9 4))
        (((cfg9.win 5).blk t).view.emb j)
  refine sage9_block (V c (Pipeline.arrRef spec9 0)) (V c (Pipeline.arrRef spec9 1))
    (V c (Pipeline.arrRef spec9 2)) (V c (Pipeline.arrRef spec9 3)) (V c (Pipeline.arrRef spec9 4))
    (iblk9 V c 0 t) (iblk9 V c 1 t) (iblk9 V c 2 t) (iblk9 V c 4 t) (iblk9 V c 3 t) j
    (((cfg9.win 5).blk t).view.emb j) ?_ ?_ ?_ ?_ ?_
  · intro p hp c'
    show V c (Pipeline.arrRef spec9 0) (((cfg9.win 0).blk t).view.emb (ix2 p c')) = _
    refine congrArg _ (funext fun a => Fin.ext ?_)
    match a with
    | ⟨0, _⟩ => show win9_0.index t (0 : Fin 2) * 5000 + 1 * p.val = win9_5.index t (0 : Fin 2) * 5000 + 1 * (j 0).val; omega
    | ⟨1, _⟩ => show win9_0.index t (1 : Fin 2) * 128 + 1 * c'.val = c'.val; omega
  · intro p hp c'
    show V c (Pipeline.arrRef spec9 1) (((cfg9.win 1).blk t).view.emb (ix2 p c')) = _
    refine congrArg _ (funext fun a => Fin.ext ?_)
    match a with
    | ⟨0, _⟩ => show win9_1.index t (0 : Fin 2) * 5000 + 1 * p.val = win9_5.index t (0 : Fin 2) * 5000 + 1 * (j 0).val; omega
    | ⟨1, _⟩ => show win9_1.index t (1 : Fin 2) * 128 + 1 * c'.val = c'.val; omega
  · intro q hq c'
    show V c (Pipeline.arrRef spec9 2) (((cfg9.win 2).blk t).view.emb (ix2 q c')) = _
    refine congrArg _ (funext fun a => Fin.ext ?_)
    match a with
    | ⟨0, _⟩ => show win9_2.index t (0 : Fin 2) * 128 + 1 * q.val = win9_5.index t (1 : Fin 2) * 128 + 1 * (j 1).val; omega
    | ⟨1, _⟩ => show win9_2.index t (1 : Fin 2) * 128 + 1 * c'.val = c'.val; omega
  · intro q hq
    show V c (Pipeline.arrRef spec9 3) (((cfg9.win 3).blk t).view.emb (ix2 0 q)) = _
    refine congrArg _ (funext fun a => Fin.ext ?_)
    match a with
    | ⟨0, _⟩ => show win9_3.index t (0 : Fin 2) * 1 + 1 * 0 = 0; omega
    | ⟨1, _⟩ => show win9_3.index t (1 : Fin 2) * 128 + 1 * q.val = win9_5.index t (1 : Fin 2) * 128 + 1 * (j 1).val; omega
  · intro q hq c'
    show V c (Pipeline.arrRef spec9 4) (((cfg9.win 4).blk t).view.emb (ix2 q c')) = _
    refine congrArg _ (funext fun a => Fin.ext ?_)
    match a with
    | ⟨0, _⟩ => show win9_4.index t (0 : Fin 2) * 128 + 1 * q.val = win9_5.index t (1 : Fin 2) * 128 + 1 * (j 1).val; omega
    | ⟨1, _⟩ => show win9_4.index t (1 : Fin 2) * 128 + 1 * c'.val = c'.val; omega

/-- An index of the result array lies in point t's block iff each coordinate lies in the block's range on its axis. -/
theorem sage9_mem_blk (t : Fin cfg9.N) (i : S50000x128.Idx) :
    i ∈ ((cfg9.win 5).blk t).view.set ↔ ∀ a : Fin 2, win9_5.index t a * S5000x128.size a ≤ (i a).val
      ∧ (i a).val < win9_5.index t a * S5000x128.size a + S5000x128.size a := by
  show i ∈ ((View.whole main_v161).slice (win9_5.rect t)).set ↔ _
  rw [View.set_slice_whole, Rect.mem_set_unit]
  exact Iff.rfl

/-- Every index of the result array lies in some point's block: row r in the block of point r / 5000. -/
theorem sage9_cover (i : S50000x128.Idx) :
    ∃ t : Fin cfg9.N, (cfg9.win 5).flush t = true ∧ i ∈ ((cfg9.win 5).blk t).view.set := by
  have hi0 : (i 0).val < 50000 := (i 0).isLt
  have hi1 : (i 1).val < 128 := (i 1).isLt
  obtain ⟨t, ht⟩ := blockOnto9 ⟨(i 0).val / 5000, by omega⟩
  have q0 : win9_5.index t (0 : Fin 2) = (i 0).val / 5000 := congrFun ht 0
  have q1 : win9_5.index t (1 : Fin 2) = 0 := congrFun ht 1
  refine ⟨t, flush9_5 t, ?_⟩
  rw [sage9_mem_blk]
  intro a
  match a with
  | ⟨0, _⟩ =>
    show win9_5.index t (0 : Fin 2) * 5000 ≤ (i 0).val ∧ (i 0).val < win9_5.index t (0 : Fin 2) * 5000 + 5000
    omega
  | ⟨1, _⟩ =>
    show win9_5.index t (1 : Fin 2) * 128 ≤ (i 1).val ∧ (i 1).val < win9_5.index t (1 : Fin 2) * 128 + 128
    omega

/-- The array region 9 leaves: the specification's combine matrix of the five arrays it stages (neighbour mean,
    node matrix, first weight, bias row, second weight). -/
theorem region9_value (c : Dev nD) :
    (dat9 (F := Ideal) V c).arrAt 5 cfg9.N
      = Cert.Net.sage (n := 50000) (w := 128) (V c (Pipeline.arrRef spec9 0)) (V c (Pipeline.arrRef spec9 1))
        (V c (Pipeline.arrRef spec9 2)) (V c (Pipeline.arrRef spec9 3)) (V c (Pipeline.arrRef spec9 4)) :=
  (dat9 (F := Ideal) V c).arrAt_eq_of_cover 5 _ (fun t _ => sage9_flushed V c t) sage9_cover

end

end Cert.KernelIdeal.RegionValue

end
-- ==== Proof.Region10.lean ====
/-
  Region 10 of the kernel program: the decoder perceptron 128 → 256 → 4, tiled over ten blocks of 5000 rows.

  Each grid point t loads rows 5000·t … 5000·t + 4999 of the input matrix together with the two weight matrices and
  the two one-row biases, and stores relu(x·W₁ᵀ + b₁)·W₂ᵀ + b₂ into the same rows of the result: entry (p, q) of the
  block is the sum over the hidden units k of max (∑ l, x(p, l)·W₁(k, l) + b₁(k)) 0 · W₂(q, k), plus b₂(q). Row p of
  block t is row 5000·t + p of the whole input and the weights and biases are whole at every point, so every block is a
  restriction of one function of the whole arrays: the specification's perceptron matrix. The ten blocks cover all
  50000 rows (row r lies in block r / 5000), hence the array the region leaves is that matrix.
-/
import proofs.«158954_j13391708029610_1_alg».proof.Proof.NetSpec
import proofs.«158954_j13391708029610_1_alg».proof.Proof.Gen.KernelIdeal.Frame
import proofs.«158954_j13391708029610_1_alg».proof.Proof.MatmulEntry
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.RegionValue

open Cert.KernelIdeal Cert.KernelIdeal.Gen Idealize.ShloMosaic Idealize.ShloMosaic.TcCoe Idealize.ShloMosaic.ValueIdx
open Idealize.SL.Sem
open Idealize.ShloMosaic.Pipeline (Dat)

/-- Entry (p, k) of the 5000×128 input block times the 128×256 transposed first weight into the zero accumulator. -/
theorem mlp10_matmul1 (A : FVec Ideal S5000x128 .bf16) (B : FVec Ideal S128x256 .bf16) (p : Fin 5000) (k : Fin 256) :
    matmul dot_S5000x128_S128x256_S5000x256_1_0_0_1_n_n none A B (constant (F := Ideal) S5000x256 .f32 0x00000000#32) (ix2 p k)
      = ∑ l : Fin 128, A (ix2 p l) * B (ix2 l k) :=
  matmul_zero_entry Facts₀.dot_S5000x128_S128x256_S5000x256_1_0_0_1_n_n_wf none A B p k

/-- Entry (p, q) of the 5000×256 hidden block times the 256×4 transposed second weight into the zero accumulator. -/
theorem mlp10_matmul2 (A : FVec Ideal S5000x256 .bf16) (B : FVec Ideal S256x4 .bf16) (p : Fin 5000) (q : Fin 4) :
    matmul dot_S5000x256_S256x4_S5000x4_1_0_0_1_n_n none A B (constant (F := Ideal) S5000x4 .f32 0x00000000#32) (ix2 p q)
      = ∑ k : Fin 256, A (ix2 p k) * B (ix2 k q) :=
  matmul_zero_entry Facts₀.dot_S5000x256_S256x4_S5000x4_1_0_0_1_n_n_wf none A B p q

/-- The transposed first weight read at (l, k) is the weight at (k, l). -/
theorem mlp10_transpose1 (W : FVec Ideal S256x128 .bf16) (l : Fin 128) (k : Fin 256) :
    transpose S128x256 [1, 0] W Facts₀.transposes_S256x128_p1_0_S128x256 (ix2 l k) = W (ix2 k l) :=
  transpose_ix2_apply W _ l k

/-- The transposed second weight read at (k, q) is the weight at (q, k). -/
theorem mlp10_transpose2 (W : FVec Ideal S4x256 .bf16) (k : Fin 256) (q : Fin 4) :
    transpose S256x4 [1, 0] W Facts₀.transposes_S4x256_p1_0_S256x4 (ix2 k q) = W (ix2 q k) :=
  transpose_ix2_apply W _ k q

/-- The stored value at entry (p, q) of a block: hidden unit k sees the input block's row p against row k of the first
    weight plus the first bias at k, rectified; the output is the hidden row against row q of the second weight plus
    the second bias at q. The shape casts and format changes are identities, each transposed weight is read with its
    coordinates swapped, and each bias broadcast reads its row at the column. -/
theorem mlp10_entry (x : Vec Ideal S5000x128 .f32) (W1 : Vec Ideal S256x128 .f32) (b1 : Vec Ideal S1x256 .f32)
    (W2 : Vec Ideal S4x256 .f32) (b2 : Vec Ideal S1x4 .f32) (p : Fin 5000) (q : Fin 4) :
    k10_pay1 (F := Ideal) x W1 b1 W2 b2 (ix2 p q)
      = (∑ k : Fin 256, max ((∑ l : Fin 128, x (ix2 p l) * W1 (ix2 k l)) + b1 (ix2 0 k)) (Ideal.ofBits .f32 0x00000000#32)
            * W2 (ix2 q k)) + b2 (ix2 0 q) := by
  unfold k10_pay1
  simp only [shapeCast_self]
  simp only [addf_apply, maximumf_apply, mlp10_matmul1, mlp10_matmul2, truncf_apply, broadcast_apply,
    broadcastTo_1b_ab_apply]
  refine congrArg (· + b2 (ix2 0 q)) (Finset.sum_congr rfl fun k _ => ?_)
  refine congrArg₂ (· * ·) (congrArg (max · (Ideal.ofBits .f32 0x00000000#32))
    (congrArg (· + b1 (ix2 0 k)) (Finset.sum_congr rfl fun l _ => ?_))) (mlp10_transpose2 _ k q)
  exact congrArg (x (ix2 p l) * ·) (mlp10_transpose1 _ l k)

theorem zero_offsets10 : (![0, 0] : Fin 2 → Nat) = fun _ => 0 := funext fun a => by fin_cases a <;> rfl

/-- What the body leaves in the result's staging buffer: its one store covers the buffer and its loads read the whole
    staging buffers, so the buffer holds the stored value of the loaded blocks. -/
theorem mlp10_out (x : Vec Ideal S5000x128 .f32) (W1 : Vec Ideal S256x128 .f32) (b1 : Vec Ideal S1x256 .f32)
    (W2 : Vec Ideal S4x256 .f32) (b2 : Vec Ideal S1x4 .f32) :
    out10_5 (F := Ideal) x W1 b1 W2 b2 = k10_pay1 (F := Ideal) x W1 b1 W2 b2 := by
  unfold out10_5
  rw [View.canon_unit_zero zero_offsets10]
  simp only [View.ld_unit_zero (S := S5000x128) zero_offsets10,
    View.ld_unit_zero (S := S256x128) zero_offsets10,
    View.ld_unit_zero (S := S1x256) zero_offsets10,
    View.ld_unit_zero (S := S4x256) zero_offsets10,
    View.ld_unit_zero (S := S1x4) zero_offsets10]

/-- A block entry against the whole arrays: if row (j 0) of the loaded input block is row (i 0) of the whole input,
    the loaded first weight and first bias are the whole ones, and row (j 1) of the loaded second weight and column
    (j 1) of the loaded second bias are row and column (i 1) of the whole ones, then what the body leaves at j is the
    specification's matrix at i. -/
theorem mlp10_block (X : Cert.Net.Mat 50000 128) (W1' : Cert.Net.Mat 256 128) (B1 : Cert.Net.Mat 1 256)
    (W2' : Cert.Net.Mat 4 256) (B2 : Cert.Net.Mat 1 4)
    (x : Vec Ideal S5000x128 .f32) (W1 : Vec Ideal S256x128 .f32) (b1 : Vec Ideal S1x256 .f32)
    (W2 : Vec Ideal S4x256 .f32) (b2 : Vec Ideal S1x4 .f32)
    (j : S5000x4.Idx) (i : S50000x4.Idx)
    (h0 : ∀ p : Fin 5000, p.val = (j 0).val → ∀ l : Fin 128, x (ix2 p l) = X (ix2 (i 0) l))
    (h1 : ∀ (k : Fin 256) (l : Fin 128), W1 (ix2 k l) = W1' (ix2 k l))
    (h2 : ∀ k : Fin 256, b1 (ix2 0 k) = B1 (ix2 0 k))
    (h3 : ∀ q : Fin 4, q.val = (j 1).val → ∀ k : Fin 256, W2 (ix2 q k) = W2' (ix2 (i 1) k))
    (h4 : ∀ q : Fin 4, q.val = (j 1).val → b2 (ix2 0 q) = B2 (ix2 0 (i 1))) :
    out10_5 (F := Ideal) x W1 b1 W2 b2 j = Cert.Net.mlp X W1' B1 W2' B2 i := by
  obtain ⟨p, q, rfl⟩ : ∃ (p : Fin 5000) (q : Fin 4), j = ix2 p q := ⟨j 0, j 1, eq_ix2 j⟩
  rw [mlp10_out, mlp10_entry, h4 q rfl]
  simp only [h0 p rfl, h1, h2, h3 q rfl]
  rfl

/-- The block indices over the grid: the input window and the result window sit at block (t, 0) at point t, the
    weight and bias windows at block (0, 0). -/
theorem blockIdx10 : ∀ t : Fin cfg10.N,
    win10_0.index t (0 : Fin 2) = win10_5.index t (0 : Fin 2) ∧ win10_0.index t (1 : Fin 2) = 0
    ∧ win10_5.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0 :=
  (by decide +kernel : ∀ t : Fin grid10.N, _)

/-- Every row block 0 … 9 is some point's. -/
theorem blockOnto10 : ∀ b : Fin 10, ∃ t : Fin cfg10.N, win10_5.index t = ![b.val, 0] :=
  (by decide +kernel : ∀ b : Fin 10, ∃ t : Fin grid10.N, win10_5.index t = ![b.val, 0])

section
variable (V : (c : Dev nD) → (b : Ref sig .tc) → Buf (Elt Ideal) ((c : Thread nD τ).loc b))

set_option maxHeartbeats 1000000 in
/-- What point t writes back is block t of the specification's matrix of the arrays the region finds. -/
theorem mlp10_flushed (c : Dev nD) (t : Fin cfg10.N) :
    (dat10 (F := Ideal) V c).flushed 5 t = ((cfg10.win 5).blk t).view.read (Elt Ideal)
      (Cert.Net.mlp (n := 50000) (d := 128) (h := 256) (o := 4) (V c (Pipeline.arrRef spec10 0))
        (V c (Pipeline.arrRef spec10 1)) (V c (Pipeline.arrRef spec10 2)) (V c (Pipeline.arrRef spec10 3))
        (V c (Pipeline.arrRef spec10 4))) := by
  obtain ⟨e0, e1, e2, e3, e4, e5, e6, e7, e8, e9, e10⟩ := blockIdx10 t
  refine (congrArg ((cfg10.win 5).cut (grid10.coords t)) (after10_5 (F := Ideal) V c t)).trans ?_
  funext j
  refine mlp10_block (V c (Pipeline.arrRef spec10 0)) (V c (Pipeline.arrRef spec10 1))
    (V c (Pipeline.arrRef spec10 2)) (V c (Pipeline.arrRef spec10 3)) (V c (Pipeline.arrRef spec10 4))
    (iblk10 V c 0 t) (iblk10 V c 1 t) (iblk10 V c 2 t) (iblk10 V c 3 t) (iblk10 V c 4 t) j
    (((cfg10.win 5).blk t).view.emb j) ?_ ?_ ?_ ?_ ?_
  · intro p hp l
    show V c (Pipeline.arrRef spec10 0) (((cfg10.win 0).blk t).view.emb (ix2 p l)) = _
    refine congrArg _ (funext fun a => Fin.ext ?_)
    match a with
    | ⟨0, _⟩ => show win10_0.index t (0 : Fin 2) * 5000 + 1 * p.val = win10_5.index t (0 : Fin 2) * 5000 + 1 * (j 0).val; omega
    | ⟨1, _⟩ => show win10_0.index t (1 : Fin 2) * 128 + 1 * l.val = l.val; omega
  · intro k l
    show V c (Pipeline.arrRef spec10 1) (((cfg10.win 1).blk t).view.emb (ix2 k l)) = _
    refine congrArg _ (funext fun a => Fin.ext ?_)
    match a with
    | ⟨0, _⟩ => show win10_1.index t (0 : Fin 2) * 256 + 1 * k.val = k.val; omega
    | ⟨1, _⟩ => show win10_1.index t (1 : Fin 2) * 128 + 1 * l.val = l.val; omega
  · intro k
    show V c (Pipeline.arrRef spec10 2) (((cfg10.win 2).blk t).view.emb (ix2 0 k)) = _
    refine congrArg _ (funext fun a => Fin.ext ?_)
    match a with
    | ⟨0, _⟩ => show win10_2.index t (0 : Fin 2) * 1 + 1 * 0 = 0; omega
    | ⟨1, _⟩ => show win10_2.index t (1 : Fin 2) * 256 + 1 * k.val = k.val; omega
  · intro q hq k
    show V c (Pipeline.arrRef spec10 3) (((cfg10.win 3).blk t).view.emb (ix2 q k)) = _
    refine congrArg _ (funext fun a => Fin.ext ?_)
    match a with
    | ⟨0, _⟩ => show win10_3.index t (0 : Fin 2) * 4 + 1 * q.val = win10_5.index t (1 : Fin 2) * 4 + 1 * (j 1).val; omega
    | ⟨1, _⟩ => show win10_3.index t (1 : Fin 2) * 256 + 1 * k.val = k.val; omega
  · intro q hq
    show V c (Pipeline.arrRef spec10 4) (((cfg10.win 4).blk t).view.emb (ix2 0 q)) = _
    refine congrArg _ (funext fun a => Fin.ext ?_)
    match a with
    | ⟨0, _⟩ => show win10_4.index t (0 : Fin 2) * 1 + 1 * 0 = 0; omega
    | ⟨1, _⟩ => show win10_4.index t (1 : Fin 2) * 4 + 1 * q.val = win10_5.index t (1 : Fin 2) * 4 + 1 * (j 1).val; omega

/-- An index of the result array lies in point t's block iff each coordinate lies in the block's range on its axis. -/
theorem mlp10_mem_blk (t : Fin cfg10.N) (i : S50000x4.Idx) :
    i ∈ ((cfg10.win 5).blk t).view.set ↔ ∀ a : Fin 2, win10_5.index t a * S5000x4.size a ≤ (i a).val
      ∧ (i a).val < win10_5.index t a * S5000x4.size a + S5000x4.size a := by
  show i ∈ ((View.whole main_v164).slice (win10_5.rect t)).set ↔ _
  rw [View.set_slice_whole, Rect.mem_set_unit]
  exact Iff.rfl

/-- Every index of the result array lies in some point's block: row r in the block of point r / 5000. -/
theorem mlp10_cover (i : S50000x4.Idx) :
    ∃ t : Fin cfg10.N, (cfg10.win 5).flush t = true ∧ i ∈ ((cfg10.win 5).blk t).view.set := by
  have hi0 : (i 0).val < 50000 := (i 0).isLt
  have hi1 : (i 1).val < 4 := (i 1).isLt
  obtain ⟨t, ht⟩ := blockOnto10 ⟨(i 0).val / 5000, by omega⟩
  have q0 : win10_5.index t (0 : Fin 2) = (i 0).val / 5000 := congrFun ht 0
  have q1 : win10_5.index t (1 : Fin 2) = 0 := congrFun ht 1
  refine ⟨t, flush10_5 t, ?_⟩
  rw [mlp10_mem_blk]
  intro a
  match a with
  | ⟨0, _⟩ =>
    show win10_5.index t (0 : Fin 2) * 5000 ≤ (i 0).val ∧ (i 0).val < win10_5.index t (0 : Fin 2) * 5000 + 5000
    omega
  | ⟨1, _⟩ =>
    show win10_5.index t (1 : Fin 2) * 4 ≤ (i 1).val ∧ (i 1).val < win10_5.index t (1 : Fin 2) * 4 + 4
    omega

/-- The array region 10 leaves: the specification's perceptron matrix of the five arrays it stages (input, first
    weight, first bias row, second weight, second bias row). -/
theorem region10_value (c : Dev nD) :
    (dat10 (F := Ideal) V c).arrAt 5 cfg10.N
      = Cert.Net.mlp (n := 50000) (d := 128) (h := 256) (o := 4) (V c (Pipeline.arrRef spec10 0))
        (V c (Pipeline.arrRef spec10 1)) (V c (Pipeline.arrRef spec10 2)) (V c (Pipeline.arrRef spec10 3))
        (V c (Pipeline.arrRef spec10 4)) :=
  (dat10 (F := Ideal) V c).arrAt_eq_of_cover 5 _ (fun t _ => mlp10_flushed V c t) mlp10_cover

end

end Cert.KernelIdeal.RegionValue

end
-- ==== Proof.RegionValues.lean ====
/-
  The value of each of the eleven regions of the kernel program, behind one import.

  Regions 0 and 10 leave the specification's perceptron matrix of the five arrays they stage; regions 1, 3, 5, 7, 9 the
  combine matrix (neighbour mean, node matrix, first weight, bias row, second weight); regions 2, 4, 6, 8 the
  normalise-and-rectify matrix (activations, column mean, column variance, scale, shift). Each statement is
  `regionK_value` in the module of that region.
-/
import proofs.«158954_j13391708029610_1_alg».proof.Proof.Region0
import proofs.«158954_j13391708029610_1_alg».proof.Proof.Region1
import proofs.«158954_j13391708029610_1_alg».proof.Proof.Region2
import proofs.«158954_j13391708029610_1_alg».proof.Proof.Region3
import proofs.«158954_j13391708029610_1_alg».proof.Proof.Region4
import proofs.«158954_j13391708029610_1_alg».proof.Proof.Region5
import proofs.«158954_j13391708029610_1_alg».proof.Proof.Region6
import proofs.«158954_j13391708029610_1_alg».proof.Proof.Region7
import proofs.«158954_j13391708029610_1_alg».proof.Proof.Region8
import proofs.«158954_j13391708029610_1_alg».proof.Proof.Region9
import proofs.«158954_j13391708029610_1_alg».proof.Proof.Region10
-- ==== Proof.KValues.lean ====
/-
  The values the kernel program's buffers hold, as functions of the launch memory's argument arrays: the edge rows, the
  neighbour mean along them, the encoded features, each round's linear combine and its normalise-and-rectify, the
  features after each round, and the result. The combines, the perceptrons and normalise-and-rectify are the
  specification's functions; the aggregation, the parameter slices and the column statistics are the program's host stages.
-/
import proofs.«158954_j13391708029610_1_alg».proof.KernelIdeal
import proofs.«158954_j13391708029610_1_alg».proof.Proof.NetSpec
import proofs.«158954_j13391708029610_1_alg».proof.Proof.KStages

noncomputable section

namespace Cert.KernelIdeal.Chain

open Cert.KernelIdeal
open Idealize.ShloMosaic Idealize.ShloMosaic.TcCoe Idealize.SL.Sem Idealize.ShloMosaic.StableHlo

variable [Cert.KernelIdeal.Facts]
variable (m : (ℓ : Loc nD τ sig) → Buf (Elt Ideal) ℓ) (c : Dev nD)

/-! ## The values -/

/-- The edge sources and targets of the launch memory's edge array. -/
def srcV : IVec S600000 32 := Stage.srcIdx (m ((c : Thread nD τ).loc main_arg1))
def dstV : IVec S600000 32 := Stage.dstIdx (m ((c : Thread nD τ).loc main_arg1))
/-- The neighbour mean along the launch memory's edges. -/
def nbr (z : FVec Ideal S50000x128 .f32) : FVec Ideal S50000x128 .f32 := Stage.aggr z (srcV m c) (dstV m c)
/-- The encoded features. -/
def z0 : FVec Ideal S50000x128 .f32 := Cert.Net.mlp (m ((c : Thread nD τ).loc main_arg0)) (m ((c : Thread nD τ).loc main_arg2)) (Stage.row256 (m ((c : Thread nD τ).loc main_arg3))) (m ((c : Thread nD τ).loc main_arg4)) (Stage.row128 (m ((c : Thread nD τ).loc main_arg5)))
/-- Round 0's linear combine of the neighbour mean of the features with the features. -/
def lin0 (z : FVec Ideal S50000x128 .f32) : FVec Ideal S50000x128 .f32 :=
  Cert.Net.sage (nbr m c z) z (Stage.wSlice0 (m ((c : Thread nD τ).loc main_arg6))) (Stage.row128 (Stage.bSlice0 (m ((c : Thread nD τ).loc main_arg7)))) (Stage.wSlice0 (m ((c : Thread nD τ).loc main_arg8)))
/-- Round 1's linear combine of the neighbour mean of the features with the features. -/
def lin1 (z : FVec Ideal S50000x128 .f32) : FVec Ideal S50000x128 .f32 :=
  Cert.Net.sage (nbr m c z) z (Stage.wSlice1 (m ((c : Thread nD τ).loc main_arg6))) (Stage.row128 (Stage.bSlice1 (m ((c : Thread nD τ).loc main_arg7)))) (Stage.wSlice1 (m ((c : Thread nD τ).loc main_arg8)))
/-- Round 2's linear combine of the neighbour mean of the features with the features. -/
def lin2 (z : FVec Ideal S50000x128 .f32) : FVec Ideal S50000x128 .f32 :=
  Cert.Net.sage (nbr m c z) z (Stage.wSlice2 (m ((c : Thread nD τ).loc main_arg6))) (Stage.row128 (Stage.bSlice2 (m ((c : Thread nD τ).loc main_arg7)))) (Stage.wSlice2 (m ((c : Thread nD τ).loc main_arg8)))
/-- Round 3's linear combine of the neighbour mean of the features with the features. -/
def lin3 (z : FVec Ideal S50000x128 .f32) : FVec Ideal S50000x128 .f32 :=
  Cert.Net.sage (nbr m c z) z (Stage.wSlice3 (m ((c : Thread nD τ).loc main_arg6))) (Stage.row128 (Stage.bSlice3 (m ((c : Thread nD τ).loc main_arg7)))) (Stage.wSlice3 (m ((c : Thread nD τ).loc main_arg8)))
/-- Round 4's linear combine of the neighbour mean of the features with the features. -/
def lin4 (z : FVec Ideal S50000x128 .f32) : FVec Ideal S50000x128 .f32 :=
  Cert.Net.sage (nbr m c z) z (Stage.wSlice4 (m ((c : Thread nD τ).loc main_arg6))) (Stage.row128 (Stage.bSlice4 (m ((c : Thread nD τ).loc main_arg7)))) (Stage.wSlice4 (m ((c : Thread nD τ).loc main_arg8)))
/-- Round 0's normalise-and-rectify by the column statistics of its argument. -/
def nrm0 (x : FVec Ideal S50000x128 .f32) : FVec Ideal S50000x128 .f32 :=
  Cert.Net.bnRelu x (Stage.colMeanK x) (Stage.colVarK x (constantI S_ 32 0#32)) (Stage.row128 (Stage.gSlice0 (m ((c : Thread nD τ).loc main_arg9)))) (Stage.row128 (Stage.gSlice0 (m ((c : Thread nD τ).loc main_arg10))))
/-- Round 1's normalise-and-rectify by the column statistics of its argument. -/
def nrm1 (x : FVec Ideal S50000x128 .f32) : FVec Ideal S50000x128 .f32 :=
  Cert.Net.bnRelu x (Stage.colMeanK x) (Stage.colVarK x (constantI S_ 32 0#32)) (Stage.row128 (Stage.gSlice1 (m ((c : Thread nD τ).loc main_arg9)))) (Stage.row128 (Stage.gSlice1 (m ((c : Thread nD τ).loc main_arg10))))
/-- Round 2's normalise-and-rectify by the column statistics of its argument. -/
def nrm2 (x : FVec Ideal S50000x128 .f32) : FVec Ideal S50000x128 .f32 :=
  Cert.Net.bnRelu x (Stage.colMeanK x) (Stage.colVarK x (constantI S_ 32 0#32)) (Stage.row128 (Stage.gSlice2 (m ((c : Thread nD τ).loc main_arg9)))) (Stage.row128 (Stage.gSlice2 (m ((c : Thread nD τ).loc main_arg10))))
/-- Round 3's normalise-and-rectify by the column statistics of its argument. -/
def nrm3 (x : FVec Ideal S50000x128 .f32) : FVec Ideal S50000x128 .f32 :=
  Cert.Net.bnRelu x (Stage.colMeanK x) (Stage.colVarK x (constantI S_ 32 0#32)) (Stage.row128 (Stage.gSlice3 (m ((c : Thread nD τ).loc main_arg9)))) (Stage.row128 (Stage.gSlice3 (m ((c : Thread nD τ).loc main_arg10))))
/-- The features after round 0. -/
def z1 : FVec Ideal S50000x128 .f32 := nrm0 m c (lin0 m c (z0 m c))
/-- The features after round 1. -/
def z2 : FVec Ideal S50000x128 .f32 := nrm1 m c (lin1 m c (z1 m c))
/-- The features after round 2. -/
def z3 : FVec Ideal S50000x128 .f32 := nrm2 m c (lin2 m c (z2 m c))
/-- The features after round 3. -/
def z4 : FVec Ideal S50000x128 .f32 := nrm3 m c (lin3 m c (z3 m c))
/-- The program's result. -/
def outV : FVec Ideal S50000x4 .f32 := Cert.Net.mlp (lin4 m c (z4 m c)) (m ((c : Thread nD τ).loc main_arg11)) (Stage.row256 (m ((c : Thread nD τ).loc main_arg12))) (m ((c : Thread nD τ).loc main_arg13)) (Stage.row4 (m ((c : Thread nD τ).loc main_arg14)))

end Cert.KernelIdeal.Chain

end
-- ==== Proof.KChain.lean ====
/-
  The kernel program's result as the network of the specification.

  The buffers' contents at the thirty boundaries between the program's segments are a fold from the launch memory. It is
  walked here once, front to back, naming what each buffer a later segment reads holds: after the first stretch the edge
  rows and the encoder's bias rows; after the encoder's region the encoded features; then, round by round, the neighbour
  mean and the round's weights (a stretch of host operations), the linear combine (a region), the combine's column mean
  and variance and the round's scale and shift (three stretches), and normalise-and-rectify (a region); a fifth
  aggregation and combine; and the decoder's region. A region's output array is what its grid's write-backs leave, which
  is the stage's function of the arrays it was entered with; an input array and every buffer that is no array of the
  region come out as they went in. The long-lived buffers (the edge rows, the in-degree column, the parameter arrays) are
  carried along as one bundle.
-/
import proofs.«158954_j13391708029610_1_alg».proof.Proof.Gen.KernelIdeal.Frame
import proofs.«158954_j13391708029610_1_alg».proof.Proof.NetSpec
import proofs.«158954_j13391708029610_1_alg».proof.Proof.KStages
import proofs.«158954_j13391708029610_1_alg».proof.Proof.KKeeps
import proofs.«158954_j13391708029610_1_alg».proof.Proof.KHost0
import proofs.«158954_j13391708029610_1_alg».proof.Proof.KRound0
import proofs.«158954_j13391708029610_1_alg».proof.Proof.KRound1
import proofs.«158954_j13391708029610_1_alg».proof.Proof.KRound2
import proofs.«158954_j13391708029610_1_alg».proof.Proof.KRound3
import proofs.«158954_j13391708029610_1_alg».proof.Proof.KRound4
import proofs.«158954_j13391708029610_1_alg».proof.Proof.RegionValues
import proofs.«158954_j13391708029610_1_alg».proof.Proof.KValues

noncomputable section

namespace Cert.KernelIdeal.Chain

open Cert.KernelIdeal Cert.KernelIdeal.Gen Cert.KernelIdeal.Stretch Cert.KernelIdeal.RegionValue
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)
/-! ## The long-lived buffers -/

/-- The long-lived buffers hold the launch memory's edge rows, its in-degree column and its parameter arrays. -/
structure Live (W : Valuation τ sig (Elt Ideal)) : Prop where
  v1 : W (Proc.devRef .tc main_v1) = srcV m c
  v3 : W (Proc.devRef .tc main_v3) = dstV m c
  v13 : W (Proc.devRef .tc main_v13) = Stage.degreeCol (dstV m c)
  a6 : W (Proc.devRef .tc main_arg6) = (m ((c : Thread nD τ).loc main_arg6))
  a7 : W (Proc.devRef .tc main_arg7) = (m ((c : Thread nD τ).loc main_arg7))
  a8 : W (Proc.devRef .tc main_arg8) = (m ((c : Thread nD τ).loc main_arg8))
  a9 : W (Proc.devRef .tc main_arg9) = (m ((c : Thread nD τ).loc main_arg9))
  a10 : W (Proc.devRef .tc main_arg10) = (m ((c : Thread nD τ).loc main_arg10))
  a11 : W (Proc.devRef .tc main_arg11) = (m ((c : Thread nD τ).loc main_arg11))
  a12 : W (Proc.devRef .tc main_arg12) = (m ((c : Thread nD τ).loc main_arg12))
  a13 : W (Proc.devRef .tc main_arg13) = (m ((c : Thread nD τ).loc main_arg13))
  a14 : W (Proc.devRef .tc main_arg14) = (m ((c : Thread nD τ).loc main_arg14))

variable {m c}
/-- A segment that leaves the long-lived buffers alone hands them on. -/
theorem Live.step {W W' : Valuation τ sig (Elt Ideal)} (h : Live m c W) (k : Keeps W W') : Live m c W' :=
  ⟨k.v1.trans h.v1, k.v3.trans h.v3, k.v13.trans h.v13, k.a6.trans h.a6, k.a7.trans h.a7, k.a8.trans h.a8, k.a9.trans h.a9, k.a10.trans h.a10, k.a11.trans h.a11, k.a12.trans h.a12, k.a13.trans h.a13, k.a14.trans h.a14⟩
variable (m c)

/-! ## The walk -/

/-- After the first stretch: the edge rows, the encoder's bias rows, the arguments as launched. -/
theorem b1_src : W1 m ρ c (Proc.devRef .tc main_v1) = srcV m c :=
  h0_src _
theorem b1_dst : W1 m ρ c (Proc.devRef .tc main_v3) = dstV m c :=
  h0_dst _
theorem b1_b1 : W1 m ρ c (Proc.devRef .tc main_v4) = Stage.row256 (m ((c : Thread nD τ).loc main_arg3)) :=
  h0_b1 _
theorem b1_b2 : W1 m ρ c (Proc.devRef .tc main_v5) = Stage.row128 (m ((c : Thread nD τ).loc main_arg5)) :=
  h0_b2 _
theorem b1_a0 : W1 m ρ c (Proc.devRef .tc main_arg0) = (m ((c : Thread nD τ).loc main_arg0)) :=
  h0_keep_a0 _
theorem b1_a2 : W1 m ρ c (Proc.devRef .tc main_arg2) = (m ((c : Thread nD τ).loc main_arg2)) :=
  h0_keep_a2 _
theorem b1_a4 : W1 m ρ c (Proc.devRef .tc main_arg4) = (m ((c : Thread nD τ).loc main_arg4)) :=
  h0_keep_a4 _
theorem b1_a6 : W1 m ρ c (Proc.devRef .tc main_arg6) = (m ((c : Thread nD τ).loc main_arg6)) :=
  h0_keep_a6 _
theorem b1_a7 : W1 m ρ c (Proc.devRef .tc main_arg7) = (m ((c : Thread nD τ).loc main_arg7)) :=
  h0_keep_a7 _
theorem b1_a8 : W1 m ρ c (Proc.devRef .tc main_arg8) = (m ((c : Thread nD τ).loc main_arg8)) :=
  h0_keep_a8 _
theorem b1_a9 : W1 m ρ c (Proc.devRef .tc main_arg9) = (m ((c : Thread nD τ).loc main_arg9)) :=
  h0_keep_a9 _
theorem b1_a10 : W1 m ρ c (Proc.devRef .tc main_arg10) = (m ((c : Thread nD τ).loc main_arg10)) :=
  h0_keep_a10 _
theorem b1_a11 : W1 m ρ c (Proc.devRef .tc main_arg11) = (m ((c : Thread nD τ).loc main_arg11)) :=
  h0_keep_a11 _
theorem b1_a12 : W1 m ρ c (Proc.devRef .tc main_arg12) = (m ((c : Thread nD τ).loc main_arg12)) :=
  h0_keep_a12 _
theorem b1_a13 : W1 m ρ c (Proc.devRef .tc main_arg13) = (m ((c : Thread nD τ).loc main_arg13)) :=
  h0_keep_a13 _
theorem b1_a14 : W1 m ρ c (Proc.devRef .tc main_arg14) = (m ((c : Thread nD τ).loc main_arg14)) :=
  h0_keep_a14 _
/-- After the encoder's region: the encoded features. -/
theorem b2_z : W2 m ρ c (Proc.devRef .tc main_v6) = z0 m c :=
  (W2_arr m ρ c 5).trans ((region0_value (V1 m ρ) c).trans (by
    show Cert.Net.mlp (W1 m ρ c (Proc.devRef .tc main_arg0)) (W1 m ρ c (Proc.devRef .tc main_arg2)) (W1 m ρ c (Proc.devRef .tc main_v4)) (W1 m ρ c (Proc.devRef .tc main_arg4)) (W1 m ρ c (Proc.devRef .tc main_v5)) = _
    rw [b1_a0 m ρ c, b1_a2 m ρ c, b1_b1 m ρ c, b1_a4 m ρ c, b1_b2 m ρ c] <;> rfl))
theorem b2_src : W2 m ρ c (Proc.devRef .tc main_v1) = srcV m c :=
  (W2_of_ne m ρ c main_v1 (by decide)).trans (b1_src m ρ c)
theorem b2_dst : W2 m ρ c (Proc.devRef .tc main_v3) = dstV m c :=
  (W2_of_ne m ρ c main_v3 (by decide)).trans (b1_dst m ρ c)
theorem b2_a6 : W2 m ρ c (Proc.devRef .tc main_arg6) = (m ((c : Thread nD τ).loc main_arg6)) :=
  (W2_of_ne m ρ c main_arg6 (by decide)).trans (b1_a6 m ρ c)
theorem b2_a7 : W2 m ρ c (Proc.devRef .tc main_arg7) = (m ((c : Thread nD τ).loc main_arg7)) :=
  (W2_of_ne m ρ c main_arg7 (by decide)).trans (b1_a7 m ρ c)
theorem b2_a8 : W2 m ρ c (Proc.devRef .tc main_arg8) = (m ((c : Thread nD τ).loc main_arg8)) :=
  (W2_of_ne m ρ c main_arg8 (by decide)).trans (b1_a8 m ρ c)
theorem b2_a9 : W2 m ρ c (Proc.devRef .tc main_arg9) = (m ((c : Thread nD τ).loc main_arg9)) :=
  (W2_of_ne m ρ c main_arg9 (by decide)).trans (b1_a9 m ρ c)
theorem b2_a10 : W2 m ρ c (Proc.devRef .tc main_arg10) = (m ((c : Thread nD τ).loc main_arg10)) :=
  (W2_of_ne m ρ c main_arg10 (by decide)).trans (b1_a10 m ρ c)
theorem b2_a11 : W2 m ρ c (Proc.devRef .tc main_arg11) = (m ((c : Thread nD τ).loc main_arg11)) :=
  (W2_of_ne m ρ c main_arg11 (by decide)).trans (b1_a11 m ρ c)
theorem b2_a12 : W2 m ρ c (Proc.devRef .tc main_arg12) = (m ((c : Thread nD τ).loc main_arg12)) :=
  (W2_of_ne m ρ c main_arg12 (by decide)).trans (b1_a12 m ρ c)
theorem b2_a13 : W2 m ρ c (Proc.devRef .tc main_arg13) = (m ((c : Thread nD τ).loc main_arg13)) :=
  (W2_of_ne m ρ c main_arg13 (by decide)).trans (b1_a13 m ρ c)
theorem b2_a14 : W2 m ρ c (Proc.devRef .tc main_arg14) = (m ((c : Thread nD τ).loc main_arg14)) :=
  (W2_of_ne m ρ c main_arg14 (by decide)).trans (b1_a14 m ρ c)
/-- After round 0's first stretch the long-lived buffers are all in place. -/
theorem live3 : Live m c (W3 m ρ c) :=
  ⟨(r0_A_keep_v1 _).trans (b2_src m ρ c), (r0_A_keep_v3 _).trans (b2_dst m ρ c),
   (r0_deg _).trans (by rw [b2_dst m ρ c]),
   (r0_A_keep_a6 _).trans (b2_a6 m ρ c), (r0_A_keep_a7 _).trans (b2_a7 m ρ c), (r0_A_keep_a8 _).trans (b2_a8 m ρ c), (r0_A_keep_a9 _).trans (b2_a9 m ρ c), (r0_A_keep_a10 _).trans (b2_a10 m ρ c), (r0_A_keep_a11 _).trans (b2_a11 m ρ c), (r0_A_keep_a12 _).trans (b2_a12 m ρ c), (r0_A_keep_a13 _).trans (b2_a13 m ρ c), (r0_A_keep_a14 _).trans (b2_a14 m ρ c)⟩
/-- Round 0: the neighbour mean and the round's weights. -/
theorem r0_am_at : W3 m ρ c (Proc.devRef .tc main_v25) = nbr m c (z0 m c) :=
  (r0_am _).trans (by rw [b2_z m ρ c, b2_src m ρ c, b2_dst m ρ c] <;> rfl)
theorem r0_wl_at : W3 m ρ c (Proc.devRef .tc main_v27) = Stage.wSlice0 (m ((c : Thread nD τ).loc main_arg6)) :=
  (r0_wl _).trans (by rw [b2_a6 m ρ c])
theorem r0_bl_at : W3 m ρ c (Proc.devRef .tc main_v32) = Stage.row128 (Stage.bSlice0 (m ((c : Thread nD τ).loc main_arg7))) :=
  (r0_bl _).trans (by rw [b2_a7 m ρ c])
theorem r0_wr_at : W3 m ρ c (Proc.devRef .tc main_v31) = Stage.wSlice0 (m ((c : Thread nD τ).loc main_arg8)) :=
  (r0_wr _).trans (by rw [b2_a8 m ρ c])
theorem r0_z_at : W3 m ρ c (Proc.devRef .tc main_v6) = z0 m c :=
  (r0_A_keep_z _).trans (b2_z m ρ c)
/-- Round 0: the linear combine. -/
theorem r0_lin : W4 m ρ c (Proc.devRef .tc main_v33) = lin0 m c (z0 m c) :=
  (W4_arr m ρ c 5).trans ((region1_value (V3 m ρ) c).trans (by
    show Cert.Net.sage (W3 m ρ c (Proc.devRef .tc main_v25)) (W3 m ρ c (Proc.devRef .tc main_v6)) (W3 m ρ c (Proc.devRef .tc main_v27)) (W3 m ρ c (Proc.devRef .tc main_v32)) (W3 m ρ c (Proc.devRef .tc main_v31)) = _
    rw [r0_am_at m ρ c, r0_z_at m ρ c, r0_wl_at m ρ c, r0_bl_at m ρ c, r0_wr_at m ρ c] <;> rfl))
/-- Region 1 leaves the long-lived buffers alone: none is an array of it. -/
theorem kreg1 : Keeps (W3 m ρ c) (W4 m ρ c) :=
  ⟨W4_of_ne m ρ c main_v1 (by decide), W4_of_ne m ρ c main_v3 (by decide), W4_of_ne m ρ c main_v13 (by decide), W4_of_ne m ρ c main_arg6 (by decide), W4_of_ne m ρ c main_arg7 (by decide), W4_of_ne m ρ c main_arg8 (by decide), W4_of_ne m ρ c main_arg9 (by decide), W4_of_ne m ρ c main_arg10 (by decide), W4_of_ne m ρ c main_arg11 (by decide), W4_of_ne m ρ c main_arg12 (by decide), W4_of_ne m ρ c main_arg13 (by decide), W4_of_ne m ρ c main_arg14 (by decide)⟩
theorem live4 : Live m c (W4 m ρ c) :=
  (live3 m ρ c).step (kreg1 m ρ c)
/-- Round 0: the combine's column statistics and the round's scale and shift. -/
theorem r0_mu_at : W5 m ρ c (Proc.devRef .tc main_v37) = Stage.colMeanK (lin0 m c (z0 m c)) :=
  (r0_mu _).trans (by rw [r0_lin m ρ c])
theorem r0_c6_at : W5 m ρ c (Proc.devRef .tc main_c_6) = constantI S_ 32 0#32 :=
  r0_c6 _
theorem r0_lin_M : W5 m ρ c (Proc.devRef .tc main_v33) = lin0 m c (z0 m c) :=
  (r0_M_keep_lin _).trans (r0_lin m ρ c)
theorem live5 : Live m c (W5 m ρ c) :=
  (live4 m ρ c).step (r0_M_keeps _)
theorem r0_var_at : W6 m ρ c (Proc.devRef .tc main_v38) = Stage.colVarK (lin0 m c (z0 m c)) (constantI S_ 32 0#32) :=
  (r0_var _).trans (by rw [r0_lin_M m ρ c, r0_c6_at m ρ c])
theorem r0_lin_V : W6 m ρ c (Proc.devRef .tc main_v33) = lin0 m c (z0 m c) :=
  (r0_V_keep_lin _).trans (r0_lin_M m ρ c)
theorem r0_mu_V : W6 m ρ c (Proc.devRef .tc main_v37) = Stage.colMeanK (lin0 m c (z0 m c)) :=
  (r0_V_keep_mu _).trans (r0_mu_at m ρ c)
theorem live6 : Live m c (W6 m ρ c) :=
  (live5 m ρ c).step (r0_V_keeps _)
theorem r0_g_at : W7 m ρ c (Proc.devRef .tc main_v41) = Stage.row128 (Stage.gSlice0 (m ((c : Thread nD τ).loc main_arg9))) :=
  (r0_g _).trans (by rw [(live6 m ρ c).a9])
theorem r0_b_at : W7 m ρ c (Proc.devRef .tc main_v44) = Stage.row128 (Stage.gSlice0 (m ((c : Thread nD τ).loc main_arg10))) :=
  (r0_b _).trans (by rw [(live6 m ρ c).a10])
theorem r0_lin_G : W7 m ρ c (Proc.devRef .tc main_v33) = lin0 m c (z0 m c) :=
  (r0_G_keep_lin _).trans (r0_lin_V m ρ c)
theorem r0_mu_G : W7 m ρ c (Proc.devRef .tc main_v37) = Stage.colMeanK (lin0 m c (z0 m c)) :=
  (r0_G_keep_mu _).trans (r0_mu_V m ρ c)
theorem r0_var_G : W7 m ρ c (Proc.devRef .tc main_v38) = Stage.colVarK (lin0 m c (z0 m c)) (constantI S_ 32 0#32) :=
  (r0_G_keep_var _).trans (r0_var_at m ρ c)
theorem live7 : Live m c (W7 m ρ c) :=
  (live6 m ρ c).step (r0_G_keeps _)
/-- Round 0: normalise and rectify. -/
theorem r0_zout : W8 m ρ c (Proc.devRef .tc main_v45) = z1 m c :=
  (W8_arr m ρ c 5).trans ((region2_value (V7 m ρ) c).trans (by
    show Cert.Net.bnRelu (W7 m ρ c (Proc.devRef .tc main_v33)) (W7 m ρ c (Proc.devRef .tc main_v37)) (W7 m ρ c (Proc.devRef .tc main_v38)) (W7 m ρ c (Proc.devRef .tc main_v41)) (W7 m ρ c (Proc.devRef .tc main_v44)) = _
    rw [r0_lin_G m ρ c, r0_mu_G m ρ c, r0_var_G m ρ c, r0_g_at m ρ c, r0_b_at m ρ c] <;> rfl))
/-- Region 2 leaves the long-lived buffers alone: none is an array of it. -/
theorem kreg2 : Keeps (W7 m ρ c) (W8 m ρ c) :=
  ⟨W8_of_ne m ρ c main_v1 (by decide), W8_of_ne m ρ c main_v3 (by decide), W8_of_ne m ρ c main_v13 (by decide), W8_of_ne m ρ c main_arg6 (by decide), W8_of_ne m ρ c main_arg7 (by decide), W8_of_ne m ρ c main_arg8 (by decide), W8_of_ne m ρ c main_arg9 (by decide), W8_of_ne m ρ c main_arg10 (by decide), W8_of_ne m ρ c main_arg11 (by decide), W8_of_ne m ρ c main_arg12 (by decide), W8_of_ne m ρ c main_arg13 (by decide), W8_of_ne m ρ c main_arg14 (by decide)⟩
theorem live8 : Live m c (W8 m ρ c) :=
  (live7 m ρ c).step (kreg2 m ρ c)
theorem live9 : Live m c (W9 m ρ c) :=
  (live8 m ρ c).step (r1_A_keeps _)
/-- Round 1: the neighbour mean and the round's weights. -/
theorem r1_am_at : W9 m ρ c (Proc.devRef .tc main_v57) = nbr m c (z1 m c) :=
  (r1_am _).trans (by rw [(live8 m ρ c).v13, r0_zout m ρ c, (live8 m ρ c).v1, (live8 m ρ c).v3] <;> rfl)
theorem r1_wl_at : W9 m ρ c (Proc.devRef .tc main_v59) = Stage.wSlice1 (m ((c : Thread nD τ).loc main_arg6)) :=
  (r1_wl _).trans (by rw [(live8 m ρ c).a6])
theorem r1_bl_at : W9 m ρ c (Proc.devRef .tc main_v64) = Stage.row128 (Stage.bSlice1 (m ((c : Thread nD τ).loc main_arg7))) :=
  (r1_bl _).trans (by rw [(live8 m ρ c).a7])
theorem r1_wr_at : W9 m ρ c (Proc.devRef .tc main_v63) = Stage.wSlice1 (m ((c : Thread nD τ).loc main_arg8)) :=
  (r1_wr _).trans (by rw [(live8 m ρ c).a8])
theorem r1_z_at : W9 m ρ c (Proc.devRef .tc main_v45) = z1 m c :=
  (r1_A_keep_z _).trans (r0_zout m ρ c)
/-- Round 1: the linear combine. -/
theorem r1_lin : W10 m ρ c (Proc.devRef .tc main_v65) = lin1 m c (z1 m c) :=
  (W10_arr m ρ c 5).trans ((region3_value (V9 m ρ) c).trans (by
    show Cert.Net.sage (W9 m ρ c (Proc.devRef .tc main_v57)) (W9 m ρ c (Proc.devRef .tc main_v45)) (W9 m ρ c (Proc.devRef .tc main_v59)) (W9 m ρ c (Proc.devRef .tc main_v64)) (W9 m ρ c (Proc.devRef .tc main_v63)) = _
    rw [r1_am_at m ρ c, r1_z_at m ρ c, r1_wl_at m ρ c, r1_bl_at m ρ c, r1_wr_at m ρ c] <;> rfl))
/-- Region 3 leaves the long-lived buffers alone: none is an array of it. -/
theorem kreg3 : Keeps (W9 m ρ c) (W10 m ρ c) :=
  ⟨W10_of_ne m ρ c main_v1 (by decide), W10_of_ne m ρ c main_v3 (by decide), W10_of_ne m ρ c main_v13 (by decide), W10_of_ne m ρ c main_arg6 (by decide), W10_of_ne m ρ c main_arg7 (by decide), W10_of_ne m ρ c main_arg8 (by decide), W10_of_ne m ρ c main_arg9 (by decide), W10_of_ne m ρ c main_arg10 (by decide), W10_of_ne m ρ c main_arg11 (by decide), W10_of_ne m ρ c main_arg12 (by decide), W10_of_ne m ρ c main_arg13 (by decide), W10_of_ne m ρ c main_arg14 (by decide)⟩
theorem live10 : Live m c (W10 m ρ c) :=
  (live9 m ρ c).step (kreg3 m ρ c)
/-- Round 1: the combine's column statistics and the round's scale and shift. -/
theorem r1_mu_at : W11 m ρ c (Proc.devRef .tc main_v69) = Stage.colMeanK (lin1 m c (z1 m c)) :=
  (r1_mu _).trans (by rw [r1_lin m ρ c])
theorem r1_c6_at : W11 m ρ c (Proc.devRef .tc main_c_12) = constantI S_ 32 0#32 :=
  r1_c6 _
theorem r1_lin_M : W11 m ρ c (Proc.devRef .tc main_v65) = lin1 m c (z1 m c) :=
  (r1_M_keep_lin _).trans (r1_lin m ρ c)
theorem live11 : Live m c (W11 m ρ c) :=
  (live10 m ρ c).step (r1_M_keeps _)
theorem r1_var_at : W12 m ρ c (Proc.devRef .tc main_v70) = Stage.colVarK (lin1 m c (z1 m c)) (constantI S_ 32 0#32) :=
  (r1_var _).trans (by rw [r1_lin_M m ρ c, r1_c6_at m ρ c])
theorem r1_lin_V : W12 m ρ c (Proc.devRef .tc main_v65) = lin1 m c (z1 m c) :=
  (r1_V_keep_lin _).trans (r1_lin_M m ρ c)
theorem r1_mu_V : W12 m ρ c (Proc.devRef .tc main_v69) = Stage.colMeanK (lin1 m c (z1 m c)) :=
  (r1_V_keep_mu _).trans (r1_mu_at m ρ c)
theorem live12 : Live m c (W12 m ρ c) :=
  (live11 m ρ c).step (r1_V_keeps _)
theorem r1_g_at : W13 m ρ c (Proc.devRef .tc main_v73) = Stage.row128 (Stage.gSlice1 (m ((c : Thread nD τ).loc main_arg9))) :=
  (r1_g _).trans (by rw [(live12 m ρ c).a9])
theorem r1_b_at : W13 m ρ c (Proc.devRef .tc main_v76) = Stage.row128 (Stage.gSlice1 (m ((c : Thread nD τ).loc main_arg10))) :=
  (r1_b _).trans (by rw [(live12 m ρ c).a10])
theorem r1_lin_G : W13 m ρ c (Proc.devRef .tc main_v65) = lin1 m c (z1 m c) :=
  (r1_G_keep_lin _).trans (r1_lin_V m ρ c)
theorem r1_mu_G : W13 m ρ c (Proc.devRef .tc main_v69) = Stage.colMeanK (lin1 m c (z1 m c)) :=
  (r1_G_keep_mu _).trans (r1_mu_V m ρ c)
theorem r1_var_G : W13 m ρ c (Proc.devRef .tc main_v70) = Stage.colVarK (lin1 m c (z1 m c)) (constantI S_ 32 0#32) :=
  (r1_G_keep_var _).trans (r1_var_at m ρ c)
theorem live13 : Live m c (W13 m ρ c) :=
  (live12 m ρ c).step (r1_G_keeps _)
/-- Round 1: normalise and rectify. -/
theorem r1_zout : W14 m ρ c (Proc.devRef .tc main_v77) = z2 m c :=
  (W14_arr m ρ c 5).trans ((region4_value (V13 m ρ) c).trans (by
    show Cert.Net.bnRelu (W13 m ρ c (Proc.devRef .tc main_v65)) (W13 m ρ c (Proc.devRef .tc main_v69)) (W13 m ρ c (Proc.devRef .tc main_v70)) (W13 m ρ c (Proc.devRef .tc main_v73)) (W13 m ρ c (Proc.devRef .tc main_v76)) = _
    rw [r1_lin_G m ρ c, r1_mu_G m ρ c, r1_var_G m ρ c, r1_g_at m ρ c, r1_b_at m ρ c] <;> rfl))
/-- Region 4 leaves the long-lived buffers alone: none is an array of it. -/
theorem kreg4 : Keeps (W13 m ρ c) (W14 m ρ c) :=
  ⟨W14_of_ne m ρ c main_v1 (by decide), W14_of_ne m ρ c main_v3 (by decide), W14_of_ne m ρ c main_v13 (by decide), W14_of_ne m ρ c main_arg6 (by decide), W14_of_ne m ρ c main_arg7 (by decide), W14_of_ne m ρ c main_arg8 (by decide), W14_of_ne m ρ c main_arg9 (by decide), W14_of_ne m ρ c main_arg10 (by decide), W14_of_ne m ρ c main_arg11 (by decide), W14_of_ne m ρ c main_arg12 (by decide), W14_of_ne m ρ c main_arg13 (by decide), W14_of_ne m ρ c main_arg14 (by decide)⟩
theorem live14 : Live m c (W14 m ρ c) :=
  (live13 m ρ c).step (kreg4 m ρ c)
theorem live15 : Live m c (W15 m ρ c) :=
  (live14 m ρ c).step (r2_A_keeps _)
/-- Round 2: the neighbour mean and the round's weights. -/
theorem r2_am_at : W15 m ρ c (Proc.devRef .tc main_v89) = nbr m c (z2 m c) :=
  (r2_am _).trans (by rw [(live14 m ρ c).v13, r1_zout m ρ c, (live14 m ρ c).v1, (live14 m ρ c).v3] <;> rfl)
theorem r2_wl_at : W15 m ρ c (Proc.devRef .tc main_v91) = Stage.wSlice2 (m ((c : Thread nD τ).loc main_arg6)) :=
  (r2_wl _).trans (by rw [(live14 m ρ c).a6])
theorem r2_bl_at : W15 m ρ c (Proc.devRef .tc main_v96) = Stage.row128 (Stage.bSlice2 (m ((c : Thread nD τ).loc main_arg7))) :=
  (r2_bl _).trans (by rw [(live14 m ρ c).a7])
theorem r2_wr_at : W15 m ρ c (Proc.devRef .tc main_v95) = Stage.wSlice2 (m ((c : Thread nD τ).loc main_arg8)) :=
  (r2_wr _).trans (by rw [(live14 m ρ c).a8])
theorem r2_z_at : W15 m ρ c (Proc.devRef .tc main_v77) = z2 m c :=
  (r2_A_keep_z _).trans (r1_zout m ρ c)
/-- Round 2: the linear combine. -/
theorem r2_lin : W16 m ρ c (Proc.devRef .tc main_v97) = lin2 m c (z2 m c) :=
  (W16_arr m ρ c 5).trans ((region5_value (V15 m ρ) c).trans (by
    show Cert.Net.sage (W15 m ρ c (Proc.devRef .tc main_v89)) (W15 m ρ c (Proc.devRef .tc main_v77)) (W15 m ρ c (Proc.devRef .tc main_v91)) (W15 m ρ c (Proc.devRef .tc main_v96)) (W15 m ρ c (Proc.devRef .tc main_v95)) = _
    rw [r2_am_at m ρ c, r2_z_at m ρ c, r2_wl_at m ρ c, r2_bl_at m ρ c, r2_wr_at m ρ c] <;> rfl))
/-- Region 5 leaves the long-lived buffers alone: none is an array of it. -/
theorem kreg5 : Keeps (W15 m ρ c) (W16 m ρ c) :=
  ⟨W16_of_ne m ρ c main_v1 (by decide), W16_of_ne m ρ c main_v3 (by decide), W16_of_ne m ρ c main_v13 (by decide), W16_of_ne m ρ c main_arg6 (by decide), W16_of_ne m ρ c main_arg7 (by decide), W16_of_ne m ρ c main_arg8 (by decide), W16_of_ne m ρ c main_arg9 (by decide), W16_of_ne m ρ c main_arg10 (by decide), W16_of_ne m ρ c main_arg11 (by decide), W16_of_ne m ρ c main_arg12 (by decide), W16_of_ne m ρ c main_arg13 (by decide), W16_of_ne m ρ c main_arg14 (by decide)⟩
theorem live16 : Live m c (W16 m ρ c) :=
  (live15 m ρ c).step (kreg5 m ρ c)
/-- Round 2: the combine's column statistics and the round's scale and shift. -/
theorem r2_mu_at : W17 m ρ c (Proc.devRef .tc main_v101) = Stage.colMeanK (lin2 m c (z2 m c)) :=
  (r2_mu _).trans (by rw [r2_lin m ρ c])
theorem r2_c6_at : W17 m ρ c (Proc.devRef .tc main_c_18) = constantI S_ 32 0#32 :=
  r2_c6 _
theorem r2_lin_M : W17 m ρ c (Proc.devRef .tc main_v97) = lin2 m c (z2 m c) :=
  (r2_M_keep_lin _).trans (r2_lin m ρ c)
theorem live17 : Live m c (W17 m ρ c) :=
  (live16 m ρ c).step (r2_M_keeps _)
theorem r2_var_at : W18 m ρ c (Proc.devRef .tc main_v102) = Stage.colVarK (lin2 m c (z2 m c)) (constantI S_ 32 0#32) :=
  (r2_var _).trans (by rw [r2_lin_M m ρ c, r2_c6_at m ρ c])
theorem r2_lin_V : W18 m ρ c (Proc.devRef .tc main_v97) = lin2 m c (z2 m c) :=
  (r2_V_keep_lin _).trans (r2_lin_M m ρ c)
theorem r2_mu_V : W18 m ρ c (Proc.devRef .tc main_v101) = Stage.colMeanK (lin2 m c (z2 m c)) :=
  (r2_V_keep_mu _).trans (r2_mu_at m ρ c)
theorem live18 : Live m c (W18 m ρ c) :=
  (live17 m ρ c).step (r2_V_keeps _)
theorem r2_g_at : W19 m ρ c (Proc.devRef .tc main_v105) = Stage.row128 (Stage.gSlice2 (m ((c : Thread nD τ).loc main_arg9))) :=
  (r2_g _).trans (by rw [(live18 m ρ c).a9])
theorem r2_b_at : W19 m ρ c (Proc.devRef .tc main_v108) = Stage.row128 (Stage.gSlice2 (m ((c : Thread nD τ).loc main_arg10))) :=
  (r2_b _).trans (by rw [(live18 m ρ c).a10])
theorem r2_lin_G : W19 m ρ c (Proc.devRef .tc main_v97) = lin2 m c (z2 m c) :=
  (r2_G_keep_lin _).trans (r2_lin_V m ρ c)
theorem r2_mu_G : W19 m ρ c (Proc.devRef .tc main_v101) = Stage.colMeanK (lin2 m c (z2 m c)) :=
  (r2_G_keep_mu _).trans (r2_mu_V m ρ c)
theorem r2_var_G : W19 m ρ c (Proc.devRef .tc main_v102) = Stage.colVarK (lin2 m c (z2 m c)) (constantI S_ 32 0#32) :=
  (r2_G_keep_var _).trans (r2_var_at m ρ c)
theorem live19 : Live m c (W19 m ρ c) :=
  (live18 m ρ c).step (r2_G_keeps _)
/-- Round 2: normalise and rectify. -/
theorem r2_zout : W20 m ρ c (Proc.devRef .tc main_v109) = z3 m c :=
  (W20_arr m ρ c 5).trans ((region6_value (V19 m ρ) c).trans (by
    show Cert.Net.bnRelu (W19 m ρ c (Proc.devRef .tc main_v97)) (W19 m ρ c (Proc.devRef .tc main_v101)) (W19 m ρ c (Proc.devRef .tc main_v102)) (W19 m ρ c (Proc.devRef .tc main_v105)) (W19 m ρ c (Proc.devRef .tc main_v108)) = _
    rw [r2_lin_G m ρ c, r2_mu_G m ρ c, r2_var_G m ρ c, r2_g_at m ρ c, r2_b_at m ρ c] <;> rfl))
/-- Region 6 leaves the long-lived buffers alone: none is an array of it. -/
theorem kreg6 : Keeps (W19 m ρ c) (W20 m ρ c) :=
  ⟨W20_of_ne m ρ c main_v1 (by decide), W20_of_ne m ρ c main_v3 (by decide), W20_of_ne m ρ c main_v13 (by decide), W20_of_ne m ρ c main_arg6 (by decide), W20_of_ne m ρ c main_arg7 (by decide), W20_of_ne m ρ c main_arg8 (by decide), W20_of_ne m ρ c main_arg9 (by decide), W20_of_ne m ρ c main_arg10 (by decide), W20_of_ne m ρ c main_arg11 (by decide), W20_of_ne m ρ c main_arg12 (by decide), W20_of_ne m ρ c main_arg13 (by decide), W20_of_ne m ρ c main_arg14 (by decide)⟩
theorem live20 : Live m c (W20 m ρ c) :=
  (live19 m ρ c).step (kreg6 m ρ c)
theorem live21 : Live m c (W21 m ρ c) :=
  (live20 m ρ c).step (r3_A_keeps _)
/-- Round 3: the neighbour mean and the round's weights. -/
theorem r3_am_at : W21 m ρ c (Proc.devRef .tc main_v121) = nbr m c (z3 m c) :=
  (r3_am _).trans (by rw [(live20 m ρ c).v13, r2_zout m ρ c, (live20 m ρ c).v1, (live20 m ρ c).v3] <;> rfl)
theorem r3_wl_at : W21 m ρ c (Proc.devRef .tc main_v123) = Stage.wSlice3 (m ((c : Thread nD τ).loc main_arg6)) :=
  (r3_wl _).trans (by rw [(live20 m ρ c).a6])
theorem r3_bl_at : W21 m ρ c (Proc.devRef .tc main_v128) = Stage.row128 (Stage.bSlice3 (m ((c : Thread nD τ).loc main_arg7))) :=
  (r3_bl _).trans (by rw [(live20 m ρ c).a7])
theorem r3_wr_at : W21 m ρ c (Proc.devRef .tc main_v127) = Stage.wSlice3 (m ((c : Thread nD τ).loc main_arg8)) :=
  (r3_wr _).trans (by rw [(live20 m ρ c).a8])
theorem r3_z_at : W21 m ρ c (Proc.devRef .tc main_v109) = z3 m c :=
  (r3_A_keep_z _).trans (r2_zout m ρ c)
/-- Round 3: the linear combine. -/
theorem r3_lin : W22 m ρ c (Proc.devRef .tc main_v129) = lin3 m c (z3 m c) :=
  (W22_arr m ρ c 5).trans ((region7_value (V21 m ρ) c).trans (by
    show Cert.Net.sage (W21 m ρ c (Proc.devRef .tc main_v121)) (W21 m ρ c (Proc.devRef .tc main_v109)) (W21 m ρ c (Proc.devRef .tc main_v123)) (W21 m ρ c (Proc.devRef .tc main_v128)) (W21 m ρ c (Proc.devRef .tc main_v127)) = _
    rw [r3_am_at m ρ c, r3_z_at m ρ c, r3_wl_at m ρ c, r3_bl_at m ρ c, r3_wr_at m ρ c] <;> rfl))
/-- Region 7 leaves the long-lived buffers alone: none is an array of it. -/
theorem kreg7 : Keeps (W21 m ρ c) (W22 m ρ c) :=
  ⟨W22_of_ne m ρ c main_v1 (by decide), W22_of_ne m ρ c main_v3 (by decide), W22_of_ne m ρ c main_v13 (by decide), W22_of_ne m ρ c main_arg6 (by decide), W22_of_ne m ρ c main_arg7 (by decide), W22_of_ne m ρ c main_arg8 (by decide), W22_of_ne m ρ c main_arg9 (by decide), W22_of_ne m ρ c main_arg10 (by decide), W22_of_ne m ρ c main_arg11 (by decide), W22_of_ne m ρ c main_arg12 (by decide), W22_of_ne m ρ c main_arg13 (by decide), W22_of_ne m ρ c main_arg14 (by decide)⟩
theorem live22 : Live m c (W22 m ρ c) :=
  (live21 m ρ c).step (kreg7 m ρ c)
/-- Round 3: the combine's column statistics and the round's scale and shift. -/
theorem r3_mu_at : W23 m ρ c (Proc.devRef .tc main_v133) = Stage.colMeanK (lin3 m c (z3 m c)) :=
  (r3_mu _).trans (by rw [r3_lin m ρ c])
theorem r3_c6_at : W23 m ρ c (Proc.devRef .tc main_c_24) = constantI S_ 32 0#32 :=
  r3_c6 _
theorem r3_lin_M : W23 m ρ c (Proc.devRef .tc main_v129) = lin3 m c (z3 m c) :=
  (r3_M_keep_lin _).trans (r3_lin m ρ c)
theorem live23 : Live m c (W23 m ρ c) :=
  (live22 m ρ c).step (r3_M_keeps _)
theorem r3_var_at : W24 m ρ c (Proc.devRef .tc main_v134) = Stage.colVarK (lin3 m c (z3 m c)) (constantI S_ 32 0#32) :=
  (r3_var _).trans (by rw [r3_lin_M m ρ c, r3_c6_at m ρ c])
theorem r3_lin_V : W24 m ρ c (Proc.devRef .tc main_v129) = lin3 m c (z3 m c) :=
  (r3_V_keep_lin _).trans (r3_lin_M m ρ c)
theorem r3_mu_V : W24 m ρ c (Proc.devRef .tc main_v133) = Stage.colMeanK (lin3 m c (z3 m c)) :=
  (r3_V_keep_mu _).trans (r3_mu_at m ρ c)
theorem live24 : Live m c (W24 m ρ c) :=
  (live23 m ρ c).step (r3_V_keeps _)
theorem r3_g_at : W25 m ρ c (Proc.devRef .tc main_v137) = Stage.row128 (Stage.gSlice3 (m ((c : Thread nD τ).loc main_arg9))) :=
  (r3_g _).trans (by rw [(live24 m ρ c).a9])
theorem r3_b_at : W25 m ρ c (Proc.devRef .tc main_v140) = Stage.row128 (Stage.gSlice3 (m ((c : Thread nD τ).loc main_arg10))) :=
  (r3_b _).trans (by rw [(live24 m ρ c).a10])
theorem r3_lin_G : W25 m ρ c (Proc.devRef .tc main_v129) = lin3 m c (z3 m c) :=
  (r3_G_keep_lin _).trans (r3_lin_V m ρ c)
theorem r3_mu_G : W25 m ρ c (Proc.devRef .tc main_v133) = Stage.colMeanK (lin3 m c (z3 m c)) :=
  (r3_G_keep_mu _).trans (r3_mu_V m ρ c)
theorem r3_var_G : W25 m ρ c (Proc.devRef .tc main_v134) = Stage.colVarK (lin3 m c (z3 m c)) (constantI S_ 32 0#32) :=
  (r3_G_keep_var _).trans (r3_var_at m ρ c)
theorem live25 : Live m c (W25 m ρ c) :=
  (live24 m ρ c).step (r3_G_keeps _)
/-- Round 3: normalise and rectify. -/
theorem r3_zout : W26 m ρ c (Proc.devRef .tc main_v141) = z4 m c :=
  (W26_arr m ρ c 5).trans ((region8_value (V25 m ρ) c).trans (by
    show Cert.Net.bnRelu (W25 m ρ c (Proc.devRef .tc main_v129)) (W25 m ρ c (Proc.devRef .tc main_v133)) (W25 m ρ c (Proc.devRef .tc main_v134)) (W25 m ρ c (Proc.devRef .tc main_v137)) (W25 m ρ c (Proc.devRef .tc main_v140)) = _
    rw [r3_lin_G m ρ c, r3_mu_G m ρ c, r3_var_G m ρ c, r3_g_at m ρ c, r3_b_at m ρ c] <;> rfl))
/-- Region 8 leaves the long-lived buffers alone: none is an array of it. -/
theorem kreg8 : Keeps (W25 m ρ c) (W26 m ρ c) :=
  ⟨W26_of_ne m ρ c main_v1 (by decide), W26_of_ne m ρ c main_v3 (by decide), W26_of_ne m ρ c main_v13 (by decide), W26_of_ne m ρ c main_arg6 (by decide), W26_of_ne m ρ c main_arg7 (by decide), W26_of_ne m ρ c main_arg8 (by decide), W26_of_ne m ρ c main_arg9 (by decide), W26_of_ne m ρ c main_arg10 (by decide), W26_of_ne m ρ c main_arg11 (by decide), W26_of_ne m ρ c main_arg12 (by decide), W26_of_ne m ρ c main_arg13 (by decide), W26_of_ne m ρ c main_arg14 (by decide)⟩
theorem live26 : Live m c (W26 m ρ c) :=
  (live25 m ρ c).step (kreg8 m ρ c)
theorem live27 : Live m c (W27 m ρ c) :=
  (live26 m ρ c).step (r4_A_keeps _)
/-- Round 4: the neighbour mean and the round's weights. -/
theorem r4_am_at : W27 m ρ c (Proc.devRef .tc main_v153) = nbr m c (z4 m c) :=
  (r4_am _).trans (by rw [(live26 m ρ c).v13, r3_zout m ρ c, (live26 m ρ c).v1, (live26 m ρ c).v3] <;> rfl)
theorem r4_wl_at : W27 m ρ c (Proc.devRef .tc main_v155) = Stage.wSlice4 (m ((c : Thread nD τ).loc main_arg6)) :=
  (r4_wl _).trans (by rw [(live26 m ρ c).a6])
theorem r4_bl_at : W27 m ρ c (Proc.devRef .tc main_v160) = Stage.row128 (Stage.bSlice4 (m ((c : Thread nD τ).loc main_arg7))) :=
  (r4_bl _).trans (by rw [(live26 m ρ c).a7])
theorem r4_wr_at : W27 m ρ c (Proc.devRef .tc main_v159) = Stage.wSlice4 (m ((c : Thread nD τ).loc main_arg8)) :=
  (r4_wr _).trans (by rw [(live26 m ρ c).a8])
theorem r4_z_at : W27 m ρ c (Proc.devRef .tc main_v141) = z4 m c :=
  (r4_A_keep_z _).trans (r3_zout m ρ c)
/-- Round 4: the linear combine. -/
theorem r4_lin : W28 m ρ c (Proc.devRef .tc main_v161) = lin4 m c (z4 m c) :=
  (W28_arr m ρ c 5).trans ((region9_value (V27 m ρ) c).trans (by
    show Cert.Net.sage (W27 m ρ c (Proc.devRef .tc main_v153)) (W27 m ρ c (Proc.devRef .tc main_v141)) (W27 m ρ c (Proc.devRef .tc main_v155)) (W27 m ρ c (Proc.devRef .tc main_v160)) (W27 m ρ c (Proc.devRef .tc main_v159)) = _
    rw [r4_am_at m ρ c, r4_z_at m ρ c, r4_wl_at m ρ c, r4_bl_at m ρ c, r4_wr_at m ρ c] <;> rfl))
/-- Region 9 leaves the long-lived buffers alone: none is an array of it. -/
theorem kreg9 : Keeps (W27 m ρ c) (W28 m ρ c) :=
  ⟨W28_of_ne m ρ c main_v1 (by decide), W28_of_ne m ρ c main_v3 (by decide), W28_of_ne m ρ c main_v13 (by decide), W28_of_ne m ρ c main_arg6 (by decide), W28_of_ne m ρ c main_arg7 (by decide), W28_of_ne m ρ c main_arg8 (by decide), W28_of_ne m ρ c main_arg9 (by decide), W28_of_ne m ρ c main_arg10 (by decide), W28_of_ne m ρ c main_arg11 (by decide), W28_of_ne m ρ c main_arg12 (by decide), W28_of_ne m ρ c main_arg13 (by decide), W28_of_ne m ρ c main_arg14 (by decide)⟩
theorem live28 : Live m c (W28 m ρ c) :=
  (live27 m ρ c).step (kreg9 m ρ c)
/-- The decoder's bias rows, and its region. -/
theorem h10_c1_at : W29 m ρ c (Proc.devRef .tc main_v162) = Stage.row256 (m ((c : Thread nD τ).loc main_arg12)) :=
  (h10_c1 _).trans (by rw [(live28 m ρ c).a12])
theorem h10_c2_at : W29 m ρ c (Proc.devRef .tc main_v163) = Stage.row4 (m ((c : Thread nD τ).loc main_arg14)) :=
  (h10_c2 _).trans (by rw [(live28 m ρ c).a14])
theorem h10_lin_at : W29 m ρ c (Proc.devRef .tc main_v161) = lin4 m c (z4 m c) :=
  (h10_keep_v161 _).trans (r4_lin m ρ c)
theorem h10_a11_at : W29 m ρ c (Proc.devRef .tc main_arg11) = (m ((c : Thread nD τ).loc main_arg11)) :=
  (h10_keep_a11 _).trans (live28 m ρ c).a11
theorem h10_a13_at : W29 m ρ c (Proc.devRef .tc main_arg13) = (m ((c : Thread nD τ).loc main_arg13)) :=
  (h10_keep_a13 _).trans (live28 m ρ c).a13
/-- The result buffer at the last boundary holds the network's output. -/
theorem result_eq : W30 m ρ c (Proc.devRef .tc main_v164) = outV m c :=
  (W30_arr m ρ c 5).trans ((region10_value (V29 m ρ) c).trans (by
    show Cert.Net.mlp (W29 m ρ c (Proc.devRef .tc main_v161)) (W29 m ρ c (Proc.devRef .tc main_arg11)) (W29 m ρ c (Proc.devRef .tc main_v162)) (W29 m ρ c (Proc.devRef .tc main_arg13)) (W29 m ρ c (Proc.devRef .tc main_v163)) = _
    rw [h10_lin_at m ρ c, h10_a11_at m ρ c, h10_c1_at m ρ c, h10_a13_at m ρ c, h10_c2_at m ρ c] <;> rfl))

end Cert.KernelIdeal.Chain

end
-- ==== Proof.RefStages.lean ====
/-
  The stages of the reference program, each the composition of the host operations the program prints for it, as a
  function of the stage's input arrays: the two perceptrons, the edge-index rows, the neighbour-mean aggregation, the
  parameter slices, the linear combine, the column mean and variance, and normalise-and-rectify. Every later round of
  the program repeats these compositions on other buffers (and other slice offsets).
-/
import proofs.«158954_j13391708029610_1_alg».proof.ReferenceIdeal
import proofs.«158954_j13391708029610_1_alg».proof.Proof.NetSpec

noncomputable section

namespace Cert.ReferenceIdeal.Stage

open Idealize.ShloMosaic Idealize.SL.Sem
open Facts₀ Facts

variable [Facts]

/-! ## The rectifier, at the two widths it is called at -/

/-- The rectifier on a 50000 × 256 array: the maximum with the broadcast zero word. -/
def relu256 (x : FVec Ideal S50000x256 .f32) : FVec Ideal S50000x256 .f32 :=
  maximumf x (broadcastInDim S50000x256 ![] bcast_S_S50000x256 (constant (F := Ideal) S_ .f32 0x00000000#32))

/-- The rectifier on a 50000 × 128 array. -/
def relu128 (x : FVec Ideal S50000x128 .f32) : FVec Ideal S50000x128 .f32 :=
  maximumf x (broadcastInDim S50000x128 ![] bcast_S_S50000x128 (constant (F := Ideal) S_ .f32 0x00000000#32))

/-! ## The two perceptrons -/

/-- The encoder: `relu(x·W₁ᵀ + b₁)·W₂ᵀ + b₂`, 7 → 256 → 128. -/
def enc (x : FVec Ideal S50000x7 .f32) (W1 : FVec Ideal S256x7 .f32) (b1 : FVec Ideal S256 .f32)
    (W2 : FVec Ideal S128x256 .f32) (b2 : FVec Ideal S128 .f32) : FVec Ideal S50000x128 .f32 :=
  addf
    (Host.dotGeneral dot_S50000x256_S256x128_S50000x128_1_0_0_1_n_n none
      (relu256
        (addf
          (Host.dotGeneral dot_S50000x7_S7x256_S50000x256_1_0_0_1_n_n none x
            (transpose S7x256 [1, 0] W1 transposes_S256x7_S7x256_1_0))
          (broadcastInDim S50000x256 ![0, 1] bcast_S1x256_S50000x256_0_1
            (broadcastInDim S1x256 ![1] bcast_S256_S1x256_1 b1))))
      (transpose S256x128 [1, 0] W2 transposes_S128x256_S256x128_1_0))
    (broadcastInDim S50000x128 ![0, 1] bcast_S1x128_S50000x128_0_1
      (broadcastInDim S1x128 ![1] bcast_S128_S1x128_1 b2))

/-- The decoder: the same form, 128 → 256 → 4. -/
def dec (z : FVec Ideal S50000x128 .f32) (V1 : FVec Ideal S256x128 .f32) (c1 : FVec Ideal S256 .f32)
    (V2 : FVec Ideal S4x256 .f32) (c2 : FVec Ideal S4 .f32) : FVec Ideal S50000x4 .f32 :=
  addf
    (Host.dotGeneral dot_S50000x256_S256x4_S50000x4_1_0_0_1_n_n none
      (relu256
        (addf
          (Host.dotGeneral dot_S50000x128_S128x256_S50000x256_1_0_0_1_n_n none z
            (transpose S128x256 [1, 0] V1 transposes_S256x128_S128x256_1_0))
          (broadcastInDim S50000x256 ![0, 1] bcast_S1x256_S50000x256_0_1
            (broadcastInDim S1x256 ![1] bcast_S256_S1x256_1 c1))))
      (transpose S256x4 [1, 0] V2 transposes_S4x256_S256x4_1_0))
    (broadcastInDim S50000x4 ![0, 1] bcast_S1x4_S50000x4_0_1
      (broadcastInDim S1x4 ![1] bcast_S4_S1x4_1 c2))

/-! ## The edge array's two rows -/

/-- The edge sources: row 0 of the edge array, as a vector. -/
def srcIdx (ei : IVec S2x600000 32) : IVec S600000 32 :=
  shapeCast S600000 (extractStridedSlice S1x600000 ![0, 0] ei slices_S2x600000_S1x600000_0_0) shapeCasts_S1x600000_S600000

/-- The edge targets: row 1 of the edge array, as a vector. -/
def dstIdx (ei : IVec S2x600000 32) : IVec S600000 32 :=
  shapeCast S600000 (extractStridedSlice S1x600000 ![1, 0] ei slices_S2x600000_S1x600000_1_0) shapeCasts_S1x600000_S600000

/-! ## The neighbour-mean aggregation -/

/-- The gather's start indices: a negative source wraps by the node count, then a unit axis is added. -/
def gatherIdx (src : IVec S600000 32) : IVec S600000x1 32 :=
  broadcastInDim S600000x1 ![0] bcast_S600000_S600000x1_0
    (select (cmpi .slt src (broadcastInDim S600000 ![] bcast_S_S600000 (constantI S_ 32 0#32)))
      (addi src (broadcastInDim S600000 ![] bcast_S_S600000 (constantI S_ 32 50000#32)))
      src)

/-- The scatter's indices: the targets with a unit axis added. -/
def scatterIdx (dst : IVec S600000 32) : IVec S600000x1 32 :=
  broadcastInDim S600000x1 ![0] bcast_S600000_S600000x1_0 dst

/-- The sum over each node's incoming edges of the source rows: gather along the sources, scatter-add into zeros along
    the targets. -/
def edgeSum (z : FVec Ideal S50000x128 .f32) (src dst : IVec S600000 32) : FVec Ideal S50000x128 .f32 :=
  Host.scatterAdd scatter_S50000x128_S600000x1_S600000x128_1_0_0_1
    (broadcastInDim S50000x128 ![] bcast_S_S50000x128 (constant (F := Ideal) S_ .f32 0x00000000#32))
    (scatterIdx dst)
    (Host.gather gather_S50000x128_S600000x1_S600000x128_1_0_n_n_0_1_1128 z (gatherIdx src))

/-- The clamped in-degree: ones scatter-added into zeros along the targets, then the maximum with one. -/
def degree (dst : IVec S600000 32) : FVec Ideal S50000 .f32 :=
  maximumf
    (Host.scatterAdd scatter_S50000_S600000x1_S600000_n_0_0_1
      (broadcastInDim S50000 ![] bcast_S_S50000 (constant (F := Ideal) S_ .f32 0x00000000#32))
      (scatterIdx dst)
      (broadcastInDim S600000 ![] bcast_S_S600000 (constant (F := Ideal) S_ .f32 0x3F800000#32)))
    (broadcastInDim S50000 ![] bcast_S_S50000 (constant (F := Ideal) S_ .f32 0x3F800000#32))

/-- The neighbour mean: the edge sum divided by the clamped in-degree broadcast along the feature axis. -/
def aggr (z : FVec Ideal S50000x128 .f32) (src dst : IVec S600000 32) : FVec Ideal S50000x128 .f32 :=
  Host.divf (edgeSum z src dst)
    (broadcastInDim S50000x128 ![0, 1] bcast_S50000x1_S50000x128_0_1
      (broadcastInDim S50000x1 ![0] bcast_S50000_S50000x1_0 (degree dst)))

/-! ## The parameter slices: block `k` of a stacked parameter, with its unit axis dropped -/

/-- Block `0` of a stack of five square weight matrices, as a matrix. -/
def wSlice0 (W : FVec Ideal S5x128x128 .f32) : FVec Ideal S128x128 .f32 :=
  shapeCast S128x128 (extractStridedSlice S1x128x128 ![0, 0, 0] W slices_S5x128x128_S1x128x128_0_0_0) shapeCasts_S1x128x128_S128x128

/-- Block `1` of a stack of five square weight matrices, as a matrix. -/
def wSlice1 (W : FVec Ideal S5x128x128 .f32) : FVec Ideal S128x128 .f32 :=
  shapeCast S128x128 (extractStridedSlice S1x128x128 ![1, 0, 0] W slices_S5x128x128_S1x128x128_1_0_0) shapeCasts_S1x128x128_S128x128

/-- Block `2` of a stack of five square weight matrices, as a matrix. -/
def wSlice2 (W : FVec Ideal S5x128x128 .f32) : FVec Ideal S128x128 .f32 :=
  shapeCast S128x128 (extractStridedSlice S1x128x128 ![2, 0, 0] W slices_S5x128x128_S1x128x128_2_0_0) shapeCasts_S1x128x128_S128x128

/-- Block `3` of a stack of five square weight matrices, as a matrix. -/
def wSlice3 (W : FVec Ideal S5x128x128 .f32) : FVec Ideal S128x128 .f32 :=
  shapeCast S128x128 (extractStridedSlice S1x128x128 ![3, 0, 0] W slices_S5x128x128_S1x128x128_3_0_0) shapeCasts_S1x128x128_S128x128

/-- Block `4` of a stack of five square weight matrices, as a matrix. -/
def wSlice4 (W : FVec Ideal S5x128x128 .f32) : FVec Ideal S128x128 .f32 :=
  shapeCast S128x128 (extractStridedSlice S1x128x128 ![4, 0, 0] W slices_S5x128x128_S1x128x128_4_0_0) shapeCasts_S1x128x128_S128x128

/-- Row `0` of a stack of five bias rows, as a vector. -/
def bSlice0 (B : FVec Ideal S5x128 .f32) : FVec Ideal S128 .f32 :=
  shapeCast S128 (extractStridedSlice S1x128 ![0, 0] B slices_S5x128_S1x128_0_0) shapeCasts_S1x128_S128

/-- Row `1` of a stack of five bias rows, as a vector. -/
def bSlice1 (B : FVec Ideal S5x128 .f32) : FVec Ideal S128 .f32 :=
  shapeCast S128 (extractStridedSlice S1x128 ![1, 0] B slices_S5x128_S1x128_1_0) shapeCasts_S1x128_S128

/-- Row `2` of a stack of five bias rows, as a vector. -/
def bSlice2 (B : FVec Ideal S5x128 .f32) : FVec Ideal S128 .f32 :=
  shapeCast S128 (extractStridedSlice S1x128 ![2, 0] B slices_S5x128_S1x128_2_0) shapeCasts_S1x128_S128

/-- Row `3` of a stack of five bias rows, as a vector. -/
def bSlice3 (B : FVec Ideal S5x128 .f32) : FVec Ideal S128 .f32 :=
  shapeCast S128 (extractStridedSlice S1x128 ![3, 0] B slices_S5x128_S1x128_3_0) shapeCasts_S1x128_S128

/-- Row `4` of a stack of five bias rows, as a vector. -/
def bSlice4 (B : FVec Ideal S5x128 .f32) : FVec Ideal S128 .f32 :=
  shapeCast S128 (extractStridedSlice S1x128 ![4, 0] B slices_S5x128_S1x128_4_0) shapeCasts_S1x128_S128

/-- Row `0` of a stack of four normalisation rows (scale or shift), as a vector. -/
def gSlice0 (G : FVec Ideal S4x128 .f32) : FVec Ideal S128 .f32 :=
  shapeCast S128 (extractStridedSlice S1x128 ![0, 0] G slices_S4x128_S1x128_0_0) shapeCasts_S1x128_S128

/-- Row `1` of a stack of four normalisation rows (scale or shift), as a vector. -/
def gSlice1 (G : FVec Ideal S4x128 .f32) : FVec Ideal S128 .f32 :=
  shapeCast S128 (extractStridedSlice S1x128 ![1, 0] G slices_S4x128_S1x128_1_0) shapeCasts_S1x128_S128

/-- Row `2` of a stack of four normalisation rows (scale or shift), as a vector. -/
def gSlice2 (G : FVec Ideal S4x128 .f32) : FVec Ideal S128 .f32 :=
  shapeCast S128 (extractStridedSlice S1x128 ![2, 0] G slices_S4x128_S1x128_2_0) shapeCasts_S1x128_S128

/-- Row `3` of a stack of four normalisation rows (scale or shift), as a vector. -/
def gSlice3 (G : FVec Ideal S4x128 .f32) : FVec Ideal S128 .f32 :=
  shapeCast S128 (extractStridedSlice S1x128 ![3, 0] G slices_S4x128_S1x128_3_0) shapeCasts_S1x128_S128

/-! ## The linear combine -/

/-- `a·Wlᵀ + bl + z·Wrᵀ`, the bias joining the first product before the second is added. -/
def combine (a z : FVec Ideal S50000x128 .f32) (Wl : FVec Ideal S128x128 .f32) (bl : FVec Ideal S128 .f32)
    (Wr : FVec Ideal S128x128 .f32) : FVec Ideal S50000x128 .f32 :=
  addf
    (addf
      (Host.dotGeneral dot_S50000x128_S128x128_S50000x128_1_0_0_1_n_n none a
        (transpose S128x128 [1, 0] Wl transposes_S128x128_S128x128_1_0))
      (broadcastInDim S50000x128 ![0, 1] bcast_S1x128_S50000x128_0_1
        (broadcastInDim S1x128 ![1] bcast_S128_S1x128_1 bl)))
    (Host.dotGeneral dot_S50000x128_S128x128_S50000x128_1_0_0_1_n_n none z
      (transpose S128x128 [1, 0] Wr transposes_S128x128_S128x128_1_0))

/-! ## The column statistics -/

/-- The column means: the sum over the node axis from the zero word, divided by the broadcast node count. -/
def colMeanH (lin : FVec Ideal S50000x128 .f32) : FVec Ideal S128 .f32 :=
  Host.divf
    (Host.reduceAdd lin (constant (F := Ideal) S_ .f32 0x00000000#32) reducesTo_S50000x128_S128_d0 h_S_)
    (broadcastInDim S128 ![] bcast_S_S128 (constant (F := Ideal) S_ .f32 0x47435000#32))

/-- The variance's divisor as a scalar array: the node count minus the float of the integer zero. -/
def varDenH : FVec Ideal S_ .f32 :=
  subf (constant (F := Ideal) S_ .f32 0x47435000#32) (sitofp (F := Ideal) .f32 (constantI S_ 32 0#32))

/-- The deviations from the column mean, the mean computed with a kept unit axis and broadcast back. -/
def devH (lin : FVec Ideal S50000x128 .f32) : FVec Ideal S50000x128 .f32 :=
  subf lin
    (broadcastInDim S50000x128 ![0, 1] bcast_S1x128_S50000x128_0_1
      (Host.divf
        (broadcastInDim S1x128 ![1] bcast_S128_S1x128_1
          (Host.reduceAdd lin (constant (F := Ideal) S_ .f32 0x00000000#32) reducesTo_S50000x128_S128_d0 h_S_))
        (broadcastInDim S1x128 ![] bcast_S_S1x128 (constant (F := Ideal) S_ .f32 0x47435000#32))))

/-- The column variances: the sum of the squared deviations divided by the divisor, under the guard that the divisor is
    positive (the not-a-number word otherwise). -/
def colVarH (lin : FVec Ideal S50000x128 .f32) : FVec Ideal S128 .f32 :=
  select (broadcastInDim S128 ![] bcast_S_S128 (cmpf .ogt varDenH (constant (F := Ideal) S_ .f32 0x00000000#32)))
    (Host.divf
      (Host.reduceAdd (mulf (devH lin) (devH lin)) (constant (F := Ideal) S_ .f32 0x00000000#32)
        reducesTo_S50000x128_S128_d0 h_S_)
      (broadcastInDim S128 ![] bcast_S_S128 varDenH))
    (broadcastInDim S128 ![] bcast_S_S128 (id (constant (F := Ideal) S_ .f32 0x7FC00000#32)))

/-! ## Normalise and rectify -/

/-- `relu((lin − μ)·rsqrt(v + ε)·γ + β)` with the column statistics of `lin` itself. -/
def normRelu (lin : FVec Ideal S50000x128 .f32) (γ β : FVec Ideal S128 .f32) : FVec Ideal S50000x128 .f32 :=
  relu128
    (addf
      (mulf
        (mulf
          (subf lin
            (broadcastInDim S50000x128 ![0, 1] bcast_S1x128_S50000x128_0_1
              (broadcastInDim S1x128 ![1] bcast_S128_S1x128_1 (colMeanH lin))))
          (broadcastInDim S50000x128 ![0, 1] bcast_S1x128_S50000x128_0_1
            (broadcastInDim S1x128 ![1] bcast_S128_S1x128_1
              (Host.rsqrt
                (addf (colVarH lin)
                  (broadcastInDim S128 ![] bcast_S_S128 (constant (F := Ideal) S_ .f32 0x3727C5AC#32)))))))
        (broadcastInDim S50000x128 ![0, 1] bcast_S1x128_S50000x128_0_1
          (broadcastInDim S1x128 ![1] bcast_S128_S1x128_1 γ)))
      (broadcastInDim S50000x128 ![0, 1] bcast_S1x128_S50000x128_0_1
        (broadcastInDim S1x128 ![1] bcast_S128_S1x128_1 β)))

end Cert.ReferenceIdeal.Stage

end
-- ==== Proof.StageRead.lean ====
/-
  The host operations of the reference's stages read at an index given by coordinates: a vector broadcast to a one-row
  matrix, a one-row matrix broadcast over the rows, a scalar broadcast anywhere, a matrix product with one contracted
  axis as the sum over that axis, and the sum over the node axis as a sum over the node coordinate. Each operation
  reads, at an index of its result, its operand at the index whose coordinates the operation's dimension numbers name.
-/
import proofs.«158954_j13391708029610_1_alg».proof.Proof.RefStages
import Idealize.ShloMosaic.Lib.ValueLayout
import Idealize.ShloMosaic.Lib.StackMember

noncomputable section

open scoped BigOperators

namespace Cert.ReferenceIdeal.Stage

open Idealize.ShloMosaic Idealize.ShloMosaic.ValueIdx

/-- A vector as a one-row matrix. -/
def rowOf {n : Nat} (b : (⟨1, ![n]⟩ : Shape).Idx → EReal) : Cert.Net.Mat 1 n := fun y => b (ix1 (y 1))

/-- The one-row matrix of a vector reads the vector at the column. -/
theorem rowOf_ix2 {n : Nat} (b : (⟨1, ![n]⟩ : Shape).Idx → EReal) (r : Fin 1) (j : Fin n) : rowOf b (ix2 r j) = b (ix1 j) := rfl

section Layout
variable {α : Type}

/-- A vector broadcast to a one-row matrix (along axis 1) reads, at `(u, j)`, the vector at `j`. -/
theorem bcast_a_1a_apply {n : Nat} (x : (⟨1, ![n]⟩ : Shape).Idx → α)
    (h : (⟨1, ![n]⟩ : Shape).BroadcastsInDim ⟨2, ![1, n]⟩ (![1] : Fin 1 → Fin (⟨2, ![1, n]⟩ : Shape).rank))
    (u : Fin 1) (j : Fin n) : broadcastInDim ⟨2, ![1, n]⟩ ![1] h x (ix2 u j) = x (ix1 j) := by
  refine broadcastInDim_apply _ h x (ix2 u j) (ix1 j) fun a => ?_
  match a with
  | ⟨0, _⟩ =>
    show j.val = if n = 1 then 0 else j.val
    split
    · have := j.isLt; omega
    · rfl

/-- A one-row matrix broadcast over the rows reads, at `(i, j)`, its one row at `j`. -/
theorem bcast_1b_ab_apply {m n : Nat} (x : (⟨2, ![1, n]⟩ : Shape).Idx → α)
    (h : (⟨2, ![1, n]⟩ : Shape).BroadcastsInDim ⟨2, ![m, n]⟩ (![0, 1] : Fin 2 → Fin (⟨2, ![m, n]⟩ : Shape).rank))
    (i : Fin m) (j : Fin n) : broadcastInDim ⟨2, ![m, n]⟩ ![0, 1] h x (ix2 i j) = x (ix2 (0 : Fin 1) j) := by
  refine broadcastInDim_apply _ h x (ix2 i j) (ix2 (0 : Fin 1) j) fun a => ?_
  match a with
  | ⟨0, _⟩ => rfl
  | ⟨1, _⟩ =>
    show j.val = if n = 1 then 0 else j.val
    split
    · have := j.isLt; omega
    · rfl

/-- A scalar broadcast to any shape reads the scalar everywhere. -/
theorem bcast_scalar_apply {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 fun a => a.elim0

end Layout

/-- A product with the plain dimension numbers (rows × contraction times contraction × columns) reads, at `(a, b)`, the
    sum over the contracted coordinate of the products of the entries. -/
theorem dot_apply {m k n : Nat} (D : DotDims ⟨2, ![m, k]⟩ ⟨2, ![k, n]⟩ ⟨2, ![m, n]⟩) (hD : D = DotDims.plain m k n)
    (A : FVec Ideal ⟨2, ![m, k]⟩ .f32) (B : FVec Ideal ⟨2, ![k, n]⟩ .f32) (a : Fin m) (b : Fin n) :
    Host.dotGeneral (F := Ideal) D none A B (ix2 a b) = ∑ c : Fin k, A (ix2 a c) * B (ix2 c b) := by
  subst hD
  exact StackMember.dotGeneral_plain_apply none A B a b

variable [Facts]
open Facts₀ Facts

theorem dot_7_256_plain : dot_S50000x7_S7x256_S50000x256_1_0_0_1_n_n = DotDims.plain 50000 7 256 := rfl
theorem dot_256_128_plain : dot_S50000x256_S256x128_S50000x128_1_0_0_1_n_n = DotDims.plain 50000 256 128 := rfl
theorem dot_128_128_plain : dot_S50000x128_S128x128_S50000x128_1_0_0_1_n_n = DotDims.plain 50000 128 128 := rfl
theorem dot_128_256_plain : dot_S50000x128_S128x256_S50000x256_1_0_0_1_n_n = DotDims.plain 50000 128 256 := rfl
theorem dot_256_4_plain : dot_S50000x256_S256x4_S50000x4_1_0_0_1_n_n = DotDims.plain 50000 256 4 := rfl

/-- The sum over the node axis of a 50000 × 128 array from an initial scalar reads, at column `j`, the initial value
    plus the sum over the node coordinate. -/
theorem colSum_apply (x : FVec Ideal S50000x128 .f32) (init : FVec Ideal S_ .f32) (j : Fin 128) :
    Host.reduceAdd (F := Ideal) x init reducesTo_S50000x128_S128_d0 h_S_ (ix1 j)
      = init ix0 + ∑ i : Fin 50000, x (ix2 i j) := by
  unfold Host.reduceAdd
  rw [Ideal.hostReduceAdd_def, Ideal.hostReduceAdd_single reducesTo_S50000x128_S128_d0 (by decide)]
  refine congr (congrArg _ (congrArg init (funext fun a => a.elim0))) (Finset.sum_congr rfl fun k _ => ?_)
  exact congrArg x (funext fun a => Fin.ext (by match a with | ⟨0, _⟩ => rfl | ⟨1, _⟩ => rfl))

end Cert.ReferenceIdeal.Stage

end
-- ==== Proof.KStats.lean ====
/-
  The kernel program's column statistics and bias rows are the specification's.

  This program keeps a unit axis on its statistics: the sum over the node coordinate is laid along a unit row before the
  division. Entry by entry the mean of a column is the sum over the node coordinate from the zero word divided by the
  node-count word, and the variance is the sum of the squared deviations from that mean divided by the host's divisor
  (the node-count word minus the float of the integer zero) under the host's guard that the divisor is positive: the
  same expressions the specification states, no word evaluated. A vector reshaped to a one-row matrix reads, at
  column `j`, the vector at `j`.
-/
import proofs.«158954_j13391708029610_1_alg».proof.Proof.KStages
import proofs.«158954_j13391708029610_1_alg».proof.Proof.StageRead
import proofs.«158954_j13391708029610_1_alg».proof.Proof.NetSpec
import Idealize.ShloMosaic.Lib.Pipeline.Value
import Idealize.ShloMosaic.Lib.ValueIdx
import Idealize.ShloMosaic.PureOps.Ideal.Laws

noncomputable section

open scoped BigOperators

namespace Cert.KernelIdeal.StageRead

open Idealize.ShloMosaic Idealize.ShloMosaic.ValueIdx
open Cert.KernelIdeal
open Cert.ReferenceIdeal.Stage (rowOf rowOf_ix2 bcast_a_1a_apply bcast_1b_ab_apply bcast_scalar_apply)

variable [Cert.KernelIdeal.Facts]
open Cert.KernelIdeal.Facts₀ Cert.KernelIdeal.Facts

/-- The host's division read at an index is the ideal division of the entries. -/
theorem hostDivf_apply {s : Shape} (a b : FVec Ideal s .f32) (i : s.Idx) : Host.divf a b i = Ideal.div (a i) (b i) := rfl

/-- The sum over the node axis of a 50000 × 128 array from an initial scalar reads, at column `j`, the initial value
    plus the sum over the node coordinate. -/
theorem colSum_apply (x : FVec Ideal S50000x128 .f32) (init : FVec Ideal S_ .f32) (j : Fin 128) :
    Host.reduceAdd (F := Ideal) x init reducesTo_S50000x128_S128_d0 h_S_ (ix1 j)
      = init ix0 + ∑ i : Fin 50000, x (ix2 i j) := by
  unfold Host.reduceAdd
  rw [Ideal.hostReduceAdd_def, Ideal.hostReduceAdd_single reducesTo_S50000x128_S128_d0 (by decide)]
  refine congr (congrArg _ (congrArg init (funext fun a => a.elim0))) (Finset.sum_congr rfl fun k _ => ?_)
  exact congrArg x (funext fun a => Fin.ext (by match a with | ⟨0, _⟩ => rfl | ⟨1, _⟩ => rfl))

/-- The variance's divisor at the integer zero, as the scalar array the host computes, is the specification's. -/
theorem varDenK_apply : Stage.varDenK (constantI S_ 32 0#32) ix0 = Cert.Net.varDen := rfl

/-- A column's mean, entry by entry. -/
theorem colMeanK_apply (lin : FVec Ideal S50000x128 .f32) (r : Fin 1) (j : Fin 128) :
    Stage.colMeanK lin (ix2 r j) = Cert.Net.colMeanAt lin j := by
  unfold Stage.colMeanK Cert.Net.colMeanAt
  rw [hostDivf_apply, bcast_a_1a_apply, colSum_apply, bcast_scalar_apply, constant_apply, constant_apply]

/-- The column means are the specification's. -/
theorem colMeanK_eq (lin : FVec Ideal S50000x128 .f32) : Stage.colMeanK lin = Cert.Net.colMean lin := by
  funext y
  obtain ⟨r, j, rfl⟩ : ∃ (r : Fin 1) (j : Fin 128), y = ix2 r j := ⟨y 0, y 1, eq_ix2 y⟩
  rw [Cert.Net.colMean_ix2, colMeanK_apply]

/-- A deviation from the column mean, entry by entry. -/
theorem devK_apply (lin : FVec Ideal S50000x128 .f32) (i : Fin 50000) (j : Fin 128) :
    Stage.devK lin (ix2 i j) = lin (ix2 i j) - Cert.Net.colMeanAt lin j := by
  unfold Stage.devK
  rw [subf_apply, bcast_1b_ab_apply, colMeanK_apply]

/-- A column's variance, entry by entry. -/
theorem colVarK_apply (lin : FVec Ideal S50000x128 .f32) (r : Fin 1) (j : Fin 128) :
    Stage.colVarK lin (constantI S_ 32 0#32) (ix2 r j) = Cert.Net.colVarAt lin j := by
  unfold Stage.colVarK Cert.Net.colVarAt
  rw [select_apply, bcast_scalar_apply, cmpf_apply, varDenK_apply, constant_apply, hostDivf_apply, bcast_a_1a_apply,
    colSum_apply, constant_apply, bcast_scalar_apply, varDenK_apply, bcast_scalar_apply, id_eq, constant_apply]
  simp only [mulf_apply, devK_apply]

/-- The column variances are the specification's. -/
theorem colVarK_eq (lin : FVec Ideal S50000x128 .f32) :
    Stage.colVarK lin (constantI S_ 32 0#32) = Cert.Net.colVar lin := by
  funext y
  obtain ⟨r, j, rfl⟩ : ∃ (r : Fin 1) (j : Fin 128), y = ix2 r j := ⟨y 0, y 1, eq_ix2 y⟩
  rw [Cert.Net.colVar_ix2, colVarK_apply]

/-- A vector with a leading unit axis added reads, at `(r, j)`, the vector at `j`. -/
theorem addUnit_apply {α : Type} {n : Nat} (v : (⟨1, ![n]⟩ : Shape).Idx → α)
    (h : (⟨1, ![n]⟩ : Shape).ShapeCasts ⟨2, ![1, n]⟩) (r : Fin 1) (j : Fin n) :
    shapeCast ⟨2, ![1, n]⟩ v h (ix2 r j) = v (ix1 j) :=
  (shapeCast_addUnit_apply ![n] v h (ix2 r j)).trans
    (congrArg v (funext fun a => by match a with | ⟨0, _⟩ => rfl))

/-- A 128-vector as a one-row matrix is the row of the vector. -/
theorem row128_eq (b : FVec Ideal S128 .f32) : Stage.row128 b = rowOf b := by
  funext y
  obtain ⟨r, j, rfl⟩ : ∃ (r : Fin 1) (j : Fin 128), y = ix2 r j := ⟨y 0, y 1, eq_ix2 y⟩
  exact (addUnit_apply b shapeCasts_S128_S1x128 r j).trans (rowOf_ix2 b r j).symm

/-- A 256-vector as a one-row matrix is the row of the vector. -/
theorem row256_eq (b : FVec Ideal S256 .f32) : Stage.row256 b = rowOf b := by
  funext y
  obtain ⟨r, j, rfl⟩ : ∃ (r : Fin 1) (j : Fin 256), y = ix2 r j := ⟨y 0, y 1, eq_ix2 y⟩
  exact (addUnit_apply b shapeCasts_S256_S1x256 r j).trans (rowOf_ix2 b r j).symm

/-- A 4-vector as a one-row matrix is the row of the vector. -/
theorem row4_eq (b : FVec Ideal S4 .f32) : Stage.row4 b = rowOf b := by
  funext y
  obtain ⟨r, j, rfl⟩ : ∃ (r : Fin 1) (j : Fin 4), y = ix2 r j := ⟨y 0, y 1, eq_ix2 y⟩
  exact (addUnit_apply b shapeCasts_S4_S1x4 r j).trans (rowOf_ix2 b r j).symm

end Cert.KernelIdeal.StageRead

end
-- ==== Proof.StageSlices.lean ====
/-
  The reference's parameter slices read at an index: block `k` of a stacked parameter with its unit axis dropped reads
  the stack at `k` followed by the index. Stated entry by entry, and as equalities with the `k`-th matrix (or one-row
  matrix) of the stack.
-/
import proofs.«158954_j13391708029610_1_alg».proof.Proof.StageRead

noncomputable section

open scoped BigOperators

namespace Cert.ReferenceIdeal.Stage

open Idealize.ShloMosaic Idealize.ShloMosaic.ValueIdx

variable [Facts]
open Facts₀ Facts

/-- Matrix `k` of a stack of five square matrices. -/
def stackMat (W : FVec Ideal S5x128x128 .f32) (k : Fin 5) : Cert.Net.Mat 128 128 := fun y => W (ix3 k (y 0) (y 1))

/-- Row `k` of a stack of five rows, as a one-row matrix. -/
def stackRow5 (B : FVec Ideal S5x128 .f32) (k : Fin 5) : Cert.Net.Mat 1 128 := fun y => B (ix2 k (y 1))

/-- Row `k` of a stack of four rows, as a one-row matrix. -/
def stackRow4 (G : FVec Ideal S4x128 .f32) (k : Fin 4) : Cert.Net.Mat 1 128 := fun y => G (ix2 k (y 1))

/-- A block of a rank-3 stack cut at `k` along the leading axis reads, at `(u, i, j)`, the stack at `(k, i, j)`. -/
theorem slice3_axis0_apply {α : Type} {n0 n1 n2 : Nat} (o : Nat) (X : (⟨3, ![n0, n1, n2]⟩ : Shape).Idx → α)
    (h : (⟨3, ![n0, n1, n2]⟩ : Shape).Slices ![o, 0, 0] ⟨3, ![1, n1, n2]⟩)
    (u : Fin 1) (i : Fin n1) (j : Fin n2) (k : Fin n0) (hk : k.val = o) :
    extractStridedSlice ⟨3, ![1, n1, n2]⟩ ![o, 0, 0] X h (ix3 u i j) = X (ix3 k i j) :=
  extractStridedSlice_apply _ _ _ _ _ (fun ax => by
    match ax with
    | ⟨0, _⟩ =>
      show k.val = o + u.val
      have := u.isLt; omega
    | ⟨1, _⟩ => exact (Nat.zero_add _).symm
    | ⟨2, _⟩ => exact (Nat.zero_add _).symm)

/-- Block `0` of the stacked weights, entry by entry. -/
theorem wSlice0_apply (W : FVec Ideal S5x128x128 .f32) (i j : Fin 128) : wSlice0 W (ix2 i j) = W (ix3 (0 : Fin 5) i j) := by
  unfold wSlice0
  rw [shapeCast_1ab_ab_apply]
  exact slice3_axis0_apply 0 W _ 0 i j 0 rfl

/-- Block `0` of the stacked weights is matrix `0` of the stack. -/
theorem wSlice0_eq (W : FVec Ideal S5x128x128 .f32) : wSlice0 W = stackMat W 0 := by
  funext y
  obtain ⟨i, j, rfl⟩ : ∃ (i : Fin 128) (j : Fin 128), y = ix2 i j := ⟨y 0, y 1, eq_ix2 y⟩
  exact wSlice0_apply W i j

/-- Block `1` of the stacked weights, entry by entry. -/
theorem wSlice1_apply (W : FVec Ideal S5x128x128 .f32) (i j : Fin 128) : wSlice1 W (ix2 i j) = W (ix3 (1 : Fin 5) i j) := by
  unfold wSlice1
  rw [shapeCast_1ab_ab_apply]
  exact slice3_axis0_apply 1 W _ 0 i j 1 rfl

/-- Block `1` of the stacked weights is matrix `1` of the stack. -/
theorem wSlice1_eq (W : FVec Ideal S5x128x128 .f32) : wSlice1 W = stackMat W 1 := by
  funext y
  obtain ⟨i, j, rfl⟩ : ∃ (i : Fin 128) (j : Fin 128), y = ix2 i j := ⟨y 0, y 1, eq_ix2 y⟩
  exact wSlice1_apply W i j

/-- Block `2` of the stacked weights, entry by entry. -/
theorem wSlice2_apply (W : FVec Ideal S5x128x128 .f32) (i j : Fin 128) : wSlice2 W (ix2 i j) = W (ix3 (2 : Fin 5) i j) := by
  unfold wSlice2
  rw [shapeCast_1ab_ab_apply]
  exact slice3_axis0_apply 2 W _ 0 i j 2 rfl

/-- Block `2` of the stacked weights is matrix `2` of the stack. -/
theorem wSlice2_eq (W : FVec Ideal S5x128x128 .f32) : wSlice2 W = stackMat W 2 := by
  funext y
  obtain ⟨i, j, rfl⟩ : ∃ (i : Fin 128) (j : Fin 128), y = ix2 i j := ⟨y 0, y 1, eq_ix2 y⟩
  exact wSlice2_apply W i j

/-- Block `3` of the stacked weights, entry by entry. -/
theorem wSlice3_apply (W : FVec Ideal S5x128x128 .f32) (i j : Fin 128) : wSlice3 W (ix2 i j) = W (ix3 (3 : Fin 5) i j) := by
  unfold wSlice3
  rw [shapeCast_1ab_ab_apply]
  exact slice3_axis0_apply 3 W _ 0 i j 3 rfl

/-- Block `3` of the stacked weights is matrix `3` of the stack. -/
theorem wSlice3_eq (W : FVec Ideal S5x128x128 .f32) : wSlice3 W = stackMat W 3 := by
  funext y
  obtain ⟨i, j, rfl⟩ : ∃ (i : Fin 128) (j : Fin 128), y = ix2 i j := ⟨y 0, y 1, eq_ix2 y⟩
  exact wSlice3_apply W i j

/-- Block `4` of the stacked weights, entry by entry. -/
theorem wSlice4_apply (W : FVec Ideal S5x128x128 .f32) (i j : Fin 128) : wSlice4 W (ix2 i j) = W (ix3 (4 : Fin 5) i j) := by
  unfold wSlice4
  rw [shapeCast_1ab_ab_apply]
  exact slice3_axis0_apply 4 W _ 0 i j 4 rfl

/-- Block `4` of the stacked weights is matrix `4` of the stack. -/
theorem wSlice4_eq (W : FVec Ideal S5x128x128 .f32) : wSlice4 W = stackMat W 4 := by
  funext y
  obtain ⟨i, j, rfl⟩ : ∃ (i : Fin 128) (j : Fin 128), y = ix2 i j := ⟨y 0, y 1, eq_ix2 y⟩
  exact wSlice4_apply W i j

/-- Row `0` of the stacked biases, entry by entry. -/
theorem bSlice0_apply (B : FVec Ideal S5x128 .f32) (j : Fin 128) : bSlice0 B (ix1 j) = B (ix2 (0 : Fin 5) j) := by
  unfold bSlice0
  rw [shapeCast_1a_a_apply]
  exact slice2_axis0_apply 0 B _ 0 j 0 rfl

/-- Row `0` of the stacked biases, as a one-row matrix, is row `0` of the stack. -/
theorem bSlice0_eq (B : FVec Ideal S5x128 .f32) : rowOf (bSlice0 B) = stackRow5 B 0 := by
  funext y
  obtain ⟨r, j, rfl⟩ : ∃ (r : Fin 1) (j : Fin 128), y = ix2 r j := ⟨y 0, y 1, eq_ix2 y⟩
  exact bSlice0_apply B j

/-- Row `1` of the stacked biases, entry by entry. -/
theorem bSlice1_apply (B : FVec Ideal S5x128 .f32) (j : Fin 128) : bSlice1 B (ix1 j) = B (ix2 (1 : Fin 5) j) := by
  unfold bSlice1
  rw [shapeCast_1a_a_apply]
  exact slice2_axis0_apply 1 B _ 0 j 1 rfl

/-- Row `1` of the stacked biases, as a one-row matrix, is row `1` of the stack. -/
theorem bSlice1_eq (B : FVec Ideal S5x128 .f32) : rowOf (bSlice1 B) = stackRow5 B 1 := by
  funext y
  obtain ⟨r, j, rfl⟩ : ∃ (r : Fin 1) (j : Fin 128), y = ix2 r j := ⟨y 0, y 1, eq_ix2 y⟩
  exact bSlice1_apply B j

/-- Row `2` of the stacked biases, entry by entry. -/
theorem bSlice2_apply (B : FVec Ideal S5x128 .f32) (j : Fin 128) : bSlice2 B (ix1 j) = B (ix2 (2 : Fin 5) j) := by
  unfold bSlice2
  rw [shapeCast_1a_a_apply]
  exact slice2_axis0_apply 2 B _ 0 j 2 rfl

/-- Row `2` of the stacked biases, as a one-row matrix, is row `2` of the stack. -/
theorem bSlice2_eq (B : FVec Ideal S5x128 .f32) : rowOf (bSlice2 B) = stackRow5 B 2 := by
  funext y
  obtain ⟨r, j, rfl⟩ : ∃ (r : Fin 1) (j : Fin 128), y = ix2 r j := ⟨y 0, y 1, eq_ix2 y⟩
  exact bSlice2_apply B j

/-- Row `3` of the stacked biases, entry by entry. -/
theorem bSlice3_apply (B : FVec Ideal S5x128 .f32) (j : Fin 128) : bSlice3 B (ix1 j) = B (ix2 (3 : Fin 5) j) := by
  unfold bSlice3
  rw [shapeCast_1a_a_apply]
  exact slice2_axis0_apply 3 B _ 0 j 3 rfl

/-- Row `3` of the stacked biases, as a one-row matrix, is row `3` of the stack. -/
theorem bSlice3_eq (B : FVec Ideal S5x128 .f32) : rowOf (bSlice3 B) = stackRow5 B 3 := by
  funext y
  obtain ⟨r, j, rfl⟩ : ∃ (r : Fin 1) (j : Fin 128), y = ix2 r j := ⟨y 0, y 1, eq_ix2 y⟩
  exact bSlice3_apply B j

/-- Row `4` of the stacked biases, entry by entry. -/
theorem bSlice4_apply (B : FVec Ideal S5x128 .f32) (j : Fin 128) : bSlice4 B (ix1 j) = B (ix2 (4 : Fin 5) j) := by
  unfold bSlice4
  rw [shapeCast_1a_a_apply]
  exact slice2_axis0_apply 4 B _ 0 j 4 rfl

/-- Row `4` of the stacked biases, as a one-row matrix, is row `4` of the stack. -/
theorem bSlice4_eq (B : FVec Ideal S5x128 .f32) : rowOf (bSlice4 B) = stackRow5 B 4 := by
  funext y
  obtain ⟨r, j, rfl⟩ : ∃ (r : Fin 1) (j : Fin 128), y = ix2 r j := ⟨y 0, y 1, eq_ix2 y⟩
  exact bSlice4_apply B j

/-- Row `0` of a stacked normalisation parameter, entry by entry. -/
theorem gSlice0_apply (G : FVec Ideal S4x128 .f32) (j : Fin 128) : gSlice0 G (ix1 j) = G (ix2 (0 : Fin 4) j) := by
  unfold gSlice0
  rw [shapeCast_1a_a_apply]
  exact slice2_axis0_apply 0 G _ 0 j 0 rfl

/-- Row `0` of a stacked normalisation parameter, as a one-row matrix, is row `0` of the stack. -/
theorem gSlice0_eq (G : FVec Ideal S4x128 .f32) : rowOf (gSlice0 G) = stackRow4 G 0 := by
  funext y
  obtain ⟨r, j, rfl⟩ : ∃ (r : Fin 1) (j : Fin 128), y = ix2 r j := ⟨y 0, y 1, eq_ix2 y⟩
  exact gSlice0_apply G j

/-- Row `1` of a stacked normalisation parameter, entry by entry. -/
theorem gSlice1_apply (G : FVec Ideal S4x128 .f32) (j : Fin 128) : gSlice1 G (ix1 j) = G (ix2 (1 : Fin 4) j) := by
  unfold gSlice1
  rw [shapeCast_1a_a_apply]
  exact slice2_axis0_apply 1 G _ 0 j 1 rfl

/-- Row `1` of a stacked normalisation parameter, as a one-row matrix, is row `1` of the stack. -/
theorem gSlice1_eq (G : FVec Ideal S4x128 .f32) : rowOf (gSlice1 G) = stackRow4 G 1 := by
  funext y
  obtain ⟨r, j, rfl⟩ : ∃ (r : Fin 1) (j : Fin 128), y = ix2 r j := ⟨y 0, y 1, eq_ix2 y⟩
  exact gSlice1_apply G j

/-- Row `2` of a stacked normalisation parameter, entry by entry. -/
theorem gSlice2_apply (G : FVec Ideal S4x128 .f32) (j : Fin 128) : gSlice2 G (ix1 j) = G (ix2 (2 : Fin 4) j) := by
  unfold gSlice2
  rw [shapeCast_1a_a_apply]
  exact slice2_axis0_apply 2 G _ 0 j 2 rfl

/-- Row `2` of a stacked normalisation parameter, as a one-row matrix, is row `2` of the stack. -/
theorem gSlice2_eq (G : FVec Ideal S4x128 .f32) : rowOf (gSlice2 G) = stackRow4 G 2 := by
  funext y
  obtain ⟨r, j, rfl⟩ : ∃ (r : Fin 1) (j : Fin 128), y = ix2 r j := ⟨y 0, y 1, eq_ix2 y⟩
  exact gSlice2_apply G j

/-- Row `3` of a stacked normalisation parameter, entry by entry. -/
theorem gSlice3_apply (G : FVec Ideal S4x128 .f32) (j : Fin 128) : gSlice3 G (ix1 j) = G (ix2 (3 : Fin 4) j) := by
  unfold gSlice3
  rw [shapeCast_1a_a_apply]
  exact slice2_axis0_apply 3 G _ 0 j 3 rfl

/-- Row `3` of a stacked normalisation parameter, as a one-row matrix, is row `3` of the stack. -/
theorem gSlice3_eq (G : FVec Ideal S4x128 .f32) : rowOf (gSlice3 G) = stackRow4 G 3 := by
  funext y
  obtain ⟨r, j, rfl⟩ : ∃ (r : Fin 1) (j : Fin 128), y = ix2 r j := ⟨y 0, y 1, eq_ix2 y⟩
  exact gSlice3_apply G j

end Cert.ReferenceIdeal.Stage

end
-- ==== Proof.KNet.lean ====
/-
  The kernel program's result value is the specification's network of the launch memory's arrays.

  Stage by stage the program's host spellings are the specification's: a parameter slice is the block of the stacked
  parameter (the slice and the cast that drops its unit axis read the block's entries), a vector reshaped to one row is
  the row of the vector, and the column mean and variance with their unit axis kept are the specification's column
  statistics. So each round (the combine of the neighbour mean with the features, normalised by its own column
  statistics and rectified) is the specification's round at the blocks of the stacked parameters, whatever the features
  are; the encoder, the fifth combine and the decoder likewise; and the rounds chain as the network chains them.
-/
import proofs.«158954_j13391708029610_1_alg».proof.Proof.KValues
import proofs.«158954_j13391708029610_1_alg».proof.Proof.KStats
import proofs.«158954_j13391708029610_1_alg».proof.Proof.StageSlices

noncomputable section

namespace Cert.KernelIdeal.Chain

open Cert.KernelIdeal Cert.KernelIdeal.StageRead
open Idealize.ShloMosaic Idealize.ShloMosaic.TcCoe Idealize.SL.Sem
open Cert.ReferenceIdeal.Stage (rowOf stackMat stackRow5 stackRow4)

variable [Cert.KernelIdeal.Facts] [Cert.ReferenceIdeal.Facts]
variable (m : (ℓ : Loc nD τ sig) → Buf (Elt Ideal) ℓ) (c : Dev nD)

/-! ## The parameter slices are the blocks of the stacked parameters -/

/-- Block 0 of a stack of weight matrices. -/
theorem wSlice0_eq (W : FVec Ideal S5x128x128 .f32) : Stage.wSlice0 W = stackMat W 0 :=
  Cert.ReferenceIdeal.Stage.wSlice0_eq W
/-- Block 1 of a stack of weight matrices. -/
theorem wSlice1_eq (W : FVec Ideal S5x128x128 .f32) : Stage.wSlice1 W = stackMat W 1 :=
  Cert.ReferenceIdeal.Stage.wSlice1_eq W
/-- Block 2 of a stack of weight matrices. -/
theorem wSlice2_eq (W : FVec Ideal S5x128x128 .f32) : Stage.wSlice2 W = stackMat W 2 :=
  Cert.ReferenceIdeal.Stage.wSlice2_eq W
/-- Block 3 of a stack of weight matrices. -/
theorem wSlice3_eq (W : FVec Ideal S5x128x128 .f32) : Stage.wSlice3 W = stackMat W 3 :=
  Cert.ReferenceIdeal.Stage.wSlice3_eq W
/-- Block 4 of a stack of weight matrices. -/
theorem wSlice4_eq (W : FVec Ideal S5x128x128 .f32) : Stage.wSlice4 W = stackMat W 4 :=
  Cert.ReferenceIdeal.Stage.wSlice4_eq W
/-- Row 0 of a stack of bias rows, as one row. -/
theorem bRow0_eq (B : FVec Ideal S5x128 .f32) : Stage.row128 (Stage.bSlice0 B) = stackRow5 B 0 :=
  (row128_eq _).trans (Cert.ReferenceIdeal.Stage.bSlice0_eq B)
/-- Row 1 of a stack of bias rows, as one row. -/
theorem bRow1_eq (B : FVec Ideal S5x128 .f32) : Stage.row128 (Stage.bSlice1 B) = stackRow5 B 1 :=
  (row128_eq _).trans (Cert.ReferenceIdeal.Stage.bSlice1_eq B)
/-- Row 2 of a stack of bias rows, as one row. -/
theorem bRow2_eq (B : FVec Ideal S5x128 .f32) : Stage.row128 (Stage.bSlice2 B) = stackRow5 B 2 :=
  (row128_eq _).trans (Cert.ReferenceIdeal.Stage.bSlice2_eq B)
/-- Row 3 of a stack of bias rows, as one row. -/
theorem bRow3_eq (B : FVec Ideal S5x128 .f32) : Stage.row128 (Stage.bSlice3 B) = stackRow5 B 3 :=
  (row128_eq _).trans (Cert.ReferenceIdeal.Stage.bSlice3_eq B)
/-- Row 4 of a stack of bias rows, as one row. -/
theorem bRow4_eq (B : FVec Ideal S5x128 .f32) : Stage.row128 (Stage.bSlice4 B) = stackRow5 B 4 :=
  (row128_eq _).trans (Cert.ReferenceIdeal.Stage.bSlice4_eq B)
/-- Row 0 of a stack of normalisation rows, as one row. -/
theorem gRow0_eq (G : FVec Ideal S4x128 .f32) : Stage.row128 (Stage.gSlice0 G) = stackRow4 G 0 :=
  (row128_eq _).trans (Cert.ReferenceIdeal.Stage.gSlice0_eq G)
/-- Row 1 of a stack of normalisation rows, as one row. -/
theorem gRow1_eq (G : FVec Ideal S4x128 .f32) : Stage.row128 (Stage.gSlice1 G) = stackRow4 G 1 :=
  (row128_eq _).trans (Cert.ReferenceIdeal.Stage.gSlice1_eq G)
/-- Row 2 of a stack of normalisation rows, as one row. -/
theorem gRow2_eq (G : FVec Ideal S4x128 .f32) : Stage.row128 (Stage.gSlice2 G) = stackRow4 G 2 :=
  (row128_eq _).trans (Cert.ReferenceIdeal.Stage.gSlice2_eq G)
/-- Row 3 of a stack of normalisation rows, as one row. -/
theorem gRow3_eq (G : FVec Ideal S4x128 .f32) : Stage.row128 (Stage.gSlice3 G) = stackRow4 G 3 :=
  (row128_eq _).trans (Cert.ReferenceIdeal.Stage.gSlice3_eq G)

/-! ## The stages -/

/-- The encoded features are the specification's perceptron of the launch arrays. -/
theorem z0_eq : z0 m c = Cert.Net.mlp (m ((c : Thread nD τ).loc main_arg0)) (m ((c : Thread nD τ).loc main_arg2)) (rowOf (m ((c : Thread nD τ).loc main_arg3))) (m ((c : Thread nD τ).loc main_arg4)) (rowOf (m ((c : Thread nD τ).loc main_arg5))) := by
  unfold z0
  rw [row256_eq, row128_eq]

/-- Round 0's combine is the specification's, at block 0 of the stacked parameters. -/
theorem lin0_eq (z : FVec Ideal S50000x128 .f32) :
    lin0 m c z = Cert.Net.sage (nbr m c z) z (stackMat (m ((c : Thread nD τ).loc main_arg6)) 0) (stackRow5 (m ((c : Thread nD τ).loc main_arg7)) 0) (stackMat (m ((c : Thread nD τ).loc main_arg8)) 0) := by
  unfold lin0
  rw [wSlice0_eq, bRow0_eq, wSlice0_eq]

/-- Round 1's combine is the specification's, at block 1 of the stacked parameters. -/
theorem lin1_eq (z : FVec Ideal S50000x128 .f32) :
    lin1 m c z = Cert.Net.sage (nbr m c z) z (stackMat (m ((c : Thread nD τ).loc main_arg6)) 1) (stackRow5 (m ((c : Thread nD τ).loc main_arg7)) 1) (stackMat (m ((c : Thread nD τ).loc main_arg8)) 1) := by
  unfold lin1
  rw [wSlice1_eq, bRow1_eq, wSlice1_eq]

/-- Round 2's combine is the specification's, at block 2 of the stacked parameters. -/
theorem lin2_eq (z : FVec Ideal S50000x128 .f32) :
    lin2 m c z = Cert.Net.sage (nbr m c z) z (stackMat (m ((c : Thread nD τ).loc main_arg6)) 2) (stackRow5 (m ((c : Thread nD τ).loc main_arg7)) 2) (stackMat (m ((c : Thread nD τ).loc main_arg8)) 2) := by
  unfold lin2
  rw [wSlice2_eq, bRow2_eq, wSlice2_eq]

/-- Round 3's combine is the specification's, at block 3 of the stacked parameters. -/
theorem lin3_eq (z : FVec Ideal S50000x128 .f32) :
    lin3 m c z = Cert.Net.sage (nbr m c z) z (stackMat (m ((c : Thread nD τ).loc main_arg6)) 3) (stackRow5 (m ((c : Thread nD τ).loc main_arg7)) 3) (stackMat (m ((c : Thread nD τ).loc main_arg8)) 3) := by
  unfold lin3
  rw [wSlice3_eq, bRow3_eq, wSlice3_eq]

/-- Round 4's combine is the specification's, at block 4 of the stacked parameters. -/
theorem lin4_eq (z : FVec Ideal S50000x128 .f32) :
    lin4 m c z = Cert.Net.sage (nbr m c z) z (stackMat (m ((c : Thread nD τ).loc main_arg6)) 4) (stackRow5 (m ((c : Thread nD τ).loc main_arg7)) 4) (stackMat (m ((c : Thread nD τ).loc main_arg8)) 4) := by
  unfold lin4
  rw [wSlice4_eq, bRow4_eq, wSlice4_eq]

/-- Round 0, from any features, is the specification's round at block 0 of the stacked parameters. -/
theorem round0_eq (z : FVec Ideal S50000x128 .f32) :
    nrm0 m c (lin0 m c z) = Cert.Net.round (nbr m c) z (stackMat (m ((c : Thread nD τ).loc main_arg6)) 0) (stackRow5 (m ((c : Thread nD τ).loc main_arg7)) 0) (stackMat (m ((c : Thread nD τ).loc main_arg8)) 0) (stackRow4 (m ((c : Thread nD τ).loc main_arg9)) 0) (stackRow4 (m ((c : Thread nD τ).loc main_arg10)) 0) := by
  unfold nrm0 Cert.Net.round
  rw [colMeanK_eq, colVarK_eq, gRow0_eq, gRow0_eq, lin0_eq]

/-- Round 1, from any features, is the specification's round at block 1 of the stacked parameters. -/
theorem round1_eq (z : FVec Ideal S50000x128 .f32) :
    nrm1 m c (lin1 m c z) = Cert.Net.round (nbr m c) z (stackMat (m ((c : Thread nD τ).loc main_arg6)) 1) (stackRow5 (m ((c : Thread nD τ).loc main_arg7)) 1) (stackMat (m ((c : Thread nD τ).loc main_arg8)) 1) (stackRow4 (m ((c : Thread nD τ).loc main_arg9)) 1) (stackRow4 (m ((c : Thread nD τ).loc main_arg10)) 1) := by
  unfold nrm1 Cert.Net.round
  rw [colMeanK_eq, colVarK_eq, gRow1_eq, gRow1_eq, lin1_eq]

/-- Round 2, from any features, is the specification's round at block 2 of the stacked parameters. -/
theorem round2_eq (z : FVec Ideal S50000x128 .f32) :
    nrm2 m c (lin2 m c z) = Cert.Net.round (nbr m c) z (stackMat (m ((c : Thread nD τ).loc main_arg6)) 2) (stackRow5 (m ((c : Thread nD τ).loc main_arg7)) 2) (stackMat (m ((c : Thread nD τ).loc main_arg8)) 2) (stackRow4 (m ((c : Thread nD τ).loc main_arg9)) 2) (stackRow4 (m ((c : Thread nD τ).loc main_arg10)) 2) := by
  unfold nrm2 Cert.Net.round
  rw [colMeanK_eq, colVarK_eq, gRow2_eq, gRow2_eq, lin2_eq]

/-- Round 3, from any features, is the specification's round at block 3 of the stacked parameters. -/
theorem round3_eq (z : FVec Ideal S50000x128 .f32) :
    nrm3 m c (lin3 m c z) = Cert.Net.round (nbr m c) z (stackMat (m ((c : Thread nD τ).loc main_arg6)) 3) (stackRow5 (m ((c : Thread nD τ).loc main_arg7)) 3) (stackMat (m ((c : Thread nD τ).loc main_arg8)) 3) (stackRow4 (m ((c : Thread nD τ).loc main_arg9)) 3) (stackRow4 (m ((c : Thread nD τ).loc main_arg10)) 3) := by
  unfold nrm3 Cert.Net.round
  rw [colMeanK_eq, colVarK_eq, gRow3_eq, gRow3_eq, lin3_eq]

/-- The program's result value is the specification's network of the launch arrays, the aggregation being the neighbour
    mean along the launch memory's edges. -/
theorem outV_eq :
    outV m c = Cert.Net.net (nbr m c) (m ((c : Thread nD τ).loc main_arg0)) (m ((c : Thread nD τ).loc main_arg2)) (rowOf (m ((c : Thread nD τ).loc main_arg3))) (m ((c : Thread nD τ).loc main_arg4)) (rowOf (m ((c : Thread nD τ).loc main_arg5)))
      (stackMat (m ((c : Thread nD τ).loc main_arg6))) (stackRow5 (m ((c : Thread nD τ).loc main_arg7))) (stackMat (m ((c : Thread nD τ).loc main_arg8))) (stackRow4 (m ((c : Thread nD τ).loc main_arg9))) (stackRow4 (m ((c : Thread nD τ).loc main_arg10)))
      (m ((c : Thread nD τ).loc main_arg11)) (rowOf (m ((c : Thread nD τ).loc main_arg12))) (m ((c : Thread nD τ).loc main_arg13)) (rowOf (m ((c : Thread nD τ).loc main_arg14))) := by
  unfold outV Cert.Net.net
  rw [row256_eq, row4_eq, lin4_eq]
  unfold z4
  rw [round3_eq]
  unfold z3
  rw [round2_eq]
  unfold z2
  rw [round1_eq]
  unfold z1
  rw [round0_eq, z0_eq]

end Cert.KernelIdeal.Chain

end
-- ==== Proof.RefRun.Part0.lean ====
/-
  The idealized reference program's @main, window 0 of its six, as lists of host operations: the window's statements
  in order, each call of a module-local function replaced by that function's operations over the call's own buffers
  (the rectifier: a zero word, its broadcast, the maximum; the variance: the column sums, the mean, the squared
  deviations, their sums, the divisor and its guard, and the guarded selection). The lists are cut where a stage of the
  network ends, so that each stage can be read on its own; the window is their concatenation.
-/
import proofs.«158954_j13391708029610_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The edge list's two rows, each sliced out and flattened: the sources end in `main_v1`, the targets in `main_v3`. 4 operations. -/
abbrev seg00 : List (HloOp τ sig (Elt F)) :=
  [ StableHlo.unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v2 main_v3 rfl shapeCasts_S1x600000_S600000 ]

theorem seg00_sub : (seg00 : List (HloOp τ sig (Elt F))).Forall fun op => op.bufs ⊆ tcRefs τ sig :=
  ⟨unary_bufs_sub .., reshape_bufs_sub .., unary_bufs_sub .., reshape_bufs_sub ..⟩

theorem seg00_fresh : (seg00 : List (HloOp τ sig (Elt F))).Forall fun op => op.fresh = ∅ :=
  ⟨rfl, rfl, rfl, rfl⟩

/-- The encoder: `x·W₁ᵀ + b₁` (the weight transposed, the bias broadcast along the nodes), the rectifier against the broadcast zero word, then `·W₂ᵀ + b₂`. 13 operations, a called function's operations in line over that call's own buffers. -/
abbrev seg01 : List (HloOp τ sig (Elt F)) :=
  [ StableHlo.unary main_arg2 main_v4 ((transpose S7x256 [1, 0] · transposes_S256x7_S7x256_1_0) : (⟨S256x7, .f32⟩ : BufTy).Contents (Elt F) → (⟨S7x256, .f32⟩ : BufTy).Contents (Elt F)),
    StableHlo.binary main_arg0 main_v4 main_v5 ((fun l r => Host.dotGeneral dot_S50000x7_S7x256_S50000x256_1_0_0_1_n_n none l r) : (⟨S50000x7, .f32⟩ : BufTy).Contents (Elt F) → (⟨S7x256, .f32⟩ : BufTy).Contents (Elt F) → (⟨S50000x256, .f32⟩ : BufTy).Contents (Elt F)),
    StableHlo.unary main_arg3 main_v6 (broadcastInDim S1x256 ![1] bcast_S256_S1x256_1 : (⟨S256, .f32⟩ : BufTy).Contents (Elt F) → (⟨S1x256, .f32⟩ : BufTy).Contents (Elt F)),
    StableHlo.unary main_v6 main_v7 (broadcastInDim S50000x256 ![0, 1] bcast_S1x256_S50000x256_0_1 : (⟨S1x256, .f32⟩ : BufTy).Contents (Elt F) → (⟨S50000x256, .f32⟩ : BufTy).Contents (Elt F)),
    StableHlo.binary main_v5 main_v7 main_v8 (addf : (⟨S50000x256, .f32⟩ : BufTy).Contents (Elt F) → (⟨S50000x256, .f32⟩ : BufTy).Contents (Elt F) → (⟨S50000x256, .f32⟩ : BufTy).Contents (Elt F)),
    StableHlo.nullary main_call0_cst (constant S_ .f32 0x00000000#32),
    StableHlo.unary main_call0_cst main_call0_v0 ((broadcastInDim S50000x256 ![] bcast_S_S50000x256) : (⟨S_, .f32⟩ : BufTy).Contents (Elt F) → (⟨S50000x256, .f32⟩ : BufTy).Contents (Elt F)),
    StableHlo.binary main_v8 main_call0_v0 main_v9 ((maximumf) : (⟨S50000x256, .f32⟩ : BufTy).Contents (Elt F) → (⟨S50000x256, .f32⟩ : BufTy).Contents (Elt F) → (⟨S50000x256, .f32⟩ : BufTy).Contents (Elt F)),
    StableHlo.unary main_arg4 main_v10 ((transpose S256x128 [1, 0] · transposes_S128x256_S256x128_1_0) : (⟨S128x256, .f32⟩ : BufTy).Contents (Elt F) → (⟨S256x128, .f32⟩ : BufTy).Contents (Elt F)),
    StableHlo.binary main_v9 main_v10 main_v11 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg5 main_v12 (broadcastInDim S1x128 ![1] bcast_S128_S1x128_1 : (⟨S128, .f32⟩ : BufTy).Contents (Elt F) → (⟨S1x128, .f32⟩ : BufTy).Contents (Elt F)),
    StableHlo.unary main_v12 main_v13 (broadcastInDim S50000x128 ![0, 1] bcast_S1x128_S50000x128_0_1 : (⟨S1x128, .f32⟩ : BufTy).Contents (Elt F) → (⟨S50000x128, .f32⟩ : BufTy).Contents (Elt F)),
    StableHlo.binary main_v11 main_v13 main_v14 (addf : (⟨S50000x128, .f32⟩ : BufTy).Contents (Elt F) → (⟨S50000x128, .f32⟩ : BufTy).Contents (Elt F) → (⟨S50000x128, .f32⟩ : BufTy).Contents (Elt F)) ]

theorem seg01_sub : (seg01 : List (HloOp τ sig (Elt F))).Forall fun op => op.bufs ⊆ tcRefs τ sig :=
  ⟨unary_bufs_sub .., binary_bufs_sub .., unary_bufs_sub .., unary_bufs_sub .., binary_bufs_sub .., nullary_bufs_sub ..,
    unary_bufs_sub .., binary_bufs_sub .., unary_bufs_sub .., binary_bufs_sub .., unary_bufs_sub .., unary_bufs_sub ..,
    binary_bufs_sub ..⟩

theorem seg01_fresh : (seg01 : List (HloOp τ sig (Elt F))).Forall fun op => op.fresh = ∅ :=
  ⟨rfl, rfl, rfl, rfl, rfl, rfl, rfl, rfl, rfl, rfl, rfl, rfl, rfl⟩

/-- Aggregation 0: slice 0 of the two weight stacks and of the bias stack; then the neighbour mean of the current features — the sources wrapped where negative, the rows gathered along them, scatter-added from zero along the targets, and divided by the in-degree (ones scatter-added along the targets) clamped below at one. 31 operations. -/
abbrev seg02 : List (HloOp τ sig (Elt F)) :=
  [ StableHlo.unary main_arg6 main_v15 ((extractStridedSlice S1x128x128 ![0, 0, 0] · slices_S5x128x128_S1x128x128_0_0_0) : (⟨S5x128x128, .f32⟩ : BufTy).Contents (Elt F) → (⟨S1x128x128, .f32⟩ : BufTy).Contents (Elt F)),
    StableHlo.reshape main_v15 main_v16 rfl shapeCasts_S1x128x128_S128x128,
    StableHlo.unary main_arg7 main_v17 ((extractStridedSlice S1x128 ![0, 0] · slices_S5x128_S1x128_0_0) : (⟨S5x128, .f32⟩ : BufTy).Contents (Elt F) → (⟨S1x128, .f32⟩ : BufTy).Contents (Elt F)),
    StableHlo.reshape main_v17 main_v18 rfl shapeCasts_S1x128_S128,
    StableHlo.unary main_arg8 main_v19 ((extractStridedSlice S1x128x128 ![0, 0, 0] · slices_S5x128x128_S1x128x128_0_0_0) : (⟨S5x128x128, .f32⟩ : BufTy).Contents (Elt F) → (⟨S1x128x128, .f32⟩ : BufTy).Contents (Elt F)),
    StableHlo.reshape main_v19 main_v20 rfl shapeCasts_S1x128x128_S128x128,
    StableHlo.nullary main_c (constantI S_ 32 0#32),
    StableHlo.unary main_c main_v21 (broadcastInDim S600000 ![] bcast_S_S600000 : (⟨S_, .i32⟩ : BufTy).Contents (Elt F) → (⟨S600000, .i32⟩ : BufTy).Contents (Elt F)),
    StableHlo.binary main_v1 main_v21 main_v22 (cmpi .slt : (⟨S600000, .i32⟩ : BufTy).Contents (Elt F) → (⟨S600000, .i32⟩ : BufTy).Contents (Elt F) → (⟨S600000, .i1⟩ : BufTy).Contents (Elt F)),
    StableHlo.nullary main_c_0 (constantI S_ 32 50000#32),
    StableHlo.unary main_c_0 main_v23 (broadcastInDim S600000 ![] bcast_S_S600000 : (⟨S_, .i32⟩ : BufTy).Contents (Elt F) → (⟨S600000, .i32⟩ : BufTy).Contents (Elt F)),
    StableHlo.binary main_v1 main_v23 main_v24 (addi : (⟨S600000, .i32⟩ : BufTy).Contents (Elt F) → (⟨S600000, .i32⟩ : BufTy).Contents (Elt F) → (⟨S600000, .i32⟩ : BufTy).Contents (Elt F)),
    StableHlo.ternary main_v22 main_v24 main_v1 main_v25 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v25 main_v26 (broadcastInDim S600000x1 ![0] bcast_S600000_S600000x1_0 : (⟨S600000, .i32⟩ : BufTy).Contents (Elt F) → (⟨S600000x1, .i32⟩ : BufTy).Contents (Elt F)),
    StableHlo.binary main_v14 main_v26 main_v27 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst (constant S_ .f32 0x00000000#32),
    StableHlo.unary main_cst main_v28 (broadcastInDim S50000x128 ![] bcast_S_S50000x128 : (⟨S_, .f32⟩ : BufTy).Contents (Elt F) → (⟨S50000x128, .f32⟩ : BufTy).Contents (Elt F)),
    StableHlo.unary main_v3 main_v29 (broadcastInDim S600000x1 ![0] bcast_S600000_S600000x1_0 : (⟨S600000, .i32⟩ : BufTy).Contents (Elt F) → (⟨S600000x1, .i32⟩ : BufTy).Contents (Elt F)),
    StableHlo.ternary main_v28 main_v29 main_v27 main_v30 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.nullary main_cst_1 (constant S_ .f32 0x3F800000#32),
    StableHlo.unary main_cst_1 main_v31 (broadcastInDim S600000 ![] bcast_S_S600000 : (⟨S_, .f32⟩ : BufTy).Contents (Elt F) → (⟨S600000, .f32⟩ : BufTy).Contents (Elt F)),
    StableHlo.nullary main_cst_2 (constant S_ .f32 0x00000000#32),
    StableHlo.unary main_cst_2 main_v32 (broadcastInDim S50000 ![] bcast_S_S50000 : (⟨S_, .f32⟩ : BufTy).Contents (Elt F) → (⟨S50000, .f32⟩ : BufTy).Contents (Elt F)),
    StableHlo.unary main_v3 main_v33 (broadcastInDim S600000x1 ![0] bcast_S600000_S600000x1_0 : (⟨S600000, .i32⟩ : BufTy).Contents (Elt F) → (⟨S600000x1, .i32⟩ : BufTy).Contents (Elt F)),
    StableHlo.ternary main_v32 main_v33 main_v31 main_v34 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    StableHlo.nullary main_cst_3 (constant S_ .f32 0x3F800000#32),
    StableHlo.unary main_cst_3 main_v35 (broadcastInDim S50000 ![] bcast_S_S50000 : (⟨S_, .f32⟩ : BufTy).Contents (Elt F) → (⟨S50000, .f32⟩ : BufTy).Contents (Elt F)),
    StableHlo.binary main_v34 main_v35 main_v36 (maximumf : (⟨S50000, .f32⟩ : BufTy).Contents (Elt F) → (⟨S50000, .f32⟩ : BufTy).Contents (Elt F) → (⟨S50000, .f32⟩ : BufTy).Contents (Elt F)),
    StableHlo.unary main_v36 main_v37 (broadcastInDim S50000x1 ![0] bcast_S50000_S50000x1_0 : (⟨S50000, .f32⟩ : BufTy).Contents (Elt F) → (⟨S50000x1, .f32⟩ : BufTy).Contents (Elt F)),
    StableHlo.unary main_v37 main_v38 (broadcastInDim S50000x128 ![0, 1] bcast_S50000x1_S50000x128_0_1 : (⟨S50000x1, .f32⟩ : BufTy).Contents (Elt F) → (⟨S50000x128, .f32⟩ : BufTy).Contents (Elt F)),
    StableHlo.binary main_v30 main_v38 main_v39 (Host.divf : (⟨S50000x128, .f32⟩ : BufTy).Contents (Elt F) → (⟨S50000x128, .f32⟩ : BufTy).Contents (Elt F) → (⟨S50000x128, .f32⟩ : BufTy).Contents (Elt F)) ]

theorem seg02_sub : (seg02 : List (HloOp τ sig (Elt F))).Forall fun op => op.bufs ⊆ tcRefs τ sig :=
  ⟨unary_bufs_sub .., reshape_bufs_sub .., unary_bufs_sub .., reshape_bufs_sub .., unary_bufs_sub .., reshape_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., unary_bufs_sub ..,
    binary_bufs_sub ..⟩

theorem seg02_fresh : (seg02 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl⟩

/-- Combine 0: `a·Wlᵀ + bl`, then `+ z·Wrᵀ`, the bias joining the first product before the second is added. 8 operations. -/
abbrev seg03 : List (HloOp τ sig (Elt F)) :=
  [ StableHlo.unary main_v16 main_v40 ((transpose S128x128 [1, 0] · transposes_S128x128_S128x128_1_0) : (⟨S128x128, .f32⟩ : BufTy).Contents (Elt F) → (⟨S128x128, .f32⟩ : BufTy).Contents (Elt F)),
    StableHlo.binary main_v39 main_v40 main_v41 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v18 main_v42 (broadcastInDim S1x128 ![1] bcast_S128_S1x128_1 : (⟨S128, .f32⟩ : BufTy).Contents (Elt F) → (⟨S1x128, .f32⟩ : BufTy).Contents (Elt F)),
    StableHlo.unary main_v42 main_v43 (broadcastInDim S50000x128 ![0, 1] bcast_S1x128_S50000x128_0_1 : (⟨S1x128, .f32⟩ : BufTy).Contents (Elt F) → (⟨S50000x128, .f32⟩ : BufTy).Contents (Elt F)),
    StableHlo.binary main_v41 main_v43 main_v44 (addf : (⟨S50000x128, .f32⟩ : BufTy).Contents (Elt F) → (⟨S50000x128, .f32⟩ : BufTy).Contents (Elt F) → (⟨S50000x128, .f32⟩ : BufTy).Contents (Elt F)),
    StableHlo.unary main_v20 main_v45 ((transpose S128x128 [1, 0] · transposes_S128x128_S128x128_1_0) : (⟨S128x128, .f32⟩ : BufTy).Contents (Elt F) → (⟨S128x128, .f32⟩ : BufTy).Contents (Elt F)),
    StableHlo.binary main_v14 main_v45 main_v46 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v44 main_v46 main_v47 (addf : (⟨S50000x128, .f32⟩ : BufTy).Contents (Elt F) → (⟨S50000x128, .f32⟩ : BufTy).Contents (Elt F) → (⟨S50000x128, .f32⟩ : BufTy).Contents (Elt F)) ]

theorem seg03_sub : (seg03 : List (HloOp τ sig (Elt F))).Forall fun op => op.bufs ⊆ tcRefs τ sig :=
  ⟨unary_bufs_sub .., binary_bufs_sub .., unary_bufs_sub .., unary_bufs_sub .., binary_bufs_sub .., unary_bufs_sub ..,
    binary_bufs_sub .., binary_bufs_sub ..⟩

theorem seg03_fresh : (seg03 : List (HloOp τ sig (Elt F))).Forall fun op => op.fresh = ∅ :=
  ⟨rfl, rfl, rfl, rfl, rfl, rfl, rfl, rfl⟩

/-- Normalisation 0: row 0 of the scale and of the shift; the column sums from the zero word over the node count (the mean); the variance — deviations from the mean, squared, summed from the zero word, over the node count less the float of the integer zero, under the guard that this divisor is positive —; then `(x − μ)·rsqrt(v + ε)·γ + β`, rectified against the broadcast zero word. 6 operations. -/
abbrev seg04 : List (HloOp τ sig (Elt F)) :=
  [ StableHlo.unary main_arg9 main_v48 ((extractStridedSlice S1x128 ![0, 0] · slices_S4x128_S1x128_0_0) : (⟨S4x128, .f32⟩ : BufTy).Contents (Elt F) → (⟨S1x128, .f32⟩ : BufTy).Contents (Elt F)),
    StableHlo.reshape main_v48 main_v49 rfl shapeCasts_S1x128_S128,
    StableHlo.unary main_arg10 main_v50 ((extractStridedSlice S1x128 ![0, 0] · slices_S4x128_S1x128_0_0) : (⟨S4x128, .f32⟩ : BufTy).Contents (Elt F) → (⟨S1x128, .f32⟩ : BufTy).Contents (Elt F)),
    StableHlo.reshape main_v50 main_v51 rfl shapeCasts_S1x128_S128,
    StableHlo.nullary main_cst_4 (constant S_ .f32 0x00000000#32),
    StableHlo.binary main_v47 main_cst_4 main_v52 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) ]

theorem seg04_sub : (seg04 : List (HloOp τ sig (Elt F))).Forall fun op => op.bufs ⊆ tcRefs τ sig :=
  ⟨unary_bufs_sub .., reshape_bufs_sub .., unary_bufs_sub .., reshape_bufs_sub .., nullary_bufs_sub .., binary_bufs_sub ..⟩

theorem seg04_fresh : (seg04 : List (HloOp τ sig (Elt F))).Forall fun op => op.fresh = ∅ :=
  ⟨rfl, rfl, rfl, rfl, rfl, rfl⟩

set_option maxRecDepth 8192 in
/-- The window is that straight line: each called function's definition unfolded at its call and the call's record at its
    fields, both sides are one chain of host steps once sequencing is reassociated. -/
theorem part0_eq (c : Dev nD) : main_part0 (F := F) c = seq (seg00 ++ (seg01 ++ (seg02 ++ (seg03 ++ seg04)))) := by
  simp only [seq_append]
  simp only [main_part0, fn_relu.body, seq, bind_assoc, pure_bind]
  rfl

end Cert.ReferenceIdeal.RefRun

end
-- ==== Proof.RefRun.Part1.lean ====
/-
  The idealized reference program's @main, window 1 of its six, as lists of host operations: the window's statements
  in order, each call of a module-local function replaced by that function's operations over the call's own buffers
  (the rectifier: a zero word, its broadcast, the maximum; the variance: the column sums, the mean, the squared
  deviations, their sums, the divisor and its guard, and the guarded selection). The lists are cut where a stage of the
  network ends, so that each stage can be read on its own; the window is their concatenation.
-/
import proofs.«158954_j13391708029610_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- (continued) Normalisation 0: row 0 of the scale and of the shift; the column sums from the zero word over the node count (the mean); the variance — deviations from the mean, squared, summed from the zero word, over the node count less the float of the integer zero, under the guard that this divisor is positive —; then `(x − μ)·rsqrt(v + ε)·γ + β`, rectified against the broadcast zero word. 45 operations, a called function's operations in line over that call's own buffers. -/
abbrev seg05 : List (HloOp τ sig (Elt F)) :=
  [ StableHlo.nullary main_cst_5 (constant S_ .f32 0x47435000#32),
    StableHlo.unary main_cst_5 main_v53 (broadcastInDim S128 ![] bcast_S_S128 : (⟨S_, .f32⟩ : BufTy).Contents (Elt F) → (⟨S128, .f32⟩ : BufTy).Contents (Elt F)),
    StableHlo.binary main_v52 main_v53 main_v54 (Host.divf : (⟨S128, .f32⟩ : BufTy).Contents (Elt F) → (⟨S128, .f32⟩ : BufTy).Contents (Elt F) → (⟨S128, .f32⟩ : BufTy).Contents (Elt F)),
    StableHlo.nullary main_c_6 (constantI S_ 32 0#32),
    StableHlo.nullary main_call1_cst (constant S_ .f32 0x00000000#32),
    StableHlo.binary main_v47 main_call1_cst main_call1_v0 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_call1_v0 main_call1_v1 ((broadcastInDim S1x128 ![1] bcast_S128_S1x128_1) : (⟨S128, .f32⟩ : BufTy).Contents (Elt F) → (⟨S1x128, .f32⟩ : BufTy).Contents (Elt F)),
    StableHlo.nullary main_call1_cst_0 (constant S_ .f32 0x47435000#32),
    StableHlo.unary main_call1_cst_0 main_call1_v2 ((broadcastInDim S1x128 ![] bcast_S_S1x128) : (⟨S_, .f32⟩ : BufTy).Contents (Elt F) → (⟨S1x128, .f32⟩ : BufTy).Contents (Elt F)),
    StableHlo.binary main_call1_v1 main_call1_v2 main_call1_v3 ((Host.divf) : (⟨S1x128, .f32⟩ : BufTy).Contents (Elt F) → (⟨S1x128, .f32⟩ : BufTy).Contents (Elt F) → (⟨S1x128, .f32⟩ : BufTy).Contents (Elt F)),
    StableHlo.unary main_call1_v3 main_call1_v4 ((broadcastInDim S50000x128 ![0, 1] bcast_S1x128_S50000x128_0_1) : (⟨S1x128, .f32⟩ : BufTy).Contents (Elt F) → (⟨S50000x128, .f32⟩ : BufTy).Contents (Elt F)),
    StableHlo.binary main_v47 main_call1_v4 main_call1_v5 ((subf) : (⟨S50000x128, .f32⟩ : BufTy).Contents (Elt F) → (⟨S50000x128, .f32⟩ : BufTy).Contents (Elt F) → (⟨S50000x128, .f32⟩ : BufTy).Contents (Elt F)),
    StableHlo.binary main_call1_v5 main_call1_v5 main_call1_v6 ((mulf) : (⟨S50000x128, .f32⟩ : BufTy).Contents (Elt F) → (⟨S50000x128, .f32⟩ : BufTy).Contents (Elt F) → (⟨S50000x128, .f32⟩ : BufTy).Contents (Elt F)),
    StableHlo.unary main_c_6 main_call1_v7 ((sitofp .f32) : (⟨S_, .i32⟩ : BufTy).Contents (Elt F) → (⟨S_, .f32⟩ : BufTy).Contents (Elt F)),
    StableHlo.nullary main_call1_cst_1 (constant S_ .f32 0x47435000#32),
    StableHlo.binary main_call1_cst_1 main_call1_v7 main_call1_v8 ((subf) : (⟨S_, .f32⟩ : BufTy).Contents (Elt F) → (⟨S_, .f32⟩ : BufTy).Contents (Elt F) → (⟨S_, .f32⟩ : BufTy).Contents (Elt F)),
    StableHlo.nullary main_call1_cst_2 (constant S_ .f32 0x00000000#32),
    StableHlo.binary main_call1_v6 main_call1_cst_2 main_call1_v9 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_call1_v8 main_call1_v10 ((broadcastInDim S128 ![] bcast_S_S128) : (⟨S_, .f32⟩ : BufTy).Contents (Elt F) → (⟨S128, .f32⟩ : BufTy).Contents (Elt F)),
    StableHlo.binary main_call1_v9 main_call1_v10 main_call1_v11 ((Host.divf) : (⟨S128, .f32⟩ : BufTy).Contents (Elt F) → (⟨S128, .f32⟩ : BufTy).Contents (Elt F) → (⟨S128, .f32⟩ : BufTy).Contents (Elt F)),
    StableHlo.nullary main_call1_cst_3 (constant S_ .f32 0x00000000#32),
    StableHlo.binary main_call1_v8 main_call1_cst_3 main_call1_v12 ((cmpf .ogt) : (⟨S_, .f32⟩ : BufTy).Contents (Elt F) → (⟨S_, .f32⟩ : BufTy).Contents (Elt F) → (⟨S_, .i1⟩ : BufTy).Contents (Elt F)),
    StableHlo.nullary main_call1_cst_4 (constant S_ .f32 0x7FC00000#32),
    StableHlo.unary main_call1_cst_4 main_call1_call0_v0 ((id) : (⟨S_, .f32⟩ : BufTy).Contents (Elt F) → (⟨S_, .f32⟩ : BufTy).Contents (Elt F)),
    StableHlo.unary main_call1_call0_v0 main_call1_call0_v1 ((broadcastInDim S128 ![] bcast_S_S128) : (⟨S_, .f32⟩ : BufTy).Contents (Elt F) → (⟨S128, .f32⟩ : BufTy).Contents (Elt F)),
    StableHlo.ternary main_call1_v12 main_call1_v11 main_call1_call0_v1 main_v55 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    StableHlo.unary main_v54 main_v56 (broadcastInDim S1x128 ![1] bcast_S128_S1x128_1 : (⟨S128, .f32⟩ : BufTy).Contents (Elt F) → (⟨S1x128, .f32⟩ : BufTy).Contents (Elt F)),
    StableHlo.unary main_v56 main_v57 (broadcastInDim S50000x128 ![0, 1] bcast_S1x128_S50000x128_0_1 : (⟨S1x128, .f32⟩ : BufTy).Contents (Elt F) → (⟨S50000x128, .f32⟩ : BufTy).Contents (Elt F)),
    StableHlo.binary main_v47 main_v57 main_v58 (subf : (⟨S50000x128, .f32⟩ : BufTy).Contents (Elt F) → (⟨S50000x128, .f32⟩ : BufTy).Contents (Elt F) → (⟨S50000x128, .f32⟩ : BufTy).Contents (Elt F)),
    StableHlo.nullary main_cst_7 (constant S_ .f32 0x3727C5AC#32),
    StableHlo.unary main_cst_7 main_v59 (broadcastInDim S128 ![] bcast_S_S128 : (⟨S_, .f32⟩ : BufTy).Contents (Elt F) → (⟨S128, .f32⟩ : BufTy).Contents (Elt F)),
    StableHlo.binary main_v55 main_v59 main_v60 (addf : (⟨S128, .f32⟩ : BufTy).Contents (Elt F) → (⟨S128, .f32⟩ : BufTy).Contents (Elt F) → (⟨S128, .f32⟩ : BufTy).Contents (Elt F)),
    StableHlo.unary main_v60 main_v61 (Host.rsqrt : (⟨S128, .f32⟩ : BufTy).Contents (Elt F) → (⟨S128, .f32⟩ : BufTy).Contents (Elt F)),
    StableHlo.unary main_v61 main_v62 (broadcastInDim S1x128 ![1] bcast_S128_S1x128_1 : (⟨S128, .f32⟩ : BufTy).Contents (Elt F) → (⟨S1x128, .f32⟩ : BufTy).Contents (Elt F)),
    StableHlo.unary main_v62 main_v63 (broadcastInDim S50000x128 ![0, 1] bcast_S1x128_S50000x128_0_1 : (⟨S1x128, .f32⟩ : BufTy).Contents (Elt F) → (⟨S50000x128, .f32⟩ : BufTy).Contents (Elt F)),
    StableHlo.binary main_v58 main_v63 main_v64 (mulf : (⟨S50000x128, .f32⟩ : BufTy).Contents (Elt F) → (⟨S50000x128, .f32⟩ : BufTy).Contents (Elt F) → (⟨S50000x128, .f32⟩ : BufTy).Contents (Elt F)),
    StableHlo.unary main_v49 main_v65 (broadcastInDim S1x128 ![1] bcast_S128_S1x128_1 : (⟨S128, .f32⟩ : BufTy).Contents (Elt F) → (⟨S1x128, .f32⟩ : BufTy).Contents (Elt F)),
    StableHlo.unary main_v65 main_v66 (broadcastInDim S50000x128 ![0, 1] bcast_S1x128_S50000x128_0_1 : (⟨S1x128, .f32⟩ : BufTy).Contents (Elt F) → (⟨S50000x128, .f32⟩ : BufTy).Contents (Elt F)),
    StableHlo.binary main_v64 main_v66 main_v67 (mulf : (⟨S50000x128, .f32⟩ : BufTy).Contents (Elt F) → (⟨S50000x128, .f32⟩ : BufTy).Contents (Elt F) → (⟨S50000x128, .f32⟩ : BufTy).Contents (Elt F)),
    StableHlo.unary main_v51 main_v68 (broadcastInDim S1x128 ![1] bcast_S128_S1x128_1 : (⟨S128, .f32⟩ : BufTy).Contents (Elt F) → (⟨S1x128, .f32⟩ : BufTy).Contents (Elt F)),
    StableHlo.unary main_v68 main_v69 (broadcastInDim S50000x128 ![0, 1] bcast_S1x128_S50000x128_0_1 : (⟨S1x128, .f32⟩ : BufTy).Contents (Elt F) → (⟨S50000x128, .f32⟩ : BufTy).Contents (Elt F)),
    StableHlo.binary main_v67 main_v69 main_v70 (addf : (⟨S50000x128, .f32⟩ : BufTy).Contents (Elt F) → (⟨S50000x128, .f32⟩ : BufTy).Contents (Elt F) → (⟨S50000x128, .f32⟩ : BufTy).Contents (Elt F)),
    StableHlo.nullary main_call2_cst (constant S_ .f32 0x00000000#32),
    StableHlo.unary main_call2_cst main_call2_v0 ((broadcastInDim S50000x128 ![] bcast_S_S50000x128) : (⟨S_, .f32⟩ : BufTy).Contents (Elt F) → (⟨S50000x128, .f32⟩ : BufTy).Contents (Elt F)),
    StableHlo.binary main_v70 main_call2_v0 main_v71 ((maximumf) : (⟨S50000x128, .f32⟩ : BufTy).Contents (Elt F) → (⟨S50000x128, .f32⟩ : BufTy).Contents (Elt F) → (⟨S50000x128, .f32⟩ : BufTy).Contents (Elt F)) ]

theorem seg05_sub : (seg05 : List (HloOp τ sig (Elt F))).Forall fun op => op.bufs ⊆ tcRefs τ sig :=
  ⟨nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., unary_bufs_sub .., unary_bufs_sub .., binary_bufs_sub ..,
    nullary_bufs_sub .., unary_bufs_sub .., binary_bufs_sub ..⟩

theorem seg05_fresh : (seg05 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl⟩

/-- Aggregation 1: slice 1 of the two weight stacks and of the bias stack; then the neighbour mean of the current features — the sources wrapped where negative, the rows gathered along them, scatter-added from zero along the targets, and divided by the in-degree (ones scatter-added along the targets) clamped below at one. 31 operations. -/
abbrev seg06 : List (HloOp τ sig (Elt F)) :=
  [ StableHlo.unary main_arg6 main_v72 ((extractStridedSlice S1x128x128 ![1, 0, 0] · slices_S5x128x128_S1x128x128_1_0_0) : (⟨S5x128x128, .f32⟩ : BufTy).Contents (Elt F) → (⟨S1x128x128, .f32⟩ : BufTy).Contents (Elt F)),
    StableHlo.reshape main_v72 main_v73 rfl shapeCasts_S1x128x128_S128x128,
    StableHlo.unary main_arg7 main_v74 ((extractStridedSlice S1x128 ![1, 0] · slices_S5x128_S1x128_1_0) : (⟨S5x128, .f32⟩ : BufTy).Contents (Elt F) → (⟨S1x128, .f32⟩ : BufTy).Contents (Elt F)),
    StableHlo.reshape main_v74 main_v75 rfl shapeCasts_S1x128_S128,
    StableHlo.unary main_arg8 main_v76 ((extractStridedSlice S1x128x128 ![1, 0, 0] · slices_S5x128x128_S1x128x128_1_0_0) : (⟨S5x128x128, .f32⟩ : BufTy).Contents (Elt F) → (⟨S1x128x128, .f32⟩ : BufTy).Contents (Elt F)),
    StableHlo.reshape main_v76 main_v77 rfl shapeCasts_S1x128x128_S128x128,
    StableHlo.nullary main_c_8 (constantI S_ 32 0#32),
    StableHlo.unary main_c_8 main_v78 (broadcastInDim S600000 ![] bcast_S_S600000 : (⟨S_, .i32⟩ : BufTy).Contents (Elt F) → (⟨S600000, .i32⟩ : BufTy).Contents (Elt F)),
    StableHlo.binary main_v1 main_v78 main_v79 (cmpi .slt : (⟨S600000, .i32⟩ : BufTy).Contents (Elt F) → (⟨S600000, .i32⟩ : BufTy).Contents (Elt F) → (⟨S600000, .i1⟩ : BufTy).Contents (Elt F)),
    StableHlo.nullary main_c_9 (constantI S_ 32 50000#32),
    StableHlo.unary main_c_9 main_v80 (broadcastInDim S600000 ![] bcast_S_S600000 : (⟨S_, .i32⟩ : BufTy).Contents (Elt F) → (⟨S600000, .i32⟩ : BufTy).Contents (Elt F)),
    StableHlo.binary main_v1 main_v80 main_v81 (addi : (⟨S600000, .i32⟩ : BufTy).Contents (Elt F) → (⟨S600000, .i32⟩ : BufTy).Contents (Elt F) → (⟨S600000, .i32⟩ : BufTy).Contents (Elt F)),
    StableHlo.ternary main_v79 main_v81 main_v1 main_v82 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v82 main_v83 (broadcastInDim S600000x1 ![0] bcast_S600000_S600000x1_0 : (⟨S600000, .i32⟩ : BufTy).Contents (Elt F) → (⟨S600000x1, .i32⟩ : BufTy).Contents (Elt F)),
    StableHlo.binary main_v71 main_v83 main_v84 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst_10 (constant S_ .f32 0x00000000#32),
    StableHlo.unary main_cst_10 main_v85 (broadcastInDim S50000x128 ![] bcast_S_S50000x128 : (⟨S_, .f32⟩ : BufTy).Contents (Elt F) → (⟨S50000x128, .f32⟩ : BufTy).Contents (Elt F)),
    StableHlo.unary main_v3 main_v86 (broadcastInDim S600000x1 ![0] bcast_S600000_S600000x1_0 : (⟨S600000, .i32⟩ : BufTy).Contents (Elt F) → (⟨S600000x1, .i32⟩ : BufTy).Contents (Elt F)),
    StableHlo.ternary main_v85 main_v86 main_v84 main_v87 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.nullary main_cst_11 (constant S_ .f32 0x3F800000#32),
    StableHlo.unary main_cst_11 main_v88 (broadcastInDim S600000 ![] bcast_S_S600000 : (⟨S_, .f32⟩ : BufTy).Contents (Elt F) → (⟨S600000, .f32⟩ : BufTy).Contents (Elt F)),
    StableHlo.nullary main_cst_12 (constant S_ .f32 0x00000000#32),
    StableHlo.unary main_cst_12 main_v89 (broadcastInDim S50000 ![] bcast_S_S50000 : (⟨S_, .f32⟩ : BufTy).Contents (Elt F) → (⟨S50000, .f32⟩ : BufTy).Contents (Elt F)),
    StableHlo.unary main_v3 main_v90 (broadcastInDim S600000x1 ![0] bcast_S600000_S600000x1_0 : (⟨S600000, .i32⟩ : BufTy).Contents (Elt F) → (⟨S600000x1, .i32⟩ : BufTy).Contents (Elt F)),
    StableHlo.ternary main_v89 main_v90 main_v88 main_v91 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    StableHlo.nullary main_cst_13 (constant S_ .f32 0x3F800000#32),
    StableHlo.unary main_cst_13 main_v92 (broadcastInDim S50000 ![] bcast_S_S50000 : (⟨S_, .f32⟩ : BufTy).Contents (Elt F) → (⟨S50000, .f32⟩ : BufTy).Contents (Elt F)),
    StableHlo.binary main_v91 main_v92 main_v93 (maximumf : (⟨S50000, .f32⟩ : BufTy).Contents (Elt F) → (⟨S50000, .f32⟩ : BufTy).Contents (Elt F) → (⟨S50000, .f32⟩ : BufTy).Contents (Elt F)),
    StableHlo.unary main_v93 main_v94 (broadcastInDim S50000x1 ![0] bcast_S50000_S50000x1_0 : (⟨S50000, .f32⟩ : BufTy).Contents (Elt F) → (⟨S50000x1, .f32⟩ : BufTy).Contents (Elt F)),
    StableHlo.unary main_v94 main_v95 (broadcastInDim S50000x128 ![0, 1] bcast_S50000x1_S50000x128_0_1 : (⟨S50000x1, .f32⟩ : BufTy).Contents (Elt F) → (⟨S50000x128, .f32⟩ : BufTy).Contents (Elt F)),
    StableHlo.binary main_v87 main_v95 main_v96 (Host.divf : (⟨S50000x128, .f32⟩ : BufTy).Contents (Elt F) → (⟨S50000x128, .f32⟩ : BufTy).Contents (Elt F) → (⟨S50000x128, .f32⟩ : BufTy).Contents (Elt F)) ]

theorem seg06_sub : (seg06 : List (HloOp τ sig (Elt F))).Forall fun op => op.bufs ⊆ tcRefs τ sig :=
  ⟨unary_bufs_sub .., reshape_bufs_sub .., unary_bufs_sub .., reshape_bufs_sub .., unary_bufs_sub .., reshape_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., unary_bufs_sub ..,
    binary_bufs_sub ..⟩

theorem seg06_fresh : (seg06 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl⟩

/-- Combine 1: `a·Wlᵀ + bl`, then `+ z·Wrᵀ`, the bias joining the first product before the second is added. 7 operations. -/
abbrev seg07 : List (HloOp τ sig (Elt F)) :=
  [ StableHlo.unary main_v73 main_v97 ((transpose S128x128 [1, 0] · transposes_S128x128_S128x128_1_0) : (⟨S128x128, .f32⟩ : BufTy).Contents (Elt F) → (⟨S128x128, .f32⟩ : BufTy).Contents (Elt F)),
    StableHlo.binary main_v96 main_v97 main_v98 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v75 main_v99 (broadcastInDim S1x128 ![1] bcast_S128_S1x128_1 : (⟨S128, .f32⟩ : BufTy).Contents (Elt F) → (⟨S1x128, .f32⟩ : BufTy).Contents (Elt F)),
    StableHlo.unary main_v99 main_v100 (broadcastInDim S50000x128 ![0, 1] bcast_S1x128_S50000x128_0_1 : (⟨S1x128, .f32⟩ : BufTy).Contents (Elt F) → (⟨S50000x128, .f32⟩ : BufTy).Contents (Elt F)),
    StableHlo.binary main_v98 main_v100 main_v101 (addf : (⟨S50000x128, .f32⟩ : BufTy).Contents (Elt F) → (⟨S50000x128, .f32⟩ : BufTy).Contents (Elt F) → (⟨S50000x128, .f32⟩ : BufTy).Contents (Elt F)),
    StableHlo.unary main_v77 main_v102 ((transpose S128x128 [1, 0] · transposes_S128x128_S128x128_1_0) : (⟨S128x128, .f32⟩ : BufTy).Contents (Elt F) → (⟨S128x128, .f32⟩ : BufTy).Contents (Elt F)),
    StableHlo.binary main_v71 main_v102 main_v103 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

theorem seg07_sub : (seg07 : List (HloOp τ sig (Elt F))).Forall fun op => op.bufs ⊆ tcRefs τ sig :=
  ⟨unary_bufs_sub .., binary_bufs_sub .., unary_bufs_sub .., unary_bufs_sub .., binary_bufs_sub .., unary_bufs_sub ..,
    binary_bufs_sub ..⟩

theorem seg07_fresh : (seg07 : List (HloOp τ sig (Elt F))).Forall fun op => op.fresh = ∅ :=
  ⟨rfl, rfl, rfl, rfl, rfl, rfl, rfl⟩

set_option maxRecDepth 8192 in
/-- The window is that straight line: each called function's definition unfolded at its call and the call's record at its
    fields, both sides are one chain of host steps once sequencing is reassociated. -/
theorem part1_eq (c : Dev nD) : main_part1 (F := F) c = seq (seg05 ++ (seg06 ++ seg07)) := by
  simp only [seq_append]
  simp only [main_part1, fn_var.body, fn_where.body, fn_relu_0.body, seq, bind_assoc, pure_bind]
  rfl

end Cert.ReferenceIdeal.RefRun

end
-- ==== Proof.RefRun.Part2.lean ====
/-
  The idealized reference program's @main, window 2 of its six, as lists of host operations: the window's statements
  in order, each call of a module-local function replaced by that function's operations over the call's own buffers
  (the rectifier: a zero word, its broadcast, the maximum; the variance: the column sums, the mean, the squared
  deviations, their sums, the divisor and its guard, and the guarded selection). The lists are cut where a stage of the
  network ends, so that each stage can be read on its own; the window is their concatenation.
-/
import proofs.«158954_j13391708029610_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- (continued) Combine 1: `a·Wlᵀ + bl`, then `+ z·Wrᵀ`, the bias joining the first product before the second is added. 1 operation. -/
abbrev seg08 : List (HloOp τ sig (Elt F)) :=
  [ StableHlo.binary main_v101 main_v103 main_v104 (addf : (⟨S50000x128, .f32⟩ : BufTy).Contents (Elt F) → (⟨S50000x128, .f32⟩ : BufTy).Contents (Elt F) → (⟨S50000x128, .f32⟩ : BufTy).Contents (Elt F)) ]

theorem seg08_sub : (seg08 : List (HloOp τ sig (Elt F))).Forall fun op => op.bufs ⊆ tcRefs τ sig :=
  binary_bufs_sub _ _ _ _ _ _ _

theorem seg08_fresh : (seg08 : List (HloOp τ sig (Elt F))).Forall fun op => op.fresh = ∅ :=
  rfl

/-- Normalisation 1: row 1 of the scale and of the shift; the column sums from the zero word over the node count (the mean); the variance — deviations from the mean, squared, summed from the zero word, over the node count less the float of the integer zero, under the guard that this divisor is positive —; then `(x − μ)·rsqrt(v + ε)·γ + β`, rectified against the broadcast zero word. 51 operations, a called function's operations in line over that call's own buffers. -/
abbrev seg09 : List (HloOp τ sig (Elt F)) :=
  [ StableHlo.unary main_arg9 main_v105 ((extractStridedSlice S1x128 ![1, 0] · slices_S4x128_S1x128_1_0) : (⟨S4x128, .f32⟩ : BufTy).Contents (Elt F) → (⟨S1x128, .f32⟩ : BufTy).Contents (Elt F)),
    StableHlo.reshape main_v105 main_v106 rfl shapeCasts_S1x128_S128,
    StableHlo.unary main_arg10 main_v107 ((extractStridedSlice S1x128 ![1, 0] · slices_S4x128_S1x128_1_0) : (⟨S4x128, .f32⟩ : BufTy).Contents (Elt F) → (⟨S1x128, .f32⟩ : BufTy).Contents (Elt F)),
    StableHlo.reshape main_v107 main_v108 rfl shapeCasts_S1x128_S128,
    StableHlo.nullary main_cst_14 (constant S_ .f32 0x00000000#32),
    StableHlo.binary main_v104 main_cst_14 main_v109 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_15 (constant S_ .f32 0x47435000#32),
    StableHlo.unary main_cst_15 main_v110 (broadcastInDim S128 ![] bcast_S_S128 : (⟨S_, .f32⟩ : BufTy).Contents (Elt F) → (⟨S128, .f32⟩ : BufTy).Contents (Elt F)),
    StableHlo.binary main_v109 main_v110 main_v111 (Host.divf : (⟨S128, .f32⟩ : BufTy).Contents (Elt F) → (⟨S128, .f32⟩ : BufTy).Contents (Elt F) → (⟨S128, .f32⟩ : BufTy).Contents (Elt F)),
    StableHlo.nullary main_c_16 (constantI S_ 32 0#32),
    StableHlo.nullary main_call3_cst (constant S_ .f32 0x00000000#32),
    StableHlo.binary main_v104 main_call3_cst main_call3_v0 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_call3_v0 main_call3_v1 ((broadcastInDim S1x128 ![1] bcast_S128_S1x128_1) : (⟨S128, .f32⟩ : BufTy).Contents (Elt F) → (⟨S1x128, .f32⟩ : BufTy).Contents (Elt F)),
    StableHlo.nullary main_call3_cst_0 (constant S_ .f32 0x47435000#32),
    StableHlo.unary main_call3_cst_0 main_call3_v2 ((broadcastInDim S1x128 ![] bcast_S_S1x128) : (⟨S_, .f32⟩ : BufTy).Contents (Elt F) → (⟨S1x128, .f32⟩ : BufTy).Contents (Elt F)),
    StableHlo.binary main_call3_v1 main_call3_v2 main_call3_v3 ((Host.divf) : (⟨S1x128, .f32⟩ : BufTy).Contents (Elt F) → (⟨S1x128, .f32⟩ : BufTy).Contents (Elt F) → (⟨S1x128, .f32⟩ : BufTy).Contents (Elt F)),
    StableHlo.unary main_call3_v3 main_call3_v4 ((broadcastInDim S50000x128 ![0, 1] bcast_S1x128_S50000x128_0_1) : (⟨S1x128, .f32⟩ : BufTy).Contents (Elt F) → (⟨S50000x128, .f32⟩ : BufTy).Contents (Elt F)),
    StableHlo.binary main_v104 main_call3_v4 main_call3_v5 ((subf) : (⟨S50000x128, .f32⟩ : BufTy).Contents (Elt F) → (⟨S50000x128, .f32⟩ : BufTy).Contents (Elt F) → (⟨S50000x128, .f32⟩ : BufTy).Contents (Elt F)),
    StableHlo.binary main_call3_v5 main_call3_v5 main_call3_v6 ((mulf) : (⟨S50000x128, .f32⟩ : BufTy).Contents (Elt F) → (⟨S50000x128, .f32⟩ : BufTy).Contents (Elt F) → (⟨S50000x128, .f32⟩ : BufTy).Contents (Elt F)),
    StableHlo.unary main_c_16 main_call3_v7 ((sitofp .f32) : (⟨S_, .i32⟩ : BufTy).Contents (Elt F) → (⟨S_, .f32⟩ : BufTy).Contents (Elt F)),
    StableHlo.nullary main_call3_cst_1 (constant S_ .f32 0x47435000#32),
    StableHlo.binary main_call3_cst_1 main_call3_v7 main_call3_v8 ((subf) : (⟨S_, .f32⟩ : BufTy).Contents (Elt F) → (⟨S_, .f32⟩ : BufTy).Contents (Elt F) → (⟨S_, .f32⟩ : BufTy).Contents (Elt F)),
    StableHlo.nullary main_call3_cst_2 (constant S_ .f32 0x00000000#32),
    StableHlo.binary main_call3_v6 main_call3_cst_2 main_call3_v9 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_call3_v8 main_call3_v10 ((broadcastInDim S128 ![] bcast_S_S128) : (⟨S_, .f32⟩ : BufTy).Contents (Elt F) → (⟨S128, .f32⟩ : BufTy).Contents (Elt F)),
    StableHlo.binary main_call3_v9 main_call3_v10 main_call3_v11 ((Host.divf) : (⟨S128, .f32⟩ : BufTy).Contents (Elt F) → (⟨S128, .f32⟩ : BufTy).Contents (Elt F) → (⟨S128, .f32⟩ : BufTy).Contents (Elt F)),
    StableHlo.nullary main_call3_cst_3 (constant S_ .f32 0x00000000#32),
    StableHlo.binary main_call3_v8 main_call3_cst_3 main_call3_v12 ((cmpf .ogt) : (⟨S_, .f32⟩ : BufTy).Contents (Elt F) → (⟨S_, .f32⟩ : BufTy).Contents (Elt F) → (⟨S_, .i1⟩ : BufTy).Contents (Elt F)),
    StableHlo.nullary main_call3_cst_4 (constant S_ .f32 0x7FC00000#32),
    StableHlo.unary main_call3_cst_4 main_call3_call0_v0 ((id) : (⟨S_, .f32⟩ : BufTy).Contents (Elt F) → (⟨S_, .f32⟩ : BufTy).Contents (Elt F)),
    StableHlo.unary main_call3_call0_v0 main_call3_call0_v1 ((broadcastInDim S128 ![] bcast_S_S128) : (⟨S_, .f32⟩ : BufTy).Contents (Elt F) → (⟨S128, .f32⟩ : BufTy).Contents (Elt F)),
    StableHlo.ternary main_call3_v12 main_call3_v11 main_call3_call0_v1 main_v112 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    StableHlo.unary main_v111 main_v113 (broadcastInDim S1x128 ![1] bcast_S128_S1x128_1 : (⟨S128, .f32⟩ : BufTy).Contents (Elt F) → (⟨S1x128, .f32⟩ : BufTy).Contents (Elt F)),
    StableHlo.unary main_v113 main_v114 (broadcastInDim S50000x128 ![0, 1] bcast_S1x128_S50000x128_0_1 : (⟨S1x128, .f32⟩ : BufTy).Contents (Elt F) → (⟨S50000x128, .f32⟩ : BufTy).Contents (Elt F)),
    StableHlo.binary main_v104 main_v114 main_v115 (subf : (⟨S50000x128, .f32⟩ : BufTy).Contents (Elt F) → (⟨S50000x128, .f32⟩ : BufTy).Contents (Elt F) → (⟨S50000x128, .f32⟩ : BufTy).Contents (Elt F)),
    StableHlo.nullary main_cst_17 (constant S_ .f32 0x3727C5AC#32),
    StableHlo.unary main_cst_17 main_v116 (broadcastInDim S128 ![] bcast_S_S128 : (⟨S_, .f32⟩ : BufTy).Contents (Elt F) → (⟨S128, .f32⟩ : BufTy).Contents (Elt F)),
    StableHlo.binary main_v112 main_v116 main_v117 (addf : (⟨S128, .f32⟩ : BufTy).Contents (Elt F) → (⟨S128, .f32⟩ : BufTy).Contents (Elt F) → (⟨S128, .f32⟩ : BufTy).Contents (Elt F)),
    StableHlo.unary main_v117 main_v118 (Host.rsqrt : (⟨S128, .f32⟩ : BufTy).Contents (Elt F) → (⟨S128, .f32⟩ : BufTy).Contents (Elt F)),
    StableHlo.unary main_v118 main_v119 (broadcastInDim S1x128 ![1] bcast_S128_S1x128_1 : (⟨S128, .f32⟩ : BufTy).Contents (Elt F) → (⟨S1x128, .f32⟩ : BufTy).Contents (Elt F)),
    StableHlo.unary main_v119 main_v120 (broadcastInDim S50000x128 ![0, 1] bcast_S1x128_S50000x128_0_1 : (⟨S1x128, .f32⟩ : BufTy).Contents (Elt F) → (⟨S50000x128, .f32⟩ : BufTy).Contents (Elt F)),
    StableHlo.binary main_v115 main_v120 main_v121 (mulf : (⟨S50000x128, .f32⟩ : BufTy).Contents (Elt F) → (⟨S50000x128, .f32⟩ : BufTy).Contents (Elt F) → (⟨S50000x128, .f32⟩ : BufTy).Contents (Elt F)),
    StableHlo.unary main_v106 main_v122 (broadcastInDim S1x128 ![1] bcast_S128_S1x128_1 : (⟨S128, .f32⟩ : BufTy).Contents (Elt F) → (⟨S1x128, .f32⟩ : BufTy).Contents (Elt F)),
    StableHlo.unary main_v122 main_v123 (broadcastInDim S50000x128 ![0, 1] bcast_S1x128_S50000x128_0_1 : (⟨S1x128, .f32⟩ : BufTy).Contents (Elt F) → (⟨S50000x128, .f32⟩ : BufTy).Contents (Elt F)),
    StableHlo.binary main_v121 main_v123 main_v124 (mulf : (⟨S50000x128, .f32⟩ : BufTy).Contents (Elt F) → (⟨S50000x128, .f32⟩ : BufTy).Contents (Elt F) → (⟨S50000x128, .f32⟩ : BufTy).Contents (Elt F)),
    StableHlo.unary main_v108 main_v125 (broadcastInDim S1x128 ![1] bcast_S128_S1x128_1 : (⟨S128, .f32⟩ : BufTy).Contents (Elt F) → (⟨S1x128, .f32⟩ : BufTy).Contents (Elt F)),
    StableHlo.unary main_v125 main_v126 (broadcastInDim S50000x128 ![0, 1] bcast_S1x128_S50000x128_0_1 : (⟨S1x128, .f32⟩ : BufTy).Contents (Elt F) → (⟨S50000x128, .f32⟩ : BufTy).Contents (Elt F)),
    StableHlo.binary main_v124 main_v126 main_v127 (addf : (⟨S50000x128, .f32⟩ : BufTy).Contents (Elt F) → (⟨S50000x128, .f32⟩ : BufTy).Contents (Elt F) → (⟨S50000x128, .f32⟩ : BufTy).Contents (Elt F)),
    StableHlo.nullary main_call4_cst (constant S_ .f32 0x00000000#32),
    StableHlo.unary main_call4_cst main_call4_v0 ((broadcastInDim S50000x128 ![] bcast_S_S50000x128) : (⟨S_, .f32⟩ : BufTy).Contents (Elt F) → (⟨S50000x128, .f32⟩ : BufTy).Contents (Elt F)),
    StableHlo.binary main_v127 main_call4_v0 main_v128 ((maximumf) : (⟨S50000x128, .f32⟩ : BufTy).Contents (Elt F) → (⟨S50000x128, .f32⟩ : BufTy).Contents (Elt F) → (⟨S50000x128, .f32⟩ : BufTy).Contents (Elt F)) ]

theorem seg09_sub : (seg09 : List (HloOp τ sig (Elt F))).Forall fun op => op.bufs ⊆ tcRefs τ sig :=
  ⟨unary_bufs_sub .., reshape_bufs_sub .., unary_bufs_sub .., reshape_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., unary_bufs_sub .., unary_bufs_sub .., binary_bufs_sub ..,
    nullary_bufs_sub .., unary_bufs_sub .., binary_bufs_sub ..⟩

theorem seg09_fresh : (seg09 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl⟩

/-- Aggregation 2: slice 2 of the two weight stacks and of the bias stack; then the neighbour mean of the current features — the sources wrapped where negative, the rows gathered along them, scatter-added from zero along the targets, and divided by the in-degree (ones scatter-added along the targets) clamped below at one. 31 operations. -/
abbrev seg10 : List (HloOp τ sig (Elt F)) :=
  [ StableHlo.unary main_arg6 main_v129 ((extractStridedSlice S1x128x128 ![2, 0, 0] · slices_S5x128x128_S1x128x128_2_0_0) : (⟨S5x128x128, .f32⟩ : BufTy).Contents (Elt F) → (⟨S1x128x128, .f32⟩ : BufTy).Contents (Elt F)),
    StableHlo.reshape main_v129 main_v130 rfl shapeCasts_S1x128x128_S128x128,
    StableHlo.unary main_arg7 main_v131 ((extractStridedSlice S1x128 ![2, 0] · slices_S5x128_S1x128_2_0) : (⟨S5x128, .f32⟩ : BufTy).Contents (Elt F) → (⟨S1x128, .f32⟩ : BufTy).Contents (Elt F)),
    StableHlo.reshape main_v131 main_v132 rfl shapeCasts_S1x128_S128,
    StableHlo.unary main_arg8 main_v133 ((extractStridedSlice S1x128x128 ![2, 0, 0] · slices_S5x128x128_S1x128x128_2_0_0) : (⟨S5x128x128, .f32⟩ : BufTy).Contents (Elt F) → (⟨S1x128x128, .f32⟩ : BufTy).Contents (Elt F)),
    StableHlo.reshape main_v133 main_v134 rfl shapeCasts_S1x128x128_S128x128,
    StableHlo.nullary main_c_18 (constantI S_ 32 0#32),
    StableHlo.unary main_c_18 main_v135 (broadcastInDim S600000 ![] bcast_S_S600000 : (⟨S_, .i32⟩ : BufTy).Contents (Elt F) → (⟨S600000, .i32⟩ : BufTy).Contents (Elt F)),
    StableHlo.binary main_v1 main_v135 main_v136 (cmpi .slt : (⟨S600000, .i32⟩ : BufTy).Contents (Elt F) → (⟨S600000, .i32⟩ : BufTy).Contents (Elt F) → (⟨S600000, .i1⟩ : BufTy).Contents (Elt F)),
    StableHlo.nullary main_c_19 (constantI S_ 32 50000#32),
    StableHlo.unary main_c_19 main_v137 (broadcastInDim S600000 ![] bcast_S_S600000 : (⟨S_, .i32⟩ : BufTy).Contents (Elt F) → (⟨S600000, .i32⟩ : BufTy).Contents (Elt F)),
    StableHlo.binary main_v1 main_v137 main_v138 (addi : (⟨S600000, .i32⟩ : BufTy).Contents (Elt F) → (⟨S600000, .i32⟩ : BufTy).Contents (Elt F) → (⟨S600000, .i32⟩ : BufTy).Contents (Elt F)),
    StableHlo.ternary main_v136 main_v138 main_v1 main_v139 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v139 main_v140 (broadcastInDim S600000x1 ![0] bcast_S600000_S600000x1_0 : (⟨S600000, .i32⟩ : BufTy).Contents (Elt F) → (⟨S600000x1, .i32⟩ : BufTy).Contents (Elt F)),
    StableHlo.binary main_v128 main_v140 main_v141 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst_20 (constant S_ .f32 0x00000000#32),
    StableHlo.unary main_cst_20 main_v142 (broadcastInDim S50000x128 ![] bcast_S_S50000x128 : (⟨S_, .f32⟩ : BufTy).Contents (Elt F) → (⟨S50000x128, .f32⟩ : BufTy).Contents (Elt F)),
    StableHlo.unary main_v3 main_v143 (broadcastInDim S600000x1 ![0] bcast_S600000_S600000x1_0 : (⟨S600000, .i32⟩ : BufTy).Contents (Elt F) → (⟨S600000x1, .i32⟩ : BufTy).Contents (Elt F)),
    StableHlo.ternary main_v142 main_v143 main_v141 main_v144 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.nullary main_cst_21 (constant S_ .f32 0x3F800000#32),
    StableHlo.unary main_cst_21 main_v145 (broadcastInDim S600000 ![] bcast_S_S600000 : (⟨S_, .f32⟩ : BufTy).Contents (Elt F) → (⟨S600000, .f32⟩ : BufTy).Contents (Elt F)),
    StableHlo.nullary main_cst_22 (constant S_ .f32 0x00000000#32),
    StableHlo.unary main_cst_22 main_v146 (broadcastInDim S50000 ![] bcast_S_S50000 : (⟨S_, .f32⟩ : BufTy).Contents (Elt F) → (⟨S50000, .f32⟩ : BufTy).Contents (Elt F)),
    StableHlo.unary main_v3 main_v147 (broadcastInDim S600000x1 ![0] bcast_S600000_S600000x1_0 : (⟨S600000, .i32⟩ : BufTy).Contents (Elt F) → (⟨S600000x1, .i32⟩ : BufTy).Contents (Elt F)),
    StableHlo.ternary main_v146 main_v147 main_v145 main_v148 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    StableHlo.nullary main_cst_23 (constant S_ .f32 0x3F800000#32),
    StableHlo.unary main_cst_23 main_v149 (broadcastInDim S50000 ![] bcast_S_S50000 : (⟨S_, .f32⟩ : BufTy).Contents (Elt F) → (⟨S50000, .f32⟩ : BufTy).Contents (Elt F)),
    StableHlo.binary main_v148 main_v149 main_v150 (maximumf : (⟨S50000, .f32⟩ : BufTy).Contents (Elt F) → (⟨S50000, .f32⟩ : BufTy).Contents (Elt F) → (⟨S50000, .f32⟩ : BufTy).Contents (Elt F)),
    StableHlo.unary main_v150 main_v151 (broadcastInDim S50000x1 ![0] bcast_S50000_S50000x1_0 : (⟨S50000, .f32⟩ : BufTy).Contents (Elt F) → (⟨S50000x1, .f32⟩ : BufTy).Contents (Elt F)),
    StableHlo.unary main_v151 main_v152 (broadcastInDim S50000x128 ![0, 1] bcast_S50000x1_S50000x128_0_1 : (⟨S50000x1, .f32⟩ : BufTy).Contents (Elt F) → (⟨S50000x128, .f32⟩ : BufTy).Contents (Elt F)),
    StableHlo.binary main_v144 main_v152 main_v153 (Host.divf : (⟨S50000x128, .f32⟩ : BufTy).Contents (Elt F) → (⟨S50000x128, .f32⟩ : BufTy).Contents (Elt F) → (⟨S50000x128, .f32⟩ : BufTy).Contents (Elt F)) ]

theorem seg10_sub : (seg10 : List (HloOp τ sig (Elt F))).Forall fun op => op.bufs ⊆ tcRefs τ sig :=
  ⟨unary_bufs_sub .., reshape_bufs_sub .., unary_bufs_sub .., reshape_bufs_sub .., unary_bufs_sub .., reshape_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., unary_bufs_sub ..,
    binary_bufs_sub ..⟩

theorem seg10_fresh : (seg10 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl⟩

set_option maxRecDepth 8192 in
/-- The window is that straight line: each called function's definition unfolded at its call and the call's record at its
    fields, both sides are one chain of host steps once sequencing is reassociated. -/
theorem part2_eq (c : Dev nD) : main_part2 (F := F) c = seq (seg08 ++ (seg09 ++ seg10)) := by
  simp only [seq_append]
  simp only [main_part2, fn_var.body, fn_where.body, fn_relu_0.body, seq, bind_assoc, pure_bind]
  rfl

end Cert.ReferenceIdeal.RefRun

end
-- ==== Proof.RefRun.Part3.lean ====
/-
  The idealized reference program's @main, window 3 of its six, as lists of host operations: the window's statements
  in order, each call of a module-local function replaced by that function's operations over the call's own buffers
  (the rectifier: a zero word, its broadcast, the maximum; the variance: the column sums, the mean, the squared
  deviations, their sums, the divisor and its guard, and the guarded selection). The lists are cut where a stage of the
  network ends, so that each stage can be read on its own; the window is their concatenation.
-/
import proofs.«158954_j13391708029610_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Combine 2: `a·Wlᵀ + bl`, then `+ z·Wrᵀ`, the bias joining the first product before the second is added. 8 operations. -/
abbrev seg11 : List (HloOp τ sig (Elt F)) :=
  [ StableHlo.unary main_v130 main_v154 ((transpose S128x128 [1, 0] · transposes_S128x128_S128x128_1_0) : (⟨S128x128, .f32⟩ : BufTy).Contents (Elt F) → (⟨S128x128, .f32⟩ : BufTy).Contents (Elt F)),
    StableHlo.binary main_v153 main_v154 main_v155 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v132 main_v156 (broadcastInDim S1x128 ![1] bcast_S128_S1x128_1 : (⟨S128, .f32⟩ : BufTy).Contents (Elt F) → (⟨S1x128, .f32⟩ : BufTy).Contents (Elt F)),
    StableHlo.unary main_v156 main_v157 (broadcastInDim S50000x128 ![0, 1] bcast_S1x128_S50000x128_0_1 : (⟨S1x128, .f32⟩ : BufTy).Contents (Elt F) → (⟨S50000x128, .f32⟩ : BufTy).Contents (Elt F)),
    StableHlo.binary main_v155 main_v157 main_v158 (addf : (⟨S50000x128, .f32⟩ : BufTy).Contents (Elt F) → (⟨S50000x128, .f32⟩ : BufTy).Contents (Elt F) → (⟨S50000x128, .f32⟩ : BufTy).Contents (Elt F)),
    StableHlo.unary main_v134 main_v159 ((transpose S128x128 [1, 0] · transposes_S128x128_S128x128_1_0) : (⟨S128x128, .f32⟩ : BufTy).Contents (Elt F) → (⟨S128x128, .f32⟩ : BufTy).Contents (Elt F)),
    StableHlo.binary main_v128 main_v159 main_v160 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v158 main_v160 main_v161 (addf : (⟨S50000x128, .f32⟩ : BufTy).Contents (Elt F) → (⟨S50000x128, .f32⟩ : BufTy).Contents (Elt F) → (⟨S50000x128, .f32⟩ : BufTy).Contents (Elt F)) ]

theorem seg11_sub : (seg11 : List (HloOp τ sig (Elt F))).Forall fun op => op.bufs ⊆ tcRefs τ sig :=
  ⟨unary_bufs_sub .., binary_bufs_sub .., unary_bufs_sub .., unary_bufs_sub .., binary_bufs_sub .., unary_bufs_sub ..,
    binary_bufs_sub .., binary_bufs_sub ..⟩

theorem seg11_fresh : (seg11 : List (HloOp τ sig (Elt F))).Forall fun op => op.fresh = ∅ :=
  ⟨rfl, rfl, rfl, rfl, rfl, rfl, rfl, rfl⟩

/-- Normalisation 2: row 2 of the scale and of the shift; the column sums from the zero word over the node count (the mean); the variance — deviations from the mean, squared, summed from the zero word, over the node count less the float of the integer zero, under the guard that this divisor is positive —; then `(x − μ)·rsqrt(v + ε)·γ + β`, rectified against the broadcast zero word. 51 operations, a called function's operations in line over that call's own buffers. -/
abbrev seg12 : List (HloOp τ sig (Elt F)) :=
  [ StableHlo.unary main_arg9 main_v162 ((extractStridedSlice S1x128 ![2, 0] · slices_S4x128_S1x128_2_0) : (⟨S4x128, .f32⟩ : BufTy).Contents (Elt F) → (⟨S1x128, .f32⟩ : BufTy).Contents (Elt F)),
    StableHlo.reshape main_v162 main_v163 rfl shapeCasts_S1x128_S128,
    StableHlo.unary main_arg10 main_v164 ((extractStridedSlice S1x128 ![2, 0] · slices_S4x128_S1x128_2_0) : (⟨S4x128, .f32⟩ : BufTy).Contents (Elt F) → (⟨S1x128, .f32⟩ : BufTy).Contents (Elt F)),
    StableHlo.reshape main_v164 main_v165 rfl shapeCasts_S1x128_S128,
    StableHlo.nullary main_cst_24 (constant S_ .f32 0x00000000#32),
    StableHlo.binary main_v161 main_cst_24 main_v166 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_25 (constant S_ .f32 0x47435000#32),
    StableHlo.unary main_cst_25 main_v167 (broadcastInDim S128 ![] bcast_S_S128 : (⟨S_, .f32⟩ : BufTy).Contents (Elt F) → (⟨S128, .f32⟩ : BufTy).Contents (Elt F)),
    StableHlo.binary main_v166 main_v167 main_v168 (Host.divf : (⟨S128, .f32⟩ : BufTy).Contents (Elt F) → (⟨S128, .f32⟩ : BufTy).Contents (Elt F) → (⟨S128, .f32⟩ : BufTy).Contents (Elt F)),
    StableHlo.nullary main_c_26 (constantI S_ 32 0#32),
    StableHlo.nullary main_call5_cst (constant S_ .f32 0x00000000#32),
    StableHlo.binary main_v161 main_call5_cst main_call5_v0 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_call5_v0 main_call5_v1 ((broadcastInDim S1x128 ![1] bcast_S128_S1x128_1) : (⟨S128, .f32⟩ : BufTy).Contents (Elt F) → (⟨S1x128, .f32⟩ : BufTy).Contents (Elt F)),
    StableHlo.nullary main_call5_cst_0 (constant S_ .f32 0x47435000#32),
    StableHlo.unary main_call5_cst_0 main_call5_v2 ((broadcastInDim S1x128 ![] bcast_S_S1x128) : (⟨S_, .f32⟩ : BufTy).Contents (Elt F) → (⟨S1x128, .f32⟩ : BufTy).Contents (Elt F)),
    StableHlo.binary main_call5_v1 main_call5_v2 main_call5_v3 ((Host.divf) : (⟨S1x128, .f32⟩ : BufTy).Contents (Elt F) → (⟨S1x128, .f32⟩ : BufTy).Contents (Elt F) → (⟨S1x128, .f32⟩ : BufTy).Contents (Elt F)),
    StableHlo.unary main_call5_v3 main_call5_v4 ((broadcastInDim S50000x128 ![0, 1] bcast_S1x128_S50000x128_0_1) : (⟨S1x128, .f32⟩ : BufTy).Contents (Elt F) → (⟨S50000x128, .f32⟩ : BufTy).Contents (Elt F)),
    StableHlo.binary main_v161 main_call5_v4 main_call5_v5 ((subf) : (⟨S50000x128, .f32⟩ : BufTy).Contents (Elt F) → (⟨S50000x128, .f32⟩ : BufTy).Contents (Elt F) → (⟨S50000x128, .f32⟩ : BufTy).Contents (Elt F)),
    StableHlo.binary main_call5_v5 main_call5_v5 main_call5_v6 ((mulf) : (⟨S50000x128, .f32⟩ : BufTy).Contents (Elt F) → (⟨S50000x128, .f32⟩ : BufTy).Contents (Elt F) → (⟨S50000x128, .f32⟩ : BufTy).Contents (Elt F)),
    StableHlo.unary main_c_26 main_call5_v7 ((sitofp .f32) : (⟨S_, .i32⟩ : BufTy).Contents (Elt F) → (⟨S_, .f32⟩ : BufTy).Contents (Elt F)),
    StableHlo.nullary main_call5_cst_1 (constant S_ .f32 0x47435000#32),
    StableHlo.binary main_call5_cst_1 main_call5_v7 main_call5_v8 ((subf) : (⟨S_, .f32⟩ : BufTy).Contents (Elt F) → (⟨S_, .f32⟩ : BufTy).Contents (Elt F) → (⟨S_, .f32⟩ : BufTy).Contents (Elt F)),
    StableHlo.nullary main_call5_cst_2 (constant S_ .f32 0x00000000#32),
    StableHlo.binary main_call5_v6 main_call5_cst_2 main_call5_v9 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_call5_v8 main_call5_v10 ((broadcastInDim S128 ![] bcast_S_S128) : (⟨S_, .f32⟩ : BufTy).Contents (Elt F) → (⟨S128, .f32⟩ : BufTy).Contents (Elt F)),
    StableHlo.binary main_call5_v9 main_call5_v10 main_call5_v11 ((Host.divf) : (⟨S128, .f32⟩ : BufTy).Contents (Elt F) → (⟨S128, .f32⟩ : BufTy).Contents (Elt F) → (⟨S128, .f32⟩ : BufTy).Contents (Elt F)),
    StableHlo.nullary main_call5_cst_3 (constant S_ .f32 0x00000000#32),
    StableHlo.binary main_call5_v8 main_call5_cst_3 main_call5_v12 ((cmpf .ogt) : (⟨S_, .f32⟩ : BufTy).Contents (Elt F) → (⟨S_, .f32⟩ : BufTy).Contents (Elt F) → (⟨S_, .i1⟩ : BufTy).Contents (Elt F)),
    StableHlo.nullary main_call5_cst_4 (constant S_ .f32 0x7FC00000#32),
    StableHlo.unary main_call5_cst_4 main_call5_call0_v0 ((id) : (⟨S_, .f32⟩ : BufTy).Contents (Elt F) → (⟨S_, .f32⟩ : BufTy).Contents (Elt F)),
    StableHlo.unary main_call5_call0_v0 main_call5_call0_v1 ((broadcastInDim S128 ![] bcast_S_S128) : (⟨S_, .f32⟩ : BufTy).Contents (Elt F) → (⟨S128, .f32⟩ : BufTy).Contents (Elt F)),
    StableHlo.ternary main_call5_v12 main_call5_v11 main_call5_call0_v1 main_v169 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    StableHlo.unary main_v168 main_v170 (broadcastInDim S1x128 ![1] bcast_S128_S1x128_1 : (⟨S128, .f32⟩ : BufTy).Contents (Elt F) → (⟨S1x128, .f32⟩ : BufTy).Contents (Elt F)),
    StableHlo.unary main_v170 main_v171 (broadcastInDim S50000x128 ![0, 1] bcast_S1x128_S50000x128_0_1 : (⟨S1x128, .f32⟩ : BufTy).Contents (Elt F) → (⟨S50000x128, .f32⟩ : BufTy).Contents (Elt F)),
    StableHlo.binary main_v161 main_v171 main_v172 (subf : (⟨S50000x128, .f32⟩ : BufTy).Contents (Elt F) → (⟨S50000x128, .f32⟩ : BufTy).Contents (Elt F) → (⟨S50000x128, .f32⟩ : BufTy).Contents (Elt F)),
    StableHlo.nullary main_cst_27 (constant S_ .f32 0x3727C5AC#32),
    StableHlo.unary main_cst_27 main_v173 (broadcastInDim S128 ![] bcast_S_S128 : (⟨S_, .f32⟩ : BufTy).Contents (Elt F) → (⟨S128, .f32⟩ : BufTy).Contents (Elt F)),
    StableHlo.binary main_v169 main_v173 main_v174 (addf : (⟨S128, .f32⟩ : BufTy).Contents (Elt F) → (⟨S128, .f32⟩ : BufTy).Contents (Elt F) → (⟨S128, .f32⟩ : BufTy).Contents (Elt F)),
    StableHlo.unary main_v174 main_v175 (Host.rsqrt : (⟨S128, .f32⟩ : BufTy).Contents (Elt F) → (⟨S128, .f32⟩ : BufTy).Contents (Elt F)),
    StableHlo.unary main_v175 main_v176 (broadcastInDim S1x128 ![1] bcast_S128_S1x128_1 : (⟨S128, .f32⟩ : BufTy).Contents (Elt F) → (⟨S1x128, .f32⟩ : BufTy).Contents (Elt F)),
    StableHlo.unary main_v176 main_v177 (broadcastInDim S50000x128 ![0, 1] bcast_S1x128_S50000x128_0_1 : (⟨S1x128, .f32⟩ : BufTy).Contents (Elt F) → (⟨S50000x128, .f32⟩ : BufTy).Contents (Elt F)),
    StableHlo.binary main_v172 main_v177 main_v178 (mulf : (⟨S50000x128, .f32⟩ : BufTy).Contents (Elt F) → (⟨S50000x128, .f32⟩ : BufTy).Contents (Elt F) → (⟨S50000x128, .f32⟩ : BufTy).Contents (Elt F)),
    StableHlo.unary main_v163 main_v179 (broadcastInDim S1x128 ![1] bcast_S128_S1x128_1 : (⟨S128, .f32⟩ : BufTy).Contents (Elt F) → (⟨S1x128, .f32⟩ : BufTy).Contents (Elt F)),
    StableHlo.unary main_v179 main_v180 (broadcastInDim S50000x128 ![0, 1] bcast_S1x128_S50000x128_0_1 : (⟨S1x128, .f32⟩ : BufTy).Contents (Elt F) → (⟨S50000x128, .f32⟩ : BufTy).Contents (Elt F)),
    StableHlo.binary main_v178 main_v180 main_v181 (mulf : (⟨S50000x128, .f32⟩ : BufTy).Contents (Elt F) → (⟨S50000x128, .f32⟩ : BufTy).Contents (Elt F) → (⟨S50000x128, .f32⟩ : BufTy).Contents (Elt F)),
    StableHlo.unary main_v165 main_v182 (broadcastInDim S1x128 ![1] bcast_S128_S1x128_1 : (⟨S128, .f32⟩ : BufTy).Contents (Elt F) → (⟨S1x128, .f32⟩ : BufTy).Contents (Elt F)),
    StableHlo.unary main_v182 main_v183 (broadcastInDim S50000x128 ![0, 1] bcast_S1x128_S50000x128_0_1 : (⟨S1x128, .f32⟩ : BufTy).Contents (Elt F) → (⟨S50000x128, .f32⟩ : BufTy).Contents (Elt F)),
    StableHlo.binary main_v181 main_v183 main_v184 (addf : (⟨S50000x128, .f32⟩ : BufTy).Contents (Elt F) → (⟨S50000x128, .f32⟩ : BufTy).Contents (Elt F) → (⟨S50000x128, .f32⟩ : BufTy).Contents (Elt F)),
    StableHlo.nullary main_call6_cst (constant S_ .f32 0x00000000#32),
    StableHlo.unary main_call6_cst main_call6_v0 ((broadcastInDim S50000x128 ![] bcast_S_S50000x128) : (⟨S_, .f32⟩ : BufTy).Contents (Elt F) → (⟨S50000x128, .f32⟩ : BufTy).Contents (Elt F)),
    StableHlo.binary main_v184 main_call6_v0 main_v185 ((maximumf) : (⟨S50000x128, .f32⟩ : BufTy).Contents (Elt F) → (⟨S50000x128, .f32⟩ : BufTy).Contents (Elt F) → (⟨S50000x128, .f32⟩ : BufTy).Contents (Elt F)) ]

theorem seg12_sub : (seg12 : List (HloOp τ sig (Elt F))).Forall fun op => op.bufs ⊆ tcRefs τ sig :=
  ⟨unary_bufs_sub .., reshape_bufs_sub .., unary_bufs_sub .., reshape_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., unary_bufs_sub .., unary_bufs_sub .., binary_bufs_sub ..,
    nullary_bufs_sub .., unary_bufs_sub .., binary_bufs_sub ..⟩

theorem seg12_fresh : (seg12 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl⟩

/-- Aggregation 3: slice 3 of the two weight stacks and of the bias stack; then the neighbour mean of the current features — the sources wrapped where negative, the rows gathered along them, scatter-added from zero along the targets, and divided by the in-degree (ones scatter-added along the targets) clamped below at one. 24 operations. -/
abbrev seg13 : List (HloOp τ sig (Elt F)) :=
  [ StableHlo.unary main_arg6 main_v186 ((extractStridedSlice S1x128x128 ![3, 0, 0] · slices_S5x128x128_S1x128x128_3_0_0) : (⟨S5x128x128, .f32⟩ : BufTy).Contents (Elt F) → (⟨S1x128x128, .f32⟩ : BufTy).Contents (Elt F)),
    StableHlo.reshape main_v186 main_v187 rfl shapeCasts_S1x128x128_S128x128,
    StableHlo.unary main_arg7 main_v188 ((extractStridedSlice S1x128 ![3, 0] · slices_S5x128_S1x128_3_0) : (⟨S5x128, .f32⟩ : BufTy).Contents (Elt F) → (⟨S1x128, .f32⟩ : BufTy).Contents (Elt F)),
    StableHlo.reshape main_v188 main_v189 rfl shapeCasts_S1x128_S128,
    StableHlo.unary main_arg8 main_v190 ((extractStridedSlice S1x128x128 ![3, 0, 0] · slices_S5x128x128_S1x128x128_3_0_0) : (⟨S5x128x128, .f32⟩ : BufTy).Contents (Elt F) → (⟨S1x128x128, .f32⟩ : BufTy).Contents (Elt F)),
    StableHlo.reshape main_v190 main_v191 rfl shapeCasts_S1x128x128_S128x128,
    StableHlo.nullary main_c_28 (constantI S_ 32 0#32),
    StableHlo.unary main_c_28 main_v192 (broadcastInDim S600000 ![] bcast_S_S600000 : (⟨S_, .i32⟩ : BufTy).Contents (Elt F) → (⟨S600000, .i32⟩ : BufTy).Contents (Elt F)),
    StableHlo.binary main_v1 main_v192 main_v193 (cmpi .slt : (⟨S600000, .i32⟩ : BufTy).Contents (Elt F) → (⟨S600000, .i32⟩ : BufTy).Contents (Elt F) → (⟨S600000, .i1⟩ : BufTy).Contents (Elt F)),
    StableHlo.nullary main_c_29 (constantI S_ 32 50000#32),
    StableHlo.unary main_c_29 main_v194 (broadcastInDim S600000 ![] bcast_S_S600000 : (⟨S_, .i32⟩ : BufTy).Contents (Elt F) → (⟨S600000, .i32⟩ : BufTy).Contents (Elt F)),
    StableHlo.binary main_v1 main_v194 main_v195 (addi : (⟨S600000, .i32⟩ : BufTy).Contents (Elt F) → (⟨S600000, .i32⟩ : BufTy).Contents (Elt F) → (⟨S600000, .i32⟩ : BufTy).Contents (Elt F)),
    StableHlo.ternary main_v193 main_v195 main_v1 main_v196 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v196 main_v197 (broadcastInDim S600000x1 ![0] bcast_S600000_S600000x1_0 : (⟨S600000, .i32⟩ : BufTy).Contents (Elt F) → (⟨S600000x1, .i32⟩ : BufTy).Contents (Elt F)),
    StableHlo.binary main_v185 main_v197 main_v198 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst_30 (constant S_ .f32 0x00000000#32),
    StableHlo.unary main_cst_30 main_v199 (broadcastInDim S50000x128 ![] bcast_S_S50000x128 : (⟨S_, .f32⟩ : BufTy).Contents (Elt F) → (⟨S50000x128, .f32⟩ : BufTy).Contents (Elt F)),
    StableHlo.unary main_v3 main_v200 (broadcastInDim S600000x1 ![0] bcast_S600000_S600000x1_0 : (⟨S600000, .i32⟩ : BufTy).Contents (Elt F) → (⟨S600000x1, .i32⟩ : BufTy).Contents (Elt F)),
    StableHlo.ternary main_v199 main_v200 main_v198 main_v201 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.nullary main_cst_31 (constant S_ .f32 0x3F800000#32),
    StableHlo.unary main_cst_31 main_v202 (broadcastInDim S600000 ![] bcast_S_S600000 : (⟨S_, .f32⟩ : BufTy).Contents (Elt F) → (⟨S600000, .f32⟩ : BufTy).Contents (Elt F)),
    StableHlo.nullary main_cst_32 (constant S_ .f32 0x00000000#32),
    StableHlo.unary main_cst_32 main_v203 (broadcastInDim S50000 ![] bcast_S_S50000 : (⟨S_, .f32⟩ : BufTy).Contents (Elt F) → (⟨S50000, .f32⟩ : BufTy).Contents (Elt F)),
    StableHlo.unary main_v3 main_v204 (broadcastInDim S600000x1 ![0] bcast_S600000_S600000x1_0 : (⟨S600000, .i32⟩ : BufTy).Contents (Elt F) → (⟨S600000x1, .i32⟩ : BufTy).Contents (Elt F)) ]

theorem seg13_sub : (seg13 : List (HloOp τ sig (Elt F))).Forall fun op => op.bufs ⊆ tcRefs τ sig :=
  ⟨unary_bufs_sub .., reshape_bufs_sub .., unary_bufs_sub .., reshape_bufs_sub .., unary_bufs_sub .., reshape_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., nullary_bufs_sub .., unary_bufs_sub .., nullary_bufs_sub .., unary_bufs_sub .., unary_bufs_sub ..⟩

theorem seg13_fresh : (seg13 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl⟩

set_option maxRecDepth 8192 in
/-- The window is that straight line: each called function's definition unfolded at its call and the call's record at its
    fields, both sides are one chain of host steps once sequencing is reassociated. -/
theorem part3_eq (c : Dev nD) : main_part3 (F := F) c = seq (seg11 ++ (seg12 ++ seg13)) := by
  simp only [seq_append]
  simp only [main_part3, fn_var.body, fn_where.body, fn_relu_0.body, seq, bind_assoc, pure_bind]
  rfl

end Cert.ReferenceIdeal.RefRun

end
-- ==== Proof.RefRun.Part4.lean ====
/-
  The idealized reference program's @main, window 4 of its six, as lists of host operations: the window's statements
  in order, each call of a module-local function replaced by that function's operations over the call's own buffers
  (the rectifier: a zero word, its broadcast, the maximum; the variance: the column sums, the mean, the squared
  deviations, their sums, the divisor and its guard, and the guarded selection). The lists are cut where a stage of the
  network ends, so that each stage can be read on its own; the window is their concatenation.
-/
import proofs.«158954_j13391708029610_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- (continued) Aggregation 3: slice 3 of the two weight stacks and of the bias stack; then the neighbour mean of the current features — the sources wrapped where negative, the rows gathered along them, scatter-added from zero along the targets, and divided by the in-degree (ones scatter-added along the targets) clamped below at one. 7 operations. -/
abbrev seg14 : List (HloOp τ sig (Elt F)) :=
  [ StableHlo.ternary main_v203 main_v204 main_v202 main_v205 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    StableHlo.nullary main_cst_33 (constant S_ .f32 0x3F800000#32),
    StableHlo.unary main_cst_33 main_v206 (broadcastInDim S50000 ![] bcast_S_S50000 : (⟨S_, .f32⟩ : BufTy).Contents (Elt F) → (⟨S50000, .f32⟩ : BufTy).Contents (Elt F)),
    StableHlo.binary main_v205 main_v206 main_v207 (maximumf : (⟨S50000, .f32⟩ : BufTy).Contents (Elt F) → (⟨S50000, .f32⟩ : BufTy).Contents (Elt F) → (⟨S50000, .f32⟩ : BufTy).Contents (Elt F)),
    StableHlo.unary main_v207 main_v208 (broadcastInDim S50000x1 ![0] bcast_S50000_S50000x1_0 : (⟨S50000, .f32⟩ : BufTy).Contents (Elt F) → (⟨S50000x1, .f32⟩ : BufTy).Contents (Elt F)),
    StableHlo.unary main_v208 main_v209 (broadcastInDim S50000x128 ![0, 1] bcast_S50000x1_S50000x128_0_1 : (⟨S50000x1, .f32⟩ : BufTy).Contents (Elt F) → (⟨S50000x128, .f32⟩ : BufTy).Contents (Elt F)),
    StableHlo.binary main_v201 main_v209 main_v210 (Host.divf : (⟨S50000x128, .f32⟩ : BufTy).Contents (Elt F) → (⟨S50000x128, .f32⟩ : BufTy).Contents (Elt F) → (⟨S50000x128, .f32⟩ : BufTy).Contents (Elt F)) ]

theorem seg14_sub : (seg14 : List (HloOp τ sig (Elt F))).Forall fun op => op.bufs ⊆ tcRefs τ sig :=
  ⟨ternary_bufs_sub .., nullary_bufs_sub .., unary_bufs_sub .., binary_bufs_sub .., unary_bufs_sub .., unary_bufs_sub ..,
    binary_bufs_sub ..⟩

theorem seg14_fresh : (seg14 : List (HloOp τ sig (Elt F))).Forall fun op => op.fresh = ∅ :=
  ⟨rfl, rfl, rfl, rfl, rfl, rfl, rfl⟩

/-- Combine 3: `a·Wlᵀ + bl`, then `+ z·Wrᵀ`, the bias joining the first product before the second is added. 8 operations. -/
abbrev seg15 : List (HloOp τ sig (Elt F)) :=
  [ StableHlo.unary main_v187 main_v211 ((transpose S128x128 [1, 0] · transposes_S128x128_S128x128_1_0) : (⟨S128x128, .f32⟩ : BufTy).Contents (Elt F) → (⟨S128x128, .f32⟩ : BufTy).Contents (Elt F)),
    StableHlo.binary main_v210 main_v211 main_v212 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v189 main_v213 (broadcastInDim S1x128 ![1] bcast_S128_S1x128_1 : (⟨S128, .f32⟩ : BufTy).Contents (Elt F) → (⟨S1x128, .f32⟩ : BufTy).Contents (Elt F)),
    StableHlo.unary main_v213 main_v214 (broadcastInDim S50000x128 ![0, 1] bcast_S1x128_S50000x128_0_1 : (⟨S1x128, .f32⟩ : BufTy).Contents (Elt F) → (⟨S50000x128, .f32⟩ : BufTy).Contents (Elt F)),
    StableHlo.binary main_v212 main_v214 main_v215 (addf : (⟨S50000x128, .f32⟩ : BufTy).Contents (Elt F) → (⟨S50000x128, .f32⟩ : BufTy).Contents (Elt F) → (⟨S50000x128, .f32⟩ : BufTy).Contents (Elt F)),
    StableHlo.unary main_v191 main_v216 ((transpose S128x128 [1, 0] · transposes_S128x128_S128x128_1_0) : (⟨S128x128, .f32⟩ : BufTy).Contents (Elt F) → (⟨S128x128, .f32⟩ : BufTy).Contents (Elt F)),
    StableHlo.binary main_v185 main_v216 main_v217 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v215 main_v217 main_v218 (addf : (⟨S50000x128, .f32⟩ : BufTy).Contents (Elt F) → (⟨S50000x128, .f32⟩ : BufTy).Contents (Elt F) → (⟨S50000x128, .f32⟩ : BufTy).Contents (Elt F)) ]

theorem seg15_sub : (seg15 : List (HloOp τ sig (Elt F))).Forall fun op => op.bufs ⊆ tcRefs τ sig :=
  ⟨unary_bufs_sub .., binary_bufs_sub .., unary_bufs_sub .., unary_bufs_sub .., binary_bufs_sub .., unary_bufs_sub ..,
    binary_bufs_sub .., binary_bufs_sub ..⟩

theorem seg15_fresh : (seg15 : List (HloOp τ sig (Elt F))).Forall fun op => op.fresh = ∅ :=
  ⟨rfl, rfl, rfl, rfl, rfl, rfl, rfl, rfl⟩

/-- Normalisation 3: row 3 of the scale and of the shift; the column sums from the zero word over the node count (the mean); the variance — deviations from the mean, squared, summed from the zero word, over the node count less the float of the integer zero, under the guard that this divisor is positive —; then `(x − μ)·rsqrt(v + ε)·γ + β`, rectified against the broadcast zero word. 51 operations, a called function's operations in line over that call's own buffers. -/
abbrev seg16 : List (HloOp τ sig (Elt F)) :=
  [ StableHlo.unary main_arg9 main_v219 ((extractStridedSlice S1x128 ![3, 0] · slices_S4x128_S1x128_3_0) : (⟨S4x128, .f32⟩ : BufTy).Contents (Elt F) → (⟨S1x128, .f32⟩ : BufTy).Contents (Elt F)),
    StableHlo.reshape main_v219 main_v220 rfl shapeCasts_S1x128_S128,
    StableHlo.unary main_arg10 main_v221 ((extractStridedSlice S1x128 ![3, 0] · slices_S4x128_S1x128_3_0) : (⟨S4x128, .f32⟩ : BufTy).Contents (Elt F) → (⟨S1x128, .f32⟩ : BufTy).Contents (Elt F)),
    StableHlo.reshape main_v221 main_v222 rfl shapeCasts_S1x128_S128,
    StableHlo.nullary main_cst_34 (constant S_ .f32 0x00000000#32),
    StableHlo.binary main_v218 main_cst_34 main_v223 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_35 (constant S_ .f32 0x47435000#32),
    StableHlo.unary main_cst_35 main_v224 (broadcastInDim S128 ![] bcast_S_S128 : (⟨S_, .f32⟩ : BufTy).Contents (Elt F) → (⟨S128, .f32⟩ : BufTy).Contents (Elt F)),
    StableHlo.binary main_v223 main_v224 main_v225 (Host.divf : (⟨S128, .f32⟩ : BufTy).Contents (Elt F) → (⟨S128, .f32⟩ : BufTy).Contents (Elt F) → (⟨S128, .f32⟩ : BufTy).Contents (Elt F)),
    StableHlo.nullary main_c_36 (constantI S_ 32 0#32),
    StableHlo.nullary main_call7_cst (constant S_ .f32 0x00000000#32),
    StableHlo.binary main_v218 main_call7_cst main_call7_v0 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_call7_v0 main_call7_v1 ((broadcastInDim S1x128 ![1] bcast_S128_S1x128_1) : (⟨S128, .f32⟩ : BufTy).Contents (Elt F) → (⟨S1x128, .f32⟩ : BufTy).Contents (Elt F)),
    StableHlo.nullary main_call7_cst_0 (constant S_ .f32 0x47435000#32),
    StableHlo.unary main_call7_cst_0 main_call7_v2 ((broadcastInDim S1x128 ![] bcast_S_S1x128) : (⟨S_, .f32⟩ : BufTy).Contents (Elt F) → (⟨S1x128, .f32⟩ : BufTy).Contents (Elt F)),
    StableHlo.binary main_call7_v1 main_call7_v2 main_call7_v3 ((Host.divf) : (⟨S1x128, .f32⟩ : BufTy).Contents (Elt F) → (⟨S1x128, .f32⟩ : BufTy).Contents (Elt F) → (⟨S1x128, .f32⟩ : BufTy).Contents (Elt F)),
    StableHlo.unary main_call7_v3 main_call7_v4 ((broadcastInDim S50000x128 ![0, 1] bcast_S1x128_S50000x128_0_1) : (⟨S1x128, .f32⟩ : BufTy).Contents (Elt F) → (⟨S50000x128, .f32⟩ : BufTy).Contents (Elt F)),
    StableHlo.binary main_v218 main_call7_v4 main_call7_v5 ((subf) : (⟨S50000x128, .f32⟩ : BufTy).Contents (Elt F) → (⟨S50000x128, .f32⟩ : BufTy).Contents (Elt F) → (⟨S50000x128, .f32⟩ : BufTy).Contents (Elt F)),
    StableHlo.binary main_call7_v5 main_call7_v5 main_call7_v6 ((mulf) : (⟨S50000x128, .f32⟩ : BufTy).Contents (Elt F) → (⟨S50000x128, .f32⟩ : BufTy).Contents (Elt F) → (⟨S50000x128, .f32⟩ : BufTy).Contents (Elt F)),
    StableHlo.unary main_c_36 main_call7_v7 ((sitofp .f32) : (⟨S_, .i32⟩ : BufTy).Contents (Elt F) → (⟨S_, .f32⟩ : BufTy).Contents (Elt F)),
    StableHlo.nullary main_call7_cst_1 (constant S_ .f32 0x47435000#32),
    StableHlo.binary main_call7_cst_1 main_call7_v7 main_call7_v8 ((subf) : (⟨S_, .f32⟩ : BufTy).Contents (Elt F) → (⟨S_, .f32⟩ : BufTy).Contents (Elt F) → (⟨S_, .f32⟩ : BufTy).Contents (Elt F)),
    StableHlo.nullary main_call7_cst_2 (constant S_ .f32 0x00000000#32),
    StableHlo.binary main_call7_v6 main_call7_cst_2 main_call7_v9 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_call7_v8 main_call7_v10 ((broadcastInDim S128 ![] bcast_S_S128) : (⟨S_, .f32⟩ : BufTy).Contents (Elt F) → (⟨S128, .f32⟩ : BufTy).Contents (Elt F)),
    StableHlo.binary main_call7_v9 main_call7_v10 main_call7_v11 ((Host.divf) : (⟨S128, .f32⟩ : BufTy).Contents (Elt F) → (⟨S128, .f32⟩ : BufTy).Contents (Elt F) → (⟨S128, .f32⟩ : BufTy).Contents (Elt F)),
    StableHlo.nullary main_call7_cst_3 (constant S_ .f32 0x00000000#32),
    StableHlo.binary main_call7_v8 main_call7_cst_3 main_call7_v12 ((cmpf .ogt) : (⟨S_, .f32⟩ : BufTy).Contents (Elt F) → (⟨S_, .f32⟩ : BufTy).Contents (Elt F) → (⟨S_, .i1⟩ : BufTy).Contents (Elt F)),
    StableHlo.nullary main_call7_cst_4 (constant S_ .f32 0x7FC00000#32),
    StableHlo.unary main_call7_cst_4 main_call7_call0_v0 ((id) : (⟨S_, .f32⟩ : BufTy).Contents (Elt F) → (⟨S_, .f32⟩ : BufTy).Contents (Elt F)),
    StableHlo.unary main_call7_call0_v0 main_call7_call0_v1 ((broadcastInDim S128 ![] bcast_S_S128) : (⟨S_, .f32⟩ : BufTy).Contents (Elt F) → (⟨S128, .f32⟩ : BufTy).Contents (Elt F)),
    StableHlo.ternary main_call7_v12 main_call7_v11 main_call7_call0_v1 main_v226 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    StableHlo.unary main_v225 main_v227 (broadcastInDim S1x128 ![1] bcast_S128_S1x128_1 : (⟨S128, .f32⟩ : BufTy).Contents (Elt F) → (⟨S1x128, .f32⟩ : BufTy).Contents (Elt F)),
    StableHlo.unary main_v227 main_v228 (broadcastInDim S50000x128 ![0, 1] bcast_S1x128_S50000x128_0_1 : (⟨S1x128, .f32⟩ : BufTy).Contents (Elt F) → (⟨S50000x128, .f32⟩ : BufTy).Contents (Elt F)),
    StableHlo.binary main_v218 main_v228 main_v229 (subf : (⟨S50000x128, .f32⟩ : BufTy).Contents (Elt F) → (⟨S50000x128, .f32⟩ : BufTy).Contents (Elt F) → (⟨S50000x128, .f32⟩ : BufTy).Contents (Elt F)),
    StableHlo.nullary main_cst_37 (constant S_ .f32 0x3727C5AC#32),
    StableHlo.unary main_cst_37 main_v230 (broadcastInDim S128 ![] bcast_S_S128 : (⟨S_, .f32⟩ : BufTy).Contents (Elt F) → (⟨S128, .f32⟩ : BufTy).Contents (Elt F)),
    StableHlo.binary main_v226 main_v230 main_v231 (addf : (⟨S128, .f32⟩ : BufTy).Contents (Elt F) → (⟨S128, .f32⟩ : BufTy).Contents (Elt F) → (⟨S128, .f32⟩ : BufTy).Contents (Elt F)),
    StableHlo.unary main_v231 main_v232 (Host.rsqrt : (⟨S128, .f32⟩ : BufTy).Contents (Elt F) → (⟨S128, .f32⟩ : BufTy).Contents (Elt F)),
    StableHlo.unary main_v232 main_v233 (broadcastInDim S1x128 ![1] bcast_S128_S1x128_1 : (⟨S128, .f32⟩ : BufTy).Contents (Elt F) → (⟨S1x128, .f32⟩ : BufTy).Contents (Elt F)),
    StableHlo.unary main_v233 main_v234 (broadcastInDim S50000x128 ![0, 1] bcast_S1x128_S50000x128_0_1 : (⟨S1x128, .f32⟩ : BufTy).Contents (Elt F) → (⟨S50000x128, .f32⟩ : BufTy).Contents (Elt F)),
    StableHlo.binary main_v229 main_v234 main_v235 (mulf : (⟨S50000x128, .f32⟩ : BufTy).Contents (Elt F) → (⟨S50000x128, .f32⟩ : BufTy).Contents (Elt F) → (⟨S50000x128, .f32⟩ : BufTy).Contents (Elt F)),
    StableHlo.unary main_v220 main_v236 (broadcastInDim S1x128 ![1] bcast_S128_S1x128_1 : (⟨S128, .f32⟩ : BufTy).Contents (Elt F) → (⟨S1x128, .f32⟩ : BufTy).Contents (Elt F)),
    StableHlo.unary main_v236 main_v237 (broadcastInDim S50000x128 ![0, 1] bcast_S1x128_S50000x128_0_1 : (⟨S1x128, .f32⟩ : BufTy).Contents (Elt F) → (⟨S50000x128, .f32⟩ : BufTy).Contents (Elt F)),
    StableHlo.binary main_v235 main_v237 main_v238 (mulf : (⟨S50000x128, .f32⟩ : BufTy).Contents (Elt F) → (⟨S50000x128, .f32⟩ : BufTy).Contents (Elt F) → (⟨S50000x128, .f32⟩ : BufTy).Contents (Elt F)),
    StableHlo.unary main_v222 main_v239 (broadcastInDim S1x128 ![1] bcast_S128_S1x128_1 : (⟨S128, .f32⟩ : BufTy).Contents (Elt F) → (⟨S1x128, .f32⟩ : BufTy).Contents (Elt F)),
    StableHlo.unary main_v239 main_v240 (broadcastInDim S50000x128 ![0, 1] bcast_S1x128_S50000x128_0_1 : (⟨S1x128, .f32⟩ : BufTy).Contents (Elt F) → (⟨S50000x128, .f32⟩ : BufTy).Contents (Elt F)),
    StableHlo.binary main_v238 main_v240 main_v241 (addf : (⟨S50000x128, .f32⟩ : BufTy).Contents (Elt F) → (⟨S50000x128, .f32⟩ : BufTy).Contents (Elt F) → (⟨S50000x128, .f32⟩ : BufTy).Contents (Elt F)),
    StableHlo.nullary main_call8_cst (constant S_ .f32 0x00000000#32),
    StableHlo.unary main_call8_cst main_call8_v0 ((broadcastInDim S50000x128 ![] bcast_S_S50000x128) : (⟨S_, .f32⟩ : BufTy).Contents (Elt F) → (⟨S50000x128, .f32⟩ : BufTy).Contents (Elt F)),
    StableHlo.binary main_v241 main_call8_v0 main_v242 ((maximumf) : (⟨S50000x128, .f32⟩ : BufTy).Contents (Elt F) → (⟨S50000x128, .f32⟩ : BufTy).Contents (Elt F) → (⟨S50000x128, .f32⟩ : BufTy).Contents (Elt F)) ]

theorem seg16_sub : (seg16 : List (HloOp τ sig (Elt F))).Forall fun op => op.bufs ⊆ tcRefs τ sig :=
  ⟨unary_bufs_sub .., reshape_bufs_sub .., unary_bufs_sub .., reshape_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., unary_bufs_sub .., unary_bufs_sub .., binary_bufs_sub ..,
    nullary_bufs_sub .., unary_bufs_sub .., binary_bufs_sub ..⟩

theorem seg16_fresh : (seg16 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl⟩

/-- Aggregation 4: slice 4 of the two weight stacks and of the bias stack; then the neighbour mean of the current features — the sources wrapped where negative, the rows gathered along them, scatter-added from zero along the targets, and divided by the in-degree (ones scatter-added along the targets) clamped below at one. 17 operations. -/
abbrev seg17 : List (HloOp τ sig (Elt F)) :=
  [ StableHlo.unary main_arg6 main_v243 ((extractStridedSlice S1x128x128 ![4, 0, 0] · slices_S5x128x128_S1x128x128_4_0_0) : (⟨S5x128x128, .f32⟩ : BufTy).Contents (Elt F) → (⟨S1x128x128, .f32⟩ : BufTy).Contents (Elt F)),
    StableHlo.reshape main_v243 main_v244 rfl shapeCasts_S1x128x128_S128x128,
    StableHlo.unary main_arg7 main_v245 ((extractStridedSlice S1x128 ![4, 0] · slices_S5x128_S1x128_4_0) : (⟨S5x128, .f32⟩ : BufTy).Contents (Elt F) → (⟨S1x128, .f32⟩ : BufTy).Contents (Elt F)),
    StableHlo.reshape main_v245 main_v246 rfl shapeCasts_S1x128_S128,
    StableHlo.unary main_arg8 main_v247 ((extractStridedSlice S1x128x128 ![4, 0, 0] · slices_S5x128x128_S1x128x128_4_0_0) : (⟨S5x128x128, .f32⟩ : BufTy).Contents (Elt F) → (⟨S1x128x128, .f32⟩ : BufTy).Contents (Elt F)),
    StableHlo.reshape main_v247 main_v248 rfl shapeCasts_S1x128x128_S128x128,
    StableHlo.nullary main_c_38 (constantI S_ 32 0#32),
    StableHlo.unary main_c_38 main_v249 (broadcastInDim S600000 ![] bcast_S_S600000 : (⟨S_, .i32⟩ : BufTy).Contents (Elt F) → (⟨S600000, .i32⟩ : BufTy).Contents (Elt F)),
    StableHlo.binary main_v1 main_v249 main_v250 (cmpi .slt : (⟨S600000, .i32⟩ : BufTy).Contents (Elt F) → (⟨S600000, .i32⟩ : BufTy).Contents (Elt F) → (⟨S600000, .i1⟩ : BufTy).Contents (Elt F)),
    StableHlo.nullary main_c_39 (constantI S_ 32 50000#32),
    StableHlo.unary main_c_39 main_v251 (broadcastInDim S600000 ![] bcast_S_S600000 : (⟨S_, .i32⟩ : BufTy).Contents (Elt F) → (⟨S600000, .i32⟩ : BufTy).Contents (Elt F)),
    StableHlo.binary main_v1 main_v251 main_v252 (addi : (⟨S600000, .i32⟩ : BufTy).Contents (Elt F) → (⟨S600000, .i32⟩ : BufTy).Contents (Elt F) → (⟨S600000, .i32⟩ : BufTy).Contents (Elt F)),
    StableHlo.ternary main_v250 main_v252 main_v1 main_v253 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v253 main_v254 (broadcastInDim S600000x1 ![0] bcast_S600000_S600000x1_0 : (⟨S600000, .i32⟩ : BufTy).Contents (Elt F) → (⟨S600000x1, .i32⟩ : BufTy).Contents (Elt F)),
    StableHlo.binary main_v242 main_v254 main_v255 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst_40 (constant S_ .f32 0x00000000#32),
    StableHlo.unary main_cst_40 main_v256 (broadcastInDim S50000x128 ![] bcast_S_S50000x128 : (⟨S_, .f32⟩ : BufTy).Contents (Elt F) → (⟨S50000x128, .f32⟩ : BufTy).Contents (Elt F)) ]

theorem seg17_sub : (seg17 : List (HloOp τ sig (Elt F))).Forall fun op => op.bufs ⊆ tcRefs τ sig :=
  ⟨unary_bufs_sub .., reshape_bufs_sub .., unary_bufs_sub .., reshape_bufs_sub .., unary_bufs_sub .., reshape_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub ..⟩

theorem seg17_fresh : (seg17 : List (HloOp τ sig (Elt F))).Forall fun op => op.fresh = ∅ :=
  ⟨rfl, rfl, rfl, rfl, rfl, rfl, rfl, rfl, rfl, rfl, rfl, rfl, rfl, rfl, rfl, rfl, rfl⟩

set_option maxRecDepth 8192 in
/-- The window is that straight line: each called function's definition unfolded at its call and the call's record at its
    fields, both sides are one chain of host steps once sequencing is reassociated. -/
theorem part4_eq (c : Dev nD) : main_part4 (F := F) c = seq (seg14 ++ (seg15 ++ (seg16 ++ seg17))) := by
  simp only [seq_append]
  simp only [main_part4, fn_var.body, fn_where.body, fn_relu_0.body, seq, bind_assoc, pure_bind]
  rfl

end Cert.ReferenceIdeal.RefRun

end
-- ==== Proof.RefRun.Part5.lean ====
/-
  The idealized reference program's @main, window 5 of its six, as lists of host operations: the window's statements
  in order, each call of a module-local function replaced by that function's operations over the call's own buffers
  (the rectifier: a zero word, its broadcast, the maximum; the variance: the column sums, the mean, the squared
  deviations, their sums, the divisor and its guard, and the guarded selection). The lists are cut where a stage of the
  network ends, so that each stage can be read on its own; the window is their concatenation.
-/
import proofs.«158954_j13391708029610_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- (continued) Aggregation 4: slice 4 of the two weight stacks and of the bias stack; then the neighbour mean of the current features — the sources wrapped where negative, the rows gathered along them, scatter-added from zero along the targets, and divided by the in-degree (ones scatter-added along the targets) clamped below at one. 14 operations. -/
abbrev seg18 : List (HloOp τ sig (Elt F)) :=
  [ StableHlo.unary main_v3 main_v257 (broadcastInDim S600000x1 ![0] bcast_S600000_S600000x1_0 : (⟨S600000, .i32⟩ : BufTy).Contents (Elt F) → (⟨S600000x1, .i32⟩ : BufTy).Contents (Elt F)),
    StableHlo.ternary main_v256 main_v257 main_v255 main_v258 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.nullary main_cst_41 (constant S_ .f32 0x3F800000#32),
    StableHlo.unary main_cst_41 main_v259 (broadcastInDim S600000 ![] bcast_S_S600000 : (⟨S_, .f32⟩ : BufTy).Contents (Elt F) → (⟨S600000, .f32⟩ : BufTy).Contents (Elt F)),
    StableHlo.nullary main_cst_42 (constant S_ .f32 0x00000000#32),
    StableHlo.unary main_cst_42 main_v260 (broadcastInDim S50000 ![] bcast_S_S50000 : (⟨S_, .f32⟩ : BufTy).Contents (Elt F) → (⟨S50000, .f32⟩ : BufTy).Contents (Elt F)),
    StableHlo.unary main_v3 main_v261 (broadcastInDim S600000x1 ![0] bcast_S600000_S600000x1_0 : (⟨S600000, .i32⟩ : BufTy).Contents (Elt F) → (⟨S600000x1, .i32⟩ : BufTy).Contents (Elt F)),
    StableHlo.ternary main_v260 main_v261 main_v259 main_v262 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    StableHlo.nullary main_cst_43 (constant S_ .f32 0x3F800000#32),
    StableHlo.unary main_cst_43 main_v263 (broadcastInDim S50000 ![] bcast_S_S50000 : (⟨S_, .f32⟩ : BufTy).Contents (Elt F) → (⟨S50000, .f32⟩ : BufTy).Contents (Elt F)),
    StableHlo.binary main_v262 main_v263 main_v264 (maximumf : (⟨S50000, .f32⟩ : BufTy).Contents (Elt F) → (⟨S50000, .f32⟩ : BufTy).Contents (Elt F) → (⟨S50000, .f32⟩ : BufTy).Contents (Elt F)),
    StableHlo.unary main_v264 main_v265 (broadcastInDim S50000x1 ![0] bcast_S50000_S50000x1_0 : (⟨S50000, .f32⟩ : BufTy).Contents (Elt F) → (⟨S50000x1, .f32⟩ : BufTy).Contents (Elt F)),
    StableHlo.unary main_v265 main_v266 (broadcastInDim S50000x128 ![0, 1] bcast_S50000x1_S50000x128_0_1 : (⟨S50000x1, .f32⟩ : BufTy).Contents (Elt F) → (⟨S50000x128, .f32⟩ : BufTy).Contents (Elt F)),
    StableHlo.binary main_v258 main_v266 main_v267 (Host.divf : (⟨S50000x128, .f32⟩ : BufTy).Contents (Elt F) → (⟨S50000x128, .f32⟩ : BufTy).Contents (Elt F) → (⟨S50000x128, .f32⟩ : BufTy).Contents (Elt F)) ]

theorem seg18_sub : (seg18 : List (HloOp τ sig (Elt F))).Forall fun op => op.bufs ⊆ tcRefs τ sig :=
  ⟨unary_bufs_sub .., ternary_bufs_sub .., nullary_bufs_sub .., unary_bufs_sub .., nullary_bufs_sub .., unary_bufs_sub ..,
    unary_bufs_sub .., ternary_bufs_sub .., nullary_bufs_sub .., unary_bufs_sub .., binary_bufs_sub .., unary_bufs_sub ..,
    unary_bufs_sub .., binary_bufs_sub ..⟩

theorem seg18_fresh : (seg18 : List (HloOp τ sig (Elt F))).Forall fun op => op.fresh = ∅ :=
  ⟨rfl, rfl, rfl, rfl, rfl, rfl, rfl, rfl, rfl, rfl, rfl, rfl, rfl, rfl⟩

/-- Combine 4: `a·Wlᵀ + bl`, then `+ z·Wrᵀ`, the bias joining the first product before the second is added. 8 operations. -/
abbrev seg19 : List (HloOp τ sig (Elt F)) :=
  [ StableHlo.unary main_v244 main_v268 ((transpose S128x128 [1, 0] · transposes_S128x128_S128x128_1_0) : (⟨S128x128, .f32⟩ : BufTy).Contents (Elt F) → (⟨S128x128, .f32⟩ : BufTy).Contents (Elt F)),
    StableHlo.binary main_v267 main_v268 main_v269 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v246 main_v270 (broadcastInDim S1x128 ![1] bcast_S128_S1x128_1 : (⟨S128, .f32⟩ : BufTy).Contents (Elt F) → (⟨S1x128, .f32⟩ : BufTy).Contents (Elt F)),
    StableHlo.unary main_v270 main_v271 (broadcastInDim S50000x128 ![0, 1] bcast_S1x128_S50000x128_0_1 : (⟨S1x128, .f32⟩ : BufTy).Contents (Elt F) → (⟨S50000x128, .f32⟩ : BufTy).Contents (Elt F)),
    StableHlo.binary main_v269 main_v271 main_v272 (addf : (⟨S50000x128, .f32⟩ : BufTy).Contents (Elt F) → (⟨S50000x128, .f32⟩ : BufTy).Contents (Elt F) → (⟨S50000x128, .f32⟩ : BufTy).Contents (Elt F)),
    StableHlo.unary main_v248 main_v273 ((transpose S128x128 [1, 0] · transposes_S128x128_S128x128_1_0) : (⟨S128x128, .f32⟩ : BufTy).Contents (Elt F) → (⟨S128x128, .f32⟩ : BufTy).Contents (Elt F)),
    StableHlo.binary main_v242 main_v273 main_v274 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v272 main_v274 main_v275 (addf : (⟨S50000x128, .f32⟩ : BufTy).Contents (Elt F) → (⟨S50000x128, .f32⟩ : BufTy).Contents (Elt F) → (⟨S50000x128, .f32⟩ : BufTy).Contents (Elt F)) ]

theorem seg19_sub : (seg19 : List (HloOp τ sig (Elt F))).Forall fun op => op.bufs ⊆ tcRefs τ sig :=
  ⟨unary_bufs_sub .., binary_bufs_sub .., unary_bufs_sub .., unary_bufs_sub .., binary_bufs_sub .., unary_bufs_sub ..,
    binary_bufs_sub .., binary_bufs_sub ..⟩

theorem seg19_fresh : (seg19 : List (HloOp τ sig (Elt F))).Forall fun op => op.fresh = ∅ :=
  ⟨rfl, rfl, rfl, rfl, rfl, rfl, rfl, rfl⟩

/-- The decoder: `z·V₁ᵀ + c₁`, the rectifier against the broadcast zero word, then `·V₂ᵀ + c₂`. 13 operations, a called function's operations in line over that call's own buffers. -/
abbrev seg20 : List (HloOp τ sig (Elt F)) :=
  [ StableHlo.unary main_arg11 main_v276 ((transpose S128x256 [1, 0] · transposes_S256x128_S128x256_1_0) : (⟨S256x128, .f32⟩ : BufTy).Contents (Elt F) → (⟨S128x256, .f32⟩ : BufTy).Contents (Elt F)),
    StableHlo.binary main_v275 main_v276 main_v277 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.unary main_arg12 main_v278 (broadcastInDim S1x256 ![1] bcast_S256_S1x256_1 : (⟨S256, .f32⟩ : BufTy).Contents (Elt F) → (⟨S1x256, .f32⟩ : BufTy).Contents (Elt F)),
    StableHlo.unary main_v278 main_v279 (broadcastInDim S50000x256 ![0, 1] bcast_S1x256_S50000x256_0_1 : (⟨S1x256, .f32⟩ : BufTy).Contents (Elt F) → (⟨S50000x256, .f32⟩ : BufTy).Contents (Elt F)),
    StableHlo.binary main_v277 main_v279 main_v280 (addf : (⟨S50000x256, .f32⟩ : BufTy).Contents (Elt F) → (⟨S50000x256, .f32⟩ : BufTy).Contents (Elt F) → (⟨S50000x256, .f32⟩ : BufTy).Contents (Elt F)),
    StableHlo.nullary main_call9_cst (constant S_ .f32 0x00000000#32),
    StableHlo.unary main_call9_cst main_call9_v0 ((broadcastInDim S50000x256 ![] bcast_S_S50000x256) : (⟨S_, .f32⟩ : BufTy).Contents (Elt F) → (⟨S50000x256, .f32⟩ : BufTy).Contents (Elt F)),
    StableHlo.binary main_v280 main_call9_v0 main_v281 ((maximumf) : (⟨S50000x256, .f32⟩ : BufTy).Contents (Elt F) → (⟨S50000x256, .f32⟩ : BufTy).Contents (Elt F) → (⟨S50000x256, .f32⟩ : BufTy).Contents (Elt F)),
    StableHlo.unary main_arg13 main_v282 ((transpose S256x4 [1, 0] · transposes_S4x256_S256x4_1_0) : (⟨S4x256, .f32⟩ : BufTy).Contents (Elt F) → (⟨S256x4, .f32⟩ : BufTy).Contents (Elt F)),
    StableHlo.binary main_v281 main_v282 main_v283 ((fun l r => Host.dotGeneral dot_S50000x256_S256x4_S50000x4_1_0_0_1_n_n none l r) : (⟨S50000x256, .f32⟩ : BufTy).Contents (Elt F) → (⟨S256x4, .f32⟩ : BufTy).Contents (Elt F) → (⟨S50000x4, .f32⟩ : BufTy).Contents (Elt F)),
    StableHlo.unary main_arg14 main_v284 (broadcastInDim S1x4 ![1] bcast_S4_S1x4_1 : (⟨S4, .f32⟩ : BufTy).Contents (Elt F) → (⟨S1x4, .f32⟩ : BufTy).Contents (Elt F)),
    StableHlo.unary main_v284 main_v285 (broadcastInDim S50000x4 ![0, 1] bcast_S1x4_S50000x4_0_1 : (⟨S1x4, .f32⟩ : BufTy).Contents (Elt F) → (⟨S50000x4, .f32⟩ : BufTy).Contents (Elt F)),
    StableHlo.binary main_v283 main_v285 main_v286 (addf : (⟨S50000x4, .f32⟩ : BufTy).Contents (Elt F) → (⟨S50000x4, .f32⟩ : BufTy).Contents (Elt F) → (⟨S50000x4, .f32⟩ : BufTy).Contents (Elt F)) ]

theorem seg20_sub : (seg20 : List (HloOp τ sig (Elt F))).Forall fun op => op.bufs ⊆ tcRefs τ sig :=
  ⟨unary_bufs_sub .., binary_bufs_sub .., unary_bufs_sub .., unary_bufs_sub .., binary_bufs_sub .., nullary_bufs_sub ..,
    unary_bufs_sub .., binary_bufs_sub .., unary_bufs_sub .., binary_bufs_sub .., unary_bufs_sub .., unary_bufs_sub ..,
    binary_bufs_sub ..⟩

theorem seg20_fresh : (seg20 : List (HloOp τ sig (Elt F))).Forall fun op => op.fresh = ∅ :=
  ⟨rfl, rfl, rfl, rfl, rfl, rfl, rfl, rfl, rfl, rfl, rfl, rfl, rfl⟩

set_option maxRecDepth 8192 in
/-- The window is that straight line: each called function's definition unfolded at its call and the call's record at its
    fields, both sides are one chain of host steps once sequencing is reassociated. -/
theorem part5_eq (c : Dev nD) : main_part5 (F := F) c = seq (seg18 ++ (seg19 ++ seg20)) := by
  simp only [seq_append]
  simp only [main_part5, fn_relu.body, seq, bind_assoc, pure_bind]
  rfl

end Cert.ReferenceIdeal.RefRun

end
-- ==== Proof.RefRun.Scoped.lean ====
/-
  The reference program's signature scopes nothing: every buffer is a tensor value's, live from launch to the end, and
  there is no semaphore. That is what lets a straight line of host operations hold all of them at once.
-/
import proofs.«158954_j13391708029610_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

/-- No TensorCore buffer of the signature is scoped. -/
theorem scopedRefs_eq : (Finset.univ.filter fun b : Ref sig .tc => b.isScoped) = ∅ := by decide

/-- No semaphore of the signature is scoped (there is none). -/
theorem scopedSems_eq : (Finset.univ.filter fun sm : SemLoc sig => sm.isScoped .tc) = ∅ := by decide

end Cert.ReferenceIdeal.RefRun

end
-- ==== Proof.RefRun.lean ====
/-
  The run of the idealized reference program. Its @main is six windows run in order; each window is a straight line of
  host operations (each window's equation is proved beside its lists), so @main is the straight line of all of them, 429 operations, and every weakly
  fair execution from any memory with zero counters terminates with each buffer at the fold of the operations' results
  over its launch contents.
-/
import proofs.«158954_j13391708029610_1_alg».proof.Proof.RefRun.Part0
import proofs.«158954_j13391708029610_1_alg».proof.Proof.RefRun.Part1
import proofs.«158954_j13391708029610_1_alg».proof.Proof.RefRun.Part2
import proofs.«158954_j13391708029610_1_alg».proof.Proof.RefRun.Part3
import proofs.«158954_j13391708029610_1_alg».proof.Proof.RefRun.Part4
import proofs.«158954_j13391708029610_1_alg».proof.Proof.RefRun.Part5
import proofs.«158954_j13391708029610_1_alg».proof.Proof.RefRun.Scoped

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- A property of every member of two lists holds of every member of their concatenation. -/
theorem forall_append {α : Type} {p : α → Prop} {l₁ l₂ : List α} (h₁ : l₁.Forall p) (h₂ : l₂.Forall p) :
    (l₁ ++ l₂).Forall p :=
  List.forall_iff_forall_mem.2 fun x hx =>
    (List.mem_append.1 hx).elim (List.forall_iff_forall_mem.1 h₁ x) (List.forall_iff_forall_mem.1 h₂ x)

/-- @main's 429 operations in order: the stages' lists, concatenated. -/
abbrev ops : List (HloOp τ sig (Elt F)) :=
  seg00 ++ (seg01 ++ (seg02 ++ (seg03 ++ (seg04 ++ (seg05 ++ (seg06 ++ (seg07 ++ (seg08 ++ (seg09 ++ (seg10 ++ (seg11 ++ (seg12 ++ (seg13 ++ (seg14 ++ (seg15 ++ (seg16 ++ (seg17 ++ (seg18 ++ (seg19 ++ seg20)))))))))))))))))))

/-- @main is that straight line: each of its six windows is the straight line of its own lists, and lines run one after
    the other are their concatenation run as one. -/
theorem main_eq (c : Dev nD) : main (F := F) c = seq ops := by
  simp only [main, ops, part0_eq, part1_eq, part2_eq, part3_eq, part4_eq, part5_eq, seq_append, bind_assoc]

/-- Every operation touches TensorCore references only. -/
theorem ops_sub : (ops : List (HloOp τ sig (Elt F))).Forall fun op => op.bufs ⊆ tcRefs τ sig :=
  forall_append seg00_sub (forall_append seg01_sub (forall_append seg02_sub (forall_append seg03_sub (forall_append seg04_sub (forall_append seg05_sub (forall_append seg06_sub (forall_append seg07_sub (forall_append seg08_sub (forall_append seg09_sub (forall_append seg10_sub (forall_append seg11_sub (forall_append seg12_sub (forall_append seg13_sub (forall_append seg14_sub (forall_append seg15_sub (forall_append seg16_sub (forall_append seg17_sub (forall_append seg18_sub (forall_append seg19_sub (seg20_sub))))))))))))))))))))

/-- Every operation determines its results. -/
theorem ops_fresh : ∀ op ∈ (ops : List (HloOp τ sig (Elt F))), op.fresh = ∅ :=
  List.forall_iff_forall_mem.1
    (forall_append seg00_fresh (forall_append seg01_fresh (forall_append seg02_fresh (forall_append seg03_fresh (forall_append seg04_fresh (forall_append seg05_fresh (forall_append seg06_fresh (forall_append seg07_fresh (forall_append seg08_fresh (forall_append seg09_fresh (forall_append seg10_fresh (forall_append seg11_fresh (forall_append seg12_fresh (forall_append seg13_fresh (forall_append seg14_fresh (forall_append seg15_fresh (forall_append seg16_fresh (forall_append seg17_fresh (forall_append seg18_fresh (forall_append seg19_fresh (seg20_fresh)))))))))))))))))))))

/-- On every device, for any float values, from any memory with zero counters: every weakly fair execution of @main
    terminates, and every final state has each buffer at the operations' fold over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = StableHlo.after ops (StableHlo.launchContents m d) (Proc.devRef .tc b) :=
  run_seq scopedRefs_eq scopedSems_eq defs main (fun _ => ops) main_eq (fun _ => ops_sub) m ρ (fun _ => ops_fresh)

end Cert.ReferenceIdeal.RefRun

end
-- ==== Proof.RefRun.Keep.lean ====
/-
  Which buffers a line of host operations leaves alone. An operation of the builders writes exactly its result buffer,
  so a line writes exactly the list of its result buffers, and a buffer outside that list holds after the line what it
  held before. Two valuations that agree on a list of references still agree on it after a line that writes none of
  them.
-/
import Idealize.ShloMosaic.Lib.StableHlo.Run

noncomputable section

namespace Cert.ReferenceIdeal.RefRun

open Idealize.ShloMosaic Idealize.ShloMosaic.StableHlo

variable {τ : Topo} {sig : RefSig} {Val : EltTy → Type}

/-- An operation whose one written buffer is a member of a list writes inside that list. -/
theorem writes_sub_of_mem {op : HloOp τ sig Val} {y : Ref sig .tc} (hw : op.writes = {Proc.devRef .tc y})
    {wl : List (Ref sig .tc)} (hy : y ∈ wl) : op.writes ⊆ (wl.map (Proc.devRef (τ := τ) .tc)).toFinset := by
  rw [hw, Finset.singleton_subset_iff, List.mem_toFinset]
  exact List.mem_map.2 ⟨y, hy, rfl⟩

/-- The second valuation holds at each reference of the list what the first does. -/
def SameOn (R : List (Ref sig .tc)) (V W : Valuation τ sig Val) : Prop :=
  ∀ r ∈ R, W (Proc.devRef .tc r) = V (Proc.devRef .tc r)

theorem SameOn.refl (R : List (Ref sig .tc)) (V : Valuation τ sig Val) : SameOn R V V := fun _ _ => rfl

/-- A line that writes none of the list's references keeps the agreement. -/
theorem SameOn.after {R wl : List (Ref sig .tc)} {c : List (HloOp τ sig Val)}
    (hc : c.Forall fun op => op.writes ⊆ (wl.map (Proc.devRef (τ := τ) .tc)).toFinset) (hd : ∀ r ∈ R, r ∉ wl)
    {V W : Valuation τ sig Val} (h : SameOn R V W) : SameOn R V (StableHlo.after c W) :=
  fun r hr => (after_of_writes_sub c W hc (hd r hr)).trans (h r hr)

/-- Agreement on a list is agreement on any part of it. -/
theorem SameOn.mono {R R' : List (Ref sig .tc)} (hs : ∀ r ∈ R', r ∈ R) {V W : Valuation τ sig Val} (h : SameOn R V W) :
    SameOn R' V W := fun r hr => h r (hs r hr)

end Cert.ReferenceIdeal.RefRun

end
-- ==== Proof.RefRun.Net.lean ====
/-
  The reference program's network over its fifteen argument arrays, stage by stage, each intermediate a definition of
  its own: the two edge rows; the encoder's result; for each of the four normalised rounds the combine of the neighbour
  mean with the features and then its normalise-and-rectify; the fifth combine; and the decoder's result. Every stage is
  the composition of the host operations the program prints for it. Beside it, what a valuation of
  the buffers must hold for a later stage to be read on it: the arguments, and the two edge rows computed from them.
-/
import proofs.«158954_j13391708029610_1_alg».proof.Proof.Gen.ReferenceIdeal
import proofs.«158954_j13391708029610_1_alg».proof.Proof.RefRun.Keep
import proofs.«158954_j13391708029610_1_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

/-- The program's fifteen argument arrays. -/
structure RefArgs where
  /-- Argument 0: the node features. -/
  a0 : FVec Ideal S50000x7 .f32
  /-- Argument 1: the edge array. -/
  a1 : IVec S2x600000 32
  /-- Argument 2: the encoder's first weight. -/
  a2 : FVec Ideal S256x7 .f32
  /-- Argument 3: the encoder's first bias. -/
  a3 : FVec Ideal S256 .f32
  /-- Argument 4: the encoder's second weight. -/
  a4 : FVec Ideal S128x256 .f32
  /-- Argument 5: the encoder's second bias. -/
  a5 : FVec Ideal S128 .f32
  /-- Argument 6: the five left weights, stacked. -/
  a6 : FVec Ideal S5x128x128 .f32
  /-- Argument 7: the five biases, stacked. -/
  a7 : FVec Ideal S5x128 .f32
  /-- Argument 8: the five right weights, stacked. -/
  a8 : FVec Ideal S5x128x128 .f32
  /-- Argument 9: the four scales, stacked. -/
  a9 : FVec Ideal S4x128 .f32
  /-- Argument 10: the four shifts, stacked. -/
  a10 : FVec Ideal S4x128 .f32
  /-- Argument 11: the decoder's first weight. -/
  a11 : FVec Ideal S256x128 .f32
  /-- Argument 12: the decoder's first bias. -/
  a12 : FVec Ideal S256 .f32
  /-- Argument 13: the decoder's second weight. -/
  a13 : FVec Ideal S4x256 .f32
  /-- Argument 14: the decoder's second bias. -/
  a14 : FVec Ideal S4 .f32

namespace RefArgs

variable (A : RefArgs)

/-- The edge sources. -/
def src : IVec S600000 32 := Stage.srcIdx A.a1
/-- The edge targets. -/
def dst : IVec S600000 32 := Stage.dstIdx A.a1
/-- The encoder's result: the features entering round 0. -/
def z0 : FVec Ideal S50000x128 .f32 := Stage.enc A.a0 A.a2 A.a3 A.a4 A.a5
/-- Combine 0: the neighbour mean of `z0` along the edges, combined with `z0` under block 0 of the three stacks. -/
def lin0 : FVec Ideal S50000x128 .f32 :=
  Stage.combine (Stage.aggr A.z0 A.src A.dst) A.z0 (Stage.wSlice0 A.a6) (Stage.bSlice0 A.a7) (Stage.wSlice0 A.a8)
/-- The features entering round 1: combine 0, normalised by its own column statistics under row 0 of the scale and shift, rectified. -/
def z1 : FVec Ideal S50000x128 .f32 := Stage.normRelu A.lin0 (Stage.gSlice0 A.a9) (Stage.gSlice0 A.a10)
/-- Combine 1: the neighbour mean of `z1` along the edges, combined with `z1` under block 1 of the three stacks. -/
def lin1 : FVec Ideal S50000x128 .f32 :=
  Stage.combine (Stage.aggr A.z1 A.src A.dst) A.z1 (Stage.wSlice1 A.a6) (Stage.bSlice1 A.a7) (Stage.wSlice1 A.a8)
/-- The features entering round 2: combine 1, normalised by its own column statistics under row 1 of the scale and shift, rectified. -/
def z2 : FVec Ideal S50000x128 .f32 := Stage.normRelu A.lin1 (Stage.gSlice1 A.a9) (Stage.gSlice1 A.a10)
/-- Combine 2: the neighbour mean of `z2` along the edges, combined with `z2` under block 2 of the three stacks. -/
def lin2 : FVec Ideal S50000x128 .f32 :=
  Stage.combine (Stage.aggr A.z2 A.src A.dst) A.z2 (Stage.wSlice2 A.a6) (Stage.bSlice2 A.a7) (Stage.wSlice2 A.a8)
/-- The features entering round 3: combine 2, normalised by its own column statistics under row 2 of the scale and shift, rectified. -/
def z3 : FVec Ideal S50000x128 .f32 := Stage.normRelu A.lin2 (Stage.gSlice2 A.a9) (Stage.gSlice2 A.a10)
/-- Combine 3: the neighbour mean of `z3` along the edges, combined with `z3` under block 3 of the three stacks. -/
def lin3 : FVec Ideal S50000x128 .f32 :=
  Stage.combine (Stage.aggr A.z3 A.src A.dst) A.z3 (Stage.wSlice3 A.a6) (Stage.bSlice3 A.a7) (Stage.wSlice3 A.a8)
/-- The features entering round 4: combine 3, normalised by its own column statistics under row 3 of the scale and shift, rectified. -/
def z4 : FVec Ideal S50000x128 .f32 := Stage.normRelu A.lin3 (Stage.gSlice3 A.a9) (Stage.gSlice3 A.a10)
/-- Combine 4: the neighbour mean of `z4` along the edges, combined with `z4` under block 4 of the three stacks. -/
def lin4 : FVec Ideal S50000x128 .f32 :=
  Stage.combine (Stage.aggr A.z4 A.src A.dst) A.z4 (Stage.wSlice4 A.a6) (Stage.bSlice4 A.a7) (Stage.wSlice4 A.a8)
/-- The program's result: the decoder on the fifth combine. -/
def out : FVec Ideal S50000x4 .f32 := Stage.dec A.lin4 A.a11 A.a12 A.a13 A.a14

end RefArgs

/-- The arguments a valuation of the buffers holds. -/
def argsOf (V : Valuation τ sig (Elt Ideal)) : RefArgs where
  a0 := V (Proc.devRef .tc main_arg0)
  a1 := V (Proc.devRef .tc main_arg1)
  a2 := V (Proc.devRef .tc main_arg2)
  a3 := V (Proc.devRef .tc main_arg3)
  a4 := V (Proc.devRef .tc main_arg4)
  a5 := V (Proc.devRef .tc main_arg5)
  a6 := V (Proc.devRef .tc main_arg6)
  a7 := V (Proc.devRef .tc main_arg7)
  a8 := V (Proc.devRef .tc main_arg8)
  a9 := V (Proc.devRef .tc main_arg9)
  a10 := V (Proc.devRef .tc main_arg10)
  a11 := V (Proc.devRef .tc main_arg11)
  a12 := V (Proc.devRef .tc main_arg12)
  a13 := V (Proc.devRef .tc main_arg13)
  a14 := V (Proc.devRef .tc main_arg14)

/-- The references every stage after the first leaves alone and some later stage reads: the fifteen arguments and the
    two edge rows. -/
abbrev keepRefs : List (Ref sig .tc) :=
  [main_arg0, main_arg1, main_arg2, main_arg3, main_arg4, main_arg5, main_arg6, main_arg7, main_arg8, main_arg9, main_arg10, main_arg11, main_arg12, main_arg13, main_arg14, main_v1, main_v3]

/-- The valuation holds the arguments `A` at the argument buffers and the two edge rows computed from them at theirs. -/
structure Holds (A : RefArgs) (W : Valuation τ sig (Elt Ideal)) : Prop where
  a0 : W (Proc.devRef .tc main_arg0) = A.a0
  a1 : W (Proc.devRef .tc main_arg1) = A.a1
  a2 : W (Proc.devRef .tc main_arg2) = A.a2
  a3 : W (Proc.devRef .tc main_arg3) = A.a3
  a4 : W (Proc.devRef .tc main_arg4) = A.a4
  a5 : W (Proc.devRef .tc main_arg5) = A.a5
  a6 : W (Proc.devRef .tc main_arg6) = A.a6
  a7 : W (Proc.devRef .tc main_arg7) = A.a7
  a8 : W (Proc.devRef .tc main_arg8) = A.a8
  a9 : W (Proc.devRef .tc main_arg9) = A.a9
  a10 : W (Proc.devRef .tc main_arg10) = A.a10
  a11 : W (Proc.devRef .tc main_arg11) = A.a11
  a12 : W (Proc.devRef .tc main_arg12) = A.a12
  a13 : W (Proc.devRef .tc main_arg13) = A.a13
  a14 : W (Proc.devRef .tc main_arg14) = A.a14
  src : W (Proc.devRef .tc main_v1) = A.src
  dst : W (Proc.devRef .tc main_v3) = A.dst

/-- A line that writes none of those references keeps what the valuation holds at them. -/
theorem Holds.after {A : RefArgs} {W : Valuation τ sig (Elt Ideal)} {c : List (HloOp τ sig (Elt Ideal))} {wl : List (Ref sig .tc)}
    (hc : c.Forall fun op => op.writes ⊆ (wl.map (Proc.devRef (τ := τ) .tc)).toFinset) (hd : ∀ r ∈ keepRefs, r ∉ wl)
    (h : Holds A W) : Holds A (StableHlo.after c W) where
  a0 := (after_of_writes_sub c W hc (hd main_arg0 (by decide))).trans h.a0
  a1 := (after_of_writes_sub c W hc (hd main_arg1 (by decide))).trans h.a1
  a2 := (after_of_writes_sub c W hc (hd main_arg2 (by decide))).trans h.a2
  a3 := (after_of_writes_sub c W hc (hd main_arg3 (by decide))).trans h.a3
  a4 := (after_of_writes_sub c W hc (hd main_arg4 (by decide))).trans h.a4
  a5 := (after_of_writes_sub c W hc (hd main_arg5 (by decide))).trans h.a5
  a6 := (after_of_writes_sub c W hc (hd main_arg6 (by decide))).trans h.a6
  a7 := (after_of_writes_sub c W hc (hd main_arg7 (by decide))).trans h.a7
  a8 := (after_of_writes_sub c W hc (hd main_arg8 (by decide))).trans h.a8
  a9 := (after_of_writes_sub c W hc (hd main_arg9 (by decide))).trans h.a9
  a10 := (after_of_writes_sub c W hc (hd main_arg10 (by decide))).trans h.a10
  a11 := (after_of_writes_sub c W hc (hd main_arg11 (by decide))).trans h.a11
  a12 := (after_of_writes_sub c W hc (hd main_arg12 (by decide))).trans h.a12
  a13 := (after_of_writes_sub c W hc (hd main_arg13 (by decide))).trans h.a13
  a14 := (after_of_writes_sub c W hc (hd main_arg14 (by decide))).trans h.a14
  src := (after_of_writes_sub c W hc (hd main_v1 (by decide))).trans h.src
  dst := (after_of_writes_sub c W hc (hd main_v3 (by decide))).trans h.dst

end Cert.ReferenceIdeal.RefRun

end
-- ==== Proof.RefRun.ChEdges.lean ====
/-
  The edge rows, read on any contents of the buffers: the sources and the targets are the edge array's two rows.
  The line is read on an ARBITRARY valuation of the buffers: each operation's result at its own buffer is its function of
  what its operands' buffers hold, and at any other buffer what was there; what is left is the stage's composition of
  the printed operations, which is the stage's definition.
-/
import proofs.«158954_j13391708029610_1_alg».proof.Proof.RefRun.Part0
import proofs.«158954_j13391708029610_1_alg».proof.Proof.RefRun.Keep
import proofs.«158954_j13391708029610_1_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

/-- The buffers `seg00` writes, one per operation, in order. -/
abbrev seg00_wl : List (Ref sig .tc) :=
  [main_v0, main_v1, main_v2, main_v3]

theorem seg00_writes {F : FTy → Type} [FloatOps F] :
    (seg00 : List (HloOp τ sig (Elt F))).Forall fun op => op.writes ⊆ (seg00_wl.map (Proc.devRef (τ := τ) .tc)).toFinset :=
  ⟨writes_sub_of_mem rfl (by decide), writes_sub_of_mem rfl (by decide), writes_sub_of_mem rfl (by decide),
    writes_sub_of_mem rfl (by decide)⟩

set_option maxRecDepth 16384 in
set_option maxHeartbeats 1600000 in
theorem edges_v1 (W : Valuation τ sig (Elt Ideal)) :
    StableHlo.after seg00 W (Proc.devRef .tc main_v1)
      = Stage.srcIdx (W (Proc.devRef .tc main_arg1)) := by
  after_results_simp
  rfl

set_option maxRecDepth 16384 in
set_option maxHeartbeats 1600000 in
theorem edges_v3 (W : Valuation τ sig (Elt Ideal)) :
    StableHlo.after seg00 W (Proc.devRef .tc main_v3)
      = Stage.dstIdx (W (Proc.devRef .tc main_arg1)) := by
  after_results_simp
  rfl

end Cert.ReferenceIdeal.RefRun

end
-- ==== Proof.RefRun.ChEnc.lean ====
/-
  The encoder, read on any contents of the buffers: its result is the encoder's composition of the node features and the four encoder parameters.
  The line is read on an ARBITRARY valuation of the buffers: each operation's result at its own buffer is its function of
  what its operands' buffers hold, and at any other buffer what was there; what is left is the stage's composition of
  the printed operations, which is the stage's definition.
-/
import proofs.«158954_j13391708029610_1_alg».proof.Proof.RefRun.Part0
import proofs.«158954_j13391708029610_1_alg».proof.Proof.RefRun.Keep
import proofs.«158954_j13391708029610_1_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

/-- The buffers `seg01` writes, one per operation, in order. -/
abbrev seg01_wl : List (Ref sig .tc) :=
  [main_v4, main_v5, main_v6, main_v7, main_v8, main_call0_cst, main_call0_v0, main_v9, main_v10, main_v11, main_v12, main_v13, main_v14]

theorem seg01_writes {F : FTy → Type} [FloatOps F] :
    (seg01 : List (HloOp τ sig (Elt F))).Forall fun op => op.writes ⊆ (seg01_wl.map (Proc.devRef (τ := τ) .tc)).toFinset :=
  ⟨writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide)⟩

set_option maxRecDepth 16384 in
set_option maxHeartbeats 1600000 in
theorem enc_v14 (W : Valuation τ sig (Elt Ideal)) :
    StableHlo.after seg01 W (Proc.devRef .tc main_v14)
      = Stage.enc (W (Proc.devRef .tc main_arg0)) (W (Proc.devRef .tc main_arg2)) (W (Proc.devRef .tc main_arg3)) (W (Proc.devRef .tc main_arg4)) (W (Proc.devRef .tc main_arg5)) := by
  after_results_simp
  rfl

end Cert.ReferenceIdeal.RefRun

end
-- ==== Proof.RefRun.ChAgg0.lean ====
/-
  Aggregation 0, read on any contents of the buffers: the neighbour mean of the current features along the two edge rows, and block 0 of the two weight stacks and of the bias stack.
  The line is read on an ARBITRARY valuation of the buffers: each operation's result at its own buffer is its function of
  what its operands' buffers hold, and at any other buffer what was there; what is left is the stage's composition of
  the printed operations, which is the stage's definition.
-/
import proofs.«158954_j13391708029610_1_alg».proof.Proof.RefRun.Part0
import proofs.«158954_j13391708029610_1_alg».proof.Proof.RefRun.Keep
import proofs.«158954_j13391708029610_1_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

/-- The buffers `seg02` writes, one per operation, in order. -/
abbrev seg02_wl : List (Ref sig .tc) :=
  [main_v15, main_v16, main_v17, main_v18, main_v19, main_v20, main_c, main_v21, main_v22, main_c_0, main_v23, main_v24, main_v25, main_v26, main_v27, main_cst, main_v28, main_v29, main_v30, main_cst_1, main_v31, main_cst_2, main_v32, main_v33, main_v34, main_cst_3, main_v35, main_v36, main_v37, main_v38, main_v39]

theorem seg02_writes {F : FTy → Type} [FloatOps F] :
    (seg02 : List (HloOp τ sig (Elt F))).Forall fun op => op.writes ⊆ (seg02_wl.map (Proc.devRef (τ := τ) .tc)).toFinset :=
  ⟨writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide)⟩

set_option maxRecDepth 16384 in
set_option maxHeartbeats 1600000 in
theorem agg0_mean (W : Valuation τ sig (Elt Ideal)) :
    StableHlo.after seg02 W (Proc.devRef .tc main_v39)
      = Stage.aggr (W (Proc.devRef .tc main_v14)) (W (Proc.devRef .tc main_v1)) (W (Proc.devRef .tc main_v3)) := by
  after_results_simp
  rfl

set_option maxRecDepth 16384 in
set_option maxHeartbeats 1600000 in
theorem agg0_wl (W : Valuation τ sig (Elt Ideal)) :
    StableHlo.after seg02 W (Proc.devRef .tc main_v16)
      = Stage.wSlice0 (W (Proc.devRef .tc main_arg6)) := by
  after_results_simp
  rfl

set_option maxRecDepth 16384 in
set_option maxHeartbeats 1600000 in
theorem agg0_bl (W : Valuation τ sig (Elt Ideal)) :
    StableHlo.after seg02 W (Proc.devRef .tc main_v18)
      = Stage.bSlice0 (W (Proc.devRef .tc main_arg7)) := by
  after_results_simp
  rfl

set_option maxRecDepth 16384 in
set_option maxHeartbeats 1600000 in
theorem agg0_wr (W : Valuation τ sig (Elt Ideal)) :
    StableHlo.after seg02 W (Proc.devRef .tc main_v20)
      = Stage.wSlice0 (W (Proc.devRef .tc main_arg8)) := by
  after_results_simp
  rfl

end Cert.ReferenceIdeal.RefRun

end
-- ==== Proof.RefRun.ChComb0.lean ====
/-
  Combine 0, read on any contents of the buffers: the linear combine of the neighbour mean and the current features under the round's three parameter blocks.
  The line is read on an ARBITRARY valuation of the buffers: each operation's result at its own buffer is its function of
  what its operands' buffers hold, and at any other buffer what was there; what is left is the stage's composition of
  the printed operations, which is the stage's definition.
-/
import proofs.«158954_j13391708029610_1_alg».proof.Proof.RefRun.Part0
import proofs.«158954_j13391708029610_1_alg».proof.Proof.RefRun.Keep
import proofs.«158954_j13391708029610_1_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

/-- The buffers `seg03` writes, one per operation, in order. -/
abbrev seg03_wl : List (Ref sig .tc) :=
  [main_v40, main_v41, main_v42, main_v43, main_v44, main_v45, main_v46, main_v47]

theorem seg03_writes {F : FTy → Type} [FloatOps F] :
    (seg03 : List (HloOp τ sig (Elt F))).Forall fun op => op.writes ⊆ (seg03_wl.map (Proc.devRef (τ := τ) .tc)).toFinset :=
  ⟨writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide)⟩

set_option maxRecDepth 16384 in
set_option maxHeartbeats 1600000 in
theorem comb0_lin (W : Valuation τ sig (Elt Ideal)) :
    StableHlo.after seg03 W (Proc.devRef .tc main_v47)
      = Stage.combine (W (Proc.devRef .tc main_v39)) (W (Proc.devRef .tc main_v14)) (W (Proc.devRef .tc main_v16)) (W (Proc.devRef .tc main_v18)) (W (Proc.devRef .tc main_v20)) := by
  after_results_simp
  rfl

end Cert.ReferenceIdeal.RefRun

end
-- ==== Proof.RefRun.ChBn0.lean ====
/-
  Normalisation 0, read on any contents of the buffers: normalise-and-rectify of the combine's result by its own column statistics, under row 0 of the scale and of the shift.
  The line is read on an ARBITRARY valuation of the buffers: each operation's result at its own buffer is its function of
  what its operands' buffers hold, and at any other buffer what was there; what is left is the stage's composition of
  the printed operations, which is the stage's definition.
-/
import proofs.«158954_j13391708029610_1_alg».proof.Proof.RefRun.Part0
import proofs.«158954_j13391708029610_1_alg».proof.Proof.RefRun.Part1
import proofs.«158954_j13391708029610_1_alg».proof.Proof.RefRun.Keep
import proofs.«158954_j13391708029610_1_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

/-- The buffers `seg04` writes, one per operation, in order. -/
abbrev seg04_wl : List (Ref sig .tc) :=
  [main_v48, main_v49, main_v50, main_v51, main_cst_4, main_v52]

theorem seg04_writes {F : FTy → Type} [FloatOps F] :
    (seg04 : List (HloOp τ sig (Elt F))).Forall fun op => op.writes ⊆ (seg04_wl.map (Proc.devRef (τ := τ) .tc)).toFinset :=
  ⟨writes_sub_of_mem rfl (by decide), writes_sub_of_mem rfl (by decide), writes_sub_of_mem rfl (by decide),
    writes_sub_of_mem rfl (by decide), writes_sub_of_mem rfl (by decide), writes_sub_of_mem rfl (by decide)⟩

/-- The buffers `seg05` writes, one per operation, in order. -/
abbrev seg05_wl : List (Ref sig .tc) :=
  [main_cst_5, main_v53, main_v54, main_c_6, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v55, main_v56, main_v57, main_v58, main_cst_7, main_v59, main_v60, main_v61, main_v62, main_v63, main_v64, main_v65, main_v66, main_v67, main_v68, main_v69, main_v70, main_call2_cst, main_call2_v0, main_v71]

theorem seg05_writes {F : FTy → Type} [FloatOps F] :
    (seg05 : List (HloOp τ sig (Elt F))).Forall fun op => op.writes ⊆ (seg05_wl.map (Proc.devRef (τ := τ) .tc)).toFinset :=
  ⟨writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide)⟩

set_option maxRecDepth 16384 in
set_option maxHeartbeats 1600000 in
theorem bn0_out (W : Valuation τ sig (Elt Ideal)) :
    StableHlo.after seg05 (StableHlo.after seg04 W) (Proc.devRef .tc main_v71)
      = Stage.normRelu (W (Proc.devRef .tc main_v47)) (Stage.gSlice0 (W (Proc.devRef .tc main_arg9))) (Stage.gSlice0 (W (Proc.devRef .tc main_arg10))) := by
  after_results_simp
  rfl

end Cert.ReferenceIdeal.RefRun

end
-- ==== Proof.RefRun.Round0.lean ====
/-
  Round 0 (aggregation, combine, normalise-and-rectify), read on a valuation that holds the arguments, the edge rows and the features `z0`: the arguments and edge rows are still held, and the round's result buffer holds `z1`.
  The three stages' lines are read one after the other, each on the valuation the previous one leaves: the stage's
  result is its definition applied to what its input buffers hold, and an input buffer written by an
  earlier stage holds what that stage computed because no line in between writes it.
-/
import proofs.«158954_j13391708029610_1_alg».proof.Proof.RefRun.Net
import proofs.«158954_j13391708029610_1_alg».proof.Proof.RefRun.ChAgg0
import proofs.«158954_j13391708029610_1_alg».proof.Proof.RefRun.ChComb0
import proofs.«158954_j13391708029610_1_alg».proof.Proof.RefRun.ChBn0

noncomputable section

namespace Cert.ReferenceIdeal.RefRun

open Cert.ReferenceIdeal Cert.ReferenceIdeal.Gen Idealize.ShloMosaic Idealize.ShloMosaic.TcCoe Idealize.SL.Sem Idealize.ShloMosaic.StableHlo

theorem round0 (A : RefArgs) (W : Valuation τ sig (Elt Ideal)) (h : Holds A W)
    (hz : W (Proc.devRef .tc main_v14) = A.z0) :
    Holds A (StableHlo.after seg05 (StableHlo.after seg04 (StableHlo.after seg03 (StableHlo.after seg02 W))))
      ∧ StableHlo.after seg05 (StableHlo.after seg04 (StableHlo.after seg03 (StableHlo.after seg02 W))) (Proc.devRef .tc main_v71) = A.z1 := by
  have k1 := h.after seg02_writes (by decide)
  have k2 := k1.after seg03_writes (by decide)
  have k3 := k2.after seg04_writes (by decide)
  have k4 := k3.after seg05_writes (by decide)
  have kf : StableHlo.after seg02 W (Proc.devRef .tc main_v14) = W (Proc.devRef .tc main_v14) :=
    after_of_writes_sub seg02 W seg02_writes (by decide)
  refine ⟨k4, ?_⟩
  rw [bn0_out, comb0_lin, k2.a9, k2.a10, agg0_mean, agg0_wl, agg0_bl, agg0_wr, kf, hz,
    h.src, h.dst, h.a6, h.a7, h.a8]
  <;> rfl

end Cert.ReferenceIdeal.RefRun

end
-- ==== Proof.RefRun.ChAgg1.lean ====
/-
  Aggregation 1, read on any contents of the buffers: the neighbour mean of the current features along the two edge rows, and block 1 of the two weight stacks and of the bias stack.
  The line is read on an ARBITRARY valuation of the buffers: each operation's result at its own buffer is its function of
  what its operands' buffers hold, and at any other buffer what was there; what is left is the stage's composition of
  the printed operations, which is the stage's definition.
-/
import proofs.«158954_j13391708029610_1_alg».proof.Proof.RefRun.Part1
import proofs.«158954_j13391708029610_1_alg».proof.Proof.RefRun.Keep
import proofs.«158954_j13391708029610_1_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

/-- The buffers `seg06` writes, one per operation, in order. -/
abbrev seg06_wl : List (Ref sig .tc) :=
  [main_v72, main_v73, main_v74, main_v75, main_v76, main_v77, main_c_8, main_v78, main_v79, main_c_9, main_v80, main_v81, main_v82, main_v83, main_v84, main_cst_10, main_v85, main_v86, main_v87, main_cst_11, main_v88, main_cst_12, main_v89, main_v90, main_v91, main_cst_13, main_v92, main_v93, main_v94, main_v95, main_v96]

theorem seg06_writes {F : FTy → Type} [FloatOps F] :
    (seg06 : List (HloOp τ sig (Elt F))).Forall fun op => op.writes ⊆ (seg06_wl.map (Proc.devRef (τ := τ) .tc)).toFinset :=
  ⟨writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide)⟩

set_option maxRecDepth 16384 in
set_option maxHeartbeats 1600000 in
theorem agg1_mean (W : Valuation τ sig (Elt Ideal)) :
    StableHlo.after seg06 W (Proc.devRef .tc main_v96)
      = Stage.aggr (W (Proc.devRef .tc main_v71)) (W (Proc.devRef .tc main_v1)) (W (Proc.devRef .tc main_v3)) := by
  after_results_simp
  rfl

set_option maxRecDepth 16384 in
set_option maxHeartbeats 1600000 in
theorem agg1_wl (W : Valuation τ sig (Elt Ideal)) :
    StableHlo.after seg06 W (Proc.devRef .tc main_v73)
      = Stage.wSlice1 (W (Proc.devRef .tc main_arg6)) := by
  after_results_simp
  rfl

set_option maxRecDepth 16384 in
set_option maxHeartbeats 1600000 in
theorem agg1_bl (W : Valuation τ sig (Elt Ideal)) :
    StableHlo.after seg06 W (Proc.devRef .tc main_v75)
      = Stage.bSlice1 (W (Proc.devRef .tc main_arg7)) := by
  after_results_simp
  rfl

set_option maxRecDepth 16384 in
set_option maxHeartbeats 1600000 in
theorem agg1_wr (W : Valuation τ sig (Elt Ideal)) :
    StableHlo.after seg06 W (Proc.devRef .tc main_v77)
      = Stage.wSlice1 (W (Proc.devRef .tc main_arg8)) := by
  after_results_simp
  rfl

end Cert.ReferenceIdeal.RefRun

end
-- ==== Proof.RefRun.ChComb1.lean ====
/-
  Combine 1, read on any contents of the buffers: the linear combine of the neighbour mean and the current features under the round's three parameter blocks.
  The line is read on an ARBITRARY valuation of the buffers: each operation's result at its own buffer is its function of
  what its operands' buffers hold, and at any other buffer what was there; what is left is the stage's composition of
  the printed operations, which is the stage's definition.
-/
import proofs.«158954_j13391708029610_1_alg».proof.Proof.RefRun.Part1
import proofs.«158954_j13391708029610_1_alg».proof.Proof.RefRun.Part2
import proofs.«158954_j13391708029610_1_alg».proof.Proof.RefRun.Keep
import proofs.«158954_j13391708029610_1_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

/-- The buffers `seg07` writes, one per operation, in order. -/
abbrev seg07_wl : List (Ref sig .tc) :=
  [main_v97, main_v98, main_v99, main_v100, main_v101, main_v102, main_v103]

theorem seg07_writes {F : FTy → Type} [FloatOps F] :
    (seg07 : List (HloOp τ sig (Elt F))).Forall fun op => op.writes ⊆ (seg07_wl.map (Proc.devRef (τ := τ) .tc)).toFinset :=
  ⟨writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide)⟩

/-- The buffers `seg08` writes, one per operation, in order. -/
abbrev seg08_wl : List (Ref sig .tc) :=
  [main_v104]

theorem seg08_writes {F : FTy → Type} [FloatOps F] :
    (seg08 : List (HloOp τ sig (Elt F))).Forall fun op => op.writes ⊆ (seg08_wl.map (Proc.devRef (τ := τ) .tc)).toFinset :=
  writes_sub_of_mem rfl (by decide)

set_option maxRecDepth 16384 in
set_option maxHeartbeats 1600000 in
theorem comb1_lin (W : Valuation τ sig (Elt Ideal)) :
    StableHlo.after seg08 (StableHlo.after seg07 W) (Proc.devRef .tc main_v104)
      = Stage.combine (W (Proc.devRef .tc main_v96)) (W (Proc.devRef .tc main_v71)) (W (Proc.devRef .tc main_v73)) (W (Proc.devRef .tc main_v75)) (W (Proc.devRef .tc main_v77)) := by
  after_results_simp
  rfl

end Cert.ReferenceIdeal.RefRun

end
-- ==== Proof.RefRun.ChBn1.lean ====
/-
  Normalisation 1, read on any contents of the buffers: normalise-and-rectify of the combine's result by its own column statistics, under row 1 of the scale and of the shift.
  The line is read on an ARBITRARY valuation of the buffers: each operation's result at its own buffer is its function of
  what its operands' buffers hold, and at any other buffer what was there; what is left is the stage's composition of
  the printed operations, which is the stage's definition.
-/
import proofs.«158954_j13391708029610_1_alg».proof.Proof.RefRun.Part2
import proofs.«158954_j13391708029610_1_alg».proof.Proof.RefRun.Keep
import proofs.«158954_j13391708029610_1_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

/-- The buffers `seg09` writes, one per operation, in order. -/
abbrev seg09_wl : List (Ref sig .tc) :=
  [main_v105, main_v106, main_v107, main_v108, main_cst_14, main_v109, main_cst_15, main_v110, main_v111, main_c_16, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v112, main_v113, main_v114, main_v115, main_cst_17, main_v116, main_v117, main_v118, main_v119, main_v120, main_v121, main_v122, main_v123, main_v124, main_v125, main_v126, main_v127, main_call4_cst, main_call4_v0, main_v128]

theorem seg09_writes {F : FTy → Type} [FloatOps F] :
    (seg09 : List (HloOp τ sig (Elt F))).Forall fun op => op.writes ⊆ (seg09_wl.map (Proc.devRef (τ := τ) .tc)).toFinset :=
  ⟨writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide)⟩

set_option maxRecDepth 16384 in
set_option maxHeartbeats 1600000 in
theorem bn1_out (W : Valuation τ sig (Elt Ideal)) :
    StableHlo.after seg09 W (Proc.devRef .tc main_v128)
      = Stage.normRelu (W (Proc.devRef .tc main_v104)) (Stage.gSlice1 (W (Proc.devRef .tc main_arg9))) (Stage.gSlice1 (W (Proc.devRef .tc main_arg10))) := by
  after_results_simp
  rfl

end Cert.ReferenceIdeal.RefRun

end
-- ==== Proof.RefRun.Round1.lean ====
/-
  Round 1 (aggregation, combine, normalise-and-rectify), read on a valuation that holds the arguments, the edge rows and the features `z1`: the arguments and edge rows are still held, and the round's result buffer holds `z2`.
  The three stages' lines are read one after the other, each on the valuation the previous one leaves: the stage's
  result is its definition applied to what its input buffers hold, and an input buffer written by an
  earlier stage holds what that stage computed because no line in between writes it.
-/
import proofs.«158954_j13391708029610_1_alg».proof.Proof.RefRun.Net
import proofs.«158954_j13391708029610_1_alg».proof.Proof.RefRun.ChAgg1
import proofs.«158954_j13391708029610_1_alg».proof.Proof.RefRun.ChComb1
import proofs.«158954_j13391708029610_1_alg».proof.Proof.RefRun.ChBn1

noncomputable section

namespace Cert.ReferenceIdeal.RefRun

open Cert.ReferenceIdeal Cert.ReferenceIdeal.Gen Idealize.ShloMosaic Idealize.ShloMosaic.TcCoe Idealize.SL.Sem Idealize.ShloMosaic.StableHlo

theorem round1 (A : RefArgs) (W : Valuation τ sig (Elt Ideal)) (h : Holds A W)
    (hz : W (Proc.devRef .tc main_v71) = A.z1) :
    Holds A (StableHlo.after seg09 (StableHlo.after seg08 (StableHlo.after seg07 (StableHlo.after seg06 W))))
      ∧ StableHlo.after seg09 (StableHlo.after seg08 (StableHlo.after seg07 (StableHlo.after seg06 W))) (Proc.devRef .tc main_v128) = A.z2 := by
  have k1 := h.after seg06_writes (by decide)
  have k2 := k1.after seg07_writes (by decide)
  have k3 := k2.after seg08_writes (by decide)
  have k4 := k3.after seg09_writes (by decide)
  have kf : StableHlo.after seg06 W (Proc.devRef .tc main_v71) = W (Proc.devRef .tc main_v71) :=
    after_of_writes_sub seg06 W seg06_writes (by decide)
  refine ⟨k4, ?_⟩
  rw [bn1_out, comb1_lin, k3.a9, k3.a10, agg1_mean, agg1_wl, agg1_bl, agg1_wr, kf, hz,
    h.src, h.dst, h.a6, h.a7, h.a8]
  <;> rfl

end Cert.ReferenceIdeal.RefRun

end
-- ==== Proof.RefRun.ChAgg2.lean ====
/-
  Aggregation 2, read on any contents of the buffers: the neighbour mean of the current features along the two edge rows, and block 2 of the two weight stacks and of the bias stack.
  The line is read on an ARBITRARY valuation of the buffers: each operation's result at its own buffer is its function of
  what its operands' buffers hold, and at any other buffer what was there; what is left is the stage's composition of
  the printed operations, which is the stage's definition.
-/
import proofs.«158954_j13391708029610_1_alg».proof.Proof.RefRun.Part2
import proofs.«158954_j13391708029610_1_alg».proof.Proof.RefRun.Keep
import proofs.«158954_j13391708029610_1_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

/-- The buffers `seg10` writes, one per operation, in order. -/
abbrev seg10_wl : List (Ref sig .tc) :=
  [main_v129, main_v130, main_v131, main_v132, main_v133, main_v134, main_c_18, main_v135, main_v136, main_c_19, main_v137, main_v138, main_v139, main_v140, main_v141, main_cst_20, main_v142, main_v143, main_v144, main_cst_21, main_v145, main_cst_22, main_v146, main_v147, main_v148, main_cst_23, main_v149, main_v150, main_v151, main_v152, main_v153]

theorem seg10_writes {F : FTy → Type} [FloatOps F] :
    (seg10 : List (HloOp τ sig (Elt F))).Forall fun op => op.writes ⊆ (seg10_wl.map (Proc.devRef (τ := τ) .tc)).toFinset :=
  ⟨writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide)⟩

set_option maxRecDepth 16384 in
set_option maxHeartbeats 1600000 in
theorem agg2_mean (W : Valuation τ sig (Elt Ideal)) :
    StableHlo.after seg10 W (Proc.devRef .tc main_v153)
      = Stage.aggr (W (Proc.devRef .tc main_v128)) (W (Proc.devRef .tc main_v1)) (W (Proc.devRef .tc main_v3)) := by
  after_results_simp
  rfl

set_option maxRecDepth 16384 in
set_option maxHeartbeats 1600000 in
theorem agg2_wl (W : Valuation τ sig (Elt Ideal)) :
    StableHlo.after seg10 W (Proc.devRef .tc main_v130)
      = Stage.wSlice2 (W (Proc.devRef .tc main_arg6)) := by
  after_results_simp
  rfl

set_option maxRecDepth 16384 in
set_option maxHeartbeats 1600000 in
theorem agg2_bl (W : Valuation τ sig (Elt Ideal)) :
    StableHlo.after seg10 W (Proc.devRef .tc main_v132)
      = Stage.bSlice2 (W (Proc.devRef .tc main_arg7)) := by
  after_results_simp
  rfl

set_option maxRecDepth 16384 in
set_option maxHeartbeats 1600000 in
theorem agg2_wr (W : Valuation τ sig (Elt Ideal)) :
    StableHlo.after seg10 W (Proc.devRef .tc main_v134)
      = Stage.wSlice2 (W (Proc.devRef .tc main_arg8)) := by
  after_results_simp
  rfl

end Cert.ReferenceIdeal.RefRun

end
-- ==== Proof.RefRun.ChComb2.lean ====
/-
  Combine 2, read on any contents of the buffers: the linear combine of the neighbour mean and the current features under the round's three parameter blocks.
  The line is read on an ARBITRARY valuation of the buffers: each operation's result at its own buffer is its function of
  what its operands' buffers hold, and at any other buffer what was there; what is left is the stage's composition of
  the printed operations, which is the stage's definition.
-/
import proofs.«158954_j13391708029610_1_alg».proof.Proof.RefRun.Part3
import proofs.«158954_j13391708029610_1_alg».proof.Proof.RefRun.Keep
import proofs.«158954_j13391708029610_1_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

/-- The buffers `seg11` writes, one per operation, in order. -/
abbrev seg11_wl : List (Ref sig .tc) :=
  [main_v154, main_v155, main_v156, main_v157, main_v158, main_v159, main_v160, main_v161]

theorem seg11_writes {F : FTy → Type} [FloatOps F] :
    (seg11 : List (HloOp τ sig (Elt F))).Forall fun op => op.writes ⊆ (seg11_wl.map (Proc.devRef (τ := τ) .tc)).toFinset :=
  ⟨writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide)⟩

set_option maxRecDepth 16384 in
set_option maxHeartbeats 1600000 in
theorem comb2_lin (W : Valuation τ sig (Elt Ideal)) :
    StableHlo.after seg11 W (Proc.devRef .tc main_v161)
      = Stage.combine (W (Proc.devRef .tc main_v153)) (W (Proc.devRef .tc main_v128)) (W (Proc.devRef .tc main_v130)) (W (Proc.devRef .tc main_v132)) (W (Proc.devRef .tc main_v134)) := by
  after_results_simp
  rfl

end Cert.ReferenceIdeal.RefRun

end
-- ==== Proof.RefRun.ChBn2.lean ====
/-
  Normalisation 2, read on any contents of the buffers: normalise-and-rectify of the combine's result by its own column statistics, under row 2 of the scale and of the shift.
  The line is read on an ARBITRARY valuation of the buffers: each operation's result at its own buffer is its function of
  what its operands' buffers hold, and at any other buffer what was there; what is left is the stage's composition of
  the printed operations, which is the stage's definition.
-/
import proofs.«158954_j13391708029610_1_alg».proof.Proof.RefRun.Part3
import proofs.«158954_j13391708029610_1_alg».proof.Proof.RefRun.Keep
import proofs.«158954_j13391708029610_1_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

/-- The buffers `seg12` writes, one per operation, in order. -/
abbrev seg12_wl : List (Ref sig .tc) :=
  [main_v162, main_v163, main_v164, main_v165, main_cst_24, main_v166, main_cst_25, main_v167, main_v168, main_c_26, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v169, main_v170, main_v171, main_v172, main_cst_27, main_v173, main_v174, main_v175, main_v176, main_v177, main_v178, main_v179, main_v180, main_v181, main_v182, main_v183, main_v184, main_call6_cst, main_call6_v0, main_v185]

theorem seg12_writes {F : FTy → Type} [FloatOps F] :
    (seg12 : List (HloOp τ sig (Elt F))).Forall fun op => op.writes ⊆ (seg12_wl.map (Proc.devRef (τ := τ) .tc)).toFinset :=
  ⟨writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide)⟩

set_option maxRecDepth 16384 in
set_option maxHeartbeats 1600000 in
theorem bn2_out (W : Valuation τ sig (Elt Ideal)) :
    StableHlo.after seg12 W (Proc.devRef .tc main_v185)
      = Stage.normRelu (W (Proc.devRef .tc main_v161)) (Stage.gSlice2 (W (Proc.devRef .tc main_arg9))) (Stage.gSlice2 (W (Proc.devRef .tc main_arg10))) := by
  after_results_simp
  rfl

end Cert.ReferenceIdeal.RefRun

end
-- ==== Proof.RefRun.Round2.lean ====
/-
  Round 2 (aggregation, combine, normalise-and-rectify), read on a valuation that holds the arguments, the edge rows and the features `z2`: the arguments and edge rows are still held, and the round's result buffer holds `z3`.
  The three stages' lines are read one after the other, each on the valuation the previous one leaves: the stage's
  result is its definition applied to what its input buffers hold, and an input buffer written by an
  earlier stage holds what that stage computed because no line in between writes it.
-/
import proofs.«158954_j13391708029610_1_alg».proof.Proof.RefRun.Net
import proofs.«158954_j13391708029610_1_alg».proof.Proof.RefRun.ChAgg2
import proofs.«158954_j13391708029610_1_alg».proof.Proof.RefRun.ChComb2
import proofs.«158954_j13391708029610_1_alg».proof.Proof.RefRun.ChBn2

noncomputable section

namespace Cert.ReferenceIdeal.RefRun

open Cert.ReferenceIdeal Cert.ReferenceIdeal.Gen Idealize.ShloMosaic Idealize.ShloMosaic.TcCoe Idealize.SL.Sem Idealize.ShloMosaic.StableHlo

theorem round2 (A : RefArgs) (W : Valuation τ sig (Elt Ideal)) (h : Holds A W)
    (hz : W (Proc.devRef .tc main_v128) = A.z2) :
    Holds A (StableHlo.after seg12 (StableHlo.after seg11 (StableHlo.after seg10 W)))
      ∧ StableHlo.after seg12 (StableHlo.after seg11 (StableHlo.after seg10 W)) (Proc.devRef .tc main_v185) = A.z3 := by
  have k1 := h.after seg10_writes (by decide)
  have k2 := k1.after seg11_writes (by decide)
  have k3 := k2.after seg12_writes (by decide)
  have kf : StableHlo.after seg10 W (Proc.devRef .tc main_v128) = W (Proc.devRef .tc main_v128) :=
    after_of_writes_sub seg10 W seg10_writes (by decide)
  refine ⟨k3, ?_⟩
  rw [bn2_out, comb2_lin, k2.a9, k2.a10, agg2_mean, agg2_wl, agg2_bl, agg2_wr, kf, hz,
    h.src, h.dst, h.a6, h.a7, h.a8]
  <;> rfl

end Cert.ReferenceIdeal.RefRun

end
-- ==== Proof.RefRun.ChAgg3.lean ====
/-
  Aggregation 3, read on any contents of the buffers: the neighbour mean of the current features along the two edge rows, and block 3 of the two weight stacks and of the bias stack.
  The line is read on an ARBITRARY valuation of the buffers: each operation's result at its own buffer is its function of
  what its operands' buffers hold, and at any other buffer what was there; what is left is the stage's composition of
  the printed operations, which is the stage's definition.
-/
import proofs.«158954_j13391708029610_1_alg».proof.Proof.RefRun.Part3
import proofs.«158954_j13391708029610_1_alg».proof.Proof.RefRun.Part4
import proofs.«158954_j13391708029610_1_alg».proof.Proof.RefRun.Keep
import proofs.«158954_j13391708029610_1_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

/-- The buffers `seg13` writes, one per operation, in order. -/
abbrev seg13_wl : List (Ref sig .tc) :=
  [main_v186, main_v187, main_v188, main_v189, main_v190, main_v191, main_c_28, main_v192, main_v193, main_c_29, main_v194, main_v195, main_v196, main_v197, main_v198, main_cst_30, main_v199, main_v200, main_v201, main_cst_31, main_v202, main_cst_32, main_v203, main_v204]

theorem seg13_writes {F : FTy → Type} [FloatOps F] :
    (seg13 : List (HloOp τ sig (Elt F))).Forall fun op => op.writes ⊆ (seg13_wl.map (Proc.devRef (τ := τ) .tc)).toFinset :=
  ⟨writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide)⟩

/-- The buffers `seg14` writes, one per operation, in order. -/
abbrev seg14_wl : List (Ref sig .tc) :=
  [main_v205, main_cst_33, main_v206, main_v207, main_v208, main_v209, main_v210]

theorem seg14_writes {F : FTy → Type} [FloatOps F] :
    (seg14 : List (HloOp τ sig (Elt F))).Forall fun op => op.writes ⊆ (seg14_wl.map (Proc.devRef (τ := τ) .tc)).toFinset :=
  ⟨writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide)⟩

set_option maxRecDepth 16384 in
set_option maxHeartbeats 1600000 in
theorem agg3_mean (W : Valuation τ sig (Elt Ideal)) :
    StableHlo.after seg14 (StableHlo.after seg13 W) (Proc.devRef .tc main_v210)
      = Stage.aggr (W (Proc.devRef .tc main_v185)) (W (Proc.devRef .tc main_v1)) (W (Proc.devRef .tc main_v3)) := by
  after_results_simp
  rfl

set_option maxRecDepth 16384 in
set_option maxHeartbeats 1600000 in
theorem agg3_wl (W : Valuation τ sig (Elt Ideal)) :
    StableHlo.after seg14 (StableHlo.after seg13 W) (Proc.devRef .tc main_v187)
      = Stage.wSlice3 (W (Proc.devRef .tc main_arg6)) := by
  after_results_simp
  rfl

set_option maxRecDepth 16384 in
set_option maxHeartbeats 1600000 in
theorem agg3_bl (W : Valuation τ sig (Elt Ideal)) :
    StableHlo.after seg14 (StableHlo.after seg13 W) (Proc.devRef .tc main_v189)
      = Stage.bSlice3 (W (Proc.devRef .tc main_arg7)) := by
  after_results_simp
  rfl

set_option maxRecDepth 16384 in
set_option maxHeartbeats 1600000 in
theorem agg3_wr (W : Valuation τ sig (Elt Ideal)) :
    StableHlo.after seg14 (StableHlo.after seg13 W) (Proc.devRef .tc main_v191)
      = Stage.wSlice3 (W (Proc.devRef .tc main_arg8)) := by
  after_results_simp
  rfl

end Cert.ReferenceIdeal.RefRun

end
-- ==== Proof.RefRun.ChComb3.lean ====
/-
  Combine 3, read on any contents of the buffers: the linear combine of the neighbour mean and the current features under the round's three parameter blocks.
  The line is read on an ARBITRARY valuation of the buffers: each operation's result at its own buffer is its function of
  what its operands' buffers hold, and at any other buffer what was there; what is left is the stage's composition of
  the printed operations, which is the stage's definition.
-/
import proofs.«158954_j13391708029610_1_alg».proof.Proof.RefRun.Part4
import proofs.«158954_j13391708029610_1_alg».proof.Proof.RefRun.Keep
import proofs.«158954_j13391708029610_1_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

/-- The buffers `seg15` writes, one per operation, in order. -/
abbrev seg15_wl : List (Ref sig .tc) :=
  [main_v211, main_v212, main_v213, main_v214, main_v215, main_v216, main_v217, main_v218]

theorem seg15_writes {F : FTy → Type} [FloatOps F] :
    (seg15 : List (HloOp τ sig (Elt F))).Forall fun op => op.writes ⊆ (seg15_wl.map (Proc.devRef (τ := τ) .tc)).toFinset :=
  ⟨writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide)⟩

set_option maxRecDepth 16384 in
set_option maxHeartbeats 1600000 in
theorem comb3_lin (W : Valuation τ sig (Elt Ideal)) :
    StableHlo.after seg15 W (Proc.devRef .tc main_v218)
      = Stage.combine (W (Proc.devRef .tc main_v210)) (W (Proc.devRef .tc main_v185)) (W (Proc.devRef .tc main_v187)) (W (Proc.devRef .tc main_v189)) (W (Proc.devRef .tc main_v191)) := by
  after_results_simp
  rfl

end Cert.ReferenceIdeal.RefRun

end
-- ==== Proof.RefRun.ChBn3.lean ====
/-
  Normalisation 3, read on any contents of the buffers: normalise-and-rectify of the combine's result by its own column statistics, under row 3 of the scale and of the shift.
  The line is read on an ARBITRARY valuation of the buffers: each operation's result at its own buffer is its function of
  what its operands' buffers hold, and at any other buffer what was there; what is left is the stage's composition of
  the printed operations, which is the stage's definition.
-/
import proofs.«158954_j13391708029610_1_alg».proof.Proof.RefRun.Part4
import proofs.«158954_j13391708029610_1_alg».proof.Proof.RefRun.Keep
import proofs.«158954_j13391708029610_1_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

/-- The buffers `seg16` writes, one per operation, in order. -/
abbrev seg16_wl : List (Ref sig .tc) :=
  [main_v219, main_v220, main_v221, main_v222, main_cst_34, main_v223, main_cst_35, main_v224, main_v225, main_c_36, main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_cst_3, main_call7_v12, main_call7_cst_4, main_call7_call0_v0, main_call7_call0_v1, main_v226, main_v227, main_v228, main_v229, main_cst_37, main_v230, main_v231, main_v232, main_v233, main_v234, main_v235, main_v236, main_v237, main_v238, main_v239, main_v240, main_v241, main_call8_cst, main_call8_v0, main_v242]

theorem seg16_writes {F : FTy → Type} [FloatOps F] :
    (seg16 : List (HloOp τ sig (Elt F))).Forall fun op => op.writes ⊆ (seg16_wl.map (Proc.devRef (τ := τ) .tc)).toFinset :=
  ⟨writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide)⟩

set_option maxRecDepth 16384 in
set_option maxHeartbeats 1600000 in
theorem bn3_out (W : Valuation τ sig (Elt Ideal)) :
    StableHlo.after seg16 W (Proc.devRef .tc main_v242)
      = Stage.normRelu (W (Proc.devRef .tc main_v218)) (Stage.gSlice3 (W (Proc.devRef .tc main_arg9))) (Stage.gSlice3 (W (Proc.devRef .tc main_arg10))) := by
  after_results_simp
  rfl

end Cert.ReferenceIdeal.RefRun

end
-- ==== Proof.RefRun.Round3.lean ====
/-
  Round 3 (aggregation, combine, normalise-and-rectify), read on a valuation that holds the arguments, the edge rows and the features `z3`: the arguments and edge rows are still held, and the round's result buffer holds `z4`.
  The three stages' lines are read one after the other, each on the valuation the previous one leaves: the stage's
  result is its definition applied to what its input buffers hold, and an input buffer written by an
  earlier stage holds what that stage computed because no line in between writes it.
-/
import proofs.«158954_j13391708029610_1_alg».proof.Proof.RefRun.Net
import proofs.«158954_j13391708029610_1_alg».proof.Proof.RefRun.ChAgg3
import proofs.«158954_j13391708029610_1_alg».proof.Proof.RefRun.ChComb3
import proofs.«158954_j13391708029610_1_alg».proof.Proof.RefRun.ChBn3

noncomputable section

namespace Cert.ReferenceIdeal.RefRun

open Cert.ReferenceIdeal Cert.ReferenceIdeal.Gen Idealize.ShloMosaic Idealize.ShloMosaic.TcCoe Idealize.SL.Sem Idealize.ShloMosaic.StableHlo

theorem round3 (A : RefArgs) (W : Valuation τ sig (Elt Ideal)) (h : Holds A W)
    (hz : W (Proc.devRef .tc main_v185) = A.z3) :
    Holds A (StableHlo.after seg16 (StableHlo.after seg15 (StableHlo.after seg14 (StableHlo.after seg13 W))))
      ∧ StableHlo.after seg16 (StableHlo.after seg15 (StableHlo.after seg14 (StableHlo.after seg13 W))) (Proc.devRef .tc main_v242) = A.z4 := by
  have k1 := h.after seg13_writes (by decide)
  have k2 := k1.after seg14_writes (by decide)
  have k3 := k2.after seg15_writes (by decide)
  have k4 := k3.after seg16_writes (by decide)
  have kf : StableHlo.after seg14 (StableHlo.after seg13 W) (Proc.devRef .tc main_v185) = W (Proc.devRef .tc main_v185) :=
    (after_of_writes_sub seg14 (StableHlo.after seg13 W) seg14_writes (by decide)).trans
      (after_of_writes_sub seg13 W seg13_writes (by decide))
  refine ⟨k4, ?_⟩
  rw [bn3_out, comb3_lin, k3.a9, k3.a10, agg3_mean, agg3_wl, agg3_bl, agg3_wr, kf, hz,
    h.src, h.dst, h.a6, h.a7, h.a8]
  <;> rfl

end Cert.ReferenceIdeal.RefRun

end
-- ==== Proof.RefRun.ChAgg4.lean ====
/-
  Aggregation 4, read on any contents of the buffers: the neighbour mean of the current features along the two edge rows, and block 4 of the two weight stacks and of the bias stack.
  The line is read on an ARBITRARY valuation of the buffers: each operation's result at its own buffer is its function of
  what its operands' buffers hold, and at any other buffer what was there; what is left is the stage's composition of
  the printed operations, which is the stage's definition.
-/
import proofs.«158954_j13391708029610_1_alg».proof.Proof.RefRun.Part4
import proofs.«158954_j13391708029610_1_alg».proof.Proof.RefRun.Part5
import proofs.«158954_j13391708029610_1_alg».proof.Proof.RefRun.Keep
import proofs.«158954_j13391708029610_1_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

/-- The buffers `seg17` writes, one per operation, in order. -/
abbrev seg17_wl : List (Ref sig .tc) :=
  [main_v243, main_v244, main_v245, main_v246, main_v247, main_v248, main_c_38, main_v249, main_v250, main_c_39, main_v251, main_v252, main_v253, main_v254, main_v255, main_cst_40, main_v256]

theorem seg17_writes {F : FTy → Type} [FloatOps F] :
    (seg17 : List (HloOp τ sig (Elt F))).Forall fun op => op.writes ⊆ (seg17_wl.map (Proc.devRef (τ := τ) .tc)).toFinset :=
  ⟨writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide)⟩

/-- The buffers `seg18` writes, one per operation, in order. -/
abbrev seg18_wl : List (Ref sig .tc) :=
  [main_v257, main_v258, main_cst_41, main_v259, main_cst_42, main_v260, main_v261, main_v262, main_cst_43, main_v263, main_v264, main_v265, main_v266, main_v267]

theorem seg18_writes {F : FTy → Type} [FloatOps F] :
    (seg18 : List (HloOp τ sig (Elt F))).Forall fun op => op.writes ⊆ (seg18_wl.map (Proc.devRef (τ := τ) .tc)).toFinset :=
  ⟨writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide)⟩

set_option maxRecDepth 16384 in
set_option maxHeartbeats 1600000 in
theorem agg4_mean (W : Valuation τ sig (Elt Ideal)) :
    StableHlo.after seg18 (StableHlo.after seg17 W) (Proc.devRef .tc main_v267)
      = Stage.aggr (W (Proc.devRef .tc main_v242)) (W (Proc.devRef .tc main_v1)) (W (Proc.devRef .tc main_v3)) := by
  after_results_simp
  rfl

set_option maxRecDepth 16384 in
set_option maxHeartbeats 1600000 in
theorem agg4_wl (W : Valuation τ sig (Elt Ideal)) :
    StableHlo.after seg18 (StableHlo.after seg17 W) (Proc.devRef .tc main_v244)
      = Stage.wSlice4 (W (Proc.devRef .tc main_arg6)) := by
  after_results_simp
  rfl

set_option maxRecDepth 16384 in
set_option maxHeartbeats 1600000 in
theorem agg4_bl (W : Valuation τ sig (Elt Ideal)) :
    StableHlo.after seg18 (StableHlo.after seg17 W) (Proc.devRef .tc main_v246)
      = Stage.bSlice4 (W (Proc.devRef .tc main_arg7)) := by
  after_results_simp
  rfl

set_option maxRecDepth 16384 in
set_option maxHeartbeats 1600000 in
theorem agg4_wr (W : Valuation τ sig (Elt Ideal)) :
    StableHlo.after seg18 (StableHlo.after seg17 W) (Proc.devRef .tc main_v248)
      = Stage.wSlice4 (W (Proc.devRef .tc main_arg8)) := by
  after_results_simp
  rfl

end Cert.ReferenceIdeal.RefRun

end
-- ==== Proof.RefRun.ChComb4.lean ====
/-
  Combine 4, read on any contents of the buffers: the linear combine of the neighbour mean and the current features under the round's three parameter blocks.
  The line is read on an ARBITRARY valuation of the buffers: each operation's result at its own buffer is its function of
  what its operands' buffers hold, and at any other buffer what was there; what is left is the stage's composition of
  the printed operations, which is the stage's definition.
-/
import proofs.«158954_j13391708029610_1_alg».proof.Proof.RefRun.Part5
import proofs.«158954_j13391708029610_1_alg».proof.Proof.RefRun.Keep
import proofs.«158954_j13391708029610_1_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

/-- The buffers `seg19` writes, one per operation, in order. -/
abbrev seg19_wl : List (Ref sig .tc) :=
  [main_v268, main_v269, main_v270, main_v271, main_v272, main_v273, main_v274, main_v275]

theorem seg19_writes {F : FTy → Type} [FloatOps F] :
    (seg19 : List (HloOp τ sig (Elt F))).Forall fun op => op.writes ⊆ (seg19_wl.map (Proc.devRef (τ := τ) .tc)).toFinset :=
  ⟨writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide)⟩

set_option maxRecDepth 16384 in
set_option maxHeartbeats 1600000 in
theorem comb4_lin (W : Valuation τ sig (Elt Ideal)) :
    StableHlo.after seg19 W (Proc.devRef .tc main_v275)
      = Stage.combine (W (Proc.devRef .tc main_v267)) (W (Proc.devRef .tc main_v242)) (W (Proc.devRef .tc main_v244)) (W (Proc.devRef .tc main_v246)) (W (Proc.devRef .tc main_v248)) := by
  after_results_simp
  rfl

end Cert.ReferenceIdeal.RefRun

end
-- ==== Proof.RefRun.ChDec.lean ====
/-
  The decoder, read on any contents of the buffers: its result is the decoder's composition of the last combine's result and the four decoder parameters.
  The line is read on an ARBITRARY valuation of the buffers: each operation's result at its own buffer is its function of
  what its operands' buffers hold, and at any other buffer what was there; what is left is the stage's composition of
  the printed operations, which is the stage's definition.
-/
import proofs.«158954_j13391708029610_1_alg».proof.Proof.RefRun.Part5
import proofs.«158954_j13391708029610_1_alg».proof.Proof.RefRun.Keep
import proofs.«158954_j13391708029610_1_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

/-- The buffers `seg20` writes, one per operation, in order. -/
abbrev seg20_wl : List (Ref sig .tc) :=
  [main_v276, main_v277, main_v278, main_v279, main_v280, main_call9_cst, main_call9_v0, main_v281, main_v282, main_v283, main_v284, main_v285, main_v286]

theorem seg20_writes {F : FTy → Type} [FloatOps F] :
    (seg20 : List (HloOp τ sig (Elt F))).Forall fun op => op.writes ⊆ (seg20_wl.map (Proc.devRef (τ := τ) .tc)).toFinset :=
  ⟨writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide)⟩

set_option maxRecDepth 16384 in
set_option maxHeartbeats 1600000 in
theorem dec_out (W : Valuation τ sig (Elt Ideal)) :
    StableHlo.after seg20 W (Proc.devRef .tc main_v286)
      = Stage.dec (W (Proc.devRef .tc main_v275)) (W (Proc.devRef .tc main_arg11)) (W (Proc.devRef .tc main_arg12)) (W (Proc.devRef .tc main_arg13)) (W (Proc.devRef .tc main_arg14)) := by
  after_results_simp
  rfl

end Cert.ReferenceIdeal.RefRun

end
-- ==== Proof.RefRun.Last.lean ====
/-
  The last aggregation, combine and the decoder, read on a valuation that holds the arguments, the edge rows and the features `z4`: the arguments and edge rows are still held, and the result buffer holds the network's result.
  The three stages' lines are read one after the other, each on the valuation the previous one leaves: the stage's
  result is its definition applied to what its input buffers hold, and an input buffer written by an
  earlier stage holds what that stage computed because no line in between writes it.
-/
import proofs.«158954_j13391708029610_1_alg».proof.Proof.RefRun.Net
import proofs.«158954_j13391708029610_1_alg».proof.Proof.RefRun.ChAgg4
import proofs.«158954_j13391708029610_1_alg».proof.Proof.RefRun.ChComb4
import proofs.«158954_j13391708029610_1_alg».proof.Proof.RefRun.ChDec

noncomputable section

namespace Cert.ReferenceIdeal.RefRun

open Cert.ReferenceIdeal Cert.ReferenceIdeal.Gen Idealize.ShloMosaic Idealize.ShloMosaic.TcCoe Idealize.SL.Sem Idealize.ShloMosaic.StableHlo

theorem last (A : RefArgs) (W : Valuation τ sig (Elt Ideal)) (h : Holds A W)
    (hz : W (Proc.devRef .tc main_v242) = A.z4) :
    Holds A (StableHlo.after seg20 (StableHlo.after seg19 (StableHlo.after seg18 (StableHlo.after seg17 W))))
      ∧ StableHlo.after seg20 (StableHlo.after seg19 (StableHlo.after seg18 (StableHlo.after seg17 W))) (Proc.devRef .tc main_v286) = A.out := by
  have k1 := h.after seg17_writes (by decide)
  have k2 := k1.after seg18_writes (by decide)
  have k3 := k2.after seg19_writes (by decide)
  have k4 := k3.after seg20_writes (by decide)
  have kf : StableHlo.after seg18 (StableHlo.after seg17 W) (Proc.devRef .tc main_v242) = W (Proc.devRef .tc main_v242) :=
    (after_of_writes_sub seg18 (StableHlo.after seg17 W) seg18_writes (by decide)).trans
      (after_of_writes_sub seg17 W seg17_writes (by decide))
  refine ⟨k4, ?_⟩
  rw [dec_out, comb4_lin, k3.a11, k3.a12, k3.a13, k3.a14, agg4_mean, agg4_wl, agg4_bl, agg4_wr, kf, hz,
    h.src, h.dst, h.a6, h.a7, h.a8]
  <;> rfl

end Cert.ReferenceIdeal.RefRun

end
-- ==== Proof.RefValue.lean ====
/-
  The value of the idealized reference program's run. The operations' fold over the launch contents is read stage by
  stage — the edge rows, the encoder, four rounds, the last aggregation and combine, the decoder —, each stage on the
  valuation the previous stages leave and each intermediate kept under its name, so the composed term is never written
  out: the result buffer ends at the network's result over the fifteen argument arrays, and the arguments end unchanged.
-/
import proofs.«158954_j13391708029610_1_alg».proof.Proof.RefRun
import proofs.«158954_j13391708029610_1_alg».proof.Proof.RefRun.Net
import proofs.«158954_j13391708029610_1_alg».proof.Proof.RefRun.ChEdges
import proofs.«158954_j13391708029610_1_alg».proof.Proof.RefRun.ChEnc
import proofs.«158954_j13391708029610_1_alg».proof.Proof.RefRun.Round0
import proofs.«158954_j13391708029610_1_alg».proof.Proof.RefRun.Round1
import proofs.«158954_j13391708029610_1_alg».proof.Proof.RefRun.Round2
import proofs.«158954_j13391708029610_1_alg».proof.Proof.RefRun.Round3
import proofs.«158954_j13391708029610_1_alg».proof.Proof.RefRun.Last

noncomputable section

namespace Cert.ReferenceIdeal.RefRun

open Cert.ReferenceIdeal Cert.ReferenceIdeal.Gen Idealize.ShloMosaic Idealize.ShloMosaic.TcCoe Idealize.SL.Sem Idealize.ShloMosaic.StableHlo

/-- The fold over two lines in a row is the second line's fold over what the first leaves. -/
theorem after_app : ∀ (l₁ l₂ : List (HloOp τ sig (Elt Ideal))) (V : Valuation τ sig (Elt Ideal)),
    StableHlo.after (l₁ ++ l₂) V = StableHlo.after l₂ (StableHlo.after l₁ V)
  | [], _, _ => rfl
  | op :: l₁, l₂, V => by rw [List.cons_append, after_cons, after_cons, after_app l₁ l₂]

/-- After the edge rows' line the valuation holds its own arguments (the line writes none of them) and the two rows. -/
theorem edges_holds (V : Valuation τ sig (Elt Ideal)) : Holds (argsOf V) (StableHlo.after seg00 V) where
  a0 := after_of_writes_sub seg00 V seg00_writes (by decide)
  a1 := after_of_writes_sub seg00 V seg00_writes (by decide)
  a2 := after_of_writes_sub seg00 V seg00_writes (by decide)
  a3 := after_of_writes_sub seg00 V seg00_writes (by decide)
  a4 := after_of_writes_sub seg00 V seg00_writes (by decide)
  a5 := after_of_writes_sub seg00 V seg00_writes (by decide)
  a6 := after_of_writes_sub seg00 V seg00_writes (by decide)
  a7 := after_of_writes_sub seg00 V seg00_writes (by decide)
  a8 := after_of_writes_sub seg00 V seg00_writes (by decide)
  a9 := after_of_writes_sub seg00 V seg00_writes (by decide)
  a10 := after_of_writes_sub seg00 V seg00_writes (by decide)
  a11 := after_of_writes_sub seg00 V seg00_writes (by decide)
  a12 := after_of_writes_sub seg00 V seg00_writes (by decide)
  a13 := after_of_writes_sub seg00 V seg00_writes (by decide)
  a14 := after_of_writes_sub seg00 V seg00_writes (by decide)
  src := edges_v1 V
  dst := edges_v3 V

/-- The encoder's line on a valuation that holds the arguments: they are still held, and the result buffer holds `z0`. -/
theorem enc_step (A : RefArgs) (W : Valuation τ sig (Elt Ideal)) (h : Holds A W) :
    Holds A (StableHlo.after seg01 W) ∧ StableHlo.after seg01 W (Proc.devRef .tc main_v14) = A.z0 := by
  refine ⟨h.after seg01_writes (by decide), ?_⟩
  rw [enc_v14, h.a0, h.a2, h.a3, h.a4, h.a5]
  <;> rfl

/-- The whole line from any valuation: the result buffer ends at the network's result over the valuation's arguments,
    and the arguments (and the edge rows) are held at the end. -/
theorem ops_value (V : Valuation τ sig (Elt Ideal)) :
    StableHlo.after ops V (Proc.devRef .tc main_v286) = (argsOf V).out ∧ Holds (argsOf V) (StableHlo.after ops V) := by
  simp only [ops, after_app]
  have h0 := edges_holds V
  have e := enc_step _ _ h0
  have r0 := round0 _ _ e.1 e.2
  have r1 := round1 _ _ r0.1 r0.2
  have r2 := round2 _ _ r1.1 r1.2
  have r3 := round3 _ _ r2.1 r2.2
  have r4 := last _ _ r3.1 r3.2
  exact ⟨r4.2, r4.1⟩

/-- The argument arrays device `c` is launched with. -/
def argsAt (m : (ℓ : Loc nD τ sig) → Buf (Elt Ideal) ℓ) (c : Dev nD) : RefArgs where
  a0 := m ((c.tc : Thread nD τ).loc main_arg0)
  a1 := m ((c.tc : Thread nD τ).loc main_arg1)
  a2 := m ((c.tc : Thread nD τ).loc main_arg2)
  a3 := m ((c.tc : Thread nD τ).loc main_arg3)
  a4 := m ((c.tc : Thread nD τ).loc main_arg4)
  a5 := m ((c.tc : Thread nD τ).loc main_arg5)
  a6 := m ((c.tc : Thread nD τ).loc main_arg6)
  a7 := m ((c.tc : Thread nD τ).loc main_arg7)
  a8 := m ((c.tc : Thread nD τ).loc main_arg8)
  a9 := m ((c.tc : Thread nD τ).loc main_arg9)
  a10 := m ((c.tc : Thread nD τ).loc main_arg10)
  a11 := m ((c.tc : Thread nD τ).loc main_arg11)
  a12 := m ((c.tc : Thread nD τ).loc main_arg12)
  a13 := m ((c.tc : Thread nD τ).loc main_arg13)
  a14 := m ((c.tc : Thread nD τ).loc main_arg14)

/-- On every device, from any memory with zero counters: every weakly fair execution of the idealized reference's @main
    terminates with the result buffer at the network's result over the launch's argument arrays, and the arguments
    unchanged. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v286) = (argsAt m c).out
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c =>
    ⟨(h c main_v286).trans (ops_value (StableHlo.launchContents m c)).1,
      (h c main_arg0).trans (ops_value (StableHlo.launchContents m c)).2.a0,
      (h c main_arg1).trans (ops_value (StableHlo.launchContents m c)).2.a1,
      (h c main_arg2).trans (ops_value (StableHlo.launchContents m c)).2.a2,
      (h c main_arg3).trans (ops_value (StableHlo.launchContents m c)).2.a3,
      (h c main_arg4).trans (ops_value (StableHlo.launchContents m c)).2.a4,
      (h c main_arg5).trans (ops_value (StableHlo.launchContents m c)).2.a5,
      (h c main_arg6).trans (ops_value (StableHlo.launchContents m c)).2.a6,
      (h c main_arg7).trans (ops_value (StableHlo.launchContents m c)).2.a7,
      (h c main_arg8).trans (ops_value (StableHlo.launchContents m c)).2.a8,
      (h c main_arg9).trans (ops_value (StableHlo.launchContents m c)).2.a9,
      (h c main_arg10).trans (ops_value (StableHlo.launchContents m c)).2.a10,
      (h c main_arg11).trans (ops_value (StableHlo.launchContents m c)).2.a11,
      (h c main_arg12).trans (ops_value (StableHlo.launchContents m c)).2.a12,
      (h c main_arg13).trans (ops_value (StableHlo.launchContents m c)).2.a13,
      (h c main_arg14).trans (ops_value (StableHlo.launchContents m c)).2.a14⟩)
    (run m ρ)

end Cert.ReferenceIdeal.RefRun

end
-- ==== Proof.StageMlp.lean ====
/-
  The reference's two perceptrons are the specification's: each entry of the composed host operations is the
  specification's entry, the matrix products read as sums over the contracted coordinate, the transposes as the
  swapped coordinates, the bias broadcasts as the bias at the column, the rectifier as the maximum with the zero word.
-/
import proofs.«158954_j13391708029610_1_alg».proof.Proof.StageRead

noncomputable section

open scoped BigOperators

namespace Cert.ReferenceIdeal.Stage

open Idealize.ShloMosaic Idealize.ShloMosaic.ValueIdx

variable [Facts]
open Facts₀ Facts

/-- The encoder is the perceptron 7 → 256 → 128 of the specification. -/
theorem enc_eq (x : FVec Ideal S50000x7 .f32) (W1 : FVec Ideal S256x7 .f32) (b1 : FVec Ideal S256 .f32)
    (W2 : FVec Ideal S128x256 .f32) (b2 : FVec Ideal S128 .f32) :
    enc x W1 b1 W2 b2 = Cert.Net.mlp x W1 (rowOf b1) W2 (rowOf b2) := by
  funext y
  obtain ⟨i, j, rfl⟩ : ∃ (i : Fin 50000) (j : Fin 128), y = ix2 i j := ⟨y 0, y 1, eq_ix2 y⟩
  rw [Cert.Net.mlp_ix2]
  unfold enc Cert.Net.mlpAt relu256
  rw [addf_apply, dot_apply _ dot_256_128_plain, bcast_1b_ab_apply, bcast_a_1a_apply]
  refine congrArg (· + _) (Finset.sum_congr rfl fun k _ => ?_)
  rw [maximumf_apply, addf_apply, dot_apply _ dot_7_256_plain, bcast_1b_ab_apply, bcast_a_1a_apply,
    bcast_scalar_apply, constant_apply, transpose_ix2_apply]
  refine congrArg (fun s => max (s + _) _ * _) (Finset.sum_congr rfl fun l _ => ?_)
  rw [transpose_ix2_apply]

/-- The decoder is the perceptron 128 → 256 → 4 of the specification. -/
theorem dec_eq (z : FVec Ideal S50000x128 .f32) (V1 : FVec Ideal S256x128 .f32) (c1 : FVec Ideal S256 .f32)
    (V2 : FVec Ideal S4x256 .f32) (c2 : FVec Ideal S4 .f32) :
    dec z V1 c1 V2 c2 = Cert.Net.mlp z V1 (rowOf c1) V2 (rowOf c2) := by
  funext y
  obtain ⟨i, j, rfl⟩ : ∃ (i : Fin 50000) (j : Fin 4), y = ix2 i j := ⟨y 0, y 1, eq_ix2 y⟩
  rw [Cert.Net.mlp_ix2]
  unfold dec Cert.Net.mlpAt relu256
  rw [addf_apply, dot_apply _ dot_256_4_plain, bcast_1b_ab_apply, bcast_a_1a_apply]
  refine congrArg (· + _) (Finset.sum_congr rfl fun k _ => ?_)
  rw [maximumf_apply, addf_apply, dot_apply _ dot_128_256_plain, bcast_1b_ab_apply, bcast_a_1a_apply,
    bcast_scalar_apply, constant_apply, transpose_ix2_apply]
  refine congrArg (fun s => max (s + _) _ * _) (Finset.sum_congr rfl fun l _ => ?_)
  rw [transpose_ix2_apply]

end Cert.ReferenceIdeal.Stage

end
-- ==== Proof.StageCombine.lean ====
/-
  The reference's linear combine is the specification's: the two matrix products read as sums over the contracted
  coordinate of the transposed weights, the bias broadcast as the bias at the column, grouped as printed.
-/
import proofs.«158954_j13391708029610_1_alg».proof.Proof.StageRead

noncomputable section

open scoped BigOperators

namespace Cert.ReferenceIdeal.Stage

open Idealize.ShloMosaic Idealize.ShloMosaic.ValueIdx

variable [Facts]
open Facts₀ Facts

/-- The linear combine `a·Wlᵀ + bl + z·Wrᵀ` is the specification's. -/
theorem combine_eq (a z : FVec Ideal S50000x128 .f32) (Wl : FVec Ideal S128x128 .f32) (bl : FVec Ideal S128 .f32)
    (Wr : FVec Ideal S128x128 .f32) : combine a z Wl bl Wr = Cert.Net.sage a z Wl (rowOf bl) Wr := by
  funext y
  obtain ⟨i, j, rfl⟩ : ∃ (i : Fin 50000) (j : Fin 128), y = ix2 i j := ⟨y 0, y 1, eq_ix2 y⟩
  rw [Cert.Net.sage_ix2]
  unfold combine Cert.Net.sageAt
  rw [addf_apply, addf_apply, dot_apply _ dot_128_128_plain, dot_apply _ dot_128_128_plain, bcast_1b_ab_apply,
    bcast_a_1a_apply]
  refine congr (congrArg (fun s => HAdd.hAdd (s + _)) (Finset.sum_congr rfl fun k _ => ?_))
    (Finset.sum_congr rfl fun k _ => ?_)
  · rw [transpose_ix2_apply]
  · rw [transpose_ix2_apply]

end Cert.ReferenceIdeal.Stage

end
-- ==== Proof.StageStats.lean ====
/-
  The reference's column statistics are the specification's. The mean of a column is the sum over the node coordinate
  from the zero word divided by the node-count word; the variance is the sum of the squared deviations from that mean
  divided by the host's divisor (the node-count word minus the float of the integer zero), under the host's guard that
  the divisor is positive. No word is evaluated: both sides are the same expression.
-/
import proofs.«158954_j13391708029610_1_alg».proof.Proof.StageRead

noncomputable section

open scoped BigOperators

namespace Cert.ReferenceIdeal.Stage

open Idealize.ShloMosaic Idealize.ShloMosaic.ValueIdx

variable [Facts]
open Facts₀ Facts

/-- The host's division read at an index is the ideal division of the entries. -/
theorem hostDivf_apply {s : Shape} (a b : FVec Ideal s .f32) (i : s.Idx) : Host.divf a b i = Ideal.div (a i) (b i) := rfl

/-- The host's reciprocal square root read at an index is the ideal one of the entry. -/
theorem hostRsqrt_apply {s : Shape} (a : FVec Ideal s .f32) (i : s.Idx) : Host.rsqrt a i = Ideal.rsqrt (a i) := rfl

/-- The variance's divisor, as the scalar array the host computes, is the specification's. -/
theorem varDenH_apply : varDenH ix0 = Cert.Net.varDen := rfl

/-- A column's mean, entry by entry. -/
theorem colMeanH_apply (lin : FVec Ideal S50000x128 .f32) (j : Fin 128) :
    colMeanH lin (ix1 j) = Cert.Net.colMeanAt lin j := by
  unfold colMeanH Cert.Net.colMeanAt
  rw [hostDivf_apply, colSum_apply, bcast_scalar_apply, constant_apply, constant_apply]

/-- The column means are the specification's. -/
theorem colMeanH_eq (lin : FVec Ideal S50000x128 .f32) : rowOf (colMeanH lin) = Cert.Net.colMean lin := by
  funext y
  obtain ⟨r, j, rfl⟩ : ∃ (r : Fin 1) (j : Fin 128), y = ix2 r j := ⟨y 0, y 1, eq_ix2 y⟩
  rw [Cert.Net.colMean_ix2, rowOf_ix2, colMeanH_apply]

/-- A deviation from the column mean, entry by entry. -/
theorem devH_apply (lin : FVec Ideal S50000x128 .f32) (i : Fin 50000) (j : Fin 128) :
    devH lin (ix2 i j) = lin (ix2 i j) - Cert.Net.colMeanAt lin j := by
  unfold devH Cert.Net.colMeanAt
  rw [subf_apply, bcast_1b_ab_apply, hostDivf_apply, bcast_a_1a_apply, colSum_apply, bcast_scalar_apply,
    constant_apply, constant_apply]

/-- A column's variance, entry by entry. -/
theorem colVarH_apply (lin : FVec Ideal S50000x128 .f32) (j : Fin 128) :
    colVarH lin (ix1 j) = Cert.Net.colVarAt lin j := by
  unfold colVarH Cert.Net.colVarAt
  rw [select_apply, bcast_scalar_apply, cmpf_apply, varDenH_apply, constant_apply, hostDivf_apply, colSum_apply,
    constant_apply, bcast_scalar_apply, varDenH_apply, bcast_scalar_apply, id_eq, constant_apply]
  simp only [mulf_apply, devH_apply]

/-- The column variances are the specification's. -/
theorem colVarH_eq (lin : FVec Ideal S50000x128 .f32) : rowOf (colVarH lin) = Cert.Net.colVar lin := by
  funext y
  obtain ⟨r, j, rfl⟩ : ∃ (r : Fin 1) (j : Fin 128), y = ix2 r j := ⟨y 0, y 1, eq_ix2 y⟩
  rw [Cert.Net.colVar_ix2, rowOf_ix2, colVarH_apply]

end Cert.ReferenceIdeal.Stage

end
-- ==== Proof.StageNorm.lean ====
/-
  The reference's normalise-and-rectify is the specification's with the column statistics of its own input: subtract
  the mean, multiply by the reciprocal square root of the variance plus the epsilon word, then by the scale, add the
  shift, and rectify — grouped left to right as printed.
-/
import proofs.«158954_j13391708029610_1_alg».proof.Proof.StageRead
import proofs.«158954_j13391708029610_1_alg».proof.Proof.StageStats

noncomputable section

open scoped BigOperators

namespace Cert.ReferenceIdeal.Stage

open Idealize.ShloMosaic Idealize.ShloMosaic.ValueIdx

variable [Facts]
open Facts₀ Facts

/-- Normalise-and-rectify is the specification's, at the column statistics of the input itself. -/
theorem normRelu_eq (lin : FVec Ideal S50000x128 .f32) (γ β : FVec Ideal S128 .f32) :
    normRelu lin γ β
      = Cert.Net.bnRelu lin (Cert.Net.colMean lin) (Cert.Net.colVar lin) (rowOf γ) (rowOf β) := by
  funext y
  obtain ⟨i, j, rfl⟩ : ∃ (i : Fin 50000) (j : Fin 128), y = ix2 i j := ⟨y 0, y 1, eq_ix2 y⟩
  rw [Cert.Net.bnRelu_ix2, ← colMeanH_eq, ← colVarH_eq]
  unfold normRelu relu128 Cert.Net.bnReluAt
  rw [maximumf_apply, addf_apply, mulf_apply, mulf_apply, subf_apply]
  repeat rw [bcast_1b_ab_apply]
  repeat rw [bcast_a_1a_apply]
  rw [bcast_scalar_apply, constant_apply, hostRsqrt_apply, addf_apply, bcast_scalar_apply, constant_apply]
  simp only [rowOf_ix2]

end Cert.ReferenceIdeal.Stage

end
-- ==== Proof.RefNetEq.lean ====
/-
  The reference's network over its fifteen argument arrays — the stages composed as the program composes them — is the
  specification's network: the encoder, four rounds of neighbour-mean aggregation, linear combine and
  normalise-and-rectify at the round's parameter blocks, a fifth aggregation and combine, and the decoder. The
  aggregation enters the specification as the parameter it is; the stacked parameters are read block by block and the
  bias vectors as one-row matrices.
-/
import proofs.«158954_j13391708029610_1_alg».proof.Proof.RefRun.Net
import proofs.«158954_j13391708029610_1_alg».proof.Proof.StageMlp
import proofs.«158954_j13391708029610_1_alg».proof.Proof.StageCombine
import proofs.«158954_j13391708029610_1_alg».proof.Proof.StageNorm
import proofs.«158954_j13391708029610_1_alg».proof.Proof.StageSlices

noncomputable section

namespace Cert.ReferenceIdeal.RefRun

open Cert.ReferenceIdeal Cert.ReferenceIdeal.Stage Idealize.ShloMosaic Idealize.ShloMosaic.ValueIdx

/-- The encoder's result is the specification's first perceptron. -/
theorem z0_eq (A : RefArgs) : A.z0 = Cert.Net.mlp A.a0 A.a2 (rowOf A.a3) A.a4 (rowOf A.a5) := by
  unfold RefArgs.z0
  rw [enc_eq]

/-- The features entering round 1 are one round of the specification on those entering round 0, at block 0 of the
    stacked parameters. -/
theorem z1_eq (A : RefArgs) :
    A.z1 = Cert.Net.round (fun z => aggr z A.src A.dst) A.z0 (stackMat A.a6 0) (stackRow5 A.a7 0) (stackMat A.a8 0)
      (stackRow4 A.a9 0) (stackRow4 A.a10 0) := by
  unfold RefArgs.z1 RefArgs.lin0 Cert.Net.round
  rw [normRelu_eq, combine_eq, wSlice0_eq, wSlice0_eq, bSlice0_eq, gSlice0_eq, gSlice0_eq]

/-- The features entering round 2 are one round of the specification on those entering round 1, at block 1 of the
    stacked parameters. -/
theorem z2_eq (A : RefArgs) :
    A.z2 = Cert.Net.round (fun z => aggr z A.src A.dst) A.z1 (stackMat A.a6 1) (stackRow5 A.a7 1) (stackMat A.a8 1)
      (stackRow4 A.a9 1) (stackRow4 A.a10 1) := by
  unfold RefArgs.z2 RefArgs.lin1 Cert.Net.round
  rw [normRelu_eq, combine_eq, wSlice1_eq, wSlice1_eq, bSlice1_eq, gSlice1_eq, gSlice1_eq]

/-- The features entering round 3 are one round of the specification on those entering round 2, at block 2 of the
    stacked parameters. -/
theorem z3_eq (A : RefArgs) :
    A.z3 = Cert.Net.round (fun z => aggr z A.src A.dst) A.z2 (stackMat A.a6 2) (stackRow5 A.a7 2) (stackMat A.a8 2)
      (stackRow4 A.a9 2) (stackRow4 A.a10 2) := by
  unfold RefArgs.z3 RefArgs.lin2 Cert.Net.round
  rw [normRelu_eq, combine_eq, wSlice2_eq, wSlice2_eq, bSlice2_eq, gSlice2_eq, gSlice2_eq]

/-- The features entering round 4 are one round of the specification on those entering round 3, at block 3 of the
    stacked parameters. -/
theorem z4_eq (A : RefArgs) :
    A.z4 = Cert.Net.round (fun z => aggr z A.src A.dst) A.z3 (stackMat A.a6 3) (stackRow5 A.a7 3) (stackMat A.a8 3)
      (stackRow4 A.a9 3) (stackRow4 A.a10 3) := by
  unfold RefArgs.z4 RefArgs.lin3 Cert.Net.round
  rw [normRelu_eq, combine_eq, wSlice3_eq, wSlice3_eq, bSlice3_eq, gSlice3_eq, gSlice3_eq]

/-- The program's result is the specification's network of its arguments. -/
theorem out_eq_net (A : RefArgs) :
    A.out = Cert.Net.net (fun z => aggr z A.src A.dst) A.a0 A.a2 (rowOf A.a3) A.a4 (rowOf A.a5)
      (stackMat A.a6) (stackRow5 A.a7) (stackMat A.a8) (stackRow4 A.a9) (stackRow4 A.a10)
      A.a11 (rowOf A.a12) A.a13 (rowOf A.a14) := by
  unfold RefArgs.out RefArgs.lin4
  rw [dec_eq, combine_eq, wSlice4_eq, wSlice4_eq, bSlice4_eq, z4_eq, z3_eq, z2_eq, z1_eq, z0_eq]
  rfl

end Cert.ReferenceIdeal.RefRun

end
-- ==== Proof.Bridge.lean ====
/-
  The two programs' results are one value.

  The reference's result over its launch arrays and the kernel program's result over its launch arrays are both the
  specification's network: of the same perceptron weights and bias rows, the same blocks of the stacked parameters, and
  the same aggregation — the neighbour mean along the edge array's rows, which the two programs compute with the same
  host operations (the gather along the sources, the scatter-add along the targets, the division by the clamped
  in-degree). When the two launch memories agree on the fifteen arguments, the two networks are the same expression.
-/
import proofs.«158954_j13391708029610_1_alg».proof.Proof.Gen.KernelIdeal
import proofs.«158954_j13391708029610_1_alg».proof.Proof.Gen.ReferenceIdeal
import proofs.«158954_j13391708029610_1_alg».proof.Proof.KNet
import proofs.«158954_j13391708029610_1_alg».proof.Proof.RefValue
import proofs.«158954_j13391708029610_1_alg».proof.Proof.RefNetEq

noncomputable section

namespace Cert.Bridge

open Idealize.ShloMosaic Idealize.ShloMosaic.TcCoe Idealize.SL.Sem

/-- The neighbour mean along an edge array's rows is one function in the two programs' spellings. -/
theorem aggr_eq (z : FVec Ideal ⟨2, ![50000, 128]⟩ .f32) (e : IVec ⟨2, ![2, 600000]⟩ 32) :
    Cert.KernelIdeal.Stage.aggr z (Cert.KernelIdeal.Stage.srcIdx e) (Cert.KernelIdeal.Stage.dstIdx e)
      = Cert.ReferenceIdeal.Stage.aggr z (Cert.ReferenceIdeal.Stage.srcIdx e) (Cert.ReferenceIdeal.Stage.dstIdx e) := rfl

/-- From launch memories that agree on the fifteen arguments, the reference's result value is the kernel program's. -/
theorem out_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    (Cert.ReferenceIdeal.RefRun.argsAt m' c).out = Cert.KernelIdeal.Chain.outV m c := by
  rw [Cert.ReferenceIdeal.RefRun.out_eq_net, Cert.KernelIdeal.Chain.outV_eq]
  simp only [Cert.ReferenceIdeal.RefRun.argsAt, Cert.ReferenceIdeal.RefRun.RefArgs.src,
    Cert.ReferenceIdeal.RefRun.RefArgs.dst, h0, h1, h2, h3, h4, h5, h6, h7, h8, h9, h10, h11, h12, h13, h14]
  rfl

end Cert.Bridge

end
-- ==== Proof.lean ====
/-
  The certificate of the graph network's kernel program against its reference.

  The kernel program runs the encoder, the five linear combines, the four normalise-and-rectify steps and the decoder
  as eleven pipelined regions tiled over the nodes, with the neighbour-mean aggregation and the column statistics as
  host operations between them; the reference runs everything as host operations. At the ideal values both compute
  the specification's network of the fifteen argument arrays (Proof/NetSpec.lean): a region's tiles are restrictions of
  one row-wise function of the whole arrays, a matrix product into a zero accumulator and the host's product are the
  same sums, a change of float format is the identity, and the aggregation and the column statistics are the same host
  operations in both programs. No law beyond regrouping a sum is used, so the inputs' finiteness is never needed.

  The frames of the two kernel programs are the generated ones; the reference's frame is its run with the result
  dropped. The idealization rewrote no operation, so it preserves the program trivially. For the value claim the kernel
  program's run is read at its result buffer through the fold of its thirty segments (Proof/KernelRun.lean,
  Proof/KChain.lean, Proof/KNet.lean) and the reference's run through its operations stage by stage
  (Proof/RefValue.lean, Proof/RefNetEq.lean); the two results meet in Proof/Bridge.lean.
-/
import proofs.«158954_j13391708029610_1_alg».proof.Defs
import proofs.«158954_j13391708029610_1_alg».proof.Proof.Gen.Kernel
import proofs.«158954_j13391708029610_1_alg».proof.Proof.Gen.Kernel.Frame
import proofs.«158954_j13391708029610_1_alg».proof.Proof.Gen.KernelIdeal
import proofs.«158954_j13391708029610_1_alg».proof.Proof.Gen.KernelIdeal.Frame
import proofs.«158954_j13391708029610_1_alg».proof.Proof.Gen.ReferenceIdeal
import proofs.«158954_j13391708029610_1_alg».proof.Proof.Gen.Pre_finite_inputs
import proofs.«158954_j13391708029610_1_alg».proof.Proof.KernelRun
import proofs.«158954_j13391708029610_1_alg».proof.Proof.KChain
import proofs.«158954_j13391708029610_1_alg».proof.Proof.Bridge
import proofs.«158954_j13391708029610_1_alg».proof.Proof.RefValue
import Idealize.ShloMosaic.Adequacy
import Idealize.ShloMosaic.Init

noncomputable section

namespace Cert.Proof

open Idealize.ShloMosaic Idealize.SL.Sem

/-- The word-level kernel program runs and leaves its arguments as launched: the generated frame. -/
theorem frame_kernel : Cert.frame_Kernel := fun m ρ _ => Cert.Kernel.Gen.frame m ρ

/-- The idealized kernel program runs and leaves its arguments as launched: the generated frame. -/
theorem frame_kernelIdeal : Cert.frame_KernelIdeal := fun m ρ _ => Cert.KernelIdeal.Gen.frame m ρ

/-- The idealized reference runs and leaves its arguments as launched: its run with the result dropped. -/
theorem frame_referenceIdeal : Cert.frame_ReferenceIdeal := fun m ρ _ =>
  (θ_run (Cert.ReferenceIdeal.defs (F := Ideal)) _ _).mono (fun _ h c => (h c).2) (Cert.ReferenceIdeal.RefRun.run_value m ρ)

/-- The idealization rewrote no operation. -/
theorem preserves : Cert.preserves_Kernel_KernelIdeal := trivial

/-- From memories that agree on the arguments both idealized programs run, leave their arguments as launched, and end
    with one result: the specification's network of the argument arrays. -/
theorem algebraic : Cert.algebraic_KernelIdeal_ReferenceIdeal := by
  intro m ρ m' ρ' _ hagree
  refine ⟨fun c => Cert.KernelIdeal.Chain.outV m c, ?_, ?_⟩
  · exact (θ_run (Cert.KernelIdeal.defs (F := Ideal)) _ _).mono
      (fun r h c => ⟨(h c).1.trans (Cert.KernelIdeal.Chain.result_eq m ρ c), (h c).2⟩)
      (Cert.KernelIdeal.RunValue.run m ρ)
  · refine (θ_run (Cert.ReferenceIdeal.defs (F := Ideal)) _ _).mono (fun r h c => ⟨(h c).1.trans ?_, (h c).2⟩)
      (Cert.ReferenceIdeal.RefRun.run_value m' ρ')
    obtain ⟨h0, h1, h2, h3, h4, h5, h6, h7, h8, h9, h10, h11, h12, h13, h14⟩ := hagree c
    exact Cert.Bridge.out_agree m m' c h0 h1 h2 h3 h4 h5 h6 h7 h8 h9 h10 h11 h12 h13 h14

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
